-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v109_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v109_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S128x128 : Shape := ⟨2, ![128, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S256x1 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S256x256 .f32) (main_arg8 : FVec F S256 .f32) (main_arg9 : FVec F S256x1 .f32) (main_arg10 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x800000 32) (main_arg2 : FVec F S800000 .f32) (main_arg3 : FVec F S3x128x128 .f32) (main_arg4 : FVec F S3x128 .f32) (main_arg5 : FVec F S128x128 .f32) (main_arg6 : FVec F S128x128 .f32) (main_arg7 : FVec F S256x256 .f32) (main_arg8 : FVec F S256 .f32) (main_arg9 : FVec F S256x1 .f32) (main_arg10 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S128x128 : Shape := ⟨2, ![128, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S50000x128 : Shape := ⟨2, ![50000, 128]⟩
abbrev S800000x1 : Shape := ⟨2, ![800000, 1]⟩
abbrev S1x128x128 : Shape := ⟨3, ![1, 128, 128]⟩
abbrev S1x128 : Shape := ⟨2, ![1, 128]⟩
abbrev S128 : Shape := ⟨1, ![128]⟩
abbrev S2000x128 : Shape := ⟨2, ![2000, 128]⟩
abbrev S_ : Shape := ⟨0, ![]⟩
abbrev S800000x128 : Shape := ⟨2, ![800000, 128]⟩
abbrev S8000x128 : Shape := ⟨2, ![8000, 128]⟩
abbrev S8000x1 : Shape := ⟨2, ![8000, 1]⟩
abbrev S128x256 : Shape := ⟨2, ![128, 256]⟩
abbrev S256x128 : Shape := ⟨2, ![256, 128]⟩
abbrev S1x256 : Shape := ⟨2, ![1, 256]⟩
abbrev S2000x256 : Shape := ⟨2, ![2000, 256]⟩
abbrev S50000x1 : Shape := ⟨2, ![50000, 1]⟩
abbrev S50000 : Shape := ⟨1, ![50000]⟩

abbrev nBuf : Space → Nat
  | .hbm => 146
  | .vmem => 119
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S3x128x128, .f32⟩
  | 4 => ⟨S3x128, .f32⟩
  | 5 => ⟨S128x128, .f32⟩
  | 6 => ⟨S128x128, .f32⟩
  | 7 => ⟨S256x256, .f32⟩
  | 8 => ⟨S256, .f32⟩
  | 9 => ⟨S256x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S50000x128, .f32⟩
  | 17 => ⟨S800000x1, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S1x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x128, .f32⟩
  | 77 => ⟨S1x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000x128, .f32⟩
  | 115 => ⟨S1x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S_, .f32⟩
  | _ => ⟨S50000x256, .f32⟩

abbrev hbmTy0_1 (i : Nat) : BufTy := match i % 128 with
  | 0 => ⟨S50000x128, .f32⟩
  | 1 => ⟨S800000x1, .i32⟩
  | 2 => ⟨S50000x128, .f32⟩
  | 3 => ⟨S50000x128, .f32⟩
  | 4 => ⟨S128x256, .f32⟩
  | 5 => ⟨S128x256, .f32⟩
  | 6 => ⟨S_, .i32⟩
  | 7 => ⟨S_, .f32⟩
  | 8 => ⟨S256x128, .f32⟩
  | 9 => ⟨S_, .i32⟩
  | 10 => ⟨S_, .f32⟩
  | 11 => ⟨S128, .f32⟩
  | 12 => ⟨S1x256, .f32⟩
  | 13 => ⟨S1x128, .f32⟩
  | 14 => ⟨S50000x256, .f32⟩
  | 15 => ⟨S50000x128, .f32⟩
  | 16 => ⟨S50000x1, .f32⟩
  | 17 => ⟨S50000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x128, .f32⟩
  | .local _ .vmem, ⟨7, _⟩ => ⟨S8000x128, .f32⟩
  | .local _ .vmem, ⟨8, _⟩ => ⟨S8000x1, .f32⟩
  | .local _ .vmem, ⟨9, _⟩ => ⟨S8000x1, .f32⟩
  | .local _ .vmem, ⟨10, _⟩ => ⟨S8000x128, .f32⟩
  | .local _ .vmem, ⟨11, _⟩ => ⟨S8000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S8000x128, .f32⟩
  | .local _ .vmem, ⟨23, _⟩ => ⟨S8000x128, .f32⟩
  | .local _ .vmem, ⟨24, _⟩ => ⟨S8000x1, .f32⟩
  | .local _ .vmem, ⟨25, _⟩ => ⟨S8000x1, .f32⟩
  | .local _ .vmem, ⟨26, _⟩ => ⟨S8000x128, .f32⟩
  | .local _ .vmem, ⟨27, _⟩ => ⟨S8000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S8000x128, .f32⟩
  | .local _ .vmem, ⟨39, _⟩ => ⟨S8000x128, .f32⟩
  | .local _ .vmem, ⟨40, _⟩ => ⟨S8000x1, .f32⟩
  | .local _ .vmem, ⟨41, _⟩ => ⟨S8000x1, .f32⟩
  | .local _ .vmem, ⟨42, _⟩ => ⟨S8000x128, .f32⟩
  | .local _ .vmem, ⟨43, _⟩ => ⟨S8000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S8000x128, .f32⟩
  | .local _ .vmem, ⟨57, _⟩ => ⟨S8000x128, .f32⟩
  | .local _ .vmem, ⟨58, _⟩ => ⟨S8000x1, .f32⟩
  | .local _ .vmem, ⟨59, _⟩ => ⟨S8000x1, .f32⟩
  | .local _ .vmem, ⟨60, _⟩ => ⟨S8000x128, .f32⟩
  | .local _ .vmem, ⟨61, _⟩ => ⟨S8000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S128x128, .f32⟩
  | .local _ .vmem, ⟨71, _⟩ => ⟨S1x128, .f32⟩
  | .local _ .vmem, ⟨72, _⟩ => ⟨S2000x128, .f32⟩
  | .local _ .vmem, ⟨73, _⟩ => ⟨S2000x128, .f32⟩
  | .local _ .vmem, ⟨74, _⟩ => ⟨S8000x128, .f32⟩
  | .local _ .vmem, ⟨75, _⟩ => ⟨S8000x128, .f32⟩
  | .local _ .vmem, ⟨76, _⟩ => ⟨S8000x1, .f32⟩
  | .local _ .vmem, ⟨77, _⟩ => ⟨S8000x1, .f32⟩
  | .local _ .vmem, ⟨78, _⟩ => ⟨S8000x128, .f32⟩
  | .local _ .vmem, ⟨79, _⟩ => ⟨S8000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S128x128, .f32⟩
  | .local _ .vmem, ⟨89, _⟩ => ⟨S1x128, .f32⟩
  | .local _ .vmem, ⟨90, _⟩ => ⟨S2000x128, .f32⟩
  | .local _ .vmem, ⟨91, _⟩ => ⟨S2000x128, .f32⟩
  | .local _ .vmem, ⟨92, _⟩ => ⟨S8000x128, .f32⟩
  | .local _ .vmem, ⟨93, _⟩ => ⟨S8000x128, .f32⟩
  | .local _ .vmem, ⟨94, _⟩ => ⟨S8000x1, .f32⟩
  | .local _ .vmem, ⟨95, _⟩ => ⟨S8000x1, .f32⟩
  | .local _ .vmem, ⟨96, _⟩ => ⟨S8000x128, .f32⟩
  | .local _ .vmem, ⟨97, _⟩ => ⟨S8000x128, .f32⟩
  | .local _ .vmem, ⟨98, _⟩ => ⟨S2000x128, .f32⟩
  | .local _ .vmem, ⟨99, _⟩ => ⟨S2000x128, .f32⟩
  | .local _ .vmem, ⟨100, _⟩ => ⟨S2000x128, .f32⟩
  | .local _ .vmem, ⟨101, _⟩ => ⟨S2000x128, .f32⟩
  | .local _ .vmem, ⟨102, _⟩ => ⟨S2000x128, .f32⟩
  | .local _ .vmem, ⟨103, _⟩ => ⟨S2000x128, .f32⟩
  | .local _ .vmem, ⟨104, _⟩ => ⟨S2000x128, .f32⟩
  | .local _ .vmem, ⟨105, _⟩ => ⟨S2000x128, .f32⟩
  | .local _ .vmem, ⟨106, _⟩ => ⟨S2000x128, .f32⟩
  | .local _ .vmem, ⟨107, _⟩ => ⟨S2000x128, .f32⟩
  | .local _ .vmem, ⟨108, _⟩ => ⟨S128x128, .f32⟩
  | .local _ .vmem, ⟨109, _⟩ => ⟨S128x128, .f32⟩
  | .local _ .vmem, ⟨110, _⟩ => ⟨S128x256, .f32⟩
  | .local _ .vmem, ⟨111, _⟩ => ⟨S128x256, .f32⟩
  | .local _ .vmem, ⟨112, _⟩ => ⟨S1x256, .f32⟩
  | .local _ .vmem, ⟨113, _⟩ => ⟨S256x128, .f32⟩
  | .local _ .vmem, ⟨114, _⟩ => ⟨S1x128, .f32⟩
  | .local _ .vmem, ⟨115, _⟩ => ⟨S2000x256, .f32⟩
  | .local _ .vmem, ⟨116, _⟩ => ⟨S2000x256, .f32⟩
  | .local _ .vmem, ⟨117, _⟩ => ⟨S2000x128, .f32⟩
  | .local _ .vmem, ⟨118, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  ofTc nBuf bufTy 0 119 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_4 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_10 : Ref sig .tc := ⟨.hbm, 100, rfl⟩
abbrev main_v77 : Ref sig .tc := ⟨.hbm, 101, rfl⟩
abbrev main_v78 : Ref sig .tc := ⟨.hbm, 102, rfl⟩
abbrev main_c_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_12 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_13 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_16 : Ref sig .tc := ⟨.hbm, 134, rfl⟩
abbrev main_call0_v0 : Ref sig .tc := ⟨.hbm, 135, rfl⟩
abbrev main_v105 : Ref sig .tc := ⟨.hbm, 136, rfl⟩
abbrev main_c_17 : Ref sig .tc := ⟨.hbm, 137, rfl⟩
abbrev main_call1_v0 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109_0 : Ref sig .tc := ⟨.hbm, 142, rfl⟩
abbrev main_v109_1 : Ref sig .tc := ⟨.hbm, 143, rfl⟩
abbrev main_v110 : Ref sig .tc := ⟨.hbm, 144, rfl⟩
abbrev main_v111 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg1_1 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg3_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg1_1 : Ref sig .tc := ⟨.vmem, 59, rfl⟩
abbrev cc10_stg2_0 : Ref sig .tc := ⟨.vmem, 60, rfl⟩
abbrev cc10_stg2_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg1_1 : Ref sig .tc := ⟨.vmem, 65, rfl⟩
abbrev cc11_stg2_0 : Ref sig .tc := ⟨.vmem, 66, rfl⟩
abbrev cc11_stg2_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg3_0 : Ref sig .tc := ⟨.vmem, 72, rfl⟩
abbrev cc12_stg3_1 : Ref sig .tc := ⟨.vmem, 73, rfl⟩
abbrev cc13_stg0_0 : Ref sig .tc := ⟨.vmem, 74, rfl⟩
abbrev cc13_stg0_1 : Ref sig .tc := ⟨.vmem, 75, rfl⟩
abbrev cc13_stg1_0 : Ref sig .tc := ⟨.vmem, 76, rfl⟩
abbrev cc13_stg1_1 : Ref sig .tc := ⟨.vmem, 77, rfl⟩
abbrev cc13_stg2_0 : Ref sig .tc := ⟨.vmem, 78, rfl⟩
abbrev cc13_stg2_1 : Ref sig .tc := ⟨.vmem, 79, rfl⟩
abbrev cc14_stg0_0 : Ref sig .tc := ⟨.vmem, 80, rfl⟩
abbrev cc14_stg0_1 : Ref sig .tc := ⟨.vmem, 81, rfl⟩
abbrev cc14_stg1_0 : Ref sig .tc := ⟨.vmem, 82, rfl⟩
abbrev cc14_stg1_1 : Ref sig .tc := ⟨.vmem, 83, rfl⟩
abbrev cc14_stg2_0 : Ref sig .tc := ⟨.vmem, 84, rfl⟩
abbrev cc14_stg2_1 : Ref sig .tc := ⟨.vmem, 85, rfl⟩
abbrev cc15_stg0_0 : Ref sig .tc := ⟨.vmem, 86, rfl⟩
abbrev cc15_stg0_1 : Ref sig .tc := ⟨.vmem, 87, rfl⟩
abbrev cc15_stg1_0 : Ref sig .tc := ⟨.vmem, 88, rfl⟩
abbrev cc15_stg2_0 : Ref sig .tc := ⟨.vmem, 89, rfl⟩
abbrev cc15_stg3_0 : Ref sig .tc := ⟨.vmem, 90, rfl⟩
abbrev cc15_stg3_1 : Ref sig .tc := ⟨.vmem, 91, rfl⟩
abbrev cc16_stg0_0 : Ref sig .tc := ⟨.vmem, 92, rfl⟩
abbrev cc16_stg0_1 : Ref sig .tc := ⟨.vmem, 93, rfl⟩
abbrev cc16_stg1_0 : Ref sig .tc := ⟨.vmem, 94, rfl⟩
abbrev cc16_stg1_1 : Ref sig .tc := ⟨.vmem, 95, rfl⟩
abbrev cc16_stg2_0 : Ref sig .tc := ⟨.vmem, 96, rfl⟩
abbrev cc16_stg2_1 : Ref sig .tc := ⟨.vmem, 97, rfl⟩
abbrev cc17_stg0_0 : Ref sig .tc := ⟨.vmem, 98, rfl⟩
abbrev cc17_stg0_1 : Ref sig .tc := ⟨.vmem, 99, rfl⟩
abbrev cc17_stg1_0 : Ref sig .tc := ⟨.vmem, 100, rfl⟩
abbrev cc17_stg1_1 : Ref sig .tc := ⟨.vmem, 101, rfl⟩
abbrev cc17_stg2_0 : Ref sig .tc := ⟨.vmem, 102, rfl⟩
abbrev cc17_stg2_1 : Ref sig .tc := ⟨.vmem, 103, rfl⟩
abbrev cc18_stg0_0 : Ref sig .tc := ⟨.vmem, 104, rfl⟩
abbrev cc18_stg0_1 : Ref sig .tc := ⟨.vmem, 105, rfl⟩
abbrev cc18_stg1_0 : Ref sig .tc := ⟨.vmem, 106, rfl⟩
abbrev cc18_stg1_1 : Ref sig .tc := ⟨.vmem, 107, rfl⟩
abbrev cc18_stg2_0 : Ref sig .tc := ⟨.vmem, 108, rfl⟩
abbrev cc18_stg3_0 : Ref sig .tc := ⟨.vmem, 109, rfl⟩
abbrev cc18_stg4_0 : Ref sig .tc := ⟨.vmem, 110, rfl⟩
abbrev cc18_stg5_0 : Ref sig .tc := ⟨.vmem, 111, rfl⟩
abbrev cc18_stg6_0 : Ref sig .tc := ⟨.vmem, 112, rfl⟩
abbrev cc18_stg7_0 : Ref sig .tc := ⟨.vmem, 113, rfl⟩
abbrev cc18_stg8_0 : Ref sig .tc := ⟨.vmem, 114, rfl⟩
abbrev cc18_stg9_0 : Ref sig .tc := ⟨.vmem, 115, rfl⟩
abbrev cc18_stg9_1 : Ref sig .tc := ⟨.vmem, 116, rfl⟩
abbrev cc18_stg10_0 : Ref sig .tc := ⟨.vmem, 117, rfl⟩
abbrev cc18_stg10_1 : Ref sig .tc := ⟨.vmem, 118, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem1_1 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem3_1 : DmaSem sig := 55
abbrev cc10_sem0_0 : DmaSem sig := 56
abbrev cc10_sem0_1 : DmaSem sig := 57
abbrev cc10_sem1_0 : DmaSem sig := 58
abbrev cc10_sem1_1 : DmaSem sig := 59
abbrev cc10_sem2_0 : DmaSem sig := 60
abbrev cc10_sem2_1 : DmaSem sig := 61
abbrev cc11_sem0_0 : DmaSem sig := 62
abbrev cc11_sem0_1 : DmaSem sig := 63
abbrev cc11_sem1_0 : DmaSem sig := 64
abbrev cc11_sem1_1 : DmaSem sig := 65
abbrev cc11_sem2_0 : DmaSem sig := 66
abbrev cc11_sem2_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem3_0 : DmaSem sig := 72
abbrev cc12_sem3_1 : DmaSem sig := 73
abbrev cc13_sem0_0 : DmaSem sig := 74
abbrev cc13_sem0_1 : DmaSem sig := 75
abbrev cc13_sem1_0 : DmaSem sig := 76
abbrev cc13_sem1_1 : DmaSem sig := 77
abbrev cc13_sem2_0 : DmaSem sig := 78
abbrev cc13_sem2_1 : DmaSem sig := 79
abbrev cc14_sem0_0 : DmaSem sig := 80
abbrev cc14_sem0_1 : DmaSem sig := 81
abbrev cc14_sem1_0 : DmaSem sig := 82
abbrev cc14_sem1_1 : DmaSem sig := 83
abbrev cc14_sem2_0 : DmaSem sig := 84
abbrev cc14_sem2_1 : DmaSem sig := 85
abbrev cc15_sem0_0 : DmaSem sig := 86
abbrev cc15_sem0_1 : DmaSem sig := 87
abbrev cc15_sem1_0 : DmaSem sig := 88
abbrev cc15_sem2_0 : DmaSem sig := 89
abbrev cc15_sem3_0 : DmaSem sig := 90
abbrev cc15_sem3_1 : DmaSem sig := 91
abbrev cc16_sem0_0 : DmaSem sig := 92
abbrev cc16_sem0_1 : DmaSem sig := 93
abbrev cc16_sem1_0 : DmaSem sig := 94
abbrev cc16_sem1_1 : DmaSem sig := 95
abbrev cc16_sem2_0 : DmaSem sig := 96
abbrev cc16_sem2_1 : DmaSem sig := 97
abbrev cc17_sem0_0 : DmaSem sig := 98
abbrev cc17_sem0_1 : DmaSem sig := 99
abbrev cc17_sem1_0 : DmaSem sig := 100
abbrev cc17_sem1_1 : DmaSem sig := 101
abbrev cc17_sem2_0 : DmaSem sig := 102
abbrev cc17_sem2_1 : DmaSem sig := 103
abbrev cc18_sem0_0 : DmaSem sig := 104
abbrev cc18_sem0_1 : DmaSem sig := 105
abbrev cc18_sem1_0 : DmaSem sig := 106
abbrev cc18_sem1_1 : DmaSem sig := 107
abbrev cc18_sem2_0 : DmaSem sig := 108
abbrev cc18_sem3_0 : DmaSem sig := 109
abbrev cc18_sem4_0 : DmaSem sig := 110
abbrev cc18_sem5_0 : DmaSem sig := 111
abbrev cc18_sem6_0 : DmaSem sig := 112
abbrev cc18_sem7_0 : DmaSem sig := 113
abbrev cc18_sem8_0 : DmaSem sig := 114
abbrev cc18_sem9_0 : DmaSem sig := 115
abbrev cc18_sem9_1 : DmaSem sig := 116
abbrev cc18_sem10_0 : DmaSem sig := 117
abbrev cc18_sem10_1 : DmaSem sig := 118

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![100], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![100], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S8000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S8000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2000x128 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S2000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_7 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_8 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_9 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_10 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S128x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S128x256 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S128x256 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1x256 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S256x128 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev stage18_8 : Fin 1 → Memref sig .tc .vmem S1x128 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))
abbrev reads18_8 : Fin grid18.rank → Bool := ![false]

abbrev stage18_9 : Fin 2 → Memref sig .tc .vmem S2000x256 .f32 := fun | 0 => Memref.whole cc18_stg9_0 | 1 => Memref.whole cc18_stg9_1 | ⟨_ + 2, h⟩ => absurd h (Nat.not_lt.2 (Nat.le_add_left _ _))
abbrev sem18_9 : Fin 2 → DmaSem sig := fun | 0 => cc18_sem9_0 | 1 => cc18_sem9_1 | ⟨_ + 2, h⟩ => absurd h (Nat.not_lt.2 (Nat.le_add_left _ _))
abbrev reads18_9 : Fin grid18.rank → Bool := ![true]

abbrev stage18_10 : Fin 2 → Memref sig .tc .vmem S2000x128 .f32 := fun | 0 => Memref.whole cc18_stg10_0 | 1 => Memref.whole cc18_stg10_1 | ⟨_ + 2, h⟩ => absurd h (Nat.not_lt.2 (Nat.le_add_left _ _))
abbrev sem18_10 : Fin 2 → DmaSem sig := fun | 0 => cc18_sem10_0 | 1 => cc18_sem10_1 | ⟨_ + 2, h⟩ => absurd h (Nat.not_lt.2 (Nat.le_add_left _ _))
abbrev reads18_10 : Fin grid18.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x256_S50000x128_0_128 : S50000x256.Slices ![0, 128] S50000x128
  slices_S50000x256_S50000x128_0_0 : S50000x256.Slices ![0, 0] S50000x128
  shapeCasts_S800000_S800000x1 : S800000.ShapeCasts S800000x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S256x256_S128x256_0_0 : S256x256.Slices ![0, 0] S128x256
  slices_S256x256_S128x256_128_0 : S256x256.Slices ![128, 0] S128x256
  pads_S256x1_S256x128_000_01270 : S256x1.Pads (![0, 0] : Fin 2 → Nat) ![0, 127] ![0, 0] S256x128
  h_S_ : 0 < S_.numel
  pads_S1_S128_01270 : S1.Pads (![0] : Fin 1 → Nat) ![127] ![0] S128
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x256_S2000x256_0_0 : ∀ a, (![0, 0] : Fin 2 → Nat) a + S2000x256.size a ≤ S2000x256.size a
  h_S2000x256 : 0 < S2000x256.numel
  slices_S50000x128_S50000x1_0_0 : S50000x128.Slices ![0, 0] S50000x1
  shapeCasts_S50000x1_S50000 : S50000x1.ShapeCasts S50000
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S800000x1.size a
  hwx4_1 : ∀ i : grid4.Coords, EltTy.bits .f32 = 32 ∨ (Rect.block (s := S800000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S800000x128.size a
  hwx7_0 : ∀ i : grid7.Coords, EltTy.bits .f32 = 32 ∨ (Rect.block (s := S800000x128) S8000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S800000x1.size a
  hwx7_1 : ∀ i : grid7.Coords, EltTy.bits .f32 = 32 ∨ (Rect.block (s := S800000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x128.size a ≤ S800000x128.size a
  hwx7_2 : ∀ i : grid7.Coords, EltTy.bits .f32 = 32 ∨ (Rect.block (s := S800000x128) S8000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S50000x128.size a
  hwx9_3 : ∀ i : grid9.Coords, EltTy.bits .f32 = 32 ∨ (Rect.block (s := S50000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x128.size a ≤ S800000x128.size a
  hwx10_0 : ∀ i : grid10.Coords, EltTy.bits .f32 = 32 ∨ (Rect.block (s := S800000x128) S8000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x1.size a ≤ S800000x1.size a
  hwx10_1 : ∀ i : grid10.Coords, EltTy.bits .f32 = 32 ∨ (Rect.block (s := S800000x1) S8000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x128.size a ≤ S800000x128.size a
  hwx10_2 : ∀ i : grid10.Coords, EltTy.bits .f32 = 32 ∨ (Rect.block (s := S800000x128) S8000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S50000x128.size a
  hwx11_1 : ∀ i : grid11.Coords, EltTy.bits .f32 = 32 ∨ (Rect.block (s := S50000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S50000x128.size a
  hwx11_2 : ∀ i : grid11.Coords, EltTy.bits .f32 = 32 ∨ (Rect.block (s := S50000x128) S2000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S50000x128.size a
  hwx12_0 : ∀ i : grid12.Coords, EltTy.bits .f32 = 32 ∨ (Rect.block (s := S50000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .f32 = 32 ∨ (Rect.block (s := S50000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x128.size a ≤ S800000x128.size a
  hwx13_0 : ∀ i : grid13.Coords, EltTy.bits .f32 = 32 ∨ (Rect.block (s := S800000x128) S8000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x1.size a ≤ S800000x1.size a
  hwx13_1 : ∀ i : grid13.Coords, EltTy.bits .f32 = 32 ∨ (Rect.block (s := S800000x1) S8000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8000x128.size a ≤ S800000x128.size a
  hwx13_2 : ∀ i : grid13.Coords, EltTy.bits .f32 = 32 ∨ (Rect.block (s := S800000x128) S8000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x128.size a ≤ S50000x128.size a
  hwx14_1 : ∀ i : grid14.Coords, EltTy.bits .f32 = 32 ∨ (Rect.block (s := S50000x128) S2000x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x128.size a ≤ S50000x128.size a
  hwx14_2 : ∀ i : grid14.Coords, EltTy.bits .f32 = 32 ∨ (Rect.block (s := S50000x128) S2000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S50000x128.size a
  hwx15_3 : ∀ i : grid15.Coords, EltTy.bits .f32 = 32 ∨ (Rect.block (s := S50000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8000x128.size a ≤ S800000x128.size a
  hwx16_0 : ∀ i : grid16.Coords, EltTy.bits .f32 = 32 ∨ (Rect.block (s := S800000x128) S8000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S8000x1.size a ≤ S800000x1.size a
  hwx16_1 : ∀ i : grid16.Coords, EltTy.bits .f32 = 32 ∨ (Rect.block (s := S800000x1) S8000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S8000x128.size a ≤ S800000x128.size a
  hwx16_2 : ∀ i : grid16.Coords, EltTy.bits .f32 = 32 ∨ (Rect.block (s := S800000x128) S8000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S50000x128.size a
  hwx17_0 : ∀ i : grid17.Coords, EltTy.bits .f32 = 32 ∨ (Rect.block (s := S50000x128) S2000x128.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2000x128.size a ≤ S50000x128.size a
  hwx17_1 : ∀ i : grid17.Coords, EltTy.bits .f32 = 32 ∨ (Rect.block (s := S50000x128) S2000x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x128.size a ≤ S50000x128.size a
  hwx17_2 : ∀ i : grid17.Coords, EltTy.bits .f32 = 32 ∨ (Rect.block (s := S50000x128) S2000x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x128.size a ≤ S50000x128.size a
  hwx18_0 : ∀ i : grid18.Coords, EltTy.bits .f32 = 32 ∨ (Rect.block (s := S50000x128) S2000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x128.size a ≤ S50000x128.size a
  hwx18_1 : ∀ i : grid18.Coords, EltTy.bits .f32 = 32 ∨ (Rect.block (s := S50000x128) S2000x128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128x128.size a ≤ S128x128.size a
  hwx18_2 : ∀ i : grid18.Coords, EltTy.bits .f32 = 32 ∨ (Rect.block (s := S128x128) S128x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128x128.size a ≤ S128x128.size a
  hwx18_3 : ∀ i : grid18.Coords, EltTy.bits .f32 = 32 ∨ (Rect.block (s := S128x128) S128x128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S128x256.size a ≤ S128x256.size a
  hwx18_4 : ∀ i : grid18.Coords, EltTy.bits .f32 = 32 ∨ (Rect.block (s := S128x256) S128x256.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S128x256.size a ≤ S128x256.size a
  hwx18_5 : ∀ i : grid18.Coords, EltTy.bits .f32 = 32 ∨ (Rect.block (s := S128x256) S128x256.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S1x256.size a ≤ S1x256.size a
  hwx18_6 : ∀ i : grid18.Coords, EltTy.bits .f32 = 32 ∨ (Rect.block (s := S1x256) S1x256.size (cc18_transform_6 i) (hinb18_6 i)).WholeWords (EltTy.packing .f32)
  hstage18_7 : ∀ j, (stage18_7 j).IsWhole
  nbuf18_7 : grid18.bufCount reads18_7 true = 1
  hreads18_7 : ∀ i i' : grid18.Coords, (∀ a, reads18_7 a = true → i a = i' a) → cc18_transform_7 i = cc18_transform_7 i'
  hinb18_7 : ∀ (i : grid18.Coords) a, (cc18_transform_7 i a + 1) * S256x128.size a ≤ S256x128.size a
  hwx18_7 : ∀ i : grid18.Coords, EltTy.bits .f32 = 32 ∨ (Rect.block (s := S256x128) S256x128.size (cc18_transform_7 i) (hinb18_7 i)).WholeWords (EltTy.packing .f32)
  hstage18_8 : ∀ j, (stage18_8 j).IsWhole
  nbuf18_8 : grid18.bufCount reads18_8 true = 1
  hreads18_8 : ∀ i i' : grid18.Coords, (∀ a, reads18_8 a = true → i a = i' a) → cc18_transform_8 i = cc18_transform_8 i'
  hinb18_8 : ∀ (i : grid18.Coords) a, (cc18_transform_8 i a + 1) * S1x128.size a ≤ S1x128.size a
  hwx18_8 : ∀ i : grid18.Coords, EltTy.bits .f32 = 32 ∨ (Rect.block (s := S1x128) S1x128.size (cc18_transform_8 i) (hinb18_8 i)).WholeWords (EltTy.packing .f32)
  hstage18_9 : ∀ j, (stage18_9 j).IsWhole
  nbuf18_9 : grid18.bufCount reads18_9 false = 2
  hreads18_9 : ∀ i i' : grid18.Coords, (∀ a, reads18_9 a = true → i a = i' a) → cc18_transform_9 i = cc18_transform_9 i'
  hinb18_9 : ∀ (i : grid18.Coords) a, (cc18_transform_9 i a + 1) * S2000x256.size a ≤ S50000x256.size a
  hwx18_9 : ∀ i : grid18.Coords, EltTy.bits .f32 = 32 ∨ (Rect.block (s := S50000x256) S2000x256.size (cc18_transform_9 i) (hinb18_9 i)).WholeWords (EltTy.packing .f32)
  hstage18_10 : ∀ j, (stage18_10 j).IsWhole
  nbuf18_10 : grid18.bufCount reads18_10 false = 2
  hreads18_10 : ∀ i i' : grid18.Coords, (∀ a, reads18_10 a = true → i a = i' a) → cc18_transform_10 i = cc18_transform_10 i'
  hinb18_10 : ∀ (i : grid18.Coords) a, (cc18_transform_10 i a + 1) * S2000x128.size a ≤ S50000x128.size a
  hwx18_10 : ∀ i : grid18.Coords, EltTy.bits .f32 = 32 ∨ (Rect.block (s := S50000x128) S2000x128.size (cc18_transform_10 i) (hinb18_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v5) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v33) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v37) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S2000x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v24) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v40) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v43) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v51) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v52) S8000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v55) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v44) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v56) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v38) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v40) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v57) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v58) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v65) S8000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v6) S8000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v66) S8000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v69) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v58) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v70) S2000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v56) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v72) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v75) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v76) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v83) S8000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v6) S8000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v84) S8000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v87) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v76) S2000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v88) S2000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v70) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v72) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v89) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v90) S2000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v97) S8000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v6) S8000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v98) S8000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v101) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v90) S2000x128.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v102) S2000x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v88) S2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v102) S2000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_arg5) S128x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_arg6) S128x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v103) S128x256.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v104) S128x256.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v107) S1x256.size cc18_transform_6 reads18_6 false true 1 stage18_6 sem18_6
    hrank18 hreads18_6 hinb18_6 nbuf18_6 (Memref.isWhole_whole _) hwx18_6 hstage18_6

abbrev win18_7 : Pipeline.Window sig grid18 :=
  Pipeline.Window.ofSpec (Memref.whole main_v105) S256x128.size cc18_transform_7 reads18_7 false true 1 stage18_7 sem18_7
    hrank18 hreads18_7 hinb18_7 nbuf18_7 (Memref.isWhole_whole _) hwx18_7 hstage18_7

abbrev win18_8 : Pipeline.Window sig grid18 :=
  Pipeline.Window.ofSpec (Memref.whole main_v108) S1x128.size cc18_transform_8 reads18_8 false true 1 stage18_8 sem18_8
    hrank18 hreads18_8 hinb18_8 nbuf18_8 (Memref.isWhole_whole _) hwx18_8 hstage18_8

abbrev win18_9 : Pipeline.Window sig grid18 :=
  Pipeline.Window.ofSpec (Memref.whole main_v109_0) S2000x256.size cc18_transform_9 reads18_9 true false 2 stage18_9 sem18_9
    hrank18 hreads18_9 hinb18_9 nbuf18_9 (Memref.isWhole_whole _) hwx18_9 hstage18_9

abbrev win18_10 : Pipeline.Window sig grid18 :=
  Pipeline.Window.ofSpec (Memref.whole main_v109_1) S2000x128.size cc18_transform_10 reads18_10 true false 2 stage18_10 sem18_10
    hrank18 hreads18_10 hinb18_10 nbuf18_10 (Memref.isWhole_whole _) hwx18_10 hstage18_10

abbrev win18 : Fin 11 → Pipeline.Window sig grid18 := fun | 0 => win18_0 | 1 => win18_1 | 2 => win18_2 | 3 => win18_3 | 4 => win18_4 | 5 => win18_5 | 6 => win18_6 | 7 => win18_7 | 8 => win18_8 | 9 => win18_9 | 10 => win18_10 | ⟨_ + 11, h⟩ => absurd h (Nat.not_lt.2 (Nat.le_add_left _ _))
abbrev spec18 : Fin 11 → Pipeline.WinSpec sig grid18.rank := fun w => (win18 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S3x128x128 : Shape := ⟨3, ![3, 128, 128]⟩
abbrev S3x128 : Shape := ⟨2, ![3, 128]⟩
abbrev S128x128 : Shape := ⟨2, ![128, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x800000 : Shape := ⟨2, ![1, 800000]⟩
abbrev S50000x128 : Shape := ⟨2, ![50000, 128]⟩
abbrev S1x128x128 : Shape := ⟨3, ![1, 128, 128]⟩
abbrev S1x128 : Shape := ⟨2, ![1, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S50000x1 : Shape := ⟨2, ![50000, 1]⟩
abbrev S1x1 : Shape := ⟨2, ![1, 1]⟩
abbrev S50000 : Shape := ⟨1, ![50000]⟩

abbrev nBuf : Space → Nat
  | .hbm => 221
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S3x128x128, .f32⟩
  | 4 => ⟨S3x128, .f32⟩
  | 5 => ⟨S128x128, .f32⟩
  | 6 => ⟨S128x128, .f32⟩
  | 7 => ⟨S256x256, .f32⟩
  | 8 => ⟨S256, .f32⟩
  | 9 => ⟨S256x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S50000x128, .f32⟩
  | 17 => ⟨S1x128x128, .f32⟩
  | 18 => ⟨S128x128, .f32⟩
  | 19 => ⟨S1x128, .f32⟩
  | 20 => ⟨S128, .f32⟩
  | 21 => ⟨S50000x128, .f32⟩
  | 22 => ⟨S1x128, .f32⟩
  | 23 => ⟨S50000x128, .f32⟩
  | 24 => ⟨S50000x128, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S_, .f32⟩
  | 43 => ⟨S50000x128, .f32⟩
  | 44 => ⟨S50000x128, .i1⟩
  | 45 => ⟨S_, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S_, .f32⟩
  | 71 => ⟨S50000x128, .f32⟩
  | 72 => ⟨S50000x128, .i1⟩
  | 73 => ⟨S_, .f32⟩
  | 74 => ⟨S50000x128, .f32⟩
  | 75 => ⟨S50000x128, .f32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S50000x128, .f32⟩
  | 82 => ⟨S1x128, .f32⟩
  | 83 => ⟨S50000x128, .f32⟩
  | 84 => ⟨S50000x128, .f32⟩
  | 85 => ⟨S800000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S_, .f32⟩
  | 103 => ⟨S_, .f32⟩
  | 104 => ⟨S50000x128, .f32⟩
  | 105 => ⟨S50000x128, .i1⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S800000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x128, .f32⟩
  | 125 => ⟨S800000x128, .f32⟩
  | 126 => ⟨S_, .f32⟩
  | 127 => ⟨S50000x128, .f32⟩
  | _ => ⟨S50000x256, .f32⟩

abbrev hbmTy0_1 (i : Nat) : BufTy := match i % 128 with
  | 0 => ⟨S800000x1, .i32⟩
  | 1 => ⟨S50000x128, .f32⟩
  | 2 => ⟨S50000x128, .f32⟩
  | 3 => ⟨S_, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S1x128, .f32⟩
  | 17 => ⟨S50000x128, .f32⟩
  | 18 => ⟨S50000x128, .f32⟩
  | 19 => ⟨S800000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S_, .f32⟩
  | 37 => ⟨S_, .f32⟩
  | 38 => ⟨S50000x128, .f32⟩
  | 39 => ⟨S50000x128, .i1⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S_, .f32⟩
  | 66 => ⟨S_, .f32⟩
  | 67 => ⟨S50000x128, .f32⟩
  | 68 => ⟨S50000x128, .i1⟩
  | 69 => ⟨S_, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S50000x1, .f32⟩
  | 81 => ⟨S1x1, .f32⟩
  | 82 => ⟨S50000x1, .f32⟩
  | 83 => ⟨S50000x1, .f32⟩
  | 84 => ⟨S_, .f32⟩
  | 85 => ⟨S_, .f32⟩
  | 86 => ⟨S50000x1, .f32⟩
  | 87 => ⟨S50000x1, .i1⟩
  | 88 => ⟨S_, .f32⟩
  | 89 => ⟨S50000x1, .f32⟩
  | 90 => ⟨S50000x1, .f32⟩
  | 91 => ⟨S50000x1, .f32⟩
  | 92 => ⟨S50000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_6 : Ref sig .tc := ⟨.hbm, 86, rfl⟩
abbrev main_v55 : Ref sig .tc := ⟨.hbm, 87, rfl⟩
abbrev main_v56 : Ref sig .tc := ⟨.hbm, 88, rfl⟩
abbrev main_c_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_10 : Ref sig .tc := ⟨.hbm, 115, rfl⟩
abbrev main_v74 : Ref sig .tc := ⟨.hbm, 116, rfl⟩
abbrev main_v75 : Ref sig .tc := ⟨.hbm, 117, rfl⟩
abbrev main_c_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_12 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_13 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_14 : Ref sig .tc := ⟨.hbm, 148, rfl⟩
abbrev main_v97 : Ref sig .tc := ⟨.hbm, 149, rfl⟩
abbrev main_v98 : Ref sig .tc := ⟨.hbm, 150, rfl⟩
abbrev main_c_15 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_16 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_17 : Ref sig .tc := ⟨.hbm, 164, rfl⟩
abbrev main_call4_cst : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_18 : Ref sig .tc := ⟨.hbm, 177, rfl⟩
abbrev main_v116 : Ref sig .tc := ⟨.hbm, 178, rfl⟩
abbrev main_v117 : Ref sig .tc := ⟨.hbm, 179, rfl⟩
abbrev main_c_19 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_20 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_21 : Ref sig .tc := ⟨.hbm, 193, rfl⟩
abbrev main_call5_cst : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_cst_22 : Ref sig .tc := ⟨.hbm, 212, rfl⟩
abbrev main_call6_cst : Ref sig .tc := ⟨.hbm, 213, rfl⟩
abbrev main_call6_v0 : Ref sig .tc := ⟨.hbm, 214, rfl⟩
abbrev main_call6_v1 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_v141 : Ref sig .tc := ⟨.hbm, 219, rfl⟩
abbrev main_v142 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x256_S50000x128_0_128 : S50000x256.Slices ![0, 128] S50000x128
  slices_S50000x256_S50000x128_0_0 : S50000x256.Slices ![0, 0] S50000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.Spec.lean ====
/-
  The network both programs compute, written once as a function of the argument arrays on the extended reals.

  A graph-convolution layer takes node features h : [N, 128], a weight W : [128, 128] and a bias row, and an edge list
  with weights. It forms the affine image  l = h·W + b  (entry (n, j) is  Σ_k h(n,k)·W(k,j) + b(j)),  takes for every edge e
  the row of l at the edge's gather node and scales it by the edge's weight, sums the scaled rows into the edge's
  scatter node, from zero, adds l itself when the layer has self loops, and applies the leaky rectifier
  a ↦ a for a > 0, slope·a otherwise.  Three layers are applied to each of the two halves of the input features
  (one half with the edge list reversed), then  y = (x1·w1)·top + (x2·w2)·bot + fc1_b  with top / bot the upper and lower
  128 rows of fc1_W, and  out(n) = leaky (Σ_k y(n,k)·fc2_W(k,0) + fc2_b(0)).

  The row gather (with jnp's wrap of negative indices) and the segment sum are the same host operations in both programs;
  they enter here as two parameters (`Irregular`), never opened.
-/
import Mathlib
import Idealize.ShloMosaic.Lib.ValueIdx
import Idealize.ShloMosaic.PureOps.Ideal

noncomputable section

namespace Cert.Spec

open Idealize.ShloMosaic Idealize.ShloMosaic.ValueIdx

/-- An array of extended reals / of 32-bit integers over a shape. -/
abbrev Arr (s : Shape) : Type := s.Idx → EReal
abbrev IArr (s : Shape) : Type := s.Idx → BitVec 32

abbrev sNF : Shape := ⟨2, ![50000, 128]⟩
abbrev sNG : Shape := ⟨2, ![50000, 256]⟩
abbrev sN : Shape := ⟨1, ![50000]⟩
abbrev sEF : Shape := ⟨2, ![800000, 128]⟩
abbrev sE1 : Shape := ⟨2, ![800000, 1]⟩
abbrev sE : Shape := ⟨1, ![800000]⟩
abbrev s2E : Shape := ⟨2, ![2, 800000]⟩
abbrev sFF : Shape := ⟨2, ![128, 128]⟩
abbrev s1F : Shape := ⟨2, ![1, 128]⟩
abbrev sFG : Shape := ⟨2, ![128, 256]⟩
abbrev s1G : Shape := ⟨2, ![1, 256]⟩
abbrev sGF : Shape := ⟨2, ![256, 128]⟩
abbrev sGG : Shape := ⟨2, ![256, 256]⟩
abbrev sG : Shape := ⟨1, ![256]⟩
abbrev sG1 : Shape := ⟨2, ![256, 1]⟩
abbrev s1 : Shape := ⟨1, ![1]⟩
abbrev s3FF : Shape := ⟨3, ![3, 128, 128]⟩
abbrev s3F : Shape := ⟨2, ![3, 128]⟩

/-- The two irregular host operations: the rows of a table at an index vector (negative indices wrapped), and the
    sum of update rows into the rows an index vector names, from zero. -/
structure Irregular where
  gath : Arr sNF → IArr sE → Arr sEF
  scat : IArr sE → Arr sEF → Arr sNF

/-- The rectifier's slope, the value of the literal both programs carry. -/
def slope : EReal := Ideal.ofBits .f32 0x3E4CCCCD#32

/-- The leaky rectifier. -/
def leaky (a : EReal) : EReal := if 0 < a then a else slope * a

/-- The affine image h·W + b, the bias laid as a row [1, 128]. -/
def lin (h : Arr sNF) (W : Arr sFF) (b : Arr s1F) : Arr sNF :=
  fun i => (∑ k : Fin 128, h (ix2 (i 0) k) * W (ix2 k (i 1))) + b (ix2 0 (i 1))

/-- Every gathered row scaled by its edge's weight, the weights laid as a column [E, 1]. -/
def emul (g : Arr sEF) (ew : Arr sE1) : Arr sEF := fun i => g i * ew (ix2 (i 0) 0)

/-- The rectifier on every entry. -/
def comb (a : Arr sNF) : Arr sNF := fun i => leaky (a i)

/-- The rectifier on the aggregate plus the self term. -/
def combAdd (a l : Arr sNF) : Arr sNF := fun i => leaky (a i + l i)

/-- A product [N, 128]·[128, 128]. -/
def prodNF (x : Arr sNF) (w : Arr sFF) : Arr sNF := fun i => ∑ k : Fin 128, x (ix2 (i 0) k) * w (ix2 k (i 1))

/-- y = z1·top + z2·bot + b, the bias laid as a row [1, 256]. -/
def yOf (z1 z2 : Arr sNF) (top bot : Arr sFG) (b : Arr s1G) : Arr sNG :=
  fun i => ((∑ k : Fin 128, z1 (ix2 (i 0) k) * top (ix2 k (i 1))) + (∑ k : Fin 128, z2 (ix2 (i 0) k) * bot (ix2 k (i 1))))
    + b (ix2 0 (i 1))

/-- leaky (y·w + b) with w of 128 columns, the bias laid as a row [1, 128]. -/
def opOf (y : Arr sNG) (w : Arr sGF) (b : Arr s1F) : Arr sNF :=
  fun i => leaky ((∑ k : Fin 256, y (ix2 (i 0) k) * w (ix2 k (i 1))) + b (ix2 0 (i 1)))

/-- One layer: affine image, gather, scale, segment sum, (self term,) rectifier. -/
def layer (H : Irregular) (self : Bool) (h : Arr sNF) (W : Arr sFF) (b : Arr s1F) (gi si : IArr sE) (ew : Arr sE1) : Arr sNF :=
  if self then combAdd (H.scat si (emul (H.gath (lin h W b) gi) ew)) (lin h W b)
  else comb (H.scat si (emul (H.gath (lin h W b) gi) ew))

section Model

variable (H : Irregular) (x : Arr sNG) (ei : IArr s2E) (ew : Arr sE) (cW : Arr s3FF) (cb : Arr s3F) (w1 w2 : Arr sFF)
  (f1W : Arr sGG) (f1b : Arr sG) (f2W : Arr sG1) (f2b : Arr s1)

/-- The edge list's two rows. -/
def src : IArr sE := fun j => ei (ix2 0 (j 0))
def dst : IArr sE := fun j => ei (ix2 1 (j 0))
/-- The upper (columns 128…255) and lower (columns 0…127) halves of the input features. -/
def xHi : Arr sNF := fun i => x (ix2 (i 0) (Fin.natAdd 128 (i 1)))
def xLo : Arr sNF := fun i => x (ix2 (i 0) (Fin.castAdd 128 (i 1)))
/-- Layer l's weight and bias row; the edge weights as a column. -/
def wOf (l : Fin 3) : Arr sFF := fun j => cW (ix3 l (j 0) (j 1))
def bOf (l : Fin 3) : Arr s1F := fun j => cb (ix2 l (j 1))
def ewCol : Arr sE1 := fun j => ew (ix1 (j 0))
/-- The upper and lower 128 rows of fc1_W; fc1_b as a row. -/
def fTop : Arr sFG := fun j => f1W (ix2 (Fin.castAdd 128 (j 0)) (j 1))
def fBot : Arr sFG := fun j => f1W (ix2 (Fin.natAdd 128 (j 0)) (j 1))
def f1bRow : Arr s1G := fun j => f1b (ix1 (j 1))

/-- Branch 1 (upper half, edges reversed: gather at dst, sum into src) and branch 2 after each layer. -/
def a1 : Arr sNF := layer H false (xHi x) (wOf cW 0) (bOf cb 0) (dst ei) (src ei) (ewCol ew)
def a2 : Arr sNF := layer H false (xLo x) (wOf cW 0) (bOf cb 0) (src ei) (dst ei) (ewCol ew)
def b1 : Arr sNF := layer H true (a1 H x ei ew cW cb) (wOf cW 1) (bOf cb 1) (dst ei) (src ei) (ewCol ew)
def b2 : Arr sNF := layer H true (a2 H x ei ew cW cb) (wOf cW 1) (bOf cb 1) (src ei) (dst ei) (ewCol ew)
def c1 : Arr sNF := layer H true (b1 H x ei ew cW cb) (wOf cW 2) (bOf cb 2) (dst ei) (src ei) (ewCol ew)
def c2 : Arr sNF := layer H true (b2 H x ei ew cW cb) (wOf cW 2) (bOf cb 2) (src ei) (dst ei) (ewCol ew)

/-- The second result, y : [N, 256]. -/
def yRes : Arr sNG :=
  yOf (prodNF (c1 H x ei ew cW cb) w1) (prodNF (c2 H x ei ew cW cb) w2) (fTop f1W) (fBot f1W) (f1bRow f1b)

/-- The first result, out : [N]. -/
def outRes : Arr sN :=
  fun i => leaky ((∑ k : Fin 256, yRes H x ei ew cW cb w1 w2 f1W f1b (ix2 (i 0) k) * f2W (ix2 k 0)) + f2b (ix1 0))

end Model

end Cert.Spec

end
-- ==== Proof.Layout.lean ====
/-
  The host operations of both programs that only re-arrange an array, read in the specification's vocabulary.

  Both programs cut their arguments before the arithmetic: the two halves of the feature matrix (columns 0…127 and
  128…255), the two rows of the edge list, one layer's weight matrix and bias row out of the stacked parameters, the
  upper and lower 128 rows of the first dense weight; they turn vectors into rows or columns (a reshape in one
  program, a broadcast along a new axis in the other), spread a row over all rows, pad a one-column matrix with
  zero columns, and lay two matrices side by side. Every statement here says that such a chain, applied to an
  arbitrary array, is the matching definition of the specification, index by index. The side conditions of the
  operations (the slice lies inside its operand, the two shapes have as many elements, …) are hypotheses, so that a
  statement applies whichever proof of the side condition a program carries.
-/
import Mathlib
import Idealize.ShloMosaic.Lib.ValueIdx
import Idealize.ShloMosaic.Lib.ValueLayout
import Idealize.ShloMosaic.Lib.Pipeline.Value
import Idealize.ShloMosaic.PureOps.Ideal
import proofs.«161278_j35699768164381_1_alg».proof.Proof.Spec

noncomputable section

namespace Cert.Layout

open Idealize.ShloMosaic Idealize.ShloMosaic.ValueIdx Cert.Spec

/-! ## The two column vectors' shapes, and two reshapes the library does not read by coordinates -/

/-- A column [N, 1] and [1, 1], [128]: the remaining literal shapes the programs pass through. -/
abbrev sN1 : Shape := ⟨2, ![50000, 1]⟩
abbrev s11 : Shape := ⟨2, ![1, 1]⟩
abbrev sF : Shape := ⟨1, ![128]⟩
abbrev s1E : Shape := ⟨2, ![1, 800000]⟩
abbrev s1FF : Shape := ⟨3, ![1, 128, 128]⟩

variable {α : Type}

/-- A vector [a] reshaped to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] reshaped to a vector [a] reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The halves of the feature matrix -/

/-- Columns 128…255 of the features. -/
theorem xHi_eq (x : Arr sNG) (h : sNG.Slices ![0, 128] sNF) :
    extractStridedSlice sNF ![0, 128] x h = xHi x := by
  funext i
  obtain ⟨r, c, rfl⟩ : ∃ (r : Fin 50000) (c : Fin 128), i = ix2 r c := ⟨i 0, i 1, eq_ix2 i⟩
  exact slice2_axis1_apply 128 x h r c (Fin.natAdd 128 c) rfl

/-- Columns 0…127 of the features. -/
theorem xLo_eq (x : Arr sNG) (h : sNG.Slices ![0, 0] sNF) :
    extractStridedSlice sNF ![0, 0] x h = xLo x := by
  funext i
  obtain ⟨r, c, rfl⟩ : ∃ (r : Fin 50000) (c : Fin 128), i = ix2 r c := ⟨i 0, i 1, eq_ix2 i⟩
  exact slice2_axis1_apply 0 x h r c (Fin.castAdd 128 c) (Nat.zero_add _).symm

/-! ## The two rows of the edge list -/

/-- Row 0 of the edge list, as a vector. -/
theorem src_eq (ei : IArr s2E) (h : s2E.Slices ![0, 0] s1E) (hc : s1E.ShapeCasts sE) :
    shapeCast sE (extractStridedSlice s1E ![0, 0] ei h) hc = src ei := by
  funext j
  obtain ⟨e, rfl⟩ : ∃ e : Fin 800000, j = ix1 e := ⟨j 0, eq_ix1 j⟩
  refine (shapeCast_1a_a_apply _ hc e).trans ?_
  exact slice2_axis0_apply 0 ei h (0 : Fin 1) e (0 : Fin 2) rfl

/-- Row 1 of the edge list, as a vector. -/
theorem dst_eq (ei : IArr s2E) (h : s2E.Slices ![1, 0] s1E) (hc : s1E.ShapeCasts sE) :
    shapeCast sE (extractStridedSlice s1E ![1, 0] ei h) hc = dst ei := by
  funext j
  obtain ⟨e, rfl⟩ : ∃ e : Fin 800000, j = ix1 e := ⟨j 0, eq_ix1 j⟩
  refine (shapeCast_1a_a_apply _ hc e).trans ?_
  exact slice2_axis0_apply 1 ei h (0 : Fin 1) e (1 : Fin 2) rfl

/-! ## One layer's weight matrix and bias out of the stacked parameters -/

/-- Layer l's weight matrix: the slab at offset o = l of the stack, its unit axis dropped. -/
theorem wOf_eq (cW : Arr s3FF) (o : ℕ) (l : Fin 3) (hl : l.val = o) (h : s3FF.Slices ![o, 0, 0] s1FF)
    (hc : s1FF.ShapeCasts sFF) :
    shapeCast sFF (extractStridedSlice s1FF ![o, 0, 0] cW h) hc = wOf cW l := by
  funext j
  obtain ⟨a, b, rfl⟩ : ∃ (a : Fin 128) (b : Fin 128), j = ix2 a b := ⟨j 0, j 1, eq_ix2 j⟩
  refine (shapeCast_1ab_ab_apply _ hc a b).trans ?_
  refine extractStridedSlice_apply _ cW h _ (ix3 l a b) fun ax => ?_
  match ax with
  | ⟨0, _⟩ => exact hl.trans (Nat.add_zero o).symm
  | ⟨1, _⟩ => exact (Nat.zero_add _).symm
  | ⟨2, _⟩ => exact (Nat.zero_add _).symm

theorem wOf0_eq (cW : Arr s3FF) (h : s3FF.Slices ![0, 0, 0] s1FF) (hc : s1FF.ShapeCasts sFF) :
    shapeCast sFF (extractStridedSlice s1FF ![0, 0, 0] cW h) hc = wOf cW 0 := wOf_eq cW 0 0 rfl h hc
theorem wOf1_eq (cW : Arr s3FF) (h : s3FF.Slices ![1, 0, 0] s1FF) (hc : s1FF.ShapeCasts sFF) :
    shapeCast sFF (extractStridedSlice s1FF ![1, 0, 0] cW h) hc = wOf cW 1 := wOf_eq cW 1 1 rfl h hc
theorem wOf2_eq (cW : Arr s3FF) (h : s3FF.Slices ![2, 0, 0] s1FF) (hc : s1FF.ShapeCasts sFF) :
    shapeCast sFF (extractStridedSlice s1FF ![2, 0, 0] cW h) hc = wOf cW 2 := wOf_eq cW 2 2 rfl h hc

/-- Layer l's bias as a vector [128]: row o = l of the stacked biases, its unit axis dropped. Both programs form it. -/
abbrev bVec (cb : Arr s3F) (o : ℕ) (h : s3F.Slices ![o, 0] s1F) (hc : s1F.ShapeCasts sF) : Arr sF :=
  shapeCast sF (extractStridedSlice s1F ![o, 0] cb h) hc

/-- The bias vector at c is the stacked biases at (l, c). -/
theorem bVec_apply (cb : Arr s3F) (o : ℕ) (l : Fin 3) (hl : l.val = o) (h : s3F.Slices ![o, 0] s1F)
    (hc : s1F.ShapeCasts sF) (c : Fin 128) :
    shapeCast sF (extractStridedSlice s1F ![o, 0] cb h) hc (ix1 c) = cb (ix2 l c) := by
  refine (shapeCast_1a_a_apply _ hc c).trans ?_
  exact slice2_axis0_apply o cb h (0 : Fin 1) c l (hl.trans (Nat.add_zero o).symm)

/-- The bias vector reshaped to a row [1, 128] is the specification's bias row. -/
theorem bRow_reshape_eq (cb : Arr s3F) (o : ℕ) (l : Fin 3) (hl : l.val = o) (h : s3F.Slices ![o, 0] s1F)
    (hc : s1F.ShapeCasts sF) (hc2 : sF.ShapeCasts s1F) :
    shapeCast s1F (shapeCast sF (extractStridedSlice s1F ![o, 0] cb h) hc) hc2 = bOf cb l := by
  funext j
  obtain ⟨u, c, rfl⟩ : ∃ (u : Fin 1) (c : Fin 128), j = ix2 u c := ⟨j 0, j 1, eq_ix2 j⟩
  refine (shapeCast_a_1a_apply _ hc2 u c).trans ?_
  exact bVec_apply cb o l hl h hc c

/-- The bias vector broadcast to a row and then over all rows reads the specification's bias row at the column. -/
theorem bRow_bcast_eq (cb : Arr s3F) (o : ℕ) (l : Fin 3) (hl : l.val = o) (h : s3F.Slices ![o, 0] s1F)
    (hc : s1F.ShapeCasts sF) (h1 : s1F.BroadcastsInDim sNF ![0, 1]) (h2 : sF.BroadcastsInDim s1F ![1]) :
    broadcastInDim sNF ![0, 1] h1 (broadcastInDim s1F ![1] h2 (shapeCast sF (extractStridedSlice s1F ![o, 0] cb h) hc))
      = fun i => bOf cb l (ix2 0 (i 1)) := by
  funext i
  obtain ⟨r, c, rfl⟩ : ∃ (r : Fin 50000) (c : Fin 128), i = ix2 r c := ⟨i 0, i 1, eq_ix2 i⟩
  refine (broadcastInDim_apply ![0, 1] h1 _ (ix2 r c) (ix2 (0 : Fin 1) c) fun a => ?_).trans ?_
  · match a with
    | ⟨0, _⟩ => rfl
    | ⟨1, _⟩ => rfl
  refine (broadcastInDim_apply ![1] h2 _ (ix2 (0 : Fin 1) c) (ix1 c) fun a => ?_).trans ?_
  · match a with
    | ⟨0, _⟩ => rfl
  exact bVec_apply cb o l hl h hc c

/-! ## The edge weights as a column, and a column spread over the feature axis -/

/-- The edge weights reshaped to a column. -/
theorem ewCol_reshape_eq (ew : Arr sE) (hc : sE.ShapeCasts sE1) : shapeCast sE1 ew hc = ewCol ew := by
  funext j
  obtain ⟨e, u, rfl⟩ : ∃ (e : Fin 800000) (u : Fin 1), j = ix2 e u := ⟨j 0, j 1, eq_ix2 j⟩
  exact shapeCast_a_a1_apply ew hc e u

/-- The edge weights broadcast along a new second axis of extent one. -/
theorem ewCol_bcast_eq (ew : Arr sE) (h : sE.BroadcastsInDim sE1 ![0]) : broadcastInDim sE1 ![0] h ew = ewCol ew := by
  funext j
  obtain ⟨e, u, rfl⟩ : ∃ (e : Fin 800000) (u : Fin 1), j = ix2 e u := ⟨j 0, j 1, eq_ix2 j⟩
  refine broadcastInDim_apply ![0] h ew (ix2 e u) (ix1 e) fun a => ?_
  match a with
  | ⟨0, _⟩ => rfl

/-- A column [E, 1] spread over 128 columns reads the column at the row. -/
theorem ewFull_eq (c : Arr sE1) (h : sE1.BroadcastsInDim sEF ![0, 1]) :
    broadcastInDim sEF ![0, 1] h c = fun i => c (ix2 (i 0) 0) := by
  funext i
  obtain ⟨e, f, rfl⟩ : ∃ (e : Fin 800000) (f : Fin 128), i = ix2 e f := ⟨i 0, i 1, eq_ix2 i⟩
  refine broadcastInDim_apply ![0, 1] h c (ix2 e f) (ix2 e (0 : Fin 1)) fun a => ?_
  match a with
  | ⟨0, _⟩ => rfl
  | ⟨1, _⟩ => rfl

/-! ## The first dense layer's weight halves and bias row -/

/-- Rows 0…127 of the first dense weight. -/
theorem fTop_eq (f1W : Arr sGG) (h : sGG.Slices ![0, 0] sFG) : extractStridedSlice sFG ![0, 0] f1W h = fTop f1W := by
  funext j
  obtain ⟨a, b, rfl⟩ : ∃ (a : Fin 128) (b : Fin 256), j = ix2 a b := ⟨j 0, j 1, eq_ix2 j⟩
  exact slice2_axis0_apply 0 f1W h a b (Fin.castAdd 128 a) (Nat.zero_add _).symm

/-- Rows 128…255 of the first dense weight. -/
theorem fBot_eq (f1W : Arr sGG) (h : sGG.Slices ![128, 0] sFG) : extractStridedSlice sFG ![128, 0] f1W h = fBot f1W := by
  funext j
  obtain ⟨a, b, rfl⟩ : ∃ (a : Fin 128) (b : Fin 256), j = ix2 a b := ⟨j 0, j 1, eq_ix2 j⟩
  exact slice2_axis0_apply 128 f1W h a b (Fin.natAdd 128 a) rfl

/-- The first dense bias reshaped to a row. -/
theorem f1bRow_reshape_eq (f1b : Arr sG) (hc : sG.ShapeCasts s1G) : shapeCast s1G f1b hc = f1bRow f1b := by
  funext j
  obtain ⟨u, c, rfl⟩ : ∃ (u : Fin 1) (c : Fin 256), j = ix2 u c := ⟨j 0, j 1, eq_ix2 j⟩
  exact shapeCast_a_1a_apply f1b hc u c

/-- The first dense bias broadcast to a row and then over all rows. -/
theorem f1bRow_bcast_eq (f1b : Arr sG) (h1 : s1G.BroadcastsInDim sNG ![0, 1]) (h2 : sG.BroadcastsInDim s1G ![1]) :
    broadcastInDim sNG ![0, 1] h1 (broadcastInDim s1G ![1] h2 f1b) = fun i => f1bRow f1b (ix2 0 (i 1)) := by
  funext i
  obtain ⟨r, c, rfl⟩ : ∃ (r : Fin 50000) (c : Fin 256), i = ix2 r c := ⟨i 0, i 1, eq_ix2 i⟩
  refine (broadcastInDim_apply ![0, 1] h1 _ (ix2 r c) (ix2 (0 : Fin 1) c) fun a => ?_).trans ?_
  · match a with
    | ⟨0, _⟩ => rfl
    | ⟨1, _⟩ => rfl
  refine broadcastInDim_apply ![1] h2 f1b (ix2 (0 : Fin 1) c) (ix1 c) fun a => ?_
  match a with
  | ⟨0, _⟩ => rfl

/-! ## The second dense layer: its one-column weight padded with zero columns, its bias -/

/-- Column 0 of the padded weight is the weight's one column (whatever the padding value). -/
theorem padW_col0 {u : Shape} (f2W : Arr sG1) (v : u.Idx → EReal) (h : sG1.Pads ![0, 0] ![0, 127] ![0, 0] sGF)
    (h' : 0 < u.numel) (k : Fin 256) :
    pad sGF ![0, 0] ![0, 127] ![0, 0] f2W v h h' (ix2 k (0 : Fin 128)) = f2W (ix2 k (0 : Fin 1)) := by
  unfold pad
  split
  · refine congrArg f2W (funext fun a => Fin.ext ?_)
    match a with
    | ⟨0, _⟩ => show (k.val - 0) / (0 + 1) = k.val; omega
    | ⟨1, _⟩ => show ((0 : Fin 128).val - 0) / (0 + 1) = (0 : Fin 128).val; simp
  · next hne =>
    refine absurd (fun a => ?_) hne
    match a with
    | ⟨0, _⟩ =>
      refine ⟨Nat.zero_le _, ?_, ?_⟩
      · show (k.val - 0) % (0 + 1) = 0; omega
      · show (k.val - 0) / (0 + 1) < 256; omega
    | ⟨1, _⟩ =>
      refine ⟨Nat.zero_le _, ?_, ?_⟩
      · show ((0 : Fin 128).val - 0) % (0 + 1) = 0; simp
      · show ((0 : Fin 128).val - 0) / (0 + 1) < 1; simp

/-- Entry 0 of the padded bias, laid as a row, is the bias's one entry. -/
theorem padb_0 {u : Shape} (f2b : Arr s1) (v : u.Idx → EReal) (h : s1.Pads ![0] ![127] ![0] sF) (h' : 0 < u.numel)
    (hc : sF.ShapeCasts s1F) :
    shapeCast s1F (pad sF ![0] ![127] ![0] f2b v h h') hc (ix2 (0 : Fin 1) (0 : Fin 128)) = f2b (ix1 (0 : Fin 1)) := by
  refine (shapeCast_a_1a_apply _ hc 0 0).trans ?_
  unfold pad
  split
  · refine congrArg f2b (funext fun a => Fin.ext ?_)
    match a with
    | ⟨0, _⟩ => show ((0 : Fin 128).val - 0) / (0 + 1) = (0 : Fin 1).val; simp
  · next hne =>
    refine absurd (fun a => ?_) hne
    match a with
    | ⟨0, _⟩ =>
      refine ⟨Nat.zero_le _, ?_, ?_⟩
      · show ((0 : Fin 128).val - 0) % (0 + 1) = 0; simp
      · show ((0 : Fin 128).val - 0) / (0 + 1) < 1; simp

/-- The one-entry bias broadcast to [1, 1] and then to a column [N, 1] is that entry everywhere. -/
theorem f2bFull_eq (f2b : Arr s1) (h1 : s11.BroadcastsInDim sN1 ![0, 1]) (h2 : s1.BroadcastsInDim s11 ![1]) :
    broadcastInDim sN1 ![0, 1] h1 (broadcastInDim s11 ![1] h2 f2b) = fun _ => f2b (ix1 0) := by
  funext i
  obtain ⟨r, u, rfl⟩ : ∃ (r : Fin 50000) (u : Fin 1), i = ix2 r u := ⟨i 0, i 1, eq_ix2 i⟩
  refine (broadcastInDim_apply ![0, 1] h1 _ (ix2 r u) (ix2 (0 : Fin 1) (0 : Fin 1)) fun a => ?_).trans ?_
  · match a with
    | ⟨0, _⟩ => rfl
    | ⟨1, _⟩ => rfl
  refine broadcastInDim_apply ![1] h2 f2b (ix2 (0 : Fin 1) (0 : Fin 1)) (ix1 (0 : Fin 1)) fun a => ?_
  match a with
  | ⟨0, _⟩ => rfl

/-! ## The first result: column 0 of a matrix as a vector, a column as a vector -/

/-- Column 0 of an [N, 128] matrix, cut out and reshaped to a vector. -/
theorem col0_eq (op : Arr sNF) (h : sNF.Slices ![0, 0] sN1) (hc : sN1.ShapeCasts sN) :
    shapeCast sN (extractStridedSlice sN1 ![0, 0] op h) hc = fun i => op (ix2 (i 0) 0) := by
  funext i
  obtain ⟨r, rfl⟩ : ∃ r : Fin 50000, i = ix1 r := ⟨i 0, eq_ix1 i⟩
  refine (shapeCast_a1_a_apply _ hc r).trans ?_
  exact slice2_axis1_apply 0 op h r (0 : Fin 1) (0 : Fin 128) rfl

/-- A column [N, 1] reshaped to a vector. -/
theorem col_reshape_eq (v : Arr sN1) (hc : sN1.ShapeCasts sN) : shapeCast sN v hc = fun i => v (ix2 (i 0) 0) := by
  funext i
  obtain ⟨r, rfl⟩ : ∃ r : Fin 50000, i = ix1 r := ⟨i 0, eq_ix1 i⟩
  exact shapeCast_a1_a_apply v hc r

/-! ## Two [N, 128] matrices side by side -/

/-- The left half of the concatenation along the columns is the first matrix … -/
theorem concat_left (z1 z2 : Arr sNF) (h : Shape.Concatenates [sNF, sNF] sNG 1) (r : Fin 50000) (c : Fin 128) :
    concatenate sNG 1 [⟨sNF, z1⟩, ⟨sNF, z2⟩] h (ix2 r (Fin.castAdd 128 c)) = z1 (ix2 r c) :=
  concatenate_pair_apply_left 1 z1 z2 h _ rfl (ix2 r c) fun b => by
    match b with
    | ⟨0, _⟩ => rfl
    | ⟨1, _⟩ => rfl

/-- … and the right half the second. -/
theorem concat_right (z1 z2 : Arr sNF) (h : Shape.Concatenates [sNF, sNF] sNG 1) (r : Fin 50000) (c : Fin 128) :
    concatenate sNG 1 [⟨sNF, z1⟩, ⟨sNF, z2⟩] h (ix2 r (Fin.natAdd 128 c)) = z2 (ix2 r c) :=
  concatenate_pair_apply_right 1 z1 z2 h _ rfl rfl (ix2 r c)
    (fun b hb => by
      match b, hb with
      | ⟨0, _⟩, _ => rfl
      | ⟨1, _⟩, hb => exact absurd rfl hb)
    (Nat.add_comm _ _)

/-- The concatenation at (r, k), by the half k falls in. -/
theorem concat_eq (z1 z2 : Arr sNF) (h : Shape.Concatenates [sNF, sNF] sNG 1) (r : Fin 50000) (k : Fin 256) :
    concatenate sNG 1 [⟨sNF, z1⟩, ⟨sNF, z2⟩] h (ix2 r k)
      = if hk : k.val < 128 then z1 (ix2 r ⟨k.val, hk⟩) else z2 (ix2 r ⟨k.val - 128, by omega⟩) := by
  split
  · next hk => exact concat_left z1 z2 h r ⟨k.val, hk⟩
  · next hk =>
    have e : k = Fin.natAdd 128 (⟨k.val - 128, by omega⟩ : Fin 128) := Fin.ext (by show k.val = 128 + (k.val - 128); omega)
    exact (congrArg (fun q : Fin 256 => concatenate sNG 1 [⟨sNF, z1⟩, ⟨sNF, z2⟩] h (ix2 r q)) e).trans
      (concat_right z1 z2 h r ⟨k.val - 128, by omega⟩)

/-- A sum over 256 columns is the sum over the left 128 plus the sum over the right 128. -/
theorem sum_fin256_split {M : Type*} [AddCommMonoid M] (f : Fin 256 → M) :
    ∑ k : Fin 256, f k = ∑ c : Fin 128, f (Fin.castAdd 128 c) + ∑ c : Fin 128, f (Fin.natAdd 128 c) :=
  Fin.sum_univ_add (a := 128) (b := 128) f

end Cert.Layout

end
-- ==== Proof.KIrr.lean ====
/-
  The two irregular host operations as this program prints them: the row gather of a [50000, 128] table at an index
  vector whose negative entries are first moved up by 50000 and which is then laid as a column [800000, 1], and the
  sum of [800000, 128] update rows into the rows an index column names, starting from the zero array.
-/
import proofs.«161278_j35699768164381_1_alg».proof.KernelIdeal
import proofs.«161278_j35699768164381_1_alg».proof.Proof.Gen.KernelIdeal
import proofs.«161278_j35699768164381_1_alg».proof.Proof.Spec

noncomputable section

namespace Cert.KernelIdeal.Irr

open Idealize.ShloMosaic Cert.KernelIdeal Cert.KernelIdeal.Facts₀

/-- The program's gather-after-wrap and segment-sum-from-zero, as the specification's two parameters. -/
def kIrr : Cert.Spec.Irregular where
  gath x i := Host.gather gather_S50000x128_S800000x1_S800000x128_1_0_n_n_0_1_1128 x
    (broadcastInDim S800000x1 ![0] bcast_S800000_S800000x1_0
      (select (cmpi .slt i (broadcastInDim S800000 ![] bcast_S_S800000 (constantI S_ 32 0#32)))
        (addi i (broadcastInDim S800000 ![] bcast_S_S800000 (constantI S_ 32 50000#32))) i))
  scat i u := Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 i) u

end Cert.KernelIdeal.Irr

end
-- ==== Proof.KKeep.lean ====
/-
  (A region that reads the buffer through one of its input windows leaves that window's array as it found it.)
  A table: which buffers each segment of the idealized kernel program leaves alone. The program is a chain of host
  stretches and kernel regions; the buffer contents at boundary j of the chain are the fold W j. A host stretch changes
  only the buffers its operations write, a region only its own arrays. For each buffer that is written before one
  boundary and read after a later one, keep<s>_<buffer> says that segment s leaves it as it was, and
  from<j>_<buffer> that at boundary j it still holds what it held at the boundary where it became available.
-/
import proofs.«161278_j35699768164381_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## main_v1: available at boundary 1, read up to boundary 32 -/
theorem keep1_v1 (c : Dev nD) : W2 m ρ c (Proc.devRef .tc main_v1) = W1 m ρ c (Proc.devRef .tc main_v1) :=
  W2_of_ne m ρ c main_v1 (by decide)
theorem keep2_v1 (c : Dev nD) : W3 m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v1 (c : Dev nD) : W4 m ρ c (Proc.devRef .tc main_v1) = W3 m ρ c (Proc.devRef .tc main_v1) :=
  W4_of_ne m ρ c main_v1 (by decide)
theorem keep4_v1 (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v1 (c : Dev nD) : W6 m ρ c (Proc.devRef .tc main_v1) = W5 m ρ c (Proc.devRef .tc main_v1) :=
  W6_of_ne m ρ c main_v1 (by decide)
theorem keep6_v1 (c : Dev nD) : W7 m ρ c (Proc.devRef .tc main_v1) = W6 m ρ c (Proc.devRef .tc main_v1) :=
  StableHlo.after_of_forall_not_mem (b := Proc.devRef .tc main_v1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v1 (c : Dev nD) : W8 m ρ c (Proc.devRef .tc main_v1) = W7 m ρ c (Proc.devRef .tc main_v1) :=
  W8_of_ne m ρ c main_v1 (by decide)
theorem keep8_v1 (c : Dev nD) : W9 m ρ c (Proc.devRef .tc main_v1) = W8 m ρ c (Proc.devRef .tc main_v1) :=
  StableHlo.after_of_forall_not_mem (b := Proc.devRef .tc main_v1) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v1 (c : Dev nD) : W10 m ρ c (Proc.devRef .tc main_v1) = W9 m ρ c (Proc.devRef .tc main_v1) :=
  W10_of_ne m ρ c main_v1 (by decide)
theorem keep10_v1 (c : Dev nD) : W11 m ρ c (Proc.devRef .tc main_v1) = W10 m ρ c (Proc.devRef .tc main_v1) :=
  StableHlo.after_of_forall_not_mem (b := Proc.devRef .tc main_v1) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_v1 (c : Dev nD) : W12 m ρ c (Proc.devRef .tc main_v1) = W11 m ρ c (Proc.devRef .tc main_v1) :=
  W12_of_ne m ρ c main_v1 (by decide)
theorem keep12_v1 (c : Dev nD) : W13 m ρ c (Proc.devRef .tc main_v1) = W12 m ρ c (Proc.devRef .tc main_v1) :=
  StableHlo.after_of_forall_not_mem (b := Proc.devRef .tc main_v1) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_v1 (c : Dev nD) : W14 m ρ c (Proc.devRef .tc main_v1) = W13 m ρ c (Proc.devRef .tc main_v1) :=
  W14_of_ne m ρ c main_v1 (by decide)
theorem keep14_v1 (c : Dev nD) : W15 m ρ c (Proc.devRef .tc main_v1) = W14 m ρ c (Proc.devRef .tc main_v1) :=
  StableHlo.after_of_forall_not_mem (b := Proc.devRef .tc main_v1) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v1 (c : Dev nD) : W16 m ρ c (Proc.devRef .tc main_v1) = W15 m ρ c (Proc.devRef .tc main_v1) :=
  W16_of_ne m ρ c main_v1 (by decide)
theorem keep16_v1 (c : Dev nD) : W17 m ρ c (Proc.devRef .tc main_v1) = W16 m ρ c (Proc.devRef .tc main_v1) :=
  StableHlo.after_of_forall_not_mem (b := Proc.devRef .tc main_v1) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v1 (c : Dev nD) : W18 m ρ c (Proc.devRef .tc main_v1) = W17 m ρ c (Proc.devRef .tc main_v1) :=
  W18_of_ne m ρ c main_v1 (by decide)
theorem keep18_v1 (c : Dev nD) : W19 m ρ c (Proc.devRef .tc main_v1) = W18 m ρ c (Proc.devRef .tc main_v1) :=
  StableHlo.after_of_forall_not_mem (b := Proc.devRef .tc main_v1) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_v1 (c : Dev nD) : W20 m ρ c (Proc.devRef .tc main_v1) = W19 m ρ c (Proc.devRef .tc main_v1) :=
  W20_of_ne m ρ c main_v1 (by decide)
theorem keep20_v1 (c : Dev nD) : W21 m ρ c (Proc.devRef .tc main_v1) = W20 m ρ c (Proc.devRef .tc main_v1) :=
  StableHlo.after_of_forall_not_mem (b := Proc.devRef .tc main_v1) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_v1 (c : Dev nD) : W22 m ρ c (Proc.devRef .tc main_v1) = W21 m ρ c (Proc.devRef .tc main_v1) :=
  W22_of_ne m ρ c main_v1 (by decide)
theorem keep22_v1 (c : Dev nD) : W23 m ρ c (Proc.devRef .tc main_v1) = W22 m ρ c (Proc.devRef .tc main_v1) :=
  StableHlo.after_of_forall_not_mem (b := Proc.devRef .tc main_v1) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_v1 (c : Dev nD) : W24 m ρ c (Proc.devRef .tc main_v1) = W23 m ρ c (Proc.devRef .tc main_v1) :=
  W24_of_ne m ρ c main_v1 (by decide)
theorem keep24_v1 (c : Dev nD) : W25 m ρ c (Proc.devRef .tc main_v1) = W24 m ρ c (Proc.devRef .tc main_v1) :=
  StableHlo.after_of_forall_not_mem (b := Proc.devRef .tc main_v1) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep25_v1 (c : Dev nD) : W26 m ρ c (Proc.devRef .tc main_v1) = W25 m ρ c (Proc.devRef .tc main_v1) :=
  W26_of_ne m ρ c main_v1 (by decide)
theorem keep26_v1 (c : Dev nD) : W27 m ρ c (Proc.devRef .tc main_v1) = W26 m ρ c (Proc.devRef .tc main_v1) :=
  StableHlo.after_of_forall_not_mem (b := Proc.devRef .tc main_v1) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v1 (c : Dev nD) : W28 m ρ c (Proc.devRef .tc main_v1) = W27 m ρ c (Proc.devRef .tc main_v1) :=
  W28_of_ne m ρ c main_v1 (by decide)
theorem keep28_v1 (c : Dev nD) : W29 m ρ c (Proc.devRef .tc main_v1) = W28 m ρ c (Proc.devRef .tc main_v1) :=
  StableHlo.after_of_forall_not_mem (b := Proc.devRef .tc main_v1) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v1 (c : Dev nD) : W30 m ρ c (Proc.devRef .tc main_v1) = W29 m ρ c (Proc.devRef .tc main_v1) :=
  W30_of_ne m ρ c main_v1 (by decide)
theorem keep30_v1 (c : Dev nD) : W31 m ρ c (Proc.devRef .tc main_v1) = W30 m ρ c (Proc.devRef .tc main_v1) :=
  StableHlo.after_of_forall_not_mem (b := Proc.devRef .tc main_v1) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_v1 (c : Dev nD) : W32 m ρ c (Proc.devRef .tc main_v1) = W31 m ρ c (Proc.devRef .tc main_v1) :=
  W32_of_ne m ρ c main_v1 (by decide)
theorem from2_v1 (c : Dev nD) : W2 m ρ c (Proc.devRef .tc main_v1) = W1 m ρ c (Proc.devRef .tc main_v1) :=
  (keep1_v1 m ρ c)
theorem from3_v1 (c : Dev nD) : W3 m ρ c (Proc.devRef .tc main_v1) = W1 m ρ c (Proc.devRef .tc main_v1) :=
  (keep2_v1 m ρ c).trans (from2_v1 m ρ c)
theorem from4_v1 (c : Dev nD) : W4 m ρ c (Proc.devRef .tc main_v1) = W1 m ρ c (Proc.devRef .tc main_v1) :=
  (keep3_v1 m ρ c).trans (from3_v1 m ρ c)
theorem from5_v1 (c : Dev nD) : W5 m ρ c (Proc.devRef .tc main_v1) = W1 m ρ c (Proc.devRef .tc main_v1) :=
  (keep4_v1 m ρ c).trans (from4_v1 m ρ c)
theorem from6_v1 (c : Dev nD) : W6 m ρ c (Proc.devRef .tc main_v1) = W1 m ρ c (Proc.devRef .tc main_v1) :=
  (keep5_v1 m ρ c).trans (from5_v1 m ρ c)
theorem from7_v1 (c : Dev nD) : W7 m ρ c (Proc.devRef .tc main_v1) = W1 m ρ c (Proc.devRef .tc main_v1) :=
  (keep6_v1 m ρ c).trans (from6_v1 m ρ c)
theorem from8_v1 (c : Dev nD) : W8 m ρ c (Proc.devRef .tc main_v1) = W1 m ρ c (Proc.devRef .tc main_v1) :=
  (keep7_v1 m ρ c).trans (from7_v1 m ρ c)
theorem from9_v1 (c : Dev nD) : W9 m ρ c (Proc.devRef .tc main_v1) = W1 m ρ c (Proc.devRef .tc main_v1) :=
  (keep8_v1 m ρ c).trans (from8_v1 m ρ c)
theorem from10_v1 (c : Dev nD) : W10 m ρ c (Proc.devRef .tc main_v1) = W1 m ρ c (Proc.devRef .tc main_v1) :=
  (keep9_v1 m ρ c).trans (from9_v1 m ρ c)
theorem from11_v1 (c : Dev nD) : W11 m ρ c (Proc.devRef .tc main_v1) = W1 m ρ c (Proc.devRef .tc main_v1) :=
  (keep10_v1 m ρ c).trans (from10_v1 m ρ c)
theorem from12_v1 (c : Dev nD) : W12 m ρ c (Proc.devRef .tc main_v1) = W1 m ρ c (Proc.devRef .tc main_v1) :=
  (keep11_v1 m ρ c).trans (from11_v1 m ρ c)
theorem from13_v1 (c : Dev nD) : W13 m ρ c (Proc.devRef .tc main_v1) = W1 m ρ c (Proc.devRef .tc main_v1) :=
  (keep12_v1 m ρ c).trans (from12_v1 m ρ c)
theorem from14_v1 (c : Dev nD) : W14 m ρ c (Proc.devRef .tc main_v1) = W1 m ρ c (Proc.devRef .tc main_v1) :=
  (keep13_v1 m ρ c).trans (from13_v1 m ρ c)
theorem from15_v1 (c : Dev nD) : W15 m ρ c (Proc.devRef .tc main_v1) = W1 m ρ c (Proc.devRef .tc main_v1) :=
  (keep14_v1 m ρ c).trans (from14_v1 m ρ c)
theorem from16_v1 (c : Dev nD) : W16 m ρ c (Proc.devRef .tc main_v1) = W1 m ρ c (Proc.devRef .tc main_v1) :=
  (keep15_v1 m ρ c).trans (from15_v1 m ρ c)
theorem from17_v1 (c : Dev nD) : W17 m ρ c (Proc.devRef .tc main_v1) = W1 m ρ c (Proc.devRef .tc main_v1) :=
  (keep16_v1 m ρ c).trans (from16_v1 m ρ c)
theorem from18_v1 (c : Dev nD) : W18 m ρ c (Proc.devRef .tc main_v1) = W1 m ρ c (Proc.devRef .tc main_v1) :=
  (keep17_v1 m ρ c).trans (from17_v1 m ρ c)
theorem from19_v1 (c : Dev nD) : W19 m ρ c (Proc.devRef .tc main_v1) = W1 m ρ c (Proc.devRef .tc main_v1) :=
  (keep18_v1 m ρ c).trans (from18_v1 m ρ c)
theorem from20_v1 (c : Dev nD) : W20 m ρ c (Proc.devRef .tc main_v1) = W1 m ρ c (Proc.devRef .tc main_v1) :=
  (keep19_v1 m ρ c).trans (from19_v1 m ρ c)
theorem from21_v1 (c : Dev nD) : W21 m ρ c (Proc.devRef .tc main_v1) = W1 m ρ c (Proc.devRef .tc main_v1) :=
  (keep20_v1 m ρ c).trans (from20_v1 m ρ c)
theorem from22_v1 (c : Dev nD) : W22 m ρ c (Proc.devRef .tc main_v1) = W1 m ρ c (Proc.devRef .tc main_v1) :=
  (keep21_v1 m ρ c).trans (from21_v1 m ρ c)
theorem from23_v1 (c : Dev nD) : W23 m ρ c (Proc.devRef .tc main_v1) = W1 m ρ c (Proc.devRef .tc main_v1) :=
  (keep22_v1 m ρ c).trans (from22_v1 m ρ c)
theorem from24_v1 (c : Dev nD) : W24 m ρ c (Proc.devRef .tc main_v1) = W1 m ρ c (Proc.devRef .tc main_v1) :=
  (keep23_v1 m ρ c).trans (from23_v1 m ρ c)
theorem from25_v1 (c : Dev nD) : W25 m ρ c (Proc.devRef .tc main_v1) = W1 m ρ c (Proc.devRef .tc main_v1) :=
  (keep24_v1 m ρ c).trans (from24_v1 m ρ c)
theorem from26_v1 (c : Dev nD) : W26 m ρ c (Proc.devRef .tc main_v1) = W1 m ρ c (Proc.devRef .tc main_v1) :=
  (keep25_v1 m ρ c).trans (from25_v1 m ρ c)
theorem from27_v1 (c : Dev nD) : W27 m ρ c (Proc.devRef .tc main_v1) = W1 m ρ c (Proc.devRef .tc main_v1) :=
  (keep26_v1 m ρ c).trans (from26_v1 m ρ c)
theorem from28_v1 (c : Dev nD) : W28 m ρ c (Proc.devRef .tc main_v1) = W1 m ρ c (Proc.devRef .tc main_v1) :=
  (keep27_v1 m ρ c).trans (from27_v1 m ρ c)
theorem from29_v1 (c : Dev nD) : W29 m ρ c (Proc.devRef .tc main_v1) = W1 m ρ c (Proc.devRef .tc main_v1) :=
  (keep28_v1 m ρ c).trans (from28_v1 m ρ c)
theorem from30_v1 (c : Dev nD) : W30 m ρ c (Proc.devRef .tc main_v1) = W1 m ρ c (Proc.devRef .tc main_v1) :=
  (keep29_v1 m ρ c).trans (from29_v1 m ρ c)
theorem from31_v1 (c : Dev nD) : W31 m ρ c (Proc.devRef .tc main_v1) = W1 m ρ c (Proc.devRef .tc main_v1) :=
  (keep30_v1 m ρ c).trans (from30_v1 m ρ c)
theorem from32_v1 (c : Dev nD) : W32 m ρ c (Proc.devRef .tc main_v1) = W1 m ρ c (Proc.devRef .tc main_v1) :=
  (keep31_v1 m ρ c).trans (from31_v1 m ρ c)

/-! ## main_v3: available at boundary 1, read up to boundary 34 -/
theorem keep1_v3 (c : Dev nD) : W2 m ρ c (Proc.devRef .tc main_v3) = W1 m ρ c (Proc.devRef .tc main_v3) :=
  W2_of_ne m ρ c main_v3 (by decide)
theorem keep2_v3 (c : Dev nD) : W3 m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v3 (c : Dev nD) : W4 m ρ c (Proc.devRef .tc main_v3) = W3 m ρ c (Proc.devRef .tc main_v3) :=
  W4_of_ne m ρ c main_v3 (by decide)
theorem keep4_v3 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v3 (c : Dev nD) : W6 m ρ c (Proc.devRef .tc main_v3) = W5 m ρ c (Proc.devRef .tc main_v3) :=
  W6_of_ne m ρ c main_v3 (by decide)
theorem keep6_v3 (c : Dev nD) : W7 m ρ c (Proc.devRef .tc main_v3) = W6 m ρ c (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v3 (c : Dev nD) : W8 m ρ c (Proc.devRef .tc main_v3) = W7 m ρ c (Proc.devRef .tc main_v3) :=
  W8_of_ne m ρ c main_v3 (by decide)
theorem keep8_v3 (c : Dev nD) : W9 m ρ c (Proc.devRef .tc main_v3) = W8 m ρ c (Proc.devRef .tc main_v3) :=
  StableHlo.after_of_forall_not_mem (b := Proc.devRef .tc main_v3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v3 (c : Dev nD) : W10 m ρ c (Proc.devRef .tc main_v3) = W9 m ρ c (Proc.devRef .tc main_v3) :=
  W10_of_ne m ρ c main_v3 (by decide)
theorem keep10_v3 (c : Dev nD) : W11 m ρ c (Proc.devRef .tc main_v3) = W10 m ρ c (Proc.devRef .tc main_v3) :=
  StableHlo.after_of_forall_not_mem (b := Proc.devRef .tc main_v3) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_v3 (c : Dev nD) : W12 m ρ c (Proc.devRef .tc main_v3) = W11 m ρ c (Proc.devRef .tc main_v3) :=
  W12_of_ne m ρ c main_v3 (by decide)
theorem keep12_v3 (c : Dev nD) : W13 m ρ c (Proc.devRef .tc main_v3) = W12 m ρ c (Proc.devRef .tc main_v3) :=
  StableHlo.after_of_forall_not_mem (b := Proc.devRef .tc main_v3) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_v3 (c : Dev nD) : W14 m ρ c (Proc.devRef .tc main_v3) = W13 m ρ c (Proc.devRef .tc main_v3) :=
  W14_of_ne m ρ c main_v3 (by decide)
theorem keep14_v3 (c : Dev nD) : W15 m ρ c (Proc.devRef .tc main_v3) = W14 m ρ c (Proc.devRef .tc main_v3) :=
  StableHlo.after_of_forall_not_mem (b := Proc.devRef .tc main_v3) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v3 (c : Dev nD) : W16 m ρ c (Proc.devRef .tc main_v3) = W15 m ρ c (Proc.devRef .tc main_v3) :=
  W16_of_ne m ρ c main_v3 (by decide)
theorem keep16_v3 (c : Dev nD) : W17 m ρ c (Proc.devRef .tc main_v3) = W16 m ρ c (Proc.devRef .tc main_v3) :=
  StableHlo.after_of_forall_not_mem (b := Proc.devRef .tc main_v3) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v3 (c : Dev nD) : W18 m ρ c (Proc.devRef .tc main_v3) = W17 m ρ c (Proc.devRef .tc main_v3) :=
  W18_of_ne m ρ c main_v3 (by decide)
theorem keep18_v3 (c : Dev nD) : W19 m ρ c (Proc.devRef .tc main_v3) = W18 m ρ c (Proc.devRef .tc main_v3) :=
  StableHlo.after_of_forall_not_mem (b := Proc.devRef .tc main_v3) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_v3 (c : Dev nD) : W20 m ρ c (Proc.devRef .tc main_v3) = W19 m ρ c (Proc.devRef .tc main_v3) :=
  W20_of_ne m ρ c main_v3 (by decide)
theorem keep20_v3 (c : Dev nD) : W21 m ρ c (Proc.devRef .tc main_v3) = W20 m ρ c (Proc.devRef .tc main_v3) :=
  StableHlo.after_of_forall_not_mem (b := Proc.devRef .tc main_v3) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_v3 (c : Dev nD) : W22 m ρ c (Proc.devRef .tc main_v3) = W21 m ρ c (Proc.devRef .tc main_v3) :=
  W22_of_ne m ρ c main_v3 (by decide)
theorem keep22_v3 (c : Dev nD) : W23 m ρ c (Proc.devRef .tc main_v3) = W22 m ρ c (Proc.devRef .tc main_v3) :=
  StableHlo.after_of_forall_not_mem (b := Proc.devRef .tc main_v3) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_v3 (c : Dev nD) : W24 m ρ c (Proc.devRef .tc main_v3) = W23 m ρ c (Proc.devRef .tc main_v3) :=
  W24_of_ne m ρ c main_v3 (by decide)
theorem keep24_v3 (c : Dev nD) : W25 m ρ c (Proc.devRef .tc main_v3) = W24 m ρ c (Proc.devRef .tc main_v3) :=
  StableHlo.after_of_forall_not_mem (b := Proc.devRef .tc main_v3) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep25_v3 (c : Dev nD) : W26 m ρ c (Proc.devRef .tc main_v3) = W25 m ρ c (Proc.devRef .tc main_v3) :=
  W26_of_ne m ρ c main_v3 (by decide)
theorem keep26_v3 (c : Dev nD) : W27 m ρ c (Proc.devRef .tc main_v3) = W26 m ρ c (Proc.devRef .tc main_v3) :=
  StableHlo.after_of_forall_not_mem (b := Proc.devRef .tc main_v3) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v3 (c : Dev nD) : W28 m ρ c (Proc.devRef .tc main_v3) = W27 m ρ c (Proc.devRef .tc main_v3) :=
  W28_of_ne m ρ c main_v3 (by decide)
theorem keep28_v3 (c : Dev nD) : W29 m ρ c (Proc.devRef .tc main_v3) = W28 m ρ c (Proc.devRef .tc main_v3) :=
  StableHlo.after_of_forall_not_mem (b := Proc.devRef .tc main_v3) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v3 (c : Dev nD) : W30 m ρ c (Proc.devRef .tc main_v3) = W29 m ρ c (Proc.devRef .tc main_v3) :=
  W30_of_ne m ρ c main_v3 (by decide)
theorem keep30_v3 (c : Dev nD) : W31 m ρ c (Proc.devRef .tc main_v3) = W30 m ρ c (Proc.devRef .tc main_v3) :=
  StableHlo.after_of_forall_not_mem (b := Proc.devRef .tc main_v3) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_v3 (c : Dev nD) : W32 m ρ c (Proc.devRef .tc main_v3) = W31 m ρ c (Proc.devRef .tc main_v3) :=
  W32_of_ne m ρ c main_v3 (by decide)
theorem keep32_v3 (c : Dev nD) : W33 m ρ c (Proc.devRef .tc main_v3) = W32 m ρ c (Proc.devRef .tc main_v3) :=
  StableHlo.after_of_forall_not_mem (b := Proc.devRef .tc main_v3) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep33_v3 (c : Dev nD) : W34 m ρ c (Proc.devRef .tc main_v3) = W33 m ρ c (Proc.devRef .tc main_v3) :=
  W34_of_ne m ρ c main_v3 (by decide)
theorem from2_v3 (c : Dev nD) : W2 m ρ c (Proc.devRef .tc main_v3) = W1 m ρ c (Proc.devRef .tc main_v3) :=
  (keep1_v3 m ρ c)
theorem from3_v3 (c : Dev nD) : W3 m ρ c (Proc.devRef .tc main_v3) = W1 m ρ c (Proc.devRef .tc main_v3) :=
  (keep2_v3 m ρ c).trans (from2_v3 m ρ c)
theorem from4_v3 (c : Dev nD) : W4 m ρ c (Proc.devRef .tc main_v3) = W1 m ρ c (Proc.devRef .tc main_v3) :=
  (keep3_v3 m ρ c).trans (from3_v3 m ρ c)
theorem from5_v3 (c : Dev nD) : W5 m ρ c (Proc.devRef .tc main_v3) = W1 m ρ c (Proc.devRef .tc main_v3) :=
  (keep4_v3 m ρ c).trans (from4_v3 m ρ c)
theorem from6_v3 (c : Dev nD) : W6 m ρ c (Proc.devRef .tc main_v3) = W1 m ρ c (Proc.devRef .tc main_v3) :=
  (keep5_v3 m ρ c).trans (from5_v3 m ρ c)
theorem from7_v3 (c : Dev nD) : W7 m ρ c (Proc.devRef .tc main_v3) = W1 m ρ c (Proc.devRef .tc main_v3) :=
  (keep6_v3 m ρ c).trans (from6_v3 m ρ c)
theorem from8_v3 (c : Dev nD) : W8 m ρ c (Proc.devRef .tc main_v3) = W1 m ρ c (Proc.devRef .tc main_v3) :=
  (keep7_v3 m ρ c).trans (from7_v3 m ρ c)
theorem from9_v3 (c : Dev nD) : W9 m ρ c (Proc.devRef .tc main_v3) = W1 m ρ c (Proc.devRef .tc main_v3) :=
  (keep8_v3 m ρ c).trans (from8_v3 m ρ c)
theorem from10_v3 (c : Dev nD) : W10 m ρ c (Proc.devRef .tc main_v3) = W1 m ρ c (Proc.devRef .tc main_v3) :=
  (keep9_v3 m ρ c).trans (from9_v3 m ρ c)
theorem from11_v3 (c : Dev nD) : W11 m ρ c (Proc.devRef .tc main_v3) = W1 m ρ c (Proc.devRef .tc main_v3) :=
  (keep10_v3 m ρ c).trans (from10_v3 m ρ c)
theorem from12_v3 (c : Dev nD) : W12 m ρ c (Proc.devRef .tc main_v3) = W1 m ρ c (Proc.devRef .tc main_v3) :=
  (keep11_v3 m ρ c).trans (from11_v3 m ρ c)
theorem from13_v3 (c : Dev nD) : W13 m ρ c (Proc.devRef .tc main_v3) = W1 m ρ c (Proc.devRef .tc main_v3) :=
  (keep12_v3 m ρ c).trans (from12_v3 m ρ c)
theorem from14_v3 (c : Dev nD) : W14 m ρ c (Proc.devRef .tc main_v3) = W1 m ρ c (Proc.devRef .tc main_v3) :=
  (keep13_v3 m ρ c).trans (from13_v3 m ρ c)
theorem from15_v3 (c : Dev nD) : W15 m ρ c (Proc.devRef .tc main_v3) = W1 m ρ c (Proc.devRef .tc main_v3) :=
  (keep14_v3 m ρ c).trans (from14_v3 m ρ c)
theorem from16_v3 (c : Dev nD) : W16 m ρ c (Proc.devRef .tc main_v3) = W1 m ρ c (Proc.devRef .tc main_v3) :=
  (keep15_v3 m ρ c).trans (from15_v3 m ρ c)
theorem from17_v3 (c : Dev nD) : W17 m ρ c (Proc.devRef .tc main_v3) = W1 m ρ c (Proc.devRef .tc main_v3) :=
  (keep16_v3 m ρ c).trans (from16_v3 m ρ c)
theorem from18_v3 (c : Dev nD) : W18 m ρ c (Proc.devRef .tc main_v3) = W1 m ρ c (Proc.devRef .tc main_v3) :=
  (keep17_v3 m ρ c).trans (from17_v3 m ρ c)
theorem from19_v3 (c : Dev nD) : W19 m ρ c (Proc.devRef .tc main_v3) = W1 m ρ c (Proc.devRef .tc main_v3) :=
  (keep18_v3 m ρ c).trans (from18_v3 m ρ c)
theorem from20_v3 (c : Dev nD) : W20 m ρ c (Proc.devRef .tc main_v3) = W1 m ρ c (Proc.devRef .tc main_v3) :=
  (keep19_v3 m ρ c).trans (from19_v3 m ρ c)
theorem from21_v3 (c : Dev nD) : W21 m ρ c (Proc.devRef .tc main_v3) = W1 m ρ c (Proc.devRef .tc main_v3) :=
  (keep20_v3 m ρ c).trans (from20_v3 m ρ c)
theorem from22_v3 (c : Dev nD) : W22 m ρ c (Proc.devRef .tc main_v3) = W1 m ρ c (Proc.devRef .tc main_v3) :=
  (keep21_v3 m ρ c).trans (from21_v3 m ρ c)
theorem from23_v3 (c : Dev nD) : W23 m ρ c (Proc.devRef .tc main_v3) = W1 m ρ c (Proc.devRef .tc main_v3) :=
  (keep22_v3 m ρ c).trans (from22_v3 m ρ c)
theorem from24_v3 (c : Dev nD) : W24 m ρ c (Proc.devRef .tc main_v3) = W1 m ρ c (Proc.devRef .tc main_v3) :=
  (keep23_v3 m ρ c).trans (from23_v3 m ρ c)
theorem from25_v3 (c : Dev nD) : W25 m ρ c (Proc.devRef .tc main_v3) = W1 m ρ c (Proc.devRef .tc main_v3) :=
  (keep24_v3 m ρ c).trans (from24_v3 m ρ c)
theorem from26_v3 (c : Dev nD) : W26 m ρ c (Proc.devRef .tc main_v3) = W1 m ρ c (Proc.devRef .tc main_v3) :=
  (keep25_v3 m ρ c).trans (from25_v3 m ρ c)
theorem from27_v3 (c : Dev nD) : W27 m ρ c (Proc.devRef .tc main_v3) = W1 m ρ c (Proc.devRef .tc main_v3) :=
  (keep26_v3 m ρ c).trans (from26_v3 m ρ c)
theorem from28_v3 (c : Dev nD) : W28 m ρ c (Proc.devRef .tc main_v3) = W1 m ρ c (Proc.devRef .tc main_v3) :=
  (keep27_v3 m ρ c).trans (from27_v3 m ρ c)
theorem from29_v3 (c : Dev nD) : W29 m ρ c (Proc.devRef .tc main_v3) = W1 m ρ c (Proc.devRef .tc main_v3) :=
  (keep28_v3 m ρ c).trans (from28_v3 m ρ c)
theorem from30_v3 (c : Dev nD) : W30 m ρ c (Proc.devRef .tc main_v3) = W1 m ρ c (Proc.devRef .tc main_v3) :=
  (keep29_v3 m ρ c).trans (from29_v3 m ρ c)
theorem from31_v3 (c : Dev nD) : W31 m ρ c (Proc.devRef .tc main_v3) = W1 m ρ c (Proc.devRef .tc main_v3) :=
  (keep30_v3 m ρ c).trans (from30_v3 m ρ c)
theorem from32_v3 (c : Dev nD) : W32 m ρ c (Proc.devRef .tc main_v3) = W1 m ρ c (Proc.devRef .tc main_v3) :=
  (keep31_v3 m ρ c).trans (from31_v3 m ρ c)
theorem from33_v3 (c : Dev nD) : W33 m ρ c (Proc.devRef .tc main_v3) = W1 m ρ c (Proc.devRef .tc main_v3) :=
  (keep32_v3 m ρ c).trans (from32_v3 m ρ c)
theorem from34_v3 (c : Dev nD) : W34 m ρ c (Proc.devRef .tc main_v3) = W1 m ρ c (Proc.devRef .tc main_v3) :=
  (keep33_v3 m ρ c).trans (from33_v3 m ρ c)

/-! ## main_v5: available at boundary 1, read up to boundary 7 -/
theorem keep1_v5 (c : Dev nD) : W2 m ρ c (Proc.devRef .tc main_v5) = W1 m ρ c (Proc.devRef .tc main_v5) :=
  W2_of_ne m ρ c main_v5 (by decide)
theorem keep2_v5 (c : Dev nD) : W3 m ρ c (Proc.devRef .tc main_v5) = W2 m ρ c (Proc.devRef .tc main_v5) :=
  StableHlo.after_of_forall_not_mem (b := Proc.devRef .tc main_v5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v5 (c : Dev nD) : W4 m ρ c (Proc.devRef .tc main_v5) = W3 m ρ c (Proc.devRef .tc main_v5) :=
  W4_of_ne m ρ c main_v5 (by decide)
theorem keep4_v5 (c : Dev nD) : W5 m ρ c (Proc.devRef .tc main_v5) = W4 m ρ c (Proc.devRef .tc main_v5) :=
  StableHlo.after_of_forall_not_mem (b := Proc.devRef .tc main_v5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v5 (c : Dev nD) : W6 m ρ c (Proc.devRef .tc main_v5) = W5 m ρ c (Proc.devRef .tc main_v5) :=
  W6_of_ne m ρ c main_v5 (by decide)
theorem keep6_v5 (c : Dev nD) : W7 m ρ c (Proc.devRef .tc main_v5) = W6 m ρ c (Proc.devRef .tc main_v5) :=
  StableHlo.after_of_forall_not_mem (b := Proc.devRef .tc main_v5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from2_v5 (c : Dev nD) : W2 m ρ c (Proc.devRef .tc main_v5) = W1 m ρ c (Proc.devRef .tc main_v5) :=
  (keep1_v5 m ρ c)
theorem from3_v5 (c : Dev nD) : W3 m ρ c (Proc.devRef .tc main_v5) = W1 m ρ c (Proc.devRef .tc main_v5) :=
  (keep2_v5 m ρ c).trans (from2_v5 m ρ c)
theorem from4_v5 (c : Dev nD) : W4 m ρ c (Proc.devRef .tc main_v5) = W1 m ρ c (Proc.devRef .tc main_v5) :=
  (keep3_v5 m ρ c).trans (from3_v5 m ρ c)
theorem from5_v5 (c : Dev nD) : W5 m ρ c (Proc.devRef .tc main_v5) = W1 m ρ c (Proc.devRef .tc main_v5) :=
  (keep4_v5 m ρ c).trans (from4_v5 m ρ c)
theorem from6_v5 (c : Dev nD) : W6 m ρ c (Proc.devRef .tc main_v5) = W1 m ρ c (Proc.devRef .tc main_v5) :=
  (keep5_v5 m ρ c).trans (from5_v5 m ρ c)
theorem from7_v5 (c : Dev nD) : W7 m ρ c (Proc.devRef .tc main_v5) = W1 m ρ c (Proc.devRef .tc main_v5) :=
  (keep6_v5 m ρ c).trans (from6_v5 m ρ c)

/-! ## main_v6: available at boundary 1, read up to boundary 33 -/
theorem keep1_v6 (c : Dev nD) : W2 m ρ c (Proc.devRef .tc main_v6) = W1 m ρ c (Proc.devRef .tc main_v6) :=
  W2_of_ne m ρ c main_v6 (by decide)
theorem keep2_v6 (c : Dev nD) : W3 m ρ c (Proc.devRef .tc main_v6) = W2 m ρ c (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v6 (c : Dev nD) : W4 m ρ c (Proc.devRef .tc main_v6) = W3 m ρ c (Proc.devRef .tc main_v6) :=
  (W4_arr m ρ c 1).trans (((dat1 (V3 m ρ) c).arrAt_in 1 rfl _).trans (A_eq1 (V3 m ρ) c 1))
theorem keep4_v6 (c : Dev nD) : W5 m ρ c (Proc.devRef .tc main_v6) = W4 m ρ c (Proc.devRef .tc main_v6) :=
  StableHlo.after_of_forall_not_mem (b := Proc.devRef .tc main_v6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v6 (c : Dev nD) : W6 m ρ c (Proc.devRef .tc main_v6) = W5 m ρ c (Proc.devRef .tc main_v6) :=
  W6_of_ne m ρ c main_v6 (by decide)
theorem keep6_v6 (c : Dev nD) : W7 m ρ c (Proc.devRef .tc main_v6) = W6 m ρ c (Proc.devRef .tc main_v6) :=
  StableHlo.after_of_forall_not_mem (b := Proc.devRef .tc main_v6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v6 (c : Dev nD) : W8 m ρ c (Proc.devRef .tc main_v6) = W7 m ρ c (Proc.devRef .tc main_v6) :=
  W8_of_ne m ρ c main_v6 (by decide)
theorem keep8_v6 (c : Dev nD) : W9 m ρ c (Proc.devRef .tc main_v6) = W8 m ρ c (Proc.devRef .tc main_v6) :=
  StableHlo.after_of_forall_not_mem (b := Proc.devRef .tc main_v6) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v6 (c : Dev nD) : W10 m ρ c (Proc.devRef .tc main_v6) = W9 m ρ c (Proc.devRef .tc main_v6) :=
  (W10_arr m ρ c 1).trans (((dat4 (V9 m ρ) c).arrAt_in 1 rfl _).trans (A_eq4 (V9 m ρ) c 1))
theorem keep10_v6 (c : Dev nD) : W11 m ρ c (Proc.devRef .tc main_v6) = W10 m ρ c (Proc.devRef .tc main_v6) :=
  StableHlo.after_of_forall_not_mem (b := Proc.devRef .tc main_v6) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_v6 (c : Dev nD) : W12 m ρ c (Proc.devRef .tc main_v6) = W11 m ρ c (Proc.devRef .tc main_v6) :=
  W12_of_ne m ρ c main_v6 (by decide)
theorem keep12_v6 (c : Dev nD) : W13 m ρ c (Proc.devRef .tc main_v6) = W12 m ρ c (Proc.devRef .tc main_v6) :=
  StableHlo.after_of_forall_not_mem (b := Proc.devRef .tc main_v6) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_v6 (c : Dev nD) : W14 m ρ c (Proc.devRef .tc main_v6) = W13 m ρ c (Proc.devRef .tc main_v6) :=
  W14_of_ne m ρ c main_v6 (by decide)
theorem keep14_v6 (c : Dev nD) : W15 m ρ c (Proc.devRef .tc main_v6) = W14 m ρ c (Proc.devRef .tc main_v6) :=
  StableHlo.after_of_forall_not_mem (b := Proc.devRef .tc main_v6) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v6 (c : Dev nD) : W16 m ρ c (Proc.devRef .tc main_v6) = W15 m ρ c (Proc.devRef .tc main_v6) :=
  (W16_arr m ρ c 1).trans (((dat7 (V15 m ρ) c).arrAt_in 1 rfl _).trans (A_eq7 (V15 m ρ) c 1))
theorem keep16_v6 (c : Dev nD) : W17 m ρ c (Proc.devRef .tc main_v6) = W16 m ρ c (Proc.devRef .tc main_v6) :=
  StableHlo.after_of_forall_not_mem (b := Proc.devRef .tc main_v6) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v6 (c : Dev nD) : W18 m ρ c (Proc.devRef .tc main_v6) = W17 m ρ c (Proc.devRef .tc main_v6) :=
  W18_of_ne m ρ c main_v6 (by decide)
theorem keep18_v6 (c : Dev nD) : W19 m ρ c (Proc.devRef .tc main_v6) = W18 m ρ c (Proc.devRef .tc main_v6) :=
  StableHlo.after_of_forall_not_mem (b := Proc.devRef .tc main_v6) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_v6 (c : Dev nD) : W20 m ρ c (Proc.devRef .tc main_v6) = W19 m ρ c (Proc.devRef .tc main_v6) :=
  W20_of_ne m ρ c main_v6 (by decide)
theorem keep20_v6 (c : Dev nD) : W21 m ρ c (Proc.devRef .tc main_v6) = W20 m ρ c (Proc.devRef .tc main_v6) :=
  StableHlo.after_of_forall_not_mem (b := Proc.devRef .tc main_v6) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_v6 (c : Dev nD) : W22 m ρ c (Proc.devRef .tc main_v6) = W21 m ρ c (Proc.devRef .tc main_v6) :=
  (W22_arr m ρ c 1).trans (((dat10 (V21 m ρ) c).arrAt_in 1 rfl _).trans (A_eq10 (V21 m ρ) c 1))
theorem keep22_v6 (c : Dev nD) : W23 m ρ c (Proc.devRef .tc main_v6) = W22 m ρ c (Proc.devRef .tc main_v6) :=
  StableHlo.after_of_forall_not_mem (b := Proc.devRef .tc main_v6) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_v6 (c : Dev nD) : W24 m ρ c (Proc.devRef .tc main_v6) = W23 m ρ c (Proc.devRef .tc main_v6) :=
  W24_of_ne m ρ c main_v6 (by decide)
theorem keep24_v6 (c : Dev nD) : W25 m ρ c (Proc.devRef .tc main_v6) = W24 m ρ c (Proc.devRef .tc main_v6) :=
  StableHlo.after_of_forall_not_mem (b := Proc.devRef .tc main_v6) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep25_v6 (c : Dev nD) : W26 m ρ c (Proc.devRef .tc main_v6) = W25 m ρ c (Proc.devRef .tc main_v6) :=
  W26_of_ne m ρ c main_v6 (by decide)
theorem keep26_v6 (c : Dev nD) : W27 m ρ c (Proc.devRef .tc main_v6) = W26 m ρ c (Proc.devRef .tc main_v6) :=
  StableHlo.after_of_forall_not_mem (b := Proc.devRef .tc main_v6) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v6 (c : Dev nD) : W28 m ρ c (Proc.devRef .tc main_v6) = W27 m ρ c (Proc.devRef .tc main_v6) :=
  (W28_arr m ρ c 1).trans (((dat13 (V27 m ρ) c).arrAt_in 1 rfl _).trans (A_eq13 (V27 m ρ) c 1))
theorem keep28_v6 (c : Dev nD) : W29 m ρ c (Proc.devRef .tc main_v6) = W28 m ρ c (Proc.devRef .tc main_v6) :=
  StableHlo.after_of_forall_not_mem (b := Proc.devRef .tc main_v6) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v6 (c : Dev nD) : W30 m ρ c (Proc.devRef .tc main_v6) = W29 m ρ c (Proc.devRef .tc main_v6) :=
  W30_of_ne m ρ c main_v6 (by decide)
theorem keep30_v6 (c : Dev nD) : W31 m ρ c (Proc.devRef .tc main_v6) = W30 m ρ c (Proc.devRef .tc main_v6) :=
  StableHlo.after_of_forall_not_mem (b := Proc.devRef .tc main_v6) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_v6 (c : Dev nD) : W32 m ρ c (Proc.devRef .tc main_v6) = W31 m ρ c (Proc.devRef .tc main_v6) :=
  W32_of_ne m ρ c main_v6 (by decide)
theorem keep32_v6 (c : Dev nD) : W33 m ρ c (Proc.devRef .tc main_v6) = W32 m ρ c (Proc.devRef .tc main_v6) :=
  StableHlo.after_of_forall_not_mem (b := Proc.devRef .tc main_v6) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from2_v6 (c : Dev nD) : W2 m ρ c (Proc.devRef .tc main_v6) = W1 m ρ c (Proc.devRef .tc main_v6) :=
  (keep1_v6 m ρ c)
theorem from3_v6 (c : Dev nD) : W3 m ρ c (Proc.devRef .tc main_v6) = W1 m ρ c (Proc.devRef .tc main_v6) :=
  (keep2_v6 m ρ c).trans (from2_v6 m ρ c)
theorem from4_v6 (c : Dev nD) : W4 m ρ c (Proc.devRef .tc main_v6) = W1 m ρ c (Proc.devRef .tc main_v6) :=
  (keep3_v6 m ρ c).trans (from3_v6 m ρ c)
theorem from5_v6 (c : Dev nD) : W5 m ρ c (Proc.devRef .tc main_v6) = W1 m ρ c (Proc.devRef .tc main_v6) :=
  (keep4_v6 m ρ c).trans (from4_v6 m ρ c)
theorem from6_v6 (c : Dev nD) : W6 m ρ c (Proc.devRef .tc main_v6) = W1 m ρ c (Proc.devRef .tc main_v6) :=
  (keep5_v6 m ρ c).trans (from5_v6 m ρ c)
theorem from7_v6 (c : Dev nD) : W7 m ρ c (Proc.devRef .tc main_v6) = W1 m ρ c (Proc.devRef .tc main_v6) :=
  (keep6_v6 m ρ c).trans (from6_v6 m ρ c)
theorem from8_v6 (c : Dev nD) : W8 m ρ c (Proc.devRef .tc main_v6) = W1 m ρ c (Proc.devRef .tc main_v6) :=
  (keep7_v6 m ρ c).trans (from7_v6 m ρ c)
theorem from9_v6 (c : Dev nD) : W9 m ρ c (Proc.devRef .tc main_v6) = W1 m ρ c (Proc.devRef .tc main_v6) :=
  (keep8_v6 m ρ c).trans (from8_v6 m ρ c)
theorem from10_v6 (c : Dev nD) : W10 m ρ c (Proc.devRef .tc main_v6) = W1 m ρ c (Proc.devRef .tc main_v6) :=
  (keep9_v6 m ρ c).trans (from9_v6 m ρ c)
theorem from11_v6 (c : Dev nD) : W11 m ρ c (Proc.devRef .tc main_v6) = W1 m ρ c (Proc.devRef .tc main_v6) :=
  (keep10_v6 m ρ c).trans (from10_v6 m ρ c)
theorem from12_v6 (c : Dev nD) : W12 m ρ c (Proc.devRef .tc main_v6) = W1 m ρ c (Proc.devRef .tc main_v6) :=
  (keep11_v6 m ρ c).trans (from11_v6 m ρ c)
theorem from13_v6 (c : Dev nD) : W13 m ρ c (Proc.devRef .tc main_v6) = W1 m ρ c (Proc.devRef .tc main_v6) :=
  (keep12_v6 m ρ c).trans (from12_v6 m ρ c)
theorem from14_v6 (c : Dev nD) : W14 m ρ c (Proc.devRef .tc main_v6) = W1 m ρ c (Proc.devRef .tc main_v6) :=
  (keep13_v6 m ρ c).trans (from13_v6 m ρ c)
theorem from15_v6 (c : Dev nD) : W15 m ρ c (Proc.devRef .tc main_v6) = W1 m ρ c (Proc.devRef .tc main_v6) :=
  (keep14_v6 m ρ c).trans (from14_v6 m ρ c)
theorem from16_v6 (c : Dev nD) : W16 m ρ c (Proc.devRef .tc main_v6) = W1 m ρ c (Proc.devRef .tc main_v6) :=
  (keep15_v6 m ρ c).trans (from15_v6 m ρ c)
theorem from17_v6 (c : Dev nD) : W17 m ρ c (Proc.devRef .tc main_v6) = W1 m ρ c (Proc.devRef .tc main_v6) :=
  (keep16_v6 m ρ c).trans (from16_v6 m ρ c)
theorem from18_v6 (c : Dev nD) : W18 m ρ c (Proc.devRef .tc main_v6) = W1 m ρ c (Proc.devRef .tc main_v6) :=
  (keep17_v6 m ρ c).trans (from17_v6 m ρ c)
theorem from19_v6 (c : Dev nD) : W19 m ρ c (Proc.devRef .tc main_v6) = W1 m ρ c (Proc.devRef .tc main_v6) :=
  (keep18_v6 m ρ c).trans (from18_v6 m ρ c)
theorem from20_v6 (c : Dev nD) : W20 m ρ c (Proc.devRef .tc main_v6) = W1 m ρ c (Proc.devRef .tc main_v6) :=
  (keep19_v6 m ρ c).trans (from19_v6 m ρ c)
theorem from21_v6 (c : Dev nD) : W21 m ρ c (Proc.devRef .tc main_v6) = W1 m ρ c (Proc.devRef .tc main_v6) :=
  (keep20_v6 m ρ c).trans (from20_v6 m ρ c)
theorem from22_v6 (c : Dev nD) : W22 m ρ c (Proc.devRef .tc main_v6) = W1 m ρ c (Proc.devRef .tc main_v6) :=
  (keep21_v6 m ρ c).trans (from21_v6 m ρ c)
theorem from23_v6 (c : Dev nD) : W23 m ρ c (Proc.devRef .tc main_v6) = W1 m ρ c (Proc.devRef .tc main_v6) :=
  (keep22_v6 m ρ c).trans (from22_v6 m ρ c)
theorem from24_v6 (c : Dev nD) : W24 m ρ c (Proc.devRef .tc main_v6) = W1 m ρ c (Proc.devRef .tc main_v6) :=
  (keep23_v6 m ρ c).trans (from23_v6 m ρ c)
theorem from25_v6 (c : Dev nD) : W25 m ρ c (Proc.devRef .tc main_v6) = W1 m ρ c (Proc.devRef .tc main_v6) :=
  (keep24_v6 m ρ c).trans (from24_v6 m ρ c)
theorem from26_v6 (c : Dev nD) : W26 m ρ c (Proc.devRef .tc main_v6) = W1 m ρ c (Proc.devRef .tc main_v6) :=
  (keep25_v6 m ρ c).trans (from25_v6 m ρ c)
theorem from27_v6 (c : Dev nD) : W27 m ρ c (Proc.devRef .tc main_v6) = W1 m ρ c (Proc.devRef .tc main_v6) :=
  (keep26_v6 m ρ c).trans (from26_v6 m ρ c)
theorem from28_v6 (c : Dev nD) : W28 m ρ c (Proc.devRef .tc main_v6) = W1 m ρ c (Proc.devRef .tc main_v6) :=
  (keep27_v6 m ρ c).trans (from27_v6 m ρ c)
theorem from29_v6 (c : Dev nD) : W29 m ρ c (Proc.devRef .tc main_v6) = W1 m ρ c (Proc.devRef .tc main_v6) :=
  (keep28_v6 m ρ c).trans (from28_v6 m ρ c)
theorem from30_v6 (c : Dev nD) : W30 m ρ c (Proc.devRef .tc main_v6) = W1 m ρ c (Proc.devRef .tc main_v6) :=
  (keep29_v6 m ρ c).trans (from29_v6 m ρ c)
theorem from31_v6 (c : Dev nD) : W31 m ρ c (Proc.devRef .tc main_v6) = W1 m ρ c (Proc.devRef .tc main_v6) :=
  (keep30_v6 m ρ c).trans (from30_v6 m ρ c)
theorem from32_v6 (c : Dev nD) : W32 m ρ c (Proc.devRef .tc main_v6) = W1 m ρ c (Proc.devRef .tc main_v6) :=
  (keep31_v6 m ρ c).trans (from31_v6 m ρ c)
theorem from33_v6 (c : Dev nD) : W33 m ρ c (Proc.devRef .tc main_v6) = W1 m ρ c (Proc.devRef .tc main_v6) :=
  (keep32_v6 m ρ c).trans (from32_v6 m ρ c)

/-! ## main_v8: available at boundary 1, read up to boundary 7 -/
theorem keep1_v8 (c : Dev nD) : W2 m ρ c (Proc.devRef .tc main_v8) = W1 m ρ c (Proc.devRef .tc main_v8) :=
  (W2_arr m ρ c 1).trans (((dat0 (V1 m ρ) c).arrAt_in 1 rfl _).trans (A_eq0 (V1 m ρ) c 1))
theorem keep2_v8 (c : Dev nD) : W3 m ρ c (Proc.devRef .tc main_v8) = W2 m ρ c (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v8 (c : Dev nD) : W4 m ρ c (Proc.devRef .tc main_v8) = W3 m ρ c (Proc.devRef .tc main_v8) :=
  W4_of_ne m ρ c main_v8 (by decide)
theorem keep4_v8 (c : Dev nD) : W5 m ρ c (Proc.devRef .tc main_v8) = W4 m ρ c (Proc.devRef .tc main_v8) :=
  StableHlo.after_of_forall_not_mem (b := Proc.devRef .tc main_v8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v8 (c : Dev nD) : W6 m ρ c (Proc.devRef .tc main_v8) = W5 m ρ c (Proc.devRef .tc main_v8) :=
  W6_of_ne m ρ c main_v8 (by decide)
theorem keep6_v8 (c : Dev nD) : W7 m ρ c (Proc.devRef .tc main_v8) = W6 m ρ c (Proc.devRef .tc main_v8) :=
  StableHlo.after_of_forall_not_mem (b := Proc.devRef .tc main_v8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from2_v8 (c : Dev nD) : W2 m ρ c (Proc.devRef .tc main_v8) = W1 m ρ c (Proc.devRef .tc main_v8) :=
  (keep1_v8 m ρ c)
theorem from3_v8 (c : Dev nD) : W3 m ρ c (Proc.devRef .tc main_v8) = W1 m ρ c (Proc.devRef .tc main_v8) :=
  (keep2_v8 m ρ c).trans (from2_v8 m ρ c)
theorem from4_v8 (c : Dev nD) : W4 m ρ c (Proc.devRef .tc main_v8) = W1 m ρ c (Proc.devRef .tc main_v8) :=
  (keep3_v8 m ρ c).trans (from3_v8 m ρ c)
theorem from5_v8 (c : Dev nD) : W5 m ρ c (Proc.devRef .tc main_v8) = W1 m ρ c (Proc.devRef .tc main_v8) :=
  (keep4_v8 m ρ c).trans (from4_v8 m ρ c)
theorem from6_v8 (c : Dev nD) : W6 m ρ c (Proc.devRef .tc main_v8) = W1 m ρ c (Proc.devRef .tc main_v8) :=
  (keep5_v8 m ρ c).trans (from5_v8 m ρ c)
theorem from7_v8 (c : Dev nD) : W7 m ρ c (Proc.devRef .tc main_v8) = W1 m ρ c (Proc.devRef .tc main_v8) :=
  (keep6_v8 m ρ c).trans (from6_v8 m ρ c)

/-! ## main_v10: available at boundary 1, read up to boundary 6 -/
theorem keep1_v10 (c : Dev nD) : W2 m ρ c (Proc.devRef .tc main_v10) = W1 m ρ c (Proc.devRef .tc main_v10) :=
  W2_of_ne m ρ c main_v10 (by decide)
theorem keep2_v10 (c : Dev nD) : W3 m ρ c (Proc.devRef .tc main_v10) = W2 m ρ c (Proc.devRef .tc main_v10) :=
  StableHlo.after_of_forall_not_mem (b := Proc.devRef .tc main_v10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v10 (c : Dev nD) : W4 m ρ c (Proc.devRef .tc main_v10) = W3 m ρ c (Proc.devRef .tc main_v10) :=
  W4_of_ne m ρ c main_v10 (by decide)
theorem keep4_v10 (c : Dev nD) : W5 m ρ c (Proc.devRef .tc main_v10) = W4 m ρ c (Proc.devRef .tc main_v10) :=
  StableHlo.after_of_forall_not_mem (b := Proc.devRef .tc main_v10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_v10 (c : Dev nD) : W6 m ρ c (Proc.devRef .tc main_v10) = W5 m ρ c (Proc.devRef .tc main_v10) :=
  W6_of_ne m ρ c main_v10 (by decide)
theorem from2_v10 (c : Dev nD) : W2 m ρ c (Proc.devRef .tc main_v10) = W1 m ρ c (Proc.devRef .tc main_v10) :=
  (keep1_v10 m ρ c)
theorem from3_v10 (c : Dev nD) : W3 m ρ c (Proc.devRef .tc main_v10) = W1 m ρ c (Proc.devRef .tc main_v10) :=
  (keep2_v10 m ρ c).trans (from2_v10 m ρ c)
theorem from4_v10 (c : Dev nD) : W4 m ρ c (Proc.devRef .tc main_v10) = W1 m ρ c (Proc.devRef .tc main_v10) :=
  (keep3_v10 m ρ c).trans (from3_v10 m ρ c)
theorem from5_v10 (c : Dev nD) : W5 m ρ c (Proc.devRef .tc main_v10) = W1 m ρ c (Proc.devRef .tc main_v10) :=
  (keep4_v10 m ρ c).trans (from4_v10 m ρ c)
theorem from6_v10 (c : Dev nD) : W6 m ρ c (Proc.devRef .tc main_v10) = W1 m ρ c (Proc.devRef .tc main_v10) :=
  (keep5_v10 m ρ c).trans (from5_v10 m ρ c)

/-! ## main_v24: available at boundary 6, read up to boundary 13 -/
theorem keep6_v24 (c : Dev nD) : W7 m ρ c (Proc.devRef .tc main_v24) = W6 m ρ c (Proc.devRef .tc main_v24) :=
  StableHlo.after_of_forall_not_mem (b := Proc.devRef .tc main_v24) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_v24 (c : Dev nD) : W8 m ρ c (Proc.devRef .tc main_v24) = W7 m ρ c (Proc.devRef .tc main_v24) :=
  W8_of_ne m ρ c main_v24 (by decide)
theorem keep8_v24 (c : Dev nD) : W9 m ρ c (Proc.devRef .tc main_v24) = W8 m ρ c (Proc.devRef .tc main_v24) :=
  StableHlo.after_of_forall_not_mem (b := Proc.devRef .tc main_v24) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_v24 (c : Dev nD) : W10 m ρ c (Proc.devRef .tc main_v24) = W9 m ρ c (Proc.devRef .tc main_v24) :=
  W10_of_ne m ρ c main_v24 (by decide)
theorem keep10_v24 (c : Dev nD) : W11 m ρ c (Proc.devRef .tc main_v24) = W10 m ρ c (Proc.devRef .tc main_v24) :=
  StableHlo.after_of_forall_not_mem (b := Proc.devRef .tc main_v24) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_v24 (c : Dev nD) : W12 m ρ c (Proc.devRef .tc main_v24) = W11 m ρ c (Proc.devRef .tc main_v24) :=
  W12_of_ne m ρ c main_v24 (by decide)
theorem keep12_v24 (c : Dev nD) : W13 m ρ c (Proc.devRef .tc main_v24) = W12 m ρ c (Proc.devRef .tc main_v24) :=
  StableHlo.after_of_forall_not_mem (b := Proc.devRef .tc main_v24) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from7_v24 (c : Dev nD) : W7 m ρ c (Proc.devRef .tc main_v24) = W6 m ρ c (Proc.devRef .tc main_v24) :=
  (keep6_v24 m ρ c)
theorem from8_v24 (c : Dev nD) : W8 m ρ c (Proc.devRef .tc main_v24) = W6 m ρ c (Proc.devRef .tc main_v24) :=
  (keep7_v24 m ρ c).trans (from7_v24 m ρ c)
theorem from9_v24 (c : Dev nD) : W9 m ρ c (Proc.devRef .tc main_v24) = W6 m ρ c (Proc.devRef .tc main_v24) :=
  (keep8_v24 m ρ c).trans (from8_v24 m ρ c)
theorem from10_v24 (c : Dev nD) : W10 m ρ c (Proc.devRef .tc main_v24) = W6 m ρ c (Proc.devRef .tc main_v24) :=
  (keep9_v24 m ρ c).trans (from9_v24 m ρ c)
theorem from11_v24 (c : Dev nD) : W11 m ρ c (Proc.devRef .tc main_v24) = W6 m ρ c (Proc.devRef .tc main_v24) :=
  (keep10_v24 m ρ c).trans (from10_v24 m ρ c)
theorem from12_v24 (c : Dev nD) : W12 m ρ c (Proc.devRef .tc main_v24) = W6 m ρ c (Proc.devRef .tc main_v24) :=
  (keep11_v24 m ρ c).trans (from11_v24 m ρ c)
theorem from13_v24 (c : Dev nD) : W13 m ρ c (Proc.devRef .tc main_v24) = W6 m ρ c (Proc.devRef .tc main_v24) :=
  (keep12_v24 m ρ c).trans (from12_v24 m ρ c)

/-! ## main_v38: available at boundary 12, read up to boundary 19 -/
theorem keep12_v38 (c : Dev nD) : W13 m ρ c (Proc.devRef .tc main_v38) = W12 m ρ c (Proc.devRef .tc main_v38) :=
  StableHlo.after_of_forall_not_mem (b := Proc.devRef .tc main_v38) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_v38 (c : Dev nD) : W14 m ρ c (Proc.devRef .tc main_v38) = W13 m ρ c (Proc.devRef .tc main_v38) :=
  W14_of_ne m ρ c main_v38 (by decide)
theorem keep14_v38 (c : Dev nD) : W15 m ρ c (Proc.devRef .tc main_v38) = W14 m ρ c (Proc.devRef .tc main_v38) :=
  StableHlo.after_of_forall_not_mem (b := Proc.devRef .tc main_v38) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v38 (c : Dev nD) : W16 m ρ c (Proc.devRef .tc main_v38) = W15 m ρ c (Proc.devRef .tc main_v38) :=
  W16_of_ne m ρ c main_v38 (by decide)
theorem keep16_v38 (c : Dev nD) : W17 m ρ c (Proc.devRef .tc main_v38) = W16 m ρ c (Proc.devRef .tc main_v38) :=
  StableHlo.after_of_forall_not_mem (b := Proc.devRef .tc main_v38) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v38 (c : Dev nD) : W18 m ρ c (Proc.devRef .tc main_v38) = W17 m ρ c (Proc.devRef .tc main_v38) :=
  W18_of_ne m ρ c main_v38 (by decide)
theorem keep18_v38 (c : Dev nD) : W19 m ρ c (Proc.devRef .tc main_v38) = W18 m ρ c (Proc.devRef .tc main_v38) :=
  StableHlo.after_of_forall_not_mem (b := Proc.devRef .tc main_v38) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from13_v38 (c : Dev nD) : W13 m ρ c (Proc.devRef .tc main_v38) = W12 m ρ c (Proc.devRef .tc main_v38) :=
  (keep12_v38 m ρ c)
theorem from14_v38 (c : Dev nD) : W14 m ρ c (Proc.devRef .tc main_v38) = W12 m ρ c (Proc.devRef .tc main_v38) :=
  (keep13_v38 m ρ c).trans (from13_v38 m ρ c)
theorem from15_v38 (c : Dev nD) : W15 m ρ c (Proc.devRef .tc main_v38) = W12 m ρ c (Proc.devRef .tc main_v38) :=
  (keep14_v38 m ρ c).trans (from14_v38 m ρ c)
theorem from16_v38 (c : Dev nD) : W16 m ρ c (Proc.devRef .tc main_v38) = W12 m ρ c (Proc.devRef .tc main_v38) :=
  (keep15_v38 m ρ c).trans (from15_v38 m ρ c)
theorem from17_v38 (c : Dev nD) : W17 m ρ c (Proc.devRef .tc main_v38) = W12 m ρ c (Proc.devRef .tc main_v38) :=
  (keep16_v38 m ρ c).trans (from16_v38 m ρ c)
theorem from18_v38 (c : Dev nD) : W18 m ρ c (Proc.devRef .tc main_v38) = W12 m ρ c (Proc.devRef .tc main_v38) :=
  (keep17_v38 m ρ c).trans (from17_v38 m ρ c)
theorem from19_v38 (c : Dev nD) : W19 m ρ c (Proc.devRef .tc main_v38) = W12 m ρ c (Proc.devRef .tc main_v38) :=
  (keep18_v38 m ρ c).trans (from18_v38 m ρ c)

/-! ## main_v40: available at boundary 13, read up to boundary 19 -/
theorem keep13_v40 (c : Dev nD) : W14 m ρ c (Proc.devRef .tc main_v40) = W13 m ρ c (Proc.devRef .tc main_v40) :=
  (W14_arr m ρ c 1).trans (((dat6 (V13 m ρ) c).arrAt_in 1 rfl _).trans (A_eq6 (V13 m ρ) c 1))
theorem keep14_v40 (c : Dev nD) : W15 m ρ c (Proc.devRef .tc main_v40) = W14 m ρ c (Proc.devRef .tc main_v40) :=
  StableHlo.after_of_forall_not_mem (b := Proc.devRef .tc main_v40) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v40 (c : Dev nD) : W16 m ρ c (Proc.devRef .tc main_v40) = W15 m ρ c (Proc.devRef .tc main_v40) :=
  W16_of_ne m ρ c main_v40 (by decide)
theorem keep16_v40 (c : Dev nD) : W17 m ρ c (Proc.devRef .tc main_v40) = W16 m ρ c (Proc.devRef .tc main_v40) :=
  StableHlo.after_of_forall_not_mem (b := Proc.devRef .tc main_v40) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v40 (c : Dev nD) : W18 m ρ c (Proc.devRef .tc main_v40) = W17 m ρ c (Proc.devRef .tc main_v40) :=
  W18_of_ne m ρ c main_v40 (by decide)
theorem keep18_v40 (c : Dev nD) : W19 m ρ c (Proc.devRef .tc main_v40) = W18 m ρ c (Proc.devRef .tc main_v40) :=
  StableHlo.after_of_forall_not_mem (b := Proc.devRef .tc main_v40) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from14_v40 (c : Dev nD) : W14 m ρ c (Proc.devRef .tc main_v40) = W13 m ρ c (Proc.devRef .tc main_v40) :=
  (keep13_v40 m ρ c)
theorem from15_v40 (c : Dev nD) : W15 m ρ c (Proc.devRef .tc main_v40) = W13 m ρ c (Proc.devRef .tc main_v40) :=
  (keep14_v40 m ρ c).trans (from14_v40 m ρ c)
theorem from16_v40 (c : Dev nD) : W16 m ρ c (Proc.devRef .tc main_v40) = W13 m ρ c (Proc.devRef .tc main_v40) :=
  (keep15_v40 m ρ c).trans (from15_v40 m ρ c)
theorem from17_v40 (c : Dev nD) : W17 m ρ c (Proc.devRef .tc main_v40) = W13 m ρ c (Proc.devRef .tc main_v40) :=
  (keep16_v40 m ρ c).trans (from16_v40 m ρ c)
theorem from18_v40 (c : Dev nD) : W18 m ρ c (Proc.devRef .tc main_v40) = W13 m ρ c (Proc.devRef .tc main_v40) :=
  (keep17_v40 m ρ c).trans (from17_v40 m ρ c)
theorem from19_v40 (c : Dev nD) : W19 m ρ c (Proc.devRef .tc main_v40) = W13 m ρ c (Proc.devRef .tc main_v40) :=
  (keep18_v40 m ρ c).trans (from18_v40 m ρ c)

/-! ## main_v42: available at boundary 13, read up to boundary 18 -/
theorem keep13_v42 (c : Dev nD) : W14 m ρ c (Proc.devRef .tc main_v42) = W13 m ρ c (Proc.devRef .tc main_v42) :=
  W14_of_ne m ρ c main_v42 (by decide)
theorem keep14_v42 (c : Dev nD) : W15 m ρ c (Proc.devRef .tc main_v42) = W14 m ρ c (Proc.devRef .tc main_v42) :=
  StableHlo.after_of_forall_not_mem (b := Proc.devRef .tc main_v42) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v42 (c : Dev nD) : W16 m ρ c (Proc.devRef .tc main_v42) = W15 m ρ c (Proc.devRef .tc main_v42) :=
  W16_of_ne m ρ c main_v42 (by decide)
theorem keep16_v42 (c : Dev nD) : W17 m ρ c (Proc.devRef .tc main_v42) = W16 m ρ c (Proc.devRef .tc main_v42) :=
  StableHlo.after_of_forall_not_mem (b := Proc.devRef .tc main_v42) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_v42 (c : Dev nD) : W18 m ρ c (Proc.devRef .tc main_v42) = W17 m ρ c (Proc.devRef .tc main_v42) :=
  W18_of_ne m ρ c main_v42 (by decide)
theorem from14_v42 (c : Dev nD) : W14 m ρ c (Proc.devRef .tc main_v42) = W13 m ρ c (Proc.devRef .tc main_v42) :=
  (keep13_v42 m ρ c)
theorem from15_v42 (c : Dev nD) : W15 m ρ c (Proc.devRef .tc main_v42) = W13 m ρ c (Proc.devRef .tc main_v42) :=
  (keep14_v42 m ρ c).trans (from14_v42 m ρ c)
theorem from16_v42 (c : Dev nD) : W16 m ρ c (Proc.devRef .tc main_v42) = W13 m ρ c (Proc.devRef .tc main_v42) :=
  (keep15_v42 m ρ c).trans (from15_v42 m ρ c)
theorem from17_v42 (c : Dev nD) : W17 m ρ c (Proc.devRef .tc main_v42) = W13 m ρ c (Proc.devRef .tc main_v42) :=
  (keep16_v42 m ρ c).trans (from16_v42 m ρ c)
theorem from18_v42 (c : Dev nD) : W18 m ρ c (Proc.devRef .tc main_v42) = W13 m ρ c (Proc.devRef .tc main_v42) :=
  (keep17_v42 m ρ c).trans (from17_v42 m ρ c)

/-! ## main_v44: available at boundary 14, read up to boundary 17 -/
theorem keep14_v44 (c : Dev nD) : W15 m ρ c (Proc.devRef .tc main_v44) = W14 m ρ c (Proc.devRef .tc main_v44) :=
  StableHlo.after_of_forall_not_mem (b := Proc.devRef .tc main_v44) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_v44 (c : Dev nD) : W16 m ρ c (Proc.devRef .tc main_v44) = W15 m ρ c (Proc.devRef .tc main_v44) :=
  W16_of_ne m ρ c main_v44 (by decide)
theorem keep16_v44 (c : Dev nD) : W17 m ρ c (Proc.devRef .tc main_v44) = W16 m ρ c (Proc.devRef .tc main_v44) :=
  StableHlo.after_of_forall_not_mem (b := Proc.devRef .tc main_v44) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from15_v44 (c : Dev nD) : W15 m ρ c (Proc.devRef .tc main_v44) = W14 m ρ c (Proc.devRef .tc main_v44) :=
  (keep14_v44 m ρ c)
theorem from16_v44 (c : Dev nD) : W16 m ρ c (Proc.devRef .tc main_v44) = W14 m ρ c (Proc.devRef .tc main_v44) :=
  (keep15_v44 m ρ c).trans (from15_v44 m ρ c)
theorem from17_v44 (c : Dev nD) : W17 m ρ c (Proc.devRef .tc main_v44) = W14 m ρ c (Proc.devRef .tc main_v44) :=
  (keep16_v44 m ρ c).trans (from16_v44 m ρ c)

/-! ## main_v56: available at boundary 18, read up to boundary 25 -/
theorem keep18_v56 (c : Dev nD) : W19 m ρ c (Proc.devRef .tc main_v56) = W18 m ρ c (Proc.devRef .tc main_v56) :=
  StableHlo.after_of_forall_not_mem (b := Proc.devRef .tc main_v56) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_v56 (c : Dev nD) : W20 m ρ c (Proc.devRef .tc main_v56) = W19 m ρ c (Proc.devRef .tc main_v56) :=
  W20_of_ne m ρ c main_v56 (by decide)
theorem keep20_v56 (c : Dev nD) : W21 m ρ c (Proc.devRef .tc main_v56) = W20 m ρ c (Proc.devRef .tc main_v56) :=
  StableHlo.after_of_forall_not_mem (b := Proc.devRef .tc main_v56) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_v56 (c : Dev nD) : W22 m ρ c (Proc.devRef .tc main_v56) = W21 m ρ c (Proc.devRef .tc main_v56) :=
  W22_of_ne m ρ c main_v56 (by decide)
theorem keep22_v56 (c : Dev nD) : W23 m ρ c (Proc.devRef .tc main_v56) = W22 m ρ c (Proc.devRef .tc main_v56) :=
  StableHlo.after_of_forall_not_mem (b := Proc.devRef .tc main_v56) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_v56 (c : Dev nD) : W24 m ρ c (Proc.devRef .tc main_v56) = W23 m ρ c (Proc.devRef .tc main_v56) :=
  W24_of_ne m ρ c main_v56 (by decide)
theorem keep24_v56 (c : Dev nD) : W25 m ρ c (Proc.devRef .tc main_v56) = W24 m ρ c (Proc.devRef .tc main_v56) :=
  StableHlo.after_of_forall_not_mem (b := Proc.devRef .tc main_v56) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from19_v56 (c : Dev nD) : W19 m ρ c (Proc.devRef .tc main_v56) = W18 m ρ c (Proc.devRef .tc main_v56) :=
  (keep18_v56 m ρ c)
theorem from20_v56 (c : Dev nD) : W20 m ρ c (Proc.devRef .tc main_v56) = W18 m ρ c (Proc.devRef .tc main_v56) :=
  (keep19_v56 m ρ c).trans (from19_v56 m ρ c)
theorem from21_v56 (c : Dev nD) : W21 m ρ c (Proc.devRef .tc main_v56) = W18 m ρ c (Proc.devRef .tc main_v56) :=
  (keep20_v56 m ρ c).trans (from20_v56 m ρ c)
theorem from22_v56 (c : Dev nD) : W22 m ρ c (Proc.devRef .tc main_v56) = W18 m ρ c (Proc.devRef .tc main_v56) :=
  (keep21_v56 m ρ c).trans (from21_v56 m ρ c)
theorem from23_v56 (c : Dev nD) : W23 m ρ c (Proc.devRef .tc main_v56) = W18 m ρ c (Proc.devRef .tc main_v56) :=
  (keep22_v56 m ρ c).trans (from22_v56 m ρ c)
theorem from24_v56 (c : Dev nD) : W24 m ρ c (Proc.devRef .tc main_v56) = W18 m ρ c (Proc.devRef .tc main_v56) :=
  (keep23_v56 m ρ c).trans (from23_v56 m ρ c)
theorem from25_v56 (c : Dev nD) : W25 m ρ c (Proc.devRef .tc main_v56) = W18 m ρ c (Proc.devRef .tc main_v56) :=
  (keep24_v56 m ρ c).trans (from24_v56 m ρ c)

/-! ## main_v58: available at boundary 20, read up to boundary 23 -/
theorem keep20_v58 (c : Dev nD) : W21 m ρ c (Proc.devRef .tc main_v58) = W20 m ρ c (Proc.devRef .tc main_v58) :=
  StableHlo.after_of_forall_not_mem (b := Proc.devRef .tc main_v58) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_v58 (c : Dev nD) : W22 m ρ c (Proc.devRef .tc main_v58) = W21 m ρ c (Proc.devRef .tc main_v58) :=
  W22_of_ne m ρ c main_v58 (by decide)
theorem keep22_v58 (c : Dev nD) : W23 m ρ c (Proc.devRef .tc main_v58) = W22 m ρ c (Proc.devRef .tc main_v58) :=
  StableHlo.after_of_forall_not_mem (b := Proc.devRef .tc main_v58) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from21_v58 (c : Dev nD) : W21 m ρ c (Proc.devRef .tc main_v58) = W20 m ρ c (Proc.devRef .tc main_v58) :=
  (keep20_v58 m ρ c)
theorem from22_v58 (c : Dev nD) : W22 m ρ c (Proc.devRef .tc main_v58) = W20 m ρ c (Proc.devRef .tc main_v58) :=
  (keep21_v58 m ρ c).trans (from21_v58 m ρ c)
theorem from23_v58 (c : Dev nD) : W23 m ρ c (Proc.devRef .tc main_v58) = W20 m ρ c (Proc.devRef .tc main_v58) :=
  (keep22_v58 m ρ c).trans (from22_v58 m ρ c)

/-! ## main_v70: available at boundary 24, read up to boundary 31 -/
theorem keep24_v70 (c : Dev nD) : W25 m ρ c (Proc.devRef .tc main_v70) = W24 m ρ c (Proc.devRef .tc main_v70) :=
  StableHlo.after_of_forall_not_mem (b := Proc.devRef .tc main_v70) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep25_v70 (c : Dev nD) : W26 m ρ c (Proc.devRef .tc main_v70) = W25 m ρ c (Proc.devRef .tc main_v70) :=
  W26_of_ne m ρ c main_v70 (by decide)
theorem keep26_v70 (c : Dev nD) : W27 m ρ c (Proc.devRef .tc main_v70) = W26 m ρ c (Proc.devRef .tc main_v70) :=
  StableHlo.after_of_forall_not_mem (b := Proc.devRef .tc main_v70) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v70 (c : Dev nD) : W28 m ρ c (Proc.devRef .tc main_v70) = W27 m ρ c (Proc.devRef .tc main_v70) :=
  W28_of_ne m ρ c main_v70 (by decide)
theorem keep28_v70 (c : Dev nD) : W29 m ρ c (Proc.devRef .tc main_v70) = W28 m ρ c (Proc.devRef .tc main_v70) :=
  StableHlo.after_of_forall_not_mem (b := Proc.devRef .tc main_v70) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v70 (c : Dev nD) : W30 m ρ c (Proc.devRef .tc main_v70) = W29 m ρ c (Proc.devRef .tc main_v70) :=
  W30_of_ne m ρ c main_v70 (by decide)
theorem keep30_v70 (c : Dev nD) : W31 m ρ c (Proc.devRef .tc main_v70) = W30 m ρ c (Proc.devRef .tc main_v70) :=
  StableHlo.after_of_forall_not_mem (b := Proc.devRef .tc main_v70) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from25_v70 (c : Dev nD) : W25 m ρ c (Proc.devRef .tc main_v70) = W24 m ρ c (Proc.devRef .tc main_v70) :=
  (keep24_v70 m ρ c)
theorem from26_v70 (c : Dev nD) : W26 m ρ c (Proc.devRef .tc main_v70) = W24 m ρ c (Proc.devRef .tc main_v70) :=
  (keep25_v70 m ρ c).trans (from25_v70 m ρ c)
theorem from27_v70 (c : Dev nD) : W27 m ρ c (Proc.devRef .tc main_v70) = W24 m ρ c (Proc.devRef .tc main_v70) :=
  (keep26_v70 m ρ c).trans (from26_v70 m ρ c)
theorem from28_v70 (c : Dev nD) : W28 m ρ c (Proc.devRef .tc main_v70) = W24 m ρ c (Proc.devRef .tc main_v70) :=
  (keep27_v70 m ρ c).trans (from27_v70 m ρ c)
theorem from29_v70 (c : Dev nD) : W29 m ρ c (Proc.devRef .tc main_v70) = W24 m ρ c (Proc.devRef .tc main_v70) :=
  (keep28_v70 m ρ c).trans (from28_v70 m ρ c)
theorem from30_v70 (c : Dev nD) : W30 m ρ c (Proc.devRef .tc main_v70) = W24 m ρ c (Proc.devRef .tc main_v70) :=
  (keep29_v70 m ρ c).trans (from29_v70 m ρ c)
theorem from31_v70 (c : Dev nD) : W31 m ρ c (Proc.devRef .tc main_v70) = W24 m ρ c (Proc.devRef .tc main_v70) :=
  (keep30_v70 m ρ c).trans (from30_v70 m ρ c)

/-! ## main_v72: available at boundary 25, read up to boundary 31 -/
theorem keep25_v72 (c : Dev nD) : W26 m ρ c (Proc.devRef .tc main_v72) = W25 m ρ c (Proc.devRef .tc main_v72) :=
  (W26_arr m ρ c 1).trans (((dat12 (V25 m ρ) c).arrAt_in 1 rfl _).trans (A_eq12 (V25 m ρ) c 1))
theorem keep26_v72 (c : Dev nD) : W27 m ρ c (Proc.devRef .tc main_v72) = W26 m ρ c (Proc.devRef .tc main_v72) :=
  StableHlo.after_of_forall_not_mem (b := Proc.devRef .tc main_v72) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v72 (c : Dev nD) : W28 m ρ c (Proc.devRef .tc main_v72) = W27 m ρ c (Proc.devRef .tc main_v72) :=
  W28_of_ne m ρ c main_v72 (by decide)
theorem keep28_v72 (c : Dev nD) : W29 m ρ c (Proc.devRef .tc main_v72) = W28 m ρ c (Proc.devRef .tc main_v72) :=
  StableHlo.after_of_forall_not_mem (b := Proc.devRef .tc main_v72) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v72 (c : Dev nD) : W30 m ρ c (Proc.devRef .tc main_v72) = W29 m ρ c (Proc.devRef .tc main_v72) :=
  W30_of_ne m ρ c main_v72 (by decide)
theorem keep30_v72 (c : Dev nD) : W31 m ρ c (Proc.devRef .tc main_v72) = W30 m ρ c (Proc.devRef .tc main_v72) :=
  StableHlo.after_of_forall_not_mem (b := Proc.devRef .tc main_v72) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from26_v72 (c : Dev nD) : W26 m ρ c (Proc.devRef .tc main_v72) = W25 m ρ c (Proc.devRef .tc main_v72) :=
  (keep25_v72 m ρ c)
theorem from27_v72 (c : Dev nD) : W27 m ρ c (Proc.devRef .tc main_v72) = W25 m ρ c (Proc.devRef .tc main_v72) :=
  (keep26_v72 m ρ c).trans (from26_v72 m ρ c)
theorem from28_v72 (c : Dev nD) : W28 m ρ c (Proc.devRef .tc main_v72) = W25 m ρ c (Proc.devRef .tc main_v72) :=
  (keep27_v72 m ρ c).trans (from27_v72 m ρ c)
theorem from29_v72 (c : Dev nD) : W29 m ρ c (Proc.devRef .tc main_v72) = W25 m ρ c (Proc.devRef .tc main_v72) :=
  (keep28_v72 m ρ c).trans (from28_v72 m ρ c)
theorem from30_v72 (c : Dev nD) : W30 m ρ c (Proc.devRef .tc main_v72) = W25 m ρ c (Proc.devRef .tc main_v72) :=
  (keep29_v72 m ρ c).trans (from29_v72 m ρ c)
theorem from31_v72 (c : Dev nD) : W31 m ρ c (Proc.devRef .tc main_v72) = W25 m ρ c (Proc.devRef .tc main_v72) :=
  (keep30_v72 m ρ c).trans (from30_v72 m ρ c)

/-! ## main_v74: available at boundary 25, read up to boundary 30 -/
theorem keep25_v74 (c : Dev nD) : W26 m ρ c (Proc.devRef .tc main_v74) = W25 m ρ c (Proc.devRef .tc main_v74) :=
  W26_of_ne m ρ c main_v74 (by decide)
theorem keep26_v74 (c : Dev nD) : W27 m ρ c (Proc.devRef .tc main_v74) = W26 m ρ c (Proc.devRef .tc main_v74) :=
  StableHlo.after_of_forall_not_mem (b := Proc.devRef .tc main_v74) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v74 (c : Dev nD) : W28 m ρ c (Proc.devRef .tc main_v74) = W27 m ρ c (Proc.devRef .tc main_v74) :=
  W28_of_ne m ρ c main_v74 (by decide)
theorem keep28_v74 (c : Dev nD) : W29 m ρ c (Proc.devRef .tc main_v74) = W28 m ρ c (Proc.devRef .tc main_v74) :=
  StableHlo.after_of_forall_not_mem (b := Proc.devRef .tc main_v74) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep29_v74 (c : Dev nD) : W30 m ρ c (Proc.devRef .tc main_v74) = W29 m ρ c (Proc.devRef .tc main_v74) :=
  W30_of_ne m ρ c main_v74 (by decide)
theorem from26_v74 (c : Dev nD) : W26 m ρ c (Proc.devRef .tc main_v74) = W25 m ρ c (Proc.devRef .tc main_v74) :=
  (keep25_v74 m ρ c)
theorem from27_v74 (c : Dev nD) : W27 m ρ c (Proc.devRef .tc main_v74) = W25 m ρ c (Proc.devRef .tc main_v74) :=
  (keep26_v74 m ρ c).trans (from26_v74 m ρ c)
theorem from28_v74 (c : Dev nD) : W28 m ρ c (Proc.devRef .tc main_v74) = W25 m ρ c (Proc.devRef .tc main_v74) :=
  (keep27_v74 m ρ c).trans (from27_v74 m ρ c)
theorem from29_v74 (c : Dev nD) : W29 m ρ c (Proc.devRef .tc main_v74) = W25 m ρ c (Proc.devRef .tc main_v74) :=
  (keep28_v74 m ρ c).trans (from28_v74 m ρ c)
theorem from30_v74 (c : Dev nD) : W30 m ρ c (Proc.devRef .tc main_v74) = W25 m ρ c (Proc.devRef .tc main_v74) :=
  (keep29_v74 m ρ c).trans (from29_v74 m ρ c)

/-! ## main_v76: available at boundary 26, read up to boundary 29 -/
theorem keep26_v76 (c : Dev nD) : W27 m ρ c (Proc.devRef .tc main_v76) = W26 m ρ c (Proc.devRef .tc main_v76) :=
  StableHlo.after_of_forall_not_mem (b := Proc.devRef .tc main_v76) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep27_v76 (c : Dev nD) : W28 m ρ c (Proc.devRef .tc main_v76) = W27 m ρ c (Proc.devRef .tc main_v76) :=
  W28_of_ne m ρ c main_v76 (by decide)
theorem keep28_v76 (c : Dev nD) : W29 m ρ c (Proc.devRef .tc main_v76) = W28 m ρ c (Proc.devRef .tc main_v76) :=
  StableHlo.after_of_forall_not_mem (b := Proc.devRef .tc main_v76) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from27_v76 (c : Dev nD) : W27 m ρ c (Proc.devRef .tc main_v76) = W26 m ρ c (Proc.devRef .tc main_v76) :=
  (keep26_v76 m ρ c)
theorem from28_v76 (c : Dev nD) : W28 m ρ c (Proc.devRef .tc main_v76) = W26 m ρ c (Proc.devRef .tc main_v76) :=
  (keep27_v76 m ρ c).trans (from27_v76 m ρ c)
theorem from29_v76 (c : Dev nD) : W29 m ρ c (Proc.devRef .tc main_v76) = W26 m ρ c (Proc.devRef .tc main_v76) :=
  (keep28_v76 m ρ c).trans (from28_v76 m ρ c)

/-! ## main_v88: available at boundary 30, read up to boundary 41 -/
theorem keep30_v88 (c : Dev nD) : W31 m ρ c (Proc.devRef .tc main_v88) = W30 m ρ c (Proc.devRef .tc main_v88) :=
  StableHlo.after_of_forall_not_mem (b := Proc.devRef .tc main_v88) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep31_v88 (c : Dev nD) : W32 m ρ c (Proc.devRef .tc main_v88) = W31 m ρ c (Proc.devRef .tc main_v88) :=
  W32_of_ne m ρ c main_v88 (by decide)
theorem keep32_v88 (c : Dev nD) : W33 m ρ c (Proc.devRef .tc main_v88) = W32 m ρ c (Proc.devRef .tc main_v88) :=
  StableHlo.after_of_forall_not_mem (b := Proc.devRef .tc main_v88) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep33_v88 (c : Dev nD) : W34 m ρ c (Proc.devRef .tc main_v88) = W33 m ρ c (Proc.devRef .tc main_v88) :=
  W34_of_ne m ρ c main_v88 (by decide)
theorem keep34_v88 (c : Dev nD) : W35 m ρ c (Proc.devRef .tc main_v88) = W34 m ρ c (Proc.devRef .tc main_v88) :=
  StableHlo.after_of_forall_not_mem (b := Proc.devRef .tc main_v88) _ _ (List.forall_iff_forall_mem.mp (by
    simp only [hostOps17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep35_v88 (c : Dev nD) : W36 m ρ c (Proc.devRef .tc main_v88) = W35 m ρ c (Proc.devRef .tc main_v88) :=
  W36_of_ne m ρ c main_v88 (by decide)
theorem keep36_v88 (c : Dev nD) : W37 m ρ c (Proc.devRef .tc main_v88) = W36 m ρ c (Proc.devRef .tc main_v88) :=
  StableHlo.after_of_forall_not_mem (b := Proc.devRef .tc main_v88) _ _ (List.forall_iff_forall_mem.mp (by
    simp only [hostOps18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep37_v88 (c : Dev nD) : W38 m ρ c (Proc.devRef .tc main_v88) = W37 m ρ c (Proc.devRef .tc main_v88) :=
  StableHlo.after_of_forall_not_mem (b := Proc.devRef .tc main_v88) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_v88 (c : Dev nD) : W39 m ρ c (Proc.devRef .tc main_v88) = W38 m ρ c (Proc.devRef .tc main_v88) :=
  StableHlo.after_of_forall_not_mem (b := Proc.devRef .tc main_v88) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_v88 (c : Dev nD) : W40 m ρ c (Proc.devRef .tc main_v88) = W39 m ρ c (Proc.devRef .tc main_v88) :=
  StableHlo.after_of_forall_not_mem (b := Proc.devRef .tc main_v88) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_v88 (c : Dev nD) : W41 m ρ c (Proc.devRef .tc main_v88) = W40 m ρ c (Proc.devRef .tc main_v88) :=
  StableHlo.after_of_forall_not_mem (b := Proc.devRef .tc main_v88) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from31_v88 (c : Dev nD) : W31 m ρ c (Proc.devRef .tc main_v88) = W30 m ρ c (Proc.devRef .tc main_v88) :=
  (keep30_v88 m ρ c)
theorem from32_v88 (c : Dev nD) : W32 m ρ c (Proc.devRef .tc main_v88) = W30 m ρ c (Proc.devRef .tc main_v88) :=
  (keep31_v88 m ρ c).trans (from31_v88 m ρ c)
theorem from33_v88 (c : Dev nD) : W33 m ρ c (Proc.devRef .tc main_v88) = W30 m ρ c (Proc.devRef .tc main_v88) :=
  (keep32_v88 m ρ c).trans (from32_v88 m ρ c)
theorem from34_v88 (c : Dev nD) : W34 m ρ c (Proc.devRef .tc main_v88) = W30 m ρ c (Proc.devRef .tc main_v88) :=
  (keep33_v88 m ρ c).trans (from33_v88 m ρ c)
theorem from35_v88 (c : Dev nD) : W35 m ρ c (Proc.devRef .tc main_v88) = W30 m ρ c (Proc.devRef .tc main_v88) :=
  (keep34_v88 m ρ c).trans (from34_v88 m ρ c)
theorem from36_v88 (c : Dev nD) : W36 m ρ c (Proc.devRef .tc main_v88) = W30 m ρ c (Proc.devRef .tc main_v88) :=
  (keep35_v88 m ρ c).trans (from35_v88 m ρ c)
theorem from37_v88 (c : Dev nD) : W37 m ρ c (Proc.devRef .tc main_v88) = W30 m ρ c (Proc.devRef .tc main_v88) :=
  (keep36_v88 m ρ c).trans (from36_v88 m ρ c)
theorem from38_v88 (c : Dev nD) : W38 m ρ c (Proc.devRef .tc main_v88) = W30 m ρ c (Proc.devRef .tc main_v88) :=
  (keep37_v88 m ρ c).trans (from37_v88 m ρ c)
theorem from39_v88 (c : Dev nD) : W39 m ρ c (Proc.devRef .tc main_v88) = W30 m ρ c (Proc.devRef .tc main_v88) :=
  (keep38_v88 m ρ c).trans (from38_v88 m ρ c)
theorem from40_v88 (c : Dev nD) : W40 m ρ c (Proc.devRef .tc main_v88) = W30 m ρ c (Proc.devRef .tc main_v88) :=
  (keep39_v88 m ρ c).trans (from39_v88 m ρ c)
theorem from41_v88 (c : Dev nD) : W41 m ρ c (Proc.devRef .tc main_v88) = W30 m ρ c (Proc.devRef .tc main_v88) :=
  (keep40_v88 m ρ c).trans (from40_v88 m ρ c)

/-! ## main_v90: available at boundary 32, read up to boundary 35 -/
theorem keep32_v90 (c : Dev nD) : W33 m ρ c (Proc.devRef .tc main_v90) = W32 m ρ c (Proc.devRef .tc main_v90) :=
  StableHlo.after_of_forall_not_mem (b := Proc.devRef .tc main_v90) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep33_v90 (c : Dev nD) : W34 m ρ c (Proc.devRef .tc main_v90) = W33 m ρ c (Proc.devRef .tc main_v90) :=
  W34_of_ne m ρ c main_v90 (by decide)
theorem keep34_v90 (c : Dev nD) : W35 m ρ c (Proc.devRef .tc main_v90) = W34 m ρ c (Proc.devRef .tc main_v90) :=
  StableHlo.after_of_forall_not_mem (b := Proc.devRef .tc main_v90) _ _ (List.forall_iff_forall_mem.mp (by
    simp only [hostOps17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from33_v90 (c : Dev nD) : W33 m ρ c (Proc.devRef .tc main_v90) = W32 m ρ c (Proc.devRef .tc main_v90) :=
  (keep32_v90 m ρ c)
theorem from34_v90 (c : Dev nD) : W34 m ρ c (Proc.devRef .tc main_v90) = W32 m ρ c (Proc.devRef .tc main_v90) :=
  (keep33_v90 m ρ c).trans (from33_v90 m ρ c)
theorem from35_v90 (c : Dev nD) : W35 m ρ c (Proc.devRef .tc main_v90) = W32 m ρ c (Proc.devRef .tc main_v90) :=
  (keep34_v90 m ρ c).trans (from34_v90 m ρ c)

/-! ## main_v102: available at boundary 36, read up to boundary 41 -/
theorem keep36_v102 (c : Dev nD) : W37 m ρ c (Proc.devRef .tc main_v102) = W36 m ρ c (Proc.devRef .tc main_v102) :=
  StableHlo.after_of_forall_not_mem (b := Proc.devRef .tc main_v102) _ _ (List.forall_iff_forall_mem.mp (by
    simp only [hostOps18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep37_v102 (c : Dev nD) : W38 m ρ c (Proc.devRef .tc main_v102) = W37 m ρ c (Proc.devRef .tc main_v102) :=
  StableHlo.after_of_forall_not_mem (b := Proc.devRef .tc main_v102) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_v102 (c : Dev nD) : W39 m ρ c (Proc.devRef .tc main_v102) = W38 m ρ c (Proc.devRef .tc main_v102) :=
  StableHlo.after_of_forall_not_mem (b := Proc.devRef .tc main_v102) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_v102 (c : Dev nD) : W40 m ρ c (Proc.devRef .tc main_v102) = W39 m ρ c (Proc.devRef .tc main_v102) :=
  StableHlo.after_of_forall_not_mem (b := Proc.devRef .tc main_v102) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_v102 (c : Dev nD) : W41 m ρ c (Proc.devRef .tc main_v102) = W40 m ρ c (Proc.devRef .tc main_v102) :=
  StableHlo.after_of_forall_not_mem (b := Proc.devRef .tc main_v102) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from37_v102 (c : Dev nD) : W37 m ρ c (Proc.devRef .tc main_v102) = W36 m ρ c (Proc.devRef .tc main_v102) :=
  (keep36_v102 m ρ c)
theorem from38_v102 (c : Dev nD) : W38 m ρ c (Proc.devRef .tc main_v102) = W36 m ρ c (Proc.devRef .tc main_v102) :=
  (keep37_v102 m ρ c).trans (from37_v102 m ρ c)
theorem from39_v102 (c : Dev nD) : W39 m ρ c (Proc.devRef .tc main_v102) = W36 m ρ c (Proc.devRef .tc main_v102) :=
  (keep38_v102 m ρ c).trans (from38_v102 m ρ c)
theorem from40_v102 (c : Dev nD) : W40 m ρ c (Proc.devRef .tc main_v102) = W36 m ρ c (Proc.devRef .tc main_v102) :=
  (keep39_v102 m ρ c).trans (from39_v102 m ρ c)
theorem from41_v102 (c : Dev nD) : W41 m ρ c (Proc.devRef .tc main_v102) = W36 m ρ c (Proc.devRef .tc main_v102) :=
  (keep40_v102 m ρ c).trans (from40_v102 m ρ c)

/-! ## main_v103: available at boundary 37, read up to boundary 41 -/
theorem keep37_v103 (c : Dev nD) : W38 m ρ c (Proc.devRef .tc main_v103) = W37 m ρ c (Proc.devRef .tc main_v103) :=
  StableHlo.after_of_forall_not_mem (b := Proc.devRef .tc main_v103) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_v103 (c : Dev nD) : W39 m ρ c (Proc.devRef .tc main_v103) = W38 m ρ c (Proc.devRef .tc main_v103) :=
  StableHlo.after_of_forall_not_mem (b := Proc.devRef .tc main_v103) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_v103 (c : Dev nD) : W40 m ρ c (Proc.devRef .tc main_v103) = W39 m ρ c (Proc.devRef .tc main_v103) :=
  StableHlo.after_of_forall_not_mem (b := Proc.devRef .tc main_v103) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_v103 (c : Dev nD) : W41 m ρ c (Proc.devRef .tc main_v103) = W40 m ρ c (Proc.devRef .tc main_v103) :=
  StableHlo.after_of_forall_not_mem (b := Proc.devRef .tc main_v103) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from38_v103 (c : Dev nD) : W38 m ρ c (Proc.devRef .tc main_v103) = W37 m ρ c (Proc.devRef .tc main_v103) :=
  (keep37_v103 m ρ c)
theorem from39_v103 (c : Dev nD) : W39 m ρ c (Proc.devRef .tc main_v103) = W37 m ρ c (Proc.devRef .tc main_v103) :=
  (keep38_v103 m ρ c).trans (from38_v103 m ρ c)
theorem from40_v103 (c : Dev nD) : W40 m ρ c (Proc.devRef .tc main_v103) = W37 m ρ c (Proc.devRef .tc main_v103) :=
  (keep39_v103 m ρ c).trans (from39_v103 m ρ c)
theorem from41_v103 (c : Dev nD) : W41 m ρ c (Proc.devRef .tc main_v103) = W37 m ρ c (Proc.devRef .tc main_v103) :=
  (keep40_v103 m ρ c).trans (from40_v103 m ρ c)

/-! ## main_v104: available at boundary 37, read up to boundary 41 -/
theorem keep37_v104 (c : Dev nD) : W38 m ρ c (Proc.devRef .tc main_v104) = W37 m ρ c (Proc.devRef .tc main_v104) :=
  StableHlo.after_of_forall_not_mem (b := Proc.devRef .tc main_v104) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_v104 (c : Dev nD) : W39 m ρ c (Proc.devRef .tc main_v104) = W38 m ρ c (Proc.devRef .tc main_v104) :=
  StableHlo.after_of_forall_not_mem (b := Proc.devRef .tc main_v104) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_v104 (c : Dev nD) : W40 m ρ c (Proc.devRef .tc main_v104) = W39 m ρ c (Proc.devRef .tc main_v104) :=
  StableHlo.after_of_forall_not_mem (b := Proc.devRef .tc main_v104) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_v104 (c : Dev nD) : W41 m ρ c (Proc.devRef .tc main_v104) = W40 m ρ c (Proc.devRef .tc main_v104) :=
  StableHlo.after_of_forall_not_mem (b := Proc.devRef .tc main_v104) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from38_v104 (c : Dev nD) : W38 m ρ c (Proc.devRef .tc main_v104) = W37 m ρ c (Proc.devRef .tc main_v104) :=
  (keep37_v104 m ρ c)
theorem from39_v104 (c : Dev nD) : W39 m ρ c (Proc.devRef .tc main_v104) = W37 m ρ c (Proc.devRef .tc main_v104) :=
  (keep38_v104 m ρ c).trans (from38_v104 m ρ c)
theorem from40_v104 (c : Dev nD) : W40 m ρ c (Proc.devRef .tc main_v104) = W37 m ρ c (Proc.devRef .tc main_v104) :=
  (keep39_v104 m ρ c).trans (from39_v104 m ρ c)
theorem from41_v104 (c : Dev nD) : W41 m ρ c (Proc.devRef .tc main_v104) = W37 m ρ c (Proc.devRef .tc main_v104) :=
  (keep40_v104 m ρ c).trans (from40_v104 m ρ c)

/-! ## main_v105: available at boundary 38, read up to boundary 41 -/
theorem keep38_v105 (c : Dev nD) : W39 m ρ c (Proc.devRef .tc main_v105) = W38 m ρ c (Proc.devRef .tc main_v105) :=
  StableHlo.after_of_forall_not_mem (b := Proc.devRef .tc main_v105) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_v105 (c : Dev nD) : W40 m ρ c (Proc.devRef .tc main_v105) = W39 m ρ c (Proc.devRef .tc main_v105) :=
  StableHlo.after_of_forall_not_mem (b := Proc.devRef .tc main_v105) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_v105 (c : Dev nD) : W41 m ρ c (Proc.devRef .tc main_v105) = W40 m ρ c (Proc.devRef .tc main_v105) :=
  StableHlo.after_of_forall_not_mem (b := Proc.devRef .tc main_v105) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from39_v105 (c : Dev nD) : W39 m ρ c (Proc.devRef .tc main_v105) = W38 m ρ c (Proc.devRef .tc main_v105) :=
  (keep38_v105 m ρ c)
theorem from40_v105 (c : Dev nD) : W40 m ρ c (Proc.devRef .tc main_v105) = W38 m ρ c (Proc.devRef .tc main_v105) :=
  (keep39_v105 m ρ c).trans (from39_v105 m ρ c)
theorem from41_v105 (c : Dev nD) : W41 m ρ c (Proc.devRef .tc main_v105) = W38 m ρ c (Proc.devRef .tc main_v105) :=
  (keep40_v105 m ρ c).trans (from40_v105 m ρ c)

/-! ## main_v109_0: available at boundary 42, read up to boundary 43 -/
theorem keep42_v109_0 (c : Dev nD) : W43 m ρ c (Proc.devRef .tc main_v109_0) = W42 m ρ c (Proc.devRef .tc main_v109_0) :=
  StableHlo.after_of_forall_not_mem (b := Proc.devRef .tc main_v109_0) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from43_v109_0 (c : Dev nD) : W43 m ρ c (Proc.devRef .tc main_v109_0) = W42 m ρ c (Proc.devRef .tc main_v109_0) :=
  (keep42_v109_0 m ρ c)

/-! ## main_arg3: available at boundary 0, read up to boundary 24 -/
theorem keep0_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg3 (c : Dev nD) : W2 m ρ c (Proc.devRef .tc main_arg3) = W1 m ρ c (Proc.devRef .tc main_arg3) :=
  W2_of_ne m ρ c main_arg3 (by decide)
theorem keep2_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg3 (c : Dev nD) : W4 m ρ c (Proc.devRef .tc main_arg3) = W3 m ρ c (Proc.devRef .tc main_arg3) :=
  W4_of_ne m ρ c main_arg3 (by decide)
theorem keep4_arg3 (c : Dev nD) : W5 m ρ c (Proc.devRef .tc main_arg3) = W4 m ρ c (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg3 (c : Dev nD) : W6 m ρ c (Proc.devRef .tc main_arg3) = W5 m ρ c (Proc.devRef .tc main_arg3) :=
  W6_of_ne m ρ c main_arg3 (by decide)
theorem keep6_arg3 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg3 (c : Dev nD) : W8 m ρ c (Proc.devRef .tc main_arg3) = W7 m ρ c (Proc.devRef .tc main_arg3) :=
  W8_of_ne m ρ c main_arg3 (by decide)
theorem keep8_arg3 (c : Dev nD) : W9 m ρ c (Proc.devRef .tc main_arg3) = W8 m ρ c (Proc.devRef .tc main_arg3) :=
  StableHlo.after_of_forall_not_mem (b := Proc.devRef .tc main_arg3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_arg3 (c : Dev nD) : W10 m ρ c (Proc.devRef .tc main_arg3) = W9 m ρ c (Proc.devRef .tc main_arg3) :=
  W10_of_ne m ρ c main_arg3 (by decide)
theorem keep10_arg3 (c : Dev nD) : W11 m ρ c (Proc.devRef .tc main_arg3) = W10 m ρ c (Proc.devRef .tc main_arg3) :=
  StableHlo.after_of_forall_not_mem (b := Proc.devRef .tc main_arg3) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_arg3 (c : Dev nD) : W12 m ρ c (Proc.devRef .tc main_arg3) = W11 m ρ c (Proc.devRef .tc main_arg3) :=
  W12_of_ne m ρ c main_arg3 (by decide)
theorem keep12_arg3 (c : Dev nD) : W13 m ρ c (Proc.devRef .tc main_arg3) = W12 m ρ c (Proc.devRef .tc main_arg3) :=
  StableHlo.after_of_forall_not_mem (b := Proc.devRef .tc main_arg3) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_arg3 (c : Dev nD) : W14 m ρ c (Proc.devRef .tc main_arg3) = W13 m ρ c (Proc.devRef .tc main_arg3) :=
  W14_of_ne m ρ c main_arg3 (by decide)
theorem keep14_arg3 (c : Dev nD) : W15 m ρ c (Proc.devRef .tc main_arg3) = W14 m ρ c (Proc.devRef .tc main_arg3) :=
  StableHlo.after_of_forall_not_mem (b := Proc.devRef .tc main_arg3) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_arg3 (c : Dev nD) : W16 m ρ c (Proc.devRef .tc main_arg3) = W15 m ρ c (Proc.devRef .tc main_arg3) :=
  W16_of_ne m ρ c main_arg3 (by decide)
theorem keep16_arg3 (c : Dev nD) : W17 m ρ c (Proc.devRef .tc main_arg3) = W16 m ρ c (Proc.devRef .tc main_arg3) :=
  StableHlo.after_of_forall_not_mem (b := Proc.devRef .tc main_arg3) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_arg3 (c : Dev nD) : W18 m ρ c (Proc.devRef .tc main_arg3) = W17 m ρ c (Proc.devRef .tc main_arg3) :=
  W18_of_ne m ρ c main_arg3 (by decide)
theorem keep18_arg3 (c : Dev nD) : W19 m ρ c (Proc.devRef .tc main_arg3) = W18 m ρ c (Proc.devRef .tc main_arg3) :=
  StableHlo.after_of_forall_not_mem (b := Proc.devRef .tc main_arg3) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_arg3 (c : Dev nD) : W20 m ρ c (Proc.devRef .tc main_arg3) = W19 m ρ c (Proc.devRef .tc main_arg3) :=
  W20_of_ne m ρ c main_arg3 (by decide)
theorem keep20_arg3 (c : Dev nD) : W21 m ρ c (Proc.devRef .tc main_arg3) = W20 m ρ c (Proc.devRef .tc main_arg3) :=
  StableHlo.after_of_forall_not_mem (b := Proc.devRef .tc main_arg3) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_arg3 (c : Dev nD) : W22 m ρ c (Proc.devRef .tc main_arg3) = W21 m ρ c (Proc.devRef .tc main_arg3) :=
  W22_of_ne m ρ c main_arg3 (by decide)
theorem keep22_arg3 (c : Dev nD) : W23 m ρ c (Proc.devRef .tc main_arg3) = W22 m ρ c (Proc.devRef .tc main_arg3) :=
  StableHlo.after_of_forall_not_mem (b := Proc.devRef .tc main_arg3) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_arg3 (c : Dev nD) : W24 m ρ c (Proc.devRef .tc main_arg3) = W23 m ρ c (Proc.devRef .tc main_arg3) :=
  W24_of_ne m ρ c main_arg3 (by decide)
theorem from1_arg3 (c : Dev nD) : W1 m ρ c (Proc.devRef .tc main_arg3) = W0 m ρ c (Proc.devRef .tc main_arg3) :=
  (keep0_arg3 m ρ c)
theorem from2_arg3 (c : Dev nD) : W2 m ρ c (Proc.devRef .tc main_arg3) = W0 m ρ c (Proc.devRef .tc main_arg3) :=
  (keep1_arg3 m ρ c).trans (from1_arg3 m ρ c)
theorem from3_arg3 (c : Dev nD) : W3 m ρ c (Proc.devRef .tc main_arg3) = W0 m ρ c (Proc.devRef .tc main_arg3) :=
  (keep2_arg3 m ρ c).trans (from2_arg3 m ρ c)
theorem from4_arg3 (c : Dev nD) : W4 m ρ c (Proc.devRef .tc main_arg3) = W0 m ρ c (Proc.devRef .tc main_arg3) :=
  (keep3_arg3 m ρ c).trans (from3_arg3 m ρ c)
theorem from5_arg3 (c : Dev nD) : W5 m ρ c (Proc.devRef .tc main_arg3) = W0 m ρ c (Proc.devRef .tc main_arg3) :=
  (keep4_arg3 m ρ c).trans (from4_arg3 m ρ c)
theorem from6_arg3 (c : Dev nD) : W6 m ρ c (Proc.devRef .tc main_arg3) = W0 m ρ c (Proc.devRef .tc main_arg3) :=
  (keep5_arg3 m ρ c).trans (from5_arg3 m ρ c)
theorem from7_arg3 (c : Dev nD) : W7 m ρ c (Proc.devRef .tc main_arg3) = W0 m ρ c (Proc.devRef .tc main_arg3) :=
  (keep6_arg3 m ρ c).trans (from6_arg3 m ρ c)
theorem from8_arg3 (c : Dev nD) : W8 m ρ c (Proc.devRef .tc main_arg3) = W0 m ρ c (Proc.devRef .tc main_arg3) :=
  (keep7_arg3 m ρ c).trans (from7_arg3 m ρ c)
theorem from9_arg3 (c : Dev nD) : W9 m ρ c (Proc.devRef .tc main_arg3) = W0 m ρ c (Proc.devRef .tc main_arg3) :=
  (keep8_arg3 m ρ c).trans (from8_arg3 m ρ c)
theorem from10_arg3 (c : Dev nD) : W10 m ρ c (Proc.devRef .tc main_arg3) = W0 m ρ c (Proc.devRef .tc main_arg3) :=
  (keep9_arg3 m ρ c).trans (from9_arg3 m ρ c)
theorem from11_arg3 (c : Dev nD) : W11 m ρ c (Proc.devRef .tc main_arg3) = W0 m ρ c (Proc.devRef .tc main_arg3) :=
  (keep10_arg3 m ρ c).trans (from10_arg3 m ρ c)
theorem from12_arg3 (c : Dev nD) : W12 m ρ c (Proc.devRef .tc main_arg3) = W0 m ρ c (Proc.devRef .tc main_arg3) :=
  (keep11_arg3 m ρ c).trans (from11_arg3 m ρ c)
theorem from13_arg3 (c : Dev nD) : W13 m ρ c (Proc.devRef .tc main_arg3) = W0 m ρ c (Proc.devRef .tc main_arg3) :=
  (keep12_arg3 m ρ c).trans (from12_arg3 m ρ c)
theorem from14_arg3 (c : Dev nD) : W14 m ρ c (Proc.devRef .tc main_arg3) = W0 m ρ c (Proc.devRef .tc main_arg3) :=
  (keep13_arg3 m ρ c).trans (from13_arg3 m ρ c)
theorem from15_arg3 (c : Dev nD) : W15 m ρ c (Proc.devRef .tc main_arg3) = W0 m ρ c (Proc.devRef .tc main_arg3) :=
  (keep14_arg3 m ρ c).trans (from14_arg3 m ρ c)
theorem from16_arg3 (c : Dev nD) : W16 m ρ c (Proc.devRef .tc main_arg3) = W0 m ρ c (Proc.devRef .tc main_arg3) :=
  (keep15_arg3 m ρ c).trans (from15_arg3 m ρ c)
theorem from17_arg3 (c : Dev nD) : W17 m ρ c (Proc.devRef .tc main_arg3) = W0 m ρ c (Proc.devRef .tc main_arg3) :=
  (keep16_arg3 m ρ c).trans (from16_arg3 m ρ c)
theorem from18_arg3 (c : Dev nD) : W18 m ρ c (Proc.devRef .tc main_arg3) = W0 m ρ c (Proc.devRef .tc main_arg3) :=
  (keep17_arg3 m ρ c).trans (from17_arg3 m ρ c)
theorem from19_arg3 (c : Dev nD) : W19 m ρ c (Proc.devRef .tc main_arg3) = W0 m ρ c (Proc.devRef .tc main_arg3) :=
  (keep18_arg3 m ρ c).trans (from18_arg3 m ρ c)
theorem from20_arg3 (c : Dev nD) : W20 m ρ c (Proc.devRef .tc main_arg3) = W0 m ρ c (Proc.devRef .tc main_arg3) :=
  (keep19_arg3 m ρ c).trans (from19_arg3 m ρ c)
theorem from21_arg3 (c : Dev nD) : W21 m ρ c (Proc.devRef .tc main_arg3) = W0 m ρ c (Proc.devRef .tc main_arg3) :=
  (keep20_arg3 m ρ c).trans (from20_arg3 m ρ c)
theorem from22_arg3 (c : Dev nD) : W22 m ρ c (Proc.devRef .tc main_arg3) = W0 m ρ c (Proc.devRef .tc main_arg3) :=
  (keep21_arg3 m ρ c).trans (from21_arg3 m ρ c)
theorem from23_arg3 (c : Dev nD) : W23 m ρ c (Proc.devRef .tc main_arg3) = W0 m ρ c (Proc.devRef .tc main_arg3) :=
  (keep22_arg3 m ρ c).trans (from22_arg3 m ρ c)
theorem from24_arg3 (c : Dev nD) : W24 m ρ c (Proc.devRef .tc main_arg3) = W0 m ρ c (Proc.devRef .tc main_arg3) :=
  (keep23_arg3 m ρ c).trans (from23_arg3 m ρ c)

/-! ## main_arg4: available at boundary 0, read up to boundary 24 -/
theorem keep0_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg4 (c : Dev nD) : W2 m ρ c (Proc.devRef .tc main_arg4) = W1 m ρ c (Proc.devRef .tc main_arg4) :=
  W2_of_ne m ρ c main_arg4 (by decide)
theorem keep2_arg4 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg4 (c : Dev nD) : W4 m ρ c (Proc.devRef .tc main_arg4) = W3 m ρ c (Proc.devRef .tc main_arg4) :=
  W4_of_ne m ρ c main_arg4 (by decide)
theorem keep4_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg4 (c : Dev nD) : W6 m ρ c (Proc.devRef .tc main_arg4) = W5 m ρ c (Proc.devRef .tc main_arg4) :=
  W6_of_ne m ρ c main_arg4 (by decide)
theorem keep6_arg4 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep7_arg4 (c : Dev nD) : W8 m ρ c (Proc.devRef .tc main_arg4) = W7 m ρ c (Proc.devRef .tc main_arg4) :=
  W8_of_ne m ρ c main_arg4 (by decide)
theorem keep8_arg4 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep9_arg4 (c : Dev nD) : W10 m ρ c (Proc.devRef .tc main_arg4) = W9 m ρ c (Proc.devRef .tc main_arg4) :=
  W10_of_ne m ρ c main_arg4 (by decide)
theorem keep10_arg4 (c : Dev nD) : W11 m ρ c (Proc.devRef .tc main_arg4) = W10 m ρ c (Proc.devRef .tc main_arg4) :=
  StableHlo.after_of_forall_not_mem (b := Proc.devRef .tc main_arg4) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep11_arg4 (c : Dev nD) : W12 m ρ c (Proc.devRef .tc main_arg4) = W11 m ρ c (Proc.devRef .tc main_arg4) :=
  W12_of_ne m ρ c main_arg4 (by decide)
theorem keep12_arg4 (c : Dev nD) : W13 m ρ c (Proc.devRef .tc main_arg4) = W12 m ρ c (Proc.devRef .tc main_arg4) :=
  StableHlo.after_of_forall_not_mem (b := Proc.devRef .tc main_arg4) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep13_arg4 (c : Dev nD) : W14 m ρ c (Proc.devRef .tc main_arg4) = W13 m ρ c (Proc.devRef .tc main_arg4) :=
  W14_of_ne m ρ c main_arg4 (by decide)
theorem keep14_arg4 (c : Dev nD) : W15 m ρ c (Proc.devRef .tc main_arg4) = W14 m ρ c (Proc.devRef .tc main_arg4) :=
  StableHlo.after_of_forall_not_mem (b := Proc.devRef .tc main_arg4) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep15_arg4 (c : Dev nD) : W16 m ρ c (Proc.devRef .tc main_arg4) = W15 m ρ c (Proc.devRef .tc main_arg4) :=
  W16_of_ne m ρ c main_arg4 (by decide)
theorem keep16_arg4 (c : Dev nD) : W17 m ρ c (Proc.devRef .tc main_arg4) = W16 m ρ c (Proc.devRef .tc main_arg4) :=
  StableHlo.after_of_forall_not_mem (b := Proc.devRef .tc main_arg4) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep17_arg4 (c : Dev nD) : W18 m ρ c (Proc.devRef .tc main_arg4) = W17 m ρ c (Proc.devRef .tc main_arg4) :=
  W18_of_ne m ρ c main_arg4 (by decide)
theorem keep18_arg4 (c : Dev nD) : W19 m ρ c (Proc.devRef .tc main_arg4) = W18 m ρ c (Proc.devRef .tc main_arg4) :=
  StableHlo.after_of_forall_not_mem (b := Proc.devRef .tc main_arg4) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep19_arg4 (c : Dev nD) : W20 m ρ c (Proc.devRef .tc main_arg4) = W19 m ρ c (Proc.devRef .tc main_arg4) :=
  W20_of_ne m ρ c main_arg4 (by decide)
theorem keep20_arg4 (c : Dev nD) : W21 m ρ c (Proc.devRef .tc main_arg4) = W20 m ρ c (Proc.devRef .tc main_arg4) :=
  StableHlo.after_of_forall_not_mem (b := Proc.devRef .tc main_arg4) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep21_arg4 (c : Dev nD) : W22 m ρ c (Proc.devRef .tc main_arg4) = W21 m ρ c (Proc.devRef .tc main_arg4) :=
  W22_of_ne m ρ c main_arg4 (by decide)
theorem keep22_arg4 (c : Dev nD) : W23 m ρ c (Proc.devRef .tc main_arg4) = W22 m ρ c (Proc.devRef .tc main_arg4) :=
  StableHlo.after_of_forall_not_mem (b := Proc.devRef .tc main_arg4) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep23_arg4 (c : Dev nD) : W24 m ρ c (Proc.devRef .tc main_arg4) = W23 m ρ c (Proc.devRef .tc main_arg4) :=
  W24_of_ne m ρ c main_arg4 (by decide)
theorem from1_arg4 (c : Dev nD) : W1 m ρ c (Proc.devRef .tc main_arg4) = W0 m ρ c (Proc.devRef .tc main_arg4) :=
  (keep0_arg4 m ρ c)
theorem from2_arg4 (c : Dev nD) : W2 m ρ c (Proc.devRef .tc main_arg4) = W0 m ρ c (Proc.devRef .tc main_arg4) :=
  (keep1_arg4 m ρ c).trans (from1_arg4 m ρ c)
theorem from3_arg4 (c : Dev nD) : W3 m ρ c (Proc.devRef .tc main_arg4) = W0 m ρ c (Proc.devRef .tc main_arg4) :=
  (keep2_arg4 m ρ c).trans (from2_arg4 m ρ c)
theorem from4_arg4 (c : Dev nD) : W4 m ρ c (Proc.devRef .tc main_arg4) = W0 m ρ c (Proc.devRef .tc main_arg4) :=
  (keep3_arg4 m ρ c).trans (from3_arg4 m ρ c)
theorem from5_arg4 (c : Dev nD) : W5 m ρ c (Proc.devRef .tc main_arg4) = W0 m ρ c (Proc.devRef .tc main_arg4) :=
  (keep4_arg4 m ρ c).trans (from4_arg4 m ρ c)
theorem from6_arg4 (c : Dev nD) : W6 m ρ c (Proc.devRef .tc main_arg4) = W0 m ρ c (Proc.devRef .tc main_arg4) :=
  (keep5_arg4 m ρ c).trans (from5_arg4 m ρ c)
theorem from7_arg4 (c : Dev nD) : W7 m ρ c (Proc.devRef .tc main_arg4) = W0 m ρ c (Proc.devRef .tc main_arg4) :=
  (keep6_arg4 m ρ c).trans (from6_arg4 m ρ c)
theorem from8_arg4 (c : Dev nD) : W8 m ρ c (Proc.devRef .tc main_arg4) = W0 m ρ c (Proc.devRef .tc main_arg4) :=
  (keep7_arg4 m ρ c).trans (from7_arg4 m ρ c)
theorem from9_arg4 (c : Dev nD) : W9 m ρ c (Proc.devRef .tc main_arg4) = W0 m ρ c (Proc.devRef .tc main_arg4) :=
  (keep8_arg4 m ρ c).trans (from8_arg4 m ρ c)
theorem from10_arg4 (c : Dev nD) : W10 m ρ c (Proc.devRef .tc main_arg4) = W0 m ρ c (Proc.devRef .tc main_arg4) :=
  (keep9_arg4 m ρ c).trans (from9_arg4 m ρ c)
theorem from11_arg4 (c : Dev nD) : W11 m ρ c (Proc.devRef .tc main_arg4) = W0 m ρ c (Proc.devRef .tc main_arg4) :=
  (keep10_arg4 m ρ c).trans (from10_arg4 m ρ c)
theorem from12_arg4 (c : Dev nD) : W12 m ρ c (Proc.devRef .tc main_arg4) = W0 m ρ c (Proc.devRef .tc main_arg4) :=
  (keep11_arg4 m ρ c).trans (from11_arg4 m ρ c)
theorem from13_arg4 (c : Dev nD) : W13 m ρ c (Proc.devRef .tc main_arg4) = W0 m ρ c (Proc.devRef .tc main_arg4) :=
  (keep12_arg4 m ρ c).trans (from12_arg4 m ρ c)
theorem from14_arg4 (c : Dev nD) : W14 m ρ c (Proc.devRef .tc main_arg4) = W0 m ρ c (Proc.devRef .tc main_arg4) :=
  (keep13_arg4 m ρ c).trans (from13_arg4 m ρ c)
theorem from15_arg4 (c : Dev nD) : W15 m ρ c (Proc.devRef .tc main_arg4) = W0 m ρ c (Proc.devRef .tc main_arg4) :=
  (keep14_arg4 m ρ c).trans (from14_arg4 m ρ c)
theorem from16_arg4 (c : Dev nD) : W16 m ρ c (Proc.devRef .tc main_arg4) = W0 m ρ c (Proc.devRef .tc main_arg4) :=
  (keep15_arg4 m ρ c).trans (from15_arg4 m ρ c)
theorem from17_arg4 (c : Dev nD) : W17 m ρ c (Proc.devRef .tc main_arg4) = W0 m ρ c (Proc.devRef .tc main_arg4) :=
  (keep16_arg4 m ρ c).trans (from16_arg4 m ρ c)
theorem from18_arg4 (c : Dev nD) : W18 m ρ c (Proc.devRef .tc main_arg4) = W0 m ρ c (Proc.devRef .tc main_arg4) :=
  (keep17_arg4 m ρ c).trans (from17_arg4 m ρ c)
theorem from19_arg4 (c : Dev nD) : W19 m ρ c (Proc.devRef .tc main_arg4) = W0 m ρ c (Proc.devRef .tc main_arg4) :=
  (keep18_arg4 m ρ c).trans (from18_arg4 m ρ c)
theorem from20_arg4 (c : Dev nD) : W20 m ρ c (Proc.devRef .tc main_arg4) = W0 m ρ c (Proc.devRef .tc main_arg4) :=
  (keep19_arg4 m ρ c).trans (from19_arg4 m ρ c)
theorem from21_arg4 (c : Dev nD) : W21 m ρ c (Proc.devRef .tc main_arg4) = W0 m ρ c (Proc.devRef .tc main_arg4) :=
  (keep20_arg4 m ρ c).trans (from20_arg4 m ρ c)
theorem from22_arg4 (c : Dev nD) : W22 m ρ c (Proc.devRef .tc main_arg4) = W0 m ρ c (Proc.devRef .tc main_arg4) :=
  (keep21_arg4 m ρ c).trans (from21_arg4 m ρ c)
theorem from23_arg4 (c : Dev nD) : W23 m ρ c (Proc.devRef .tc main_arg4) = W0 m ρ c (Proc.devRef .tc main_arg4) :=
  (keep22_arg4 m ρ c).trans (from22_arg4 m ρ c)
theorem from24_arg4 (c : Dev nD) : W24 m ρ c (Proc.devRef .tc main_arg4) = W0 m ρ c (Proc.devRef .tc main_arg4) :=
  (keep23_arg4 m ρ c).trans (from23_arg4 m ρ c)

/-! ## main_arg5: available at boundary 41, read up to boundary 43 -/
theorem keep41_arg5 (c : Dev nD) : W42 m ρ c (Proc.devRef .tc main_arg5) = W41 m ρ c (Proc.devRef .tc main_arg5) :=
  (W42_arr m ρ c 2).trans (((dat18 (V41 m ρ) c).arrAt_in 2 rfl _).trans (A_eq18 (V41 m ρ) c 2))
theorem keep42_arg5 (c : Dev nD) : W43 m ρ c (Proc.devRef .tc main_arg5) = W42 m ρ c (Proc.devRef .tc main_arg5) :=
  StableHlo.after_of_forall_not_mem (b := Proc.devRef .tc main_arg5) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from42_arg5 (c : Dev nD) : W42 m ρ c (Proc.devRef .tc main_arg5) = W41 m ρ c (Proc.devRef .tc main_arg5) :=
  (keep41_arg5 m ρ c)
theorem from43_arg5 (c : Dev nD) : W43 m ρ c (Proc.devRef .tc main_arg5) = W41 m ρ c (Proc.devRef .tc main_arg5) :=
  (keep42_arg5 m ρ c).trans (from42_arg5 m ρ c)

/-! ## main_arg6: available at boundary 41, read up to boundary 43 -/
theorem keep41_arg6 (c : Dev nD) : W42 m ρ c (Proc.devRef .tc main_arg6) = W41 m ρ c (Proc.devRef .tc main_arg6) :=
  (W42_arr m ρ c 3).trans (((dat18 (V41 m ρ) c).arrAt_in 3 rfl _).trans (A_eq18 (V41 m ρ) c 3))
theorem keep42_arg6 (c : Dev nD) : W43 m ρ c (Proc.devRef .tc main_arg6) = W42 m ρ c (Proc.devRef .tc main_arg6) :=
  StableHlo.after_of_forall_not_mem (b := Proc.devRef .tc main_arg6) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from42_arg6 (c : Dev nD) : W42 m ρ c (Proc.devRef .tc main_arg6) = W41 m ρ c (Proc.devRef .tc main_arg6) :=
  (keep41_arg6 m ρ c)
theorem from43_arg6 (c : Dev nD) : W43 m ρ c (Proc.devRef .tc main_arg6) = W41 m ρ c (Proc.devRef .tc main_arg6) :=
  (keep42_arg6 m ρ c).trans (from42_arg6 m ρ c)

/-! ## main_arg7: available at boundary 36, read up to boundary 43 -/
theorem keep36_arg7 (c : Dev nD) : W37 m ρ c (Proc.devRef .tc main_arg7) = W36 m ρ c (Proc.devRef .tc main_arg7) :=
  StableHlo.after_of_forall_not_mem (b := Proc.devRef .tc main_arg7) _ _ (List.forall_iff_forall_mem.mp (by
    simp only [hostOps18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep37_arg7 (c : Dev nD) : W38 m ρ c (Proc.devRef .tc main_arg7) = W37 m ρ c (Proc.devRef .tc main_arg7) :=
  StableHlo.after_of_forall_not_mem (b := Proc.devRef .tc main_arg7) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_arg7 (c : Dev nD) : W39 m ρ c (Proc.devRef .tc main_arg7) = W38 m ρ c (Proc.devRef .tc main_arg7) :=
  StableHlo.after_of_forall_not_mem (b := Proc.devRef .tc main_arg7) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_arg7 (c : Dev nD) : W40 m ρ c (Proc.devRef .tc main_arg7) = W39 m ρ c (Proc.devRef .tc main_arg7) :=
  StableHlo.after_of_forall_not_mem (b := Proc.devRef .tc main_arg7) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_arg7 (c : Dev nD) : W41 m ρ c (Proc.devRef .tc main_arg7) = W40 m ρ c (Proc.devRef .tc main_arg7) :=
  StableHlo.after_of_forall_not_mem (b := Proc.devRef .tc main_arg7) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep41_arg7 (c : Dev nD) : W42 m ρ c (Proc.devRef .tc main_arg7) = W41 m ρ c (Proc.devRef .tc main_arg7) :=
  W42_of_ne m ρ c main_arg7 (by decide)
theorem keep42_arg7 (c : Dev nD) : W43 m ρ c (Proc.devRef .tc main_arg7) = W42 m ρ c (Proc.devRef .tc main_arg7) :=
  StableHlo.after_of_forall_not_mem (b := Proc.devRef .tc main_arg7) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from37_arg7 (c : Dev nD) : W37 m ρ c (Proc.devRef .tc main_arg7) = W36 m ρ c (Proc.devRef .tc main_arg7) :=
  (keep36_arg7 m ρ c)
theorem from38_arg7 (c : Dev nD) : W38 m ρ c (Proc.devRef .tc main_arg7) = W36 m ρ c (Proc.devRef .tc main_arg7) :=
  (keep37_arg7 m ρ c).trans (from37_arg7 m ρ c)
theorem from39_arg7 (c : Dev nD) : W39 m ρ c (Proc.devRef .tc main_arg7) = W36 m ρ c (Proc.devRef .tc main_arg7) :=
  (keep38_arg7 m ρ c).trans (from38_arg7 m ρ c)
theorem from40_arg7 (c : Dev nD) : W40 m ρ c (Proc.devRef .tc main_arg7) = W36 m ρ c (Proc.devRef .tc main_arg7) :=
  (keep39_arg7 m ρ c).trans (from39_arg7 m ρ c)
theorem from41_arg7 (c : Dev nD) : W41 m ρ c (Proc.devRef .tc main_arg7) = W36 m ρ c (Proc.devRef .tc main_arg7) :=
  (keep40_arg7 m ρ c).trans (from40_arg7 m ρ c)
theorem from42_arg7 (c : Dev nD) : W42 m ρ c (Proc.devRef .tc main_arg7) = W36 m ρ c (Proc.devRef .tc main_arg7) :=
  (keep41_arg7 m ρ c).trans (from41_arg7 m ρ c)
theorem from43_arg7 (c : Dev nD) : W43 m ρ c (Proc.devRef .tc main_arg7) = W36 m ρ c (Proc.devRef .tc main_arg7) :=
  (keep42_arg7 m ρ c).trans (from42_arg7 m ρ c)

/-! ## main_arg8: available at boundary 40, read up to boundary 43 -/
theorem keep40_arg8 (c : Dev nD) : W41 m ρ c (Proc.devRef .tc main_arg8) = W40 m ρ c (Proc.devRef .tc main_arg8) :=
  StableHlo.after_of_forall_not_mem (b := Proc.devRef .tc main_arg8) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep41_arg8 (c : Dev nD) : W42 m ρ c (Proc.devRef .tc main_arg8) = W41 m ρ c (Proc.devRef .tc main_arg8) :=
  W42_of_ne m ρ c main_arg8 (by decide)
theorem keep42_arg8 (c : Dev nD) : W43 m ρ c (Proc.devRef .tc main_arg8) = W42 m ρ c (Proc.devRef .tc main_arg8) :=
  StableHlo.after_of_forall_not_mem (b := Proc.devRef .tc main_arg8) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from41_arg8 (c : Dev nD) : W41 m ρ c (Proc.devRef .tc main_arg8) = W40 m ρ c (Proc.devRef .tc main_arg8) :=
  (keep40_arg8 m ρ c)
theorem from42_arg8 (c : Dev nD) : W42 m ρ c (Proc.devRef .tc main_arg8) = W40 m ρ c (Proc.devRef .tc main_arg8) :=
  (keep41_arg8 m ρ c).trans (from41_arg8 m ρ c)
theorem from43_arg8 (c : Dev nD) : W43 m ρ c (Proc.devRef .tc main_arg8) = W40 m ρ c (Proc.devRef .tc main_arg8) :=
  (keep42_arg8 m ρ c).trans (from42_arg8 m ρ c)

/-! ## main_arg9: available at boundary 37, read up to boundary 43 -/
theorem keep37_arg9 (c : Dev nD) : W38 m ρ c (Proc.devRef .tc main_arg9) = W37 m ρ c (Proc.devRef .tc main_arg9) :=
  StableHlo.after_of_forall_not_mem (b := Proc.devRef .tc main_arg9) _ _ (List.forall_iff_forall_mem.mp (by
    simp only [hostOps18_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep38_arg9 (c : Dev nD) : W39 m ρ c (Proc.devRef .tc main_arg9) = W38 m ρ c (Proc.devRef .tc main_arg9) :=
  StableHlo.after_of_forall_not_mem (b := Proc.devRef .tc main_arg9) _ _ (List.forall_iff_forall_mem.mp (by
    simp only [hostOps18_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep39_arg9 (c : Dev nD) : W40 m ρ c (Proc.devRef .tc main_arg9) = W39 m ρ c (Proc.devRef .tc main_arg9) :=
  StableHlo.after_of_forall_not_mem (b := Proc.devRef .tc main_arg9) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_arg9 (c : Dev nD) : W41 m ρ c (Proc.devRef .tc main_arg9) = W40 m ρ c (Proc.devRef .tc main_arg9) :=
  StableHlo.after_of_forall_not_mem (b := Proc.devRef .tc main_arg9) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep41_arg9 (c : Dev nD) : W42 m ρ c (Proc.devRef .tc main_arg9) = W41 m ρ c (Proc.devRef .tc main_arg9) :=
  W42_of_ne m ρ c main_arg9 (by decide)
theorem keep42_arg9 (c : Dev nD) : W43 m ρ c (Proc.devRef .tc main_arg9) = W42 m ρ c (Proc.devRef .tc main_arg9) :=
  StableHlo.after_of_forall_not_mem (b := Proc.devRef .tc main_arg9) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from38_arg9 (c : Dev nD) : W38 m ρ c (Proc.devRef .tc main_arg9) = W37 m ρ c (Proc.devRef .tc main_arg9) :=
  (keep37_arg9 m ρ c)
theorem from39_arg9 (c : Dev nD) : W39 m ρ c (Proc.devRef .tc main_arg9) = W37 m ρ c (Proc.devRef .tc main_arg9) :=
  (keep38_arg9 m ρ c).trans (from38_arg9 m ρ c)
theorem from40_arg9 (c : Dev nD) : W40 m ρ c (Proc.devRef .tc main_arg9) = W37 m ρ c (Proc.devRef .tc main_arg9) :=
  (keep39_arg9 m ρ c).trans (from39_arg9 m ρ c)
theorem from41_arg9 (c : Dev nD) : W41 m ρ c (Proc.devRef .tc main_arg9) = W37 m ρ c (Proc.devRef .tc main_arg9) :=
  (keep40_arg9 m ρ c).trans (from40_arg9 m ρ c)
theorem from42_arg9 (c : Dev nD) : W42 m ρ c (Proc.devRef .tc main_arg9) = W37 m ρ c (Proc.devRef .tc main_arg9) :=
  (keep41_arg9 m ρ c).trans (from41_arg9 m ρ c)
theorem from43_arg9 (c : Dev nD) : W43 m ρ c (Proc.devRef .tc main_arg9) = W37 m ρ c (Proc.devRef .tc main_arg9) :=
  (keep42_arg9 m ρ c).trans (from42_arg9 m ρ c)

/-! ## main_arg10: available at boundary 39, read up to boundary 43 -/
theorem keep39_arg10 (c : Dev nD) : W40 m ρ c (Proc.devRef .tc main_arg10) = W39 m ρ c (Proc.devRef .tc main_arg10) :=
  StableHlo.after_of_forall_not_mem (b := Proc.devRef .tc main_arg10) _ _ (List.forall_iff_forall_mem.mp (by
    simp only [hostOps18_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep40_arg10 (c : Dev nD) : W41 m ρ c (Proc.devRef .tc main_arg10) = W40 m ρ c (Proc.devRef .tc main_arg10) :=
  StableHlo.after_of_forall_not_mem (b := Proc.devRef .tc main_arg10) _ _ (List.forall_iff_forall_mem.mp (by
    simp only [hostOps18_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep41_arg10 (c : Dev nD) : W42 m ρ c (Proc.devRef .tc main_arg10) = W41 m ρ c (Proc.devRef .tc main_arg10) :=
  W42_of_ne m ρ c main_arg10 (by decide)
theorem keep42_arg10 (c : Dev nD) : W43 m ρ c (Proc.devRef .tc main_arg10) = W42 m ρ c (Proc.devRef .tc main_arg10) :=
  StableHlo.after_of_forall_not_mem (b := Proc.devRef .tc main_arg10) _ _ (List.forall_iff_forall_mem.mp (by
    simp only [hostOps19, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem from40_arg10 (c : Dev nD) : W40 m ρ c (Proc.devRef .tc main_arg10) = W39 m ρ c (Proc.devRef .tc main_arg10) :=
  (keep39_arg10 m ρ c)
theorem from41_arg10 (c : Dev nD) : W41 m ρ c (Proc.devRef .tc main_arg10) = W39 m ρ c (Proc.devRef .tc main_arg10) :=
  (keep40_arg10 m ρ c).trans (from40_arg10 m ρ c)
theorem from42_arg10 (c : Dev nD) : W42 m ρ c (Proc.devRef .tc main_arg10) = W39 m ρ c (Proc.devRef .tc main_arg10) :=
  (keep41_arg10 m ρ c).trans (from41_arg10 m ρ c)
theorem from43_arg10 (c : Dev nD) : W43 m ρ c (Proc.devRef .tc main_arg10) = W39 m ρ c (Proc.devRef .tc main_arg10) :=
  (keep42_arg10 m ρ c).trans (from42_arg10 m ρ c)

end Cert.KernelIdeal.Fold

end
-- ==== Proof.KRun.lean ====
/-
  The idealized kernel program's run, with its results kept.

  The program is a chain of host stretches and kernel regions. The contents of every buffer at each boundary of the
  chain are a fold from the launch memory: a host stretch applies its operations, a region replaces its output arrays
  by what its write-backs leave and keeps everything else. Every weakly fair execution terminates without a fault in
  a state where EVERY buffer that is not a staging buffer holds the fold's last value at it. (The frame only keeps
  this for the argument arrays; here it is kept for all of them, the two results included.)
-/
import proofs.«161278_j35699768164381_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each buffer outside the staging memory
    at the last value of the fold through the program's stretches and regions. -/
theorem run_fold : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W43 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h c b hb => h c _ (mem_uc b hb))

end Cert.KernelIdeal.Fold

end
-- ==== Proof.KHost0.lean ====
/-
  The first host stretch of the idealized kernel program, read in the specification's vocabulary: before any
  kernel runs the program splits the edge list into its two rows, the input features into their upper and lower
  halves, lays the edge weights as a column, and takes the first layer's weight and bias.
-/
import proofs.«161278_j35699768164381_1_alg».proof.Proof.Gen.KernelIdeal.Frame
import proofs.«161278_j35699768164381_1_alg».proof.Proof.Layout

set_option maxRecDepth 16384

noncomputable section

namespace Cert.KernelIdeal.Fold

open Cert.KernelIdeal Cert.KernelIdeal.Gen Cert.KernelIdeal.Facts₀
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list's first row. -/
theorem w1_v1 : W1 m ρ c (Proc.devRef .tc main_v1) = Cert.Spec.src (m ((c : Thread nD τ).loc main_arg1)) := by
  show StableHlo.after hostOps0 (W0 m ρ c) (Proc.devRef .tc main_v1) = _
  after_results
  exact Cert.Layout.src_eq _ _ _

/-- The edge list's second row. -/
theorem w1_v3 : W1 m ρ c (Proc.devRef .tc main_v3) = Cert.Spec.dst (m ((c : Thread nD τ).loc main_arg1)) := by
  show StableHlo.after hostOps0 (W0 m ρ c) (Proc.devRef .tc main_v3) = _
  after_results
  exact Cert.Layout.dst_eq _ _ _

/-- The upper half of the features. -/
theorem w1_v4 : W1 m ρ c (Proc.devRef .tc main_v4) = Cert.Spec.xHi (m ((c : Thread nD τ).loc main_arg0)) := by
  show StableHlo.after hostOps0 (W0 m ρ c) (Proc.devRef .tc main_v4) = _
  after_results
  exact Cert.Layout.xHi_eq _ _

/-- The lower half of the features. -/
theorem w1_v5 : W1 m ρ c (Proc.devRef .tc main_v5) = Cert.Spec.xLo (m ((c : Thread nD τ).loc main_arg0)) := by
  show StableHlo.after hostOps0 (W0 m ρ c) (Proc.devRef .tc main_v5) = _
  after_results
  exact Cert.Layout.xLo_eq _ _

/-- The edge weights as a column. -/
theorem w1_v6 : W1 m ρ c (Proc.devRef .tc main_v6) = Cert.Spec.ewCol (m ((c : Thread nD τ).loc main_arg2)) := by
  show StableHlo.after hostOps0 (W0 m ρ c) (Proc.devRef .tc main_v6) = _
  after_results
  exact Cert.Layout.ewCol_reshape_eq _ _

/-- The first layer's weight. -/
theorem w1_v8 : W1 m ρ c (Proc.devRef .tc main_v8) = Cert.Spec.wOf (m ((c : Thread nD τ).loc main_arg3)) 0 := by
  show StableHlo.after hostOps0 (W0 m ρ c) (Proc.devRef .tc main_v8) = _
  after_results
  exact Cert.Layout.wOf0_eq _ _ _

/-- The first layer's bias as a row. -/
theorem w1_v11 : W1 m ρ c (Proc.devRef .tc main_v11) = Cert.Spec.bOf (m ((c : Thread nD τ).loc main_arg4)) 0 := by
  show StableHlo.after hostOps0 (W0 m ρ c) (Proc.devRef .tc main_v11) = _
  after_results
  exact Cert.Layout.bRow_reshape_eq _ 0 0 rfl _ _ _

end Cert.KernelIdeal.Fold

end
-- ==== Proof.KHostB.lean ====
/-
  The host stretches between the kernels of the idealized kernel program, read in the specification's vocabulary.
  Before every edge-scaling kernel the program wraps the negative entries of one row of the edge list, lays it as a
  column and gathers the rows of the layer's affine image: the specification's gather. After it the program sums the
  scaled rows into the rows the other row of the edge list names, from zero: the specification's segment sum. Between
  layers it takes the next layer's weight and bias row out of the stacked parameters.
-/
import proofs.«161278_j35699768164381_1_alg».proof.Proof.Gen.KernelIdeal.Frame
import proofs.«161278_j35699768164381_1_alg».proof.Proof.Layout
import proofs.«161278_j35699768164381_1_alg».proof.Proof.KIrr
import proofs.«161278_j35699768164381_1_alg».proof.Proof.KKeep

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The gathers and the segment sums -/

/-- The gather before edge-scaling kernel 1: the rows of the affine image at the wrapped index row. -/
theorem w3_v19 : W3 m ρ c (Proc.devRef .tc main_v19) = kIrr.gath (W2 m ρ c (Proc.devRef .tc main_v12)) (W2 m ρ c (Proc.devRef .tc main_v3)) := by
  show StableHlo.after hostOps1 (W2 m ρ c) (Proc.devRef .tc main_v19) = _
  after_results
  rfl

/-- The segment sum after edge-scaling kernel 1: the scaled rows summed, from zero, into the rows the other index row names. -/
theorem w5_v23 : W5 m ρ c (Proc.devRef .tc main_v23) = kIrr.scat (W4 m ρ c (Proc.devRef .tc main_v1)) (W4 m ρ c (Proc.devRef .tc main_v20)) := by
  show StableHlo.after hostOps2 (W4 m ρ c) (Proc.devRef .tc main_v23) = _
  after_results
  rfl

/-- The gather before edge-scaling kernel 4: the rows of the affine image at the wrapped index row. -/
theorem w9_v33 : W9 m ρ c (Proc.devRef .tc main_v33) = kIrr.gath (W8 m ρ c (Proc.devRef .tc main_v26)) (W8 m ρ c (Proc.devRef .tc main_v1)) := by
  show StableHlo.after hostOps4 (W8 m ρ c) (Proc.devRef .tc main_v33) = _
  after_results
  rfl

/-- The segment sum after edge-scaling kernel 4: the scaled rows summed, from zero, into the rows the other index row names. -/
theorem w11_v37 : W11 m ρ c (Proc.devRef .tc main_v37) = kIrr.scat (W10 m ρ c (Proc.devRef .tc main_v3)) (W10 m ρ c (Proc.devRef .tc main_v34)) := by
  show StableHlo.after hostOps5 (W10 m ρ c) (Proc.devRef .tc main_v37) = _
  after_results
  rfl

/-- The gather before edge-scaling kernel 7: the rows of the affine image at the wrapped index row. -/
theorem w15_v51 : W15 m ρ c (Proc.devRef .tc main_v51) = kIrr.gath (W14 m ρ c (Proc.devRef .tc main_v44)) (W14 m ρ c (Proc.devRef .tc main_v3)) := by
  show StableHlo.after hostOps7 (W14 m ρ c) (Proc.devRef .tc main_v51) = _
  after_results
  rfl

/-- The segment sum after edge-scaling kernel 7: the scaled rows summed, from zero, into the rows the other index row names. -/
theorem w17_v55 : W17 m ρ c (Proc.devRef .tc main_v55) = kIrr.scat (W16 m ρ c (Proc.devRef .tc main_v1)) (W16 m ρ c (Proc.devRef .tc main_v52)) := by
  show StableHlo.after hostOps8 (W16 m ρ c) (Proc.devRef .tc main_v55) = _
  after_results
  rfl

/-- The gather before edge-scaling kernel 10: the rows of the affine image at the wrapped index row. -/
theorem w21_v65 : W21 m ρ c (Proc.devRef .tc main_v65) = kIrr.gath (W20 m ρ c (Proc.devRef .tc main_v58)) (W20 m ρ c (Proc.devRef .tc main_v1)) := by
  show StableHlo.after hostOps10 (W20 m ρ c) (Proc.devRef .tc main_v65) = _
  after_results
  rfl

/-- The segment sum after edge-scaling kernel 10: the scaled rows summed, from zero, into the rows the other index row names. -/
theorem w23_v69 : W23 m ρ c (Proc.devRef .tc main_v69) = kIrr.scat (W22 m ρ c (Proc.devRef .tc main_v3)) (W22 m ρ c (Proc.devRef .tc main_v66)) := by
  show StableHlo.after hostOps11 (W22 m ρ c) (Proc.devRef .tc main_v69) = _
  after_results
  rfl

/-- The gather before edge-scaling kernel 13: the rows of the affine image at the wrapped index row. -/
theorem w27_v83 : W27 m ρ c (Proc.devRef .tc main_v83) = kIrr.gath (W26 m ρ c (Proc.devRef .tc main_v76)) (W26 m ρ c (Proc.devRef .tc main_v3)) := by
  show StableHlo.after hostOps13 (W26 m ρ c) (Proc.devRef .tc main_v83) = _
  after_results
  rfl

/-- The segment sum after edge-scaling kernel 13: the scaled rows summed, from zero, into the rows the other index row names. -/
theorem w29_v87 : W29 m ρ c (Proc.devRef .tc main_v87) = kIrr.scat (W28 m ρ c (Proc.devRef .tc main_v1)) (W28 m ρ c (Proc.devRef .tc main_v84)) := by
  show StableHlo.after hostOps14 (W28 m ρ c) (Proc.devRef .tc main_v87) = _
  after_results
  rfl

/-- The gather before edge-scaling kernel 16: the rows of the affine image at the wrapped index row. -/
theorem w33_v97 : W33 m ρ c (Proc.devRef .tc main_v97) = kIrr.gath (W32 m ρ c (Proc.devRef .tc main_v90)) (W32 m ρ c (Proc.devRef .tc main_v1)) := by
  show StableHlo.after hostOps16 (W32 m ρ c) (Proc.devRef .tc main_v97) = _
  after_results
  rfl

/-- The segment sum after edge-scaling kernel 16: the scaled rows summed, from zero, into the rows the other index row names. -/
theorem w35_v101 : W35 m ρ c (Proc.devRef .tc main_v101) = kIrr.scat (W34 m ρ c (Proc.devRef .tc main_v3)) (W34 m ρ c (Proc.devRef .tc main_v98)) := by
  show StableHlo.after hostOps17 (W34 m ρ c) (Proc.devRef .tc main_v101) = _
  after_results
  rfl

/-! ## The weights and bias rows -/

/-- The first layer's bias vector, as the first stretch leaves it (kept for the second branch's bias row). -/
theorem w1_v10 : W1 m ρ c (Proc.devRef .tc main_v10) = shapeCast S128 (extractStridedSlice S1x128 ![0, 0] (m ((c : Thread nD τ).loc main_arg4)) Facts₀.slices_S3x128_S1x128_0_0) Facts₀.shapeCasts_S1x128_S128 := by
  show StableHlo.after hostOps0 (W0 m ρ c) (Proc.devRef .tc main_v10) = _
  after_results
  rfl

/-- The first layer's bias row for the second branch. -/
theorem w7_v25 : W7 m ρ c (Proc.devRef .tc main_v25) = Cert.Spec.bOf (m ((c : Thread nD τ).loc main_arg4)) 0 := by
  show StableHlo.after hostOps3 (W6 m ρ c) (Proc.devRef .tc main_v25) = _
  after_results
  rw [from6_v10 m ρ c, w1_v10 m ρ c]
  exact Cert.Layout.bRow_reshape_eq _ 0 0 rfl _ _ _

/-- Layer 1's weight. -/
theorem w13_v40 : W13 m ρ c (Proc.devRef .tc main_v40) = Cert.Spec.wOf (m ((c : Thread nD τ).loc main_arg3)) 1 := by
  show StableHlo.after hostOps6 (W12 m ρ c) (Proc.devRef .tc main_v40) = _
  after_results
  rw [from12_arg3 m ρ c]
  exact Cert.Layout.wOf1_eq _ _ _

/-- Layer 1's bias vector. -/
theorem w13_v42 : W13 m ρ c (Proc.devRef .tc main_v42) = shapeCast S128 (extractStridedSlice S1x128 ![1, 0] (m ((c : Thread nD τ).loc main_arg4)) Facts₀.slices_S3x128_S1x128_1_0) Facts₀.shapeCasts_S1x128_S128 := by
  show StableHlo.after hostOps6 (W12 m ρ c) (Proc.devRef .tc main_v42) = _
  after_results
  rw [from12_arg4 m ρ c]
  rfl

/-- Layer 1's bias row for the first branch. -/
theorem w13_v43 : W13 m ρ c (Proc.devRef .tc main_v43) = Cert.Spec.bOf (m ((c : Thread nD τ).loc main_arg4)) 1 := by
  show StableHlo.after hostOps6 (W12 m ρ c) (Proc.devRef .tc main_v43) = _
  after_results
  rw [from12_arg4 m ρ c]
  exact Cert.Layout.bRow_reshape_eq _ 1 1 rfl _ _ _

/-- Layer 1's bias row for the second branch. -/
theorem w19_v57 : W19 m ρ c (Proc.devRef .tc main_v57) = Cert.Spec.bOf (m ((c : Thread nD τ).loc main_arg4)) 1 := by
  show StableHlo.after hostOps9 (W18 m ρ c) (Proc.devRef .tc main_v57) = _
  after_results
  rw [from18_v42 m ρ c, w13_v42 m ρ c]
  exact Cert.Layout.bRow_reshape_eq _ 1 1 rfl _ _ _

/-- Layer 2's weight. -/
theorem w25_v72 : W25 m ρ c (Proc.devRef .tc main_v72) = Cert.Spec.wOf (m ((c : Thread nD τ).loc main_arg3)) 2 := by
  show StableHlo.after hostOps12 (W24 m ρ c) (Proc.devRef .tc main_v72) = _
  after_results
  rw [from24_arg3 m ρ c]
  exact Cert.Layout.wOf2_eq _ _ _

/-- Layer 2's bias vector. -/
theorem w25_v74 : W25 m ρ c (Proc.devRef .tc main_v74) = shapeCast S128 (extractStridedSlice S1x128 ![2, 0] (m ((c : Thread nD τ).loc main_arg4)) Facts₀.slices_S3x128_S1x128_2_0) Facts₀.shapeCasts_S1x128_S128 := by
  show StableHlo.after hostOps12 (W24 m ρ c) (Proc.devRef .tc main_v74) = _
  after_results
  rw [from24_arg4 m ρ c]
  rfl

/-- Layer 2's bias row for the first branch. -/
theorem w25_v75 : W25 m ρ c (Proc.devRef .tc main_v75) = Cert.Spec.bOf (m ((c : Thread nD τ).loc main_arg4)) 2 := by
  show StableHlo.after hostOps12 (W24 m ρ c) (Proc.devRef .tc main_v75) = _
  after_results
  rw [from24_arg4 m ρ c]
  exact Cert.Layout.bRow_reshape_eq _ 2 2 rfl _ _ _

/-- Layer 2's bias row for the second branch. -/
theorem w31_v89 : W31 m ρ c (Proc.devRef .tc main_v89) = Cert.Spec.bOf (m ((c : Thread nD τ).loc main_arg4)) 2 := by
  show StableHlo.after hostOps15 (W30 m ρ c) (Proc.devRef .tc main_v89) = _
  after_results
  rw [from30_v74 m ρ c, w25_v74 m ρ c]
  exact Cert.Layout.bRow_reshape_eq _ 2 2 rfl _ _ _

end Cert.KernelIdeal.Fold

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.RegLinCore.lean ====
/-
  The affine image of a block of rows.

  A row block of the node features, x0 : [2000, 128], a weight x1 : [128, 128] and a bias row x2 : [1, 128] go through
  the body's arithmetic: both operands of the product change format (the identity on extended reals), the product is
  accumulated from zero, so its entry (r, q) is  Σ_k x0(r, k) · x1(k, q),  and the bias row is repeated down the rows,
  so entry (r, q) gains x2(0, q). When the block holds rows T·2000 … T·2000 + 1999 of an array h, row r of the block is
  row n = T·2000 + r of h, and the entry is the affine image  (h·W + b)(n, q)  of the specification.

  Also here: the dimension numbers "contract axis 1 of the left operand with axis 0 of the right one, no batch axes"
  read as the coordinate facts of a rows-by-columns product, and the arithmetic of cutting 50000 rows into 25 blocks
  of 2000.
-/
import Mathlib
import Idealize.ShloMosaic.Lib.ValueIdx
import Idealize.ShloMosaic.Lib.Pipeline.Value
import Idealize.ShloMosaic.PureOps.Ideal.Laws
import proofs.«161278_j35699768164381_1_alg».proof.Proof.Spec
import proofs.«161278_j35699768164381_1_alg».proof.Proof.LibDot

noncomputable section

namespace Cert.KernelIdeal.Reg.Lin

open Idealize.ShloMosaic Idealize.ShloMosaic.ValueIdx
open Cert.Spec

/-- A block of 2000 rows of 128 features. -/
abbrev sBlk : Shape := ⟨2, ![2000, 128]⟩

/-- The zero offsets of a whole-buffer access, however they are spelt. -/
theorem hz : (![0, 0] : Fin 2 → Nat) = fun _ => 0 := funext fun a => by fin_cases a <;> rfl

/-- Dimension numbers that contract axis 1 of an [M, K] operand with axis 0 of a [K, N] operand, keep axis 0 of the
    left and axis 1 of the right one and have no batch axes are those of a plain rows-by-columns product. -/
theorem plain_of_axes {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : Cert.LibDot.Plain d := by
  obtain ⟨lc, rc, ln, rn, lb, rb, wf⟩ := d
  dsimp only at h1 h2 h3 h4 h5 h6
  subst h1 h2 h3 h4 h5 h6
  exact ⟨rfl, rfl, fun _ _ => rfl, fun _ _ => rfl, fun _ _ => rfl, fun _ _ => rfl⟩

/-- The body's arithmetic at entry (r, q): the product's sum over the 128 contracted features plus the bias of column q. -/
theorem body_apply {d : DotDims sBlk sFF sBlk} (hd : Cert.LibDot.Plain d)
    (hc0 : sBlk.ShapeCasts sBlk) (hc1 : sFF.ShapeCasts sFF) (hc2 : s1F.ShapeCasts s1F)
    (hb : s1F.Broadcasts sBlk) (ht : FTy.bf16.bits < FTy.f32.bits)
    (x0 : FVec Ideal sBlk .f32) (x1 : FVec Ideal sFF .f32) (x2 : FVec Ideal s1F .f32) (r : Fin 2000) (q : Fin 128) :
    addf (matmul d none (truncf .bf16 (shapeCast sBlk x0 hc0) ht) (truncf .bf16 (shapeCast sFF x1 hc1) ht)
            (constant sBlk .f32 0x00000000#32))
        (broadcastTo sBlk (shapeCast s1F x2 hc2) hb) (ix2 r q)
      = (∑ k : Fin 128, x0 (ix2 r k) * x1 (ix2 k q)) + x2 (ix2 0 q) := by
  simp only [shapeCast_self]
  refine (addf_apply _ _ _).trans ?_
  refine congrArg₂ (· + ·) ?_ ?_
  · exact (Cert.LibDot.matmul_ix2 hd none _ _ r q).trans (Finset.sum_congr rfl fun k _ => rfl)
  · exact broadcastTo_apply x2 hb (ix2 r q) (ix2 0 q) (fun a => by
      match a with
      | ⟨0, _⟩ => rfl
      | ⟨1, _⟩ => rfl)

/-- An entry of the block is the affine image at the array's row it sits on: row r of the block is row n of h, and the
    weight and bias blocks are the whole arrays. -/
theorem lin_entry (x0 : FVec Ideal sBlk .f32) (x1 : Arr sFF) (x2 : Arr s1F) (h : Arr sNF) (W : Arr sFF) (b : Arr s1F)
    (r : Fin 2000) (q : Fin 128) (n : Fin 50000)
    (hx0 : ∀ k : Fin 128, x0 (ix2 r k) = h (ix2 n k)) (hx1 : ∀ k : Fin 128, x1 (ix2 k q) = W (ix2 k q))
    (hx2 : x2 (ix2 0 q) = b (ix2 0 q)) :
    (∑ k : Fin 128, x0 (ix2 r k) * x1 (ix2 k q)) + x2 (ix2 0 q) = lin h W b (ix2 n q) := by
  show _ = (∑ k : Fin 128, h (ix2 n k) * W (ix2 k q)) + b (ix2 0 q)
  rw [hx2]
  exact congrArg (· + b (ix2 0 q)) (Finset.sum_congr rfl fun k _ => by rw [hx0 k, hx1 k])

/-- Row n of 50000 lies in block n / 2000 of the 25 blocks of 2000 rows. -/
theorem row_block (n : Nat) (hn : n < 50000) : n / 2000 < 25 ∧ n / 2000 * 2000 ≤ n ∧ n < n / 2000 * 2000 + 2000 := by
  omega

/-- Row r of block T of 25 is a row of the array. -/
theorem block_row (T r : Nat) (hT : T < 25) (hr : r < 2000) : T * 2000 + r < 50000 := by omega

end Cert.KernelIdeal.Reg.Lin

end
-- ==== Proof.RegLinDot.lean ====
/-
  The product every affine layer's body makes is a plain rows-by-columns product: its dimension numbers contract
  axis 1 of the [2000, 128] row block with axis 0 of the [128, 128] weight and have no batch axes.
-/
import proofs.«161278_j35699768164381_1_alg».proof.Proof.Gen.KernelIdeal
import proofs.«161278_j35699768164381_1_alg».proof.Proof.RegLinCore

namespace Cert.KernelIdeal.Reg.Lin

open Idealize.ShloMosaic
open Cert.KernelIdeal Cert.KernelIdeal.Gen

/-- The coordinate facts of the row block times weight product's dimension numbers. -/
theorem plain_dot : Cert.LibDot.Plain dot_S2000x128_S128x128_S2000x128_1_0_0_1_n_n :=
  plain_of_axes _ rfl rfl rfl rfl rfl rfl

end Cert.KernelIdeal.Reg.Lin
-- ==== Proof.RegLin12.lean ====
/-
  Region 12: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin12_pay (x0 : Vec Ideal S2000x128 .f32) (x1 : Vec Ideal S128x128 .f32) (x2 : Vec Ideal S1x128 .f32)
    (r : Fin 2000) (q : Fin 128) :
    k12_pay1 x0 x1 x2 (ix2 r q) = (∑ k : Fin 128, x0 (ix2 r k) * x1 (ix2 k q)) + x2 (ix2 0 q) := by
  unfold k12_pay1
  exact Lin.body_apply Lin.plain_dot _ _ _ _ _ x0 x1 x2 r q

/-- The index maps over the grid: the row blocks of h and of the output move with the point, the weight and the bias
    row stay at block (0, 0). -/
theorem lin12_idx : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The feature block at point t is rows t·2000 … of h. -/
theorem lin12_blk_h (c : Dev nD) (t : Fin cfg12.N) (z : S2000x128.Idx) (k : S50000x128.Idx)
    (hk0 : (k 0).val = t.val * 2000 + (z 0).val) (hk1 : (k 1).val = (z 1).val) :
    (iblk12 V c 0 t : Vec Ideal S2000x128 .f32) z = (V c main_v56 : S50000x128.Idx → EReal) k := by
  obtain ⟨e00, e01, -⟩ := lin12_idx t
  unfold iblk12
  show (V c main_v56 : S50000x128.Idx → EReal) (((cfg12.win 0).blk t).view.emb z) = _
  refine congrArg (V c main_v56 : S50000x128.Idx → EReal) (funext fun a => Fin.ext ?_)
  match a with
  | ⟨0, _⟩ => show win12_0.index t (0 : Fin 2) * 2000 + 1 * (z 0).val = (k 0).val; omega
  | ⟨1, _⟩ => show win12_0.index t (1 : Fin 2) * 128 + 1 * (z 1).val = (k 1).val; omega

/-- The weight block at every point is the whole weight. -/
theorem lin12_blk_W (c : Dev nD) (t : Fin cfg12.N) (z : S128x128.Idx) :
    (iblk12 V c 1 t : Vec Ideal S128x128 .f32) z = (V c main_v72 : S128x128.Idx → EReal) z := by
  obtain ⟨-, -, e10, e11, -⟩ := lin12_idx t
  unfold iblk12
  show (V c main_v72 : S128x128.Idx → EReal) (((cfg12.win 1).blk t).view.emb z) = _
  refine congrArg (V c main_v72 : S128x128.Idx → EReal) (funext fun a => Fin.ext ?_)
  match a with
  | ⟨0, _⟩ => show win12_1.index t (0 : Fin 2) * 128 + 1 * (z 0).val = (z 0).val; omega
  | ⟨1, _⟩ => show win12_1.index t (1 : Fin 2) * 128 + 1 * (z 1).val = (z 1).val; omega

/-- The bias block at every point is the whole bias row. -/
theorem lin12_blk_b (c : Dev nD) (t : Fin cfg12.N) (z : S1x128.Idx) :
    (iblk12 V c 2 t : Vec Ideal S1x128 .f32) z = (V c main_v75 : S1x128.Idx → EReal) z := by
  obtain ⟨-, -, -, -, e20, e21, -⟩ := lin12_idx t
  unfold iblk12
  show (V c main_v75 : S1x128.Idx → EReal) (((cfg12.win 2).blk t).view.emb z) = _
  refine congrArg (V c main_v75 : S1x128.Idx → EReal) (funext fun a => Fin.ext ?_)
  match a with
  | ⟨0, _⟩ => show win12_2.index t (0 : Fin 2) * 1 + 1 * (z 0).val = (z 0).val; omega
  | ⟨1, _⟩ => show win12_2.index t (1 : Fin 2) * 128 + 1 * (z 1).val = (z 1).val; omega

/-- What point t writes back is block t of the affine image of the arrays as the region found them. -/
theorem lin12_flushed (c : Dev nD) (t : Fin cfg12.N) :
    (dat12 (F := Ideal) V c).flushed 3 t
      = ((cfg12.win 3).blk t).view.read (Elt Ideal) (Cert.Spec.lin (V c main_v56) (V c main_v72) (V c main_v75)) := by
  show (cfg12.win 3).cut (grid12.coords t) ((dat12 (F := Ideal) V c).after 3 t) = _
  rw [after12_3]
  unfold out12_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin12_idx t
  have hN : cfg12.N = 25 := N_12
  have ht : t.val < 25 := by have := t.isLt; omega
  funext j
  obtain ⟨r, q, rfl⟩ : ∃ (r : Fin 2000) (q : Fin 128), j = ix2 r q := ⟨j 0, j 1, eq_ix2 j⟩
  show k12_pay1 (iblk12 V c 0 t) (iblk12 V c 1 t) (iblk12 V c 2 t) (ix2 r q)
    = Cert.Spec.lin (V c main_v56) (V c main_v72) (V c main_v75) (((cfg12.win 3).blk t).view.emb (ix2 r q))
  refine (lin12_pay (iblk12 V c 0 t) (iblk12 V c 1 t) (iblk12 V c 2 t) r q).trans ?_
  have hn : t.val * 2000 + r.val < 50000 := Lin.block_row t.val r.val ht r.isLt
  refine (Lin.lin_entry (iblk12 V c 0 t) (iblk12 V c 1 t) (iblk12 V c 2 t) (V c main_v56) (V c main_v72) (V c main_v75) r q
    ⟨t.val * 2000 + r.val, hn⟩
    (fun k => lin12_blk_h V c t (ix2 r k) (ix2 ⟨t.val * 2000 + r.val, hn⟩ k) rfl rfl)
    (fun k => lin12_blk_W V c t (ix2 k q)) (lin12_blk_b V c t (ix2 0 q))).trans ?_
  refine congrArg (Cert.Spec.lin (V c main_v56) (V c main_v72) (V c main_v75)) (funext fun a => Fin.ext ?_)
  match a with
  | ⟨0, _⟩ => show t.val * 2000 + r.val = win12_3.index t (0 : Fin 2) * 2000 + 1 * r.val; omega
  | ⟨1, _⟩ => show q.val = win12_3.index t (1 : Fin 2) * 128 + 1 * q.val; omega

/-- An index of the output array is in point t's block iff each coordinate is in the block's range on its axis. -/
theorem lin12_mem_blk (t : Fin cfg12.N) (i : S50000x128.Idx) :
    i ∈ ((cfg12.win 3).blk t).view.set ↔ ∀ a : Fin 2, win12_3.index t a * S2000x128.size a ≤ (i a).val
      ∧ (i a).val < win12_3.index t a * S2000x128.size a + S2000x128.size a := by
  show i ∈ ((View.whole main_v76).slice (win12_3.rect t)).set ↔ _
  rw [View.set_slice_whole, Rect.mem_set_unit]
  exact Iff.rfl

/-- Every index of the output array is in the block of the point its row's block names: row n lies in block n / 2000. -/
theorem lin12_cover (i : S50000x128.Idx) :
    ∃ t : Fin cfg12.N, (cfg12.win 3).flush t = true ∧ i ∈ ((cfg12.win 3).blk t).view.set := by
  have hN : cfg12.N = 25 := N_12
  have hi1 : (i 1).val < 128 := idx2_lt1 i
  obtain ⟨b0, b1, b2⟩ := Lin.row_block (i 0).val (idx2_lt0 i)
  have ht : (i 0).val / 2000 < cfg12.N := by rw [hN]; exact b0
  obtain ⟨-, -, -, -, -, -, e30, e31⟩ := lin12_idx ⟨(i 0).val / 2000, ht⟩
  have e30' : win12_3.index ⟨(i 0).val / 2000, ht⟩ (0 : Fin 2) = (i 0).val / 2000 := e30
  refine ⟨⟨(i 0).val / 2000, ht⟩, flush12_3 _, ?_⟩
  rw [lin12_mem_blk]
  intro a
  match a with
  | ⟨0, _⟩ =>
    show win12_3.index ⟨(i 0).val / 2000, ht⟩ (0 : Fin 2) * 2000 ≤ (i 0).val
      ∧ (i 0).val < win12_3.index ⟨(i 0).val / 2000, ht⟩ (0 : Fin 2) * 2000 + 2000
    rw [e30']; exact ⟨b1, b2⟩
  | ⟨1, _⟩ =>
    show win12_3.index ⟨(i 0).val / 2000, ht⟩ (1 : Fin 2) * 128 ≤ (i 1).val
      ∧ (i 1).val < win12_3.index ⟨(i 0).val / 2000, ht⟩ (1 : Fin 2) * 128 + 128
    rw [e31]; omega

/-- After the region the output array holds the affine image h·W + b of the arrays as the region found them. -/
theorem lin12 (c : Dev nD) :
    (dat12 (F := Ideal) V c).arrAt 3 cfg12.N = Cert.Spec.lin (V c main_v56) (V c main_v72) (V c main_v75) :=
  (dat12 (F := Ideal) V c).arrAt_eq_of_cover 3 (Cert.Spec.lin (V c main_v56) (V c main_v72) (V c main_v75))
    (fun t _ => lin12_flushed V c t) lin12_cover

end Cert.KernelIdeal.Reg

end
-- ==== Proof.RegPointCore.lean ====
/-
  The arithmetic of the twelve pointwise regions, one entry at a time, on the extended reals.

  A block of the edge-scaling region is the gathered rows' block times the edge-weight column's block, the column
  repeated along the 128 lanes: entry (p, q) is  g(p, q) · w(p, 0).  A block of a rectifier region is, entry by entry,
  the comparison  a > 0  choosing between  a  and  slope · a;  on the extended reals the comparison's bit is 1 exactly
  when  0 < a,  so the choice is the leaky rectifier  a ↦ if 0 < a then a else slope · a  for every a, the two
  infinities included.  With the self term the same choice is made on  a + l.

  The statements are over variables of the block shapes, so that a region's module instantiates them at its window's
  blocks; the shape casts of a block to its own shape are the identity.
-/
import Idealize.ShloMosaic.Lib.Pipeline.Value
import Idealize.ShloMosaic.PureOps.Ideal.Laws
import proofs.«161278_j35699768164381_1_alg».proof.Proof.Spec

noncomputable section

namespace Cert.KernelIdeal.Reg

open Idealize.ShloMosaic Idealize.ShloMosaic.ValueIdx

/-- The block shapes: 8000 edges by 128 lanes, the 8000 edge weights as a column, 2000 nodes by 128 lanes. -/
abbrev bEF : Shape := ⟨2, ![8000, 128]⟩
abbrev bE1 : Shape := ⟨2, ![8000, 1]⟩
abbrev bNF : Shape := ⟨2, ![2000, 128]⟩

/-- The two zero offsets of a whole-block access, as the constant function. -/
theorem zeroOff : (![0, 0] : Fin 2 → Nat) = fun _ => 0 := funext fun a => by fin_cases a <;> rfl

/-- The comparison  a > 0  (against the zero word) choosing between  a  and  slope · a  is the leaky rectifier. -/
theorem leaky_select (a : EReal) :
    Scalar.select (FloatOps.cmpf (F := Ideal) (φ := .f32) .ogt a (FloatOps.ofBits .f32 0x00000000#32)) a
        (FloatOps.mulf (F := Ideal) (φ := .f32) (FloatOps.ofBits .f32 0x3E4CCCCD#32) a)
      = Cert.Spec.leaky a := by
  show (if BitVec.ofBool (decide (Ideal.ofBits .f32 0x00000000#32 < a)) = 1#1 then a
      else Ideal.ofBits .f32 0x3E4CCCCD#32 * a) = Cert.Spec.leaky a
  rw [Ideal.ofBits_zero_f32]
  unfold Cert.Spec.leaky Cert.Spec.slope
  by_cases h : (0 : EReal) < a
  · rw [if_pos h, decide_eq_true h]
    exact if_pos rfl
  · rw [if_neg h, decide_eq_false h]
    exact if_neg (by decide)

/-- The rectifier's vector form at an index: compare with the broadcast zero, select the entry or slope times it. -/
theorem rect_apply {s : Shape} (x : FVec Ideal s .f32) (j : s.Idx) :
    (select (cmpf .ogt x (broadcast s (Scalar.ofBits (F := Ideal) .f32 0x00000000#32))) x
        (mulf (broadcast s (Scalar.ofBits (F := Ideal) .f32 0x3E4CCCCD#32)) x) : FVec Ideal s .f32) j
      = Cert.Spec.leaky (x j) :=
  leaky_select (x j)

/-- The rectifier region's block: entry j of the stored block is the rectifier of entry j of the aggregate's block. -/
theorem comb_pay {s : Shape} (h : s.ShapeCasts s) (v0 : FVec Ideal s .f32) (j : s.Idx) :
    (select (cmpf .ogt (shapeCast s v0 h) (broadcast s (Scalar.ofBits (F := Ideal) .f32 0x00000000#32))) (shapeCast s v0 h)
        (mulf (broadcast s (Scalar.ofBits (F := Ideal) .f32 0x3E4CCCCD#32)) (shapeCast s v0 h)) : FVec Ideal s .f32) j
      = Cert.Spec.leaky (v0 j) := by
  rw [shapeCast_self]
  exact leaky_select (v0 j)

/-- With the self term: entry j is the rectifier of the aggregate's entry plus the affine image's entry. -/
theorem combAdd_pay {s : Shape} (h h' : s.ShapeCasts s) (v0 v2 : FVec Ideal s .f32) (j : s.Idx) :
    (select (cmpf .ogt (addf (shapeCast s v0 h) (shapeCast s v2 h')) (broadcast s (Scalar.ofBits (F := Ideal) .f32 0x00000000#32)))
        (addf (shapeCast s v0 h) (shapeCast s v2 h'))
        (mulf (broadcast s (Scalar.ofBits (F := Ideal) .f32 0x3E4CCCCD#32)) (addf (shapeCast s v0 h) (shapeCast s v2 h')))
        : FVec Ideal s .f32) j
      = Cert.Spec.leaky (v0 j + v2 j) := by
  rw [shapeCast_self, shapeCast_self]
  exact leaky_select (v0 j + v2 j)

/-- The edge-scaling region's block: entry (p, q) is the gathered block's entry times the weight column's entry (p, 0). -/
theorem emul_pay (h : bEF.ShapeCasts bEF) (h1 : bE1.ShapeCasts bE1) (hb : bE1.Broadcasts bEF)
    (v0 : FVec Ideal bEF .f32) (v2 : FVec Ideal bE1 .f32) (p : Fin 8000) (q : Fin 128) :
    (mulf (shapeCast bEF v0 h) (broadcastTo bEF (shapeCast bE1 v2 h1) hb) : FVec Ideal bEF .f32) (ix2 p q)
      = v0 (ix2 p q) * v2 (ix2 p 0) := by
  rw [mulf_apply, shapeCast_self, shapeCast_self]
  refine congrArg (v0 (ix2 p q) * ·) ?_
  refine broadcastTo_apply v2 hb (ix2 p q) (ix2 p 0) fun a => ?_
  match a with
  | ⟨0, _⟩ => rfl
  | ⟨1, _⟩ => rfl

end Cert.KernelIdeal.Reg

end
-- ==== Proof.RegMul13.lean ====
/-
  Edge scaling, region 13: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay13_apply (x0 : Vec Ideal S8000x128 .f32) (x1 : Vec Ideal S8000x1 .f32) (p : Fin 8000) (q : Fin 128) :
    k13_pay1 (F := Ideal) x0 x1 (ix2 p q) = x0 (ix2 p q) * x1 (ix2 p 0) :=
  emul_pay _ _ _ x0 x1 p q

/-- The three index maps over the grid: point t's block index is (t, 0) for every window. -/
theorem idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0 :=
  (by decide +kernel : ∀ t : Fin grid13.N, _)

/-- The gathered rows' block at point t, entry x, is the array's entry k when k is x moved down by 8000·t rows. -/
theorem gblk13 (c : Dev nD) (t : Fin cfg13.N) (x : S8000x128.Idx) (k : S800000x128.Idx)
    (hk0 : (k 0).val = 8000 * t.val + (x 0).val) (hk1 : (k 1).val = (x 1).val) :
    (iblk13 V c 0 t : Vec Ideal S8000x128 .f32) x = (V c main_v83 : S800000x128.Idx → EReal) k := by
  obtain ⟨e0, e1, -⟩ := idx13 t
  unfold iblk13
  show V c main_v83 (((cfg13.win 0).blk t).view.emb x) = V c main_v83 k
  refine congrArg (V c main_v83) (funext fun a => Fin.ext ?_)
  match a with
  | ⟨0, _⟩ => show win13_0.index t (0 : Fin 2) * 8000 + 1 * (x 0).val = (k 0).val; rw [e0, hk0]; omega
  | ⟨1, _⟩ => show win13_0.index t (1 : Fin 2) * 128 + 1 * (x 1).val = (k 1).val; rw [e1, hk1]; omega

/-- The weight column's block likewise. -/
theorem wblk13 (c : Dev nD) (t : Fin cfg13.N) (x : S8000x1.Idx) (k : S800000x1.Idx)
    (hk0 : (k 0).val = 8000 * t.val + (x 0).val) :
    (iblk13 V c 1 t : Vec Ideal S8000x1 .f32) x = (V c main_v6 : S800000x1.Idx → EReal) k := by
  obtain ⟨-, -, e2, e3, -⟩ := idx13 t
  have hx1 : (x 1).val < 1 := (x 1).isLt
  have hk1 : (k 1).val < 1 := (k 1).isLt
  unfold iblk13
  show V c main_v6 (((cfg13.win 1).blk t).view.emb x) = V c main_v6 k
  refine congrArg (V c main_v6) (funext fun a => Fin.ext ?_)
  match a with
  | ⟨0, _⟩ => show win13_1.index t (0 : Fin 2) * 8000 + 1 * (x 0).val = (k 0).val; rw [e2, hk0]; omega
  | ⟨1, _⟩ => show win13_1.index t (1 : Fin 2) * 1 + 1 * (x 1).val = (k 1).val; rw [e3]; omega

/-- What point t writes back is block t of the scaled rows. -/
theorem flushed13 (c : Dev nD) (t : Fin cfg13.N) :
    (dat13 (F := Ideal) V c).flushed 2 t
      = ((cfg13.win 2).blk t).view.read (Elt Ideal) (Cert.Spec.emul (V c main_v83) (V c main_v6)) := by
  show (cfg13.win 2).cut (grid13.coords t) ((dat13 (F := Ideal) V c).after 2 t) = _
  rw [after13_2]
  unfold out13_2
  rw [View.canon_unit_zero zeroOff]
  simp only [View.ld_unit_zero (S := S8000x128) zeroOff, View.ld_unit_zero (S := S8000x1) zeroOff]
  obtain ⟨-, -, -, -, e4, e5⟩ := idx13 t
  funext j
  have hj0 : (j 0).val < 8000 := (j 0).isLt
  have hj1 : (j 1).val < 128 := (j 1).isLt
  show k13_pay1 (F := Ideal) (iblk13 V c 0 t) (iblk13 V c 1 t) (ix2 (⟨(j 0).val, hj0⟩ : Fin 8000) (⟨(j 1).val, hj1⟩ : Fin 128))
      = Cert.Spec.emul (V c main_v83) (V c main_v6) (((cfg13.win 2).blk t).view.emb j)
  refine (pay13_apply (iblk13 V c 0 t) (iblk13 V c 1 t) ⟨(j 0).val, hj0⟩ ⟨(j 1).val, hj1⟩).trans ?_
  unfold Cert.Spec.emul
  refine congrArg₂ (· * ·) (gblk13 V c t _ _ ?_ ?_) (wblk13 V c t _ _ ?_)
  · show win13_2.index t (0 : Fin 2) * 8000 + 1 * (j 0).val = 8000 * t.val + (j 0).val; rw [e4]; omega
  · show win13_2.index t (1 : Fin 2) * 128 + 1 * (j 1).val = (j 1).val; rw [e5]; omega
  · show win13_2.index t (0 : Fin 2) * 8000 + 1 * (j 0).val = 8000 * t.val + (j 0).val; rw [e4]; omega

/-- An index of the array is in point t's block iff each coordinate is in the block's range on its axis. -/
theorem mem_blk13 (t : Fin cfg13.N) (i : S800000x128.Idx) :
    i ∈ ((cfg13.win 2).blk t).view.set ↔ ∀ a : Fin 2, win13_2.index t a * S8000x128.size a ≤ (i a).val
      ∧ (i a).val < win13_2.index t a * S8000x128.size a + S8000x128.size a := by
  show i ∈ ((View.whole main_v84).slice (win13_2.rect t)).set ↔ _
  rw [View.set_slice_whole, Rect.mem_set_unit]
  exact Iff.rfl

/-- Every row is in the block of the point  row / 8000. -/
theorem cover13 (i : S800000x128.Idx) :
    ∃ t : Fin cfg13.N, (cfg13.win 2).flush t = true ∧ i ∈ ((cfg13.win 2).blk t).view.set := by
  have hi0 : (i 0).val < 800000 := (i 0).isLt
  have hi1 : (i 1).val < 128 := (i 1).isLt
  have hN : cfg13.N = 100 := N_13
  let t : Fin cfg13.N := ⟨(i 0).val / 8000, by rw [hN]; omega⟩
  have ht : t.val = (i 0).val / 8000 := rfl
  obtain ⟨-, -, -, -, e4, e5⟩ := idx13 t
  refine ⟨t, flush13_2 t, ?_⟩
  rw [mem_blk13]
  intro a
  match a with
  | ⟨0, _⟩ => show win13_2.index t (0 : Fin 2) * 8000 ≤ (i 0).val ∧ (i 0).val < win13_2.index t (0 : Fin 2) * 8000 + 8000; rw [e4, ht]; omega
  | ⟨1, _⟩ => show win13_2.index t (1 : Fin 2) * 128 ≤ (i 1).val ∧ (i 1).val < win13_2.index t (1 : Fin 2) * 128 + 128; rw [e5]; omega

/-- The output array after the region: every gathered row scaled by its edge's weight. -/
theorem emul13 (c : Dev nD) :
    (dat13 (F := Ideal) V c).arrAt 2 cfg13.N = Cert.Spec.emul (V c main_v83) (V c main_v6) :=
  (dat13 (F := Ideal) V c).arrAt_eq_of_cover 2 (Cert.Spec.emul (V c main_v83) (V c main_v6))
    (fun t _ => flushed13 V c t) (cover13)

end Cert.KernelIdeal.Reg

end
-- ==== Proof.RegCombAdd14.lean ====
/-
  The rectifier after the self term, region 14: after the region its output array holds, at node n and lane q, the
  leaky rectifier of the aggregate's entry (n, q) plus the layer's affine image's entry (n, q).  The grid has 25 points;
  point t stages rows 2000·t … 2000·t + 1999 of the two inputs and of the output, so the entry (p, q) of its blocks is
  the entry (2000·t + p, q) of the arrays; the 25 blocks tile the 50000 rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the sum of the two input blocks' entries j. -/
theorem pay14_apply (x0 x1 : Vec Ideal S2000x128 .f32) (j : S2000x128.Idx) :
    k14_pay1 (F := Ideal) x0 x1 j = Cert.Spec.leaky (x0 j + x1 j) :=
  combAdd_pay _ _ x0 x1 j

/-- The three index maps over the grid: point t's block index is (t, 0) for every window. -/
theorem idx14 : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

/-- The aggregate's block at point t, entry x, is the array's entry k when k is x moved down by 2000·t rows. -/
theorem ablk14 (c : Dev nD) (t : Fin cfg14.N) (x : S2000x128.Idx) (k : S50000x128.Idx)
    (hk0 : (k 0).val = 2000 * t.val + (x 0).val) (hk1 : (k 1).val = (x 1).val) :
    (iblk14 V c 0 t : Vec Ideal S2000x128 .f32) x = (V c main_v87 : S50000x128.Idx → EReal) k := by
  obtain ⟨e0, e1, -⟩ := idx14 t
  unfold iblk14
  show V c main_v87 (((cfg14.win 0).blk t).view.emb x) = V c main_v87 k
  refine congrArg (V c main_v87) (funext fun a => Fin.ext ?_)
  match a with
  | ⟨0, _⟩ => show win14_0.index t (0 : Fin 2) * 2000 + 1 * (x 0).val = (k 0).val; rw [e0, hk0]; omega
  | ⟨1, _⟩ => show win14_0.index t (1 : Fin 2) * 128 + 1 * (x 1).val = (k 1).val; rw [e1, hk1]; omega

/-- The affine image's block likewise. -/
theorem lblk14 (c : Dev nD) (t : Fin cfg14.N) (x : S2000x128.Idx) (k : S50000x128.Idx)
    (hk0 : (k 0).val = 2000 * t.val + (x 0).val) (hk1 : (k 1).val = (x 1).val) :
    (iblk14 V c 1 t : Vec Ideal S2000x128 .f32) x = (V c main_v76 : S50000x128.Idx → EReal) k := by
  obtain ⟨-, -, e2, e3, -⟩ := idx14 t
  unfold iblk14
  show V c main_v76 (((cfg14.win 1).blk t).view.emb x) = V c main_v76 k
  refine congrArg (V c main_v76) (funext fun a => Fin.ext ?_)
  match a with
  | ⟨0, _⟩ => show win14_1.index t (0 : Fin 2) * 2000 + 1 * (x 0).val = (k 0).val; rw [e2, hk0]; omega
  | ⟨1, _⟩ => show win14_1.index t (1 : Fin 2) * 128 + 1 * (x 1).val = (k 1).val; rw [e3, hk1]; omega

/-- What point t writes back is block t of the rectified sum. -/
theorem flushed14 (c : Dev nD) (t : Fin cfg14.N) :
    (dat14 (F := Ideal) V c).flushed 2 t
      = ((cfg14.win 2).blk t).view.read (Elt Ideal) (Cert.Spec.combAdd (V c main_v87) (V c main_v76)) := by
  show (cfg14.win 2).cut (grid14.coords t) ((dat14 (F := Ideal) V c).after 2 t) = _
  rw [after14_2]
  unfold out14_2
  rw [View.canon_unit_zero zeroOff]
  simp only [View.ld_unit_zero (S := S2000x128) zeroOff]
  obtain ⟨-, -, -, -, e4, e5⟩ := idx14 t
  funext j
  show k14_pay1 (F := Ideal) (iblk14 V c 0 t) (iblk14 V c 1 t) j
      = Cert.Spec.combAdd (V c main_v87) (V c main_v76) (((cfg14.win 2).blk t).view.emb j)
  refine (pay14_apply (iblk14 V c 0 t) (iblk14 V c 1 t) j).trans ?_
  unfold Cert.Spec.combAdd
  refine congrArg Cert.Spec.leaky (congrArg₂ (· + ·) (ablk14 V c t _ _ ?_ ?_) (lblk14 V c t _ _ ?_ ?_))
  · show win14_2.index t (0 : Fin 2) * 2000 + 1 * (j 0).val = 2000 * t.val + (j 0).val; rw [e4]; omega
  · show win14_2.index t (1 : Fin 2) * 128 + 1 * (j 1).val = (j 1).val; rw [e5]; omega
  · show win14_2.index t (0 : Fin 2) * 2000 + 1 * (j 0).val = 2000 * t.val + (j 0).val; rw [e4]; omega
  · show win14_2.index t (1 : Fin 2) * 128 + 1 * (j 1).val = (j 1).val; rw [e5]; omega

/-- An index of the array is in point t's block iff each coordinate is in the block's range on its axis. -/
theorem mem_blk14 (t : Fin cfg14.N) (i : S50000x128.Idx) :
    i ∈ ((cfg14.win 2).blk t).view.set ↔ ∀ a : Fin 2, win14_2.index t a * S2000x128.size a ≤ (i a).val
      ∧ (i a).val < win14_2.index t a * S2000x128.size a + S2000x128.size a := by
  show i ∈ ((View.whole main_v88).slice (win14_2.rect t)).set ↔ _
  rw [View.set_slice_whole, Rect.mem_set_unit]
  exact Iff.rfl

/-- Every row is in the block of the point  row / 2000. -/
theorem cover14 (i : S50000x128.Idx) :
    ∃ t : Fin cfg14.N, (cfg14.win 2).flush t = true ∧ i ∈ ((cfg14.win 2).blk t).view.set := by
  have hi0 : (i 0).val < 50000 := (i 0).isLt
  have hi1 : (i 1).val < 128 := (i 1).isLt
  have hN : cfg14.N = 25 := N_14
  let t : Fin cfg14.N := ⟨(i 0).val / 2000, by rw [hN]; omega⟩
  have ht : t.val = (i 0).val / 2000 := rfl
  obtain ⟨-, -, -, -, e4, e5⟩ := idx14 t
  refine ⟨t, flush14_2 t, ?_⟩
  rw [mem_blk14]
  intro a
  match a with
  | ⟨0, _⟩ => show win14_2.index t (0 : Fin 2) * 2000 ≤ (i 0).val ∧ (i 0).val < win14_2.index t (0 : Fin 2) * 2000 + 2000; rw [e4, ht]; omega
  | ⟨1, _⟩ => show win14_2.index t (1 : Fin 2) * 128 ≤ (i 1).val ∧ (i 1).val < win14_2.index t (1 : Fin 2) * 128 + 128; rw [e5]; omega

/-- The output array after the region: the rectifier on the aggregate plus the self term, entry by entry. -/
theorem combAdd14 (c : Dev nD) :
    (dat14 (F := Ideal) V c).arrAt 2 cfg14.N = Cert.Spec.combAdd (V c main_v87) (V c main_v76) :=
  (dat14 (F := Ideal) V c).arrAt_eq_of_cover 2 (Cert.Spec.combAdd (V c main_v87) (V c main_v76))
    (fun t _ => flushed14 V c t) (cover14)

end Cert.KernelIdeal.Reg

end
-- ==== Proof.RegLin6.lean ====
/-
  Region 6: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin6_pay (x0 : Vec Ideal S2000x128 .f32) (x1 : Vec Ideal S128x128 .f32) (x2 : Vec Ideal S1x128 .f32)
    (r : Fin 2000) (q : Fin 128) :
    k6_pay1 x0 x1 x2 (ix2 r q) = (∑ k : Fin 128, x0 (ix2 r k) * x1 (ix2 k q)) + x2 (ix2 0 q) := by
  unfold k6_pay1
  exact Lin.body_apply Lin.plain_dot _ _ _ _ _ x0 x1 x2 r q

/-- The index maps over the grid: the row blocks of h and of the output move with the point, the weight and the bias
    row stay at block (0, 0). -/
theorem lin6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The feature block at point t is rows t·2000 … of h. -/
theorem lin6_blk_h (c : Dev nD) (t : Fin cfg6.N) (z : S2000x128.Idx) (k : S50000x128.Idx)
    (hk0 : (k 0).val = t.val * 2000 + (z 0).val) (hk1 : (k 1).val = (z 1).val) :
    (iblk6 V c 0 t : Vec Ideal S2000x128 .f32) z = (V c main_v24 : S50000x128.Idx → EReal) k := by
  obtain ⟨e00, e01, -⟩ := lin6_idx t
  unfold iblk6
  show (V c main_v24 : S50000x128.Idx → EReal) (((cfg6.win 0).blk t).view.emb z) = _
  refine congrArg (V c main_v24 : S50000x128.Idx → EReal) (funext fun a => Fin.ext ?_)
  match a with
  | ⟨0, _⟩ => show win6_0.index t (0 : Fin 2) * 2000 + 1 * (z 0).val = (k 0).val; omega
  | ⟨1, _⟩ => show win6_0.index t (1 : Fin 2) * 128 + 1 * (z 1).val = (k 1).val; omega

/-- The weight block at every point is the whole weight. -/
theorem lin6_blk_W (c : Dev nD) (t : Fin cfg6.N) (z : S128x128.Idx) :
    (iblk6 V c 1 t : Vec Ideal S128x128 .f32) z = (V c main_v40 : S128x128.Idx → EReal) z := by
  obtain ⟨-, -, e10, e11, -⟩ := lin6_idx t
  unfold iblk6
  show (V c main_v40 : S128x128.Idx → EReal) (((cfg6.win 1).blk t).view.emb z) = _
  refine congrArg (V c main_v40 : S128x128.Idx → EReal) (funext fun a => Fin.ext ?_)
  match a with
  | ⟨0, _⟩ => show win6_1.index t (0 : Fin 2) * 128 + 1 * (z 0).val = (z 0).val; omega
  | ⟨1, _⟩ => show win6_1.index t (1 : Fin 2) * 128 + 1 * (z 1).val = (z 1).val; omega

/-- The bias block at every point is the whole bias row. -/
theorem lin6_blk_b (c : Dev nD) (t : Fin cfg6.N) (z : S1x128.Idx) :
    (iblk6 V c 2 t : Vec Ideal S1x128 .f32) z = (V c main_v43 : S1x128.Idx → EReal) z := by
  obtain ⟨-, -, -, -, e20, e21, -⟩ := lin6_idx t
  unfold iblk6
  show (V c main_v43 : S1x128.Idx → EReal) (((cfg6.win 2).blk t).view.emb z) = _
  refine congrArg (V c main_v43 : S1x128.Idx → EReal) (funext fun a => Fin.ext ?_)
  match a with
  | ⟨0, _⟩ => show win6_2.index t (0 : Fin 2) * 1 + 1 * (z 0).val = (z 0).val; omega
  | ⟨1, _⟩ => show win6_2.index t (1 : Fin 2) * 128 + 1 * (z 1).val = (z 1).val; omega

/-- What point t writes back is block t of the affine image of the arrays as the region found them. -/
theorem lin6_flushed (c : Dev nD) (t : Fin cfg6.N) :
    (dat6 (F := Ideal) V c).flushed 3 t
      = ((cfg6.win 3).blk t).view.read (Elt Ideal) (Cert.Spec.lin (V c main_v24) (V c main_v40) (V c main_v43)) := by
  show (cfg6.win 3).cut (grid6.coords t) ((dat6 (F := Ideal) V c).after 3 t) = _
  rw [after6_3]
  unfold out6_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin6_idx t
  have hN : cfg6.N = 25 := N_6
  have ht : t.val < 25 := by have := t.isLt; omega
  funext j
  obtain ⟨r, q, rfl⟩ : ∃ (r : Fin 2000) (q : Fin 128), j = ix2 r q := ⟨j 0, j 1, eq_ix2 j⟩
  show k6_pay1 (iblk6 V c 0 t) (iblk6 V c 1 t) (iblk6 V c 2 t) (ix2 r q)
    = Cert.Spec.lin (V c main_v24) (V c main_v40) (V c main_v43) (((cfg6.win 3).blk t).view.emb (ix2 r q))
  refine (lin6_pay (iblk6 V c 0 t) (iblk6 V c 1 t) (iblk6 V c 2 t) r q).trans ?_
  have hn : t.val * 2000 + r.val < 50000 := Lin.block_row t.val r.val ht r.isLt
  refine (Lin.lin_entry (iblk6 V c 0 t) (iblk6 V c 1 t) (iblk6 V c 2 t) (V c main_v24) (V c main_v40) (V c main_v43) r q
    ⟨t.val * 2000 + r.val, hn⟩
    (fun k => lin6_blk_h V c t (ix2 r k) (ix2 ⟨t.val * 2000 + r.val, hn⟩ k) rfl rfl)
    (fun k => lin6_blk_W V c t (ix2 k q)) (lin6_blk_b V c t (ix2 0 q))).trans ?_
  refine congrArg (Cert.Spec.lin (V c main_v24) (V c main_v40) (V c main_v43)) (funext fun a => Fin.ext ?_)
  match a with
  | ⟨0, _⟩ => show t.val * 2000 + r.val = win6_3.index t (0 : Fin 2) * 2000 + 1 * r.val; omega
  | ⟨1, _⟩ => show q.val = win6_3.index t (1 : Fin 2) * 128 + 1 * q.val; omega

/-- An index of the output array is in point t's block iff each coordinate is in the block's range on its axis. -/
theorem lin6_mem_blk (t : Fin cfg6.N) (i : S50000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v44).slice (win6_3.rect t)).set ↔ _
  rw [View.set_slice_whole, Rect.mem_set_unit]
  exact Iff.rfl

/-- Every index of the output array is in the block of the point its row's block names: row n lies in block n / 2000. -/
theorem lin6_cover (i : S50000x128.Idx) :
    ∃ t : Fin cfg6.N, (cfg6.win 3).flush t = true ∧ i ∈ ((cfg6.win 3).blk t).view.set := by
  have hN : cfg6.N = 25 := N_6
  have hi1 : (i 1).val < 128 := idx2_lt1 i
  obtain ⟨b0, b1, b2⟩ := Lin.row_block (i 0).val (idx2_lt0 i)
  have ht : (i 0).val / 2000 < cfg6.N := by rw [hN]; exact b0
  obtain ⟨-, -, -, -, -, -, e30, e31⟩ := lin6_idx ⟨(i 0).val / 2000, ht⟩
  have e30' : win6_3.index ⟨(i 0).val / 2000, ht⟩ (0 : Fin 2) = (i 0).val / 2000 := e30
  refine ⟨⟨(i 0).val / 2000, ht⟩, flush6_3 _, ?_⟩
  rw [lin6_mem_blk]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    rw [e30']; exact ⟨b1, b2⟩
  | ⟨1, _⟩ =>
    show win6_3.index ⟨(i 0).val / 2000, ht⟩ (1 : Fin 2) * 128 ≤ (i 1).val
      ∧ (i 1).val < win6_3.index ⟨(i 0).val / 2000, ht⟩ (1 : Fin 2) * 128 + 128
    rw [e31]; omega

/-- After the region the output array holds the affine image h·W + b of the arrays as the region found them. -/
theorem lin6 (c : Dev nD) :
    (dat6 (F := Ideal) V c).arrAt 3 cfg6.N = Cert.Spec.lin (V c main_v24) (V c main_v40) (V c main_v43) :=
  (dat6 (F := Ideal) V c).arrAt_eq_of_cover 3 (Cert.Spec.lin (V c main_v24) (V c main_v40) (V c main_v43))
    (fun t _ => lin6_flushed V c t) lin6_cover

end Cert.KernelIdeal.Reg

end
-- ==== Proof.RegMul7.lean ====
/-
  Edge scaling, region 7: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay7_apply (x0 : Vec Ideal S8000x128 .f32) (x1 : Vec Ideal S8000x1 .f32) (p : Fin 8000) (q : Fin 128) :
    k7_pay1 (F := Ideal) x0 x1 (ix2 p q) = x0 (ix2 p q) * x1 (ix2 p 0) :=
  emul_pay _ _ _ x0 x1 p q

/-- The three index maps over the grid: point t's block index is (t, 0) for every window. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The gathered rows' block at point t, entry x, is the array's entry k when k is x moved down by 8000·t rows. -/
theorem gblk7 (c : Dev nD) (t : Fin cfg7.N) (x : S8000x128.Idx) (k : S800000x128.Idx)
    (hk0 : (k 0).val = 8000 * t.val + (x 0).val) (hk1 : (k 1).val = (x 1).val) :
    (iblk7 V c 0 t : Vec Ideal S8000x128 .f32) x = (V c main_v51 : S800000x128.Idx → EReal) k := by
  obtain ⟨e0, e1, -⟩ := idx7 t
  unfold iblk7
  show V c main_v51 (((cfg7.win 0).blk t).view.emb x) = V c main_v51 k
  refine congrArg (V c main_v51) (funext fun a => Fin.ext ?_)
  match a with
  | ⟨0, _⟩ => show win7_0.index t (0 : Fin 2) * 8000 + 1 * (x 0).val = (k 0).val; rw [e0, hk0]; omega
  | ⟨1, _⟩ => show win7_0.index t (1 : Fin 2) * 128 + 1 * (x 1).val = (k 1).val; rw [e1, hk1]; omega

/-- The weight column's block likewise. -/
theorem wblk7 (c : Dev nD) (t : Fin cfg7.N) (x : S8000x1.Idx) (k : S800000x1.Idx)
    (hk0 : (k 0).val = 8000 * t.val + (x 0).val) :
    (iblk7 V c 1 t : Vec Ideal S8000x1 .f32) x = (V c main_v6 : S800000x1.Idx → EReal) k := by
  obtain ⟨-, -, e2, e3, -⟩ := idx7 t
  have hx1 : (x 1).val < 1 := (x 1).isLt
  have hk1 : (k 1).val < 1 := (k 1).isLt
  unfold iblk7
  show V c main_v6 (((cfg7.win 1).blk t).view.emb x) = V c main_v6 k
  refine congrArg (V c main_v6) (funext fun a => Fin.ext ?_)
  match a with
  | ⟨0, _⟩ => show win7_1.index t (0 : Fin 2) * 8000 + 1 * (x 0).val = (k 0).val; rw [e2, hk0]; omega
  | ⟨1, _⟩ => show win7_1.index t (1 : Fin 2) * 1 + 1 * (x 1).val = (k 1).val; rw [e3]; omega

/-- What point t writes back is block t of the scaled rows. -/
theorem flushed7 (c : Dev nD) (t : Fin cfg7.N) :
    (dat7 (F := Ideal) V c).flushed 2 t
      = ((cfg7.win 2).blk t).view.read (Elt Ideal) (Cert.Spec.emul (V c main_v51) (V c main_v6)) := by
  show (cfg7.win 2).cut (grid7.coords t) ((dat7 (F := Ideal) V c).after 2 t) = _
  rw [after7_2]
  unfold out7_2
  rw [View.canon_unit_zero zeroOff]
  simp only [View.ld_unit_zero (S := S8000x128) zeroOff, View.ld_unit_zero (S := S8000x1) zeroOff]
  obtain ⟨-, -, -, -, e4, e5⟩ := idx7 t
  funext j
  have hj0 : (j 0).val < 8000 := (j 0).isLt
  have hj1 : (j 1).val < 128 := (j 1).isLt
  show k7_pay1 (F := Ideal) (iblk7 V c 0 t) (iblk7 V c 1 t) (ix2 (⟨(j 0).val, hj0⟩ : Fin 8000) (⟨(j 1).val, hj1⟩ : Fin 128))
      = Cert.Spec.emul (V c main_v51) (V c main_v6) (((cfg7.win 2).blk t).view.emb j)
  refine (pay7_apply (iblk7 V c 0 t) (iblk7 V c 1 t) ⟨(j 0).val, hj0⟩ ⟨(j 1).val, hj1⟩).trans ?_
  unfold Cert.Spec.emul
  refine congrArg₂ (· * ·) (gblk7 V c t _ _ ?_ ?_) (wblk7 V c t _ _ ?_)
  · show win7_2.index t (0 : Fin 2) * 8000 + 1 * (j 0).val = 8000 * t.val + (j 0).val; rw [e4]; omega
  · show win7_2.index t (1 : Fin 2) * 128 + 1 * (j 1).val = (j 1).val; rw [e5]; omega
  · show win7_2.index t (0 : Fin 2) * 8000 + 1 * (j 0).val = 8000 * t.val + (j 0).val; rw [e4]; omega

/-- An index of the array is in point t's block iff each coordinate is in the block's range on its axis. -/
theorem mem_blk7 (t : Fin cfg7.N) (i : S800000x128.Idx) :
    i ∈ ((cfg7.win 2).blk t).view.set ↔ ∀ a : Fin 2, win7_2.index t a * S8000x128.size a ≤ (i a).val
      ∧ (i a).val < win7_2.index t a * S8000x128.size a + S8000x128.size a := by
  show i ∈ ((View.whole main_v52).slice (win7_2.rect t)).set ↔ _
  rw [View.set_slice_whole, Rect.mem_set_unit]
  exact Iff.rfl

/-- Every row is in the block of the point  row / 8000. -/
theorem cover7 (i : S800000x128.Idx) :
    ∃ t : Fin cfg7.N, (cfg7.win 2).flush t = true ∧ i ∈ ((cfg7.win 2).blk t).view.set := by
  have hi0 : (i 0).val < 800000 := (i 0).isLt
  have hi1 : (i 1).val < 128 := (i 1).isLt
  have hN : cfg7.N = 100 := N_7
  let t : Fin cfg7.N := ⟨(i 0).val / 8000, by rw [hN]; omega⟩
  have ht : t.val = (i 0).val / 8000 := rfl
  obtain ⟨-, -, -, -, e4, e5⟩ := idx7 t
  refine ⟨t, flush7_2 t, ?_⟩
  rw [mem_blk7]
  intro a
  match a with
  | ⟨0, _⟩ => show win7_2.index t (0 : Fin 2) * 8000 ≤ (i 0).val ∧ (i 0).val < win7_2.index t (0 : Fin 2) * 8000 + 8000; rw [e4, ht]; omega
  | ⟨1, _⟩ => show win7_2.index t (1 : Fin 2) * 128 ≤ (i 1).val ∧ (i 1).val < win7_2.index t (1 : Fin 2) * 128 + 128; rw [e5]; omega

/-- The output array after the region: every gathered row scaled by its edge's weight. -/
theorem emul7 (c : Dev nD) :
    (dat7 (F := Ideal) V c).arrAt 2 cfg7.N = Cert.Spec.emul (V c main_v51) (V c main_v6) :=
  (dat7 (F := Ideal) V c).arrAt_eq_of_cover 2 (Cert.Spec.emul (V c main_v51) (V c main_v6))
    (fun t _ => flushed7 V c t) (cover7)

end Cert.KernelIdeal.Reg

end
-- ==== Proof.RegCombAdd8.lean ====
/-
  The rectifier after the self term, region 8: after the region its output array holds, at node n and lane q, the
  leaky rectifier of the aggregate's entry (n, q) plus the layer's affine image's entry (n, q).  The grid has 25 points;
  point t stages rows 2000·t … 2000·t + 1999 of the two inputs and of the output, so the entry (p, q) of its blocks is
  the entry (2000·t + p, q) of the arrays; the 25 blocks tile the 50000 rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the sum of the two input blocks' entries j. -/
theorem pay8_apply (x0 x1 : Vec Ideal S2000x128 .f32) (j : S2000x128.Idx) :
    k8_pay1 (F := Ideal) x0 x1 j = Cert.Spec.leaky (x0 j + x1 j) :=
  combAdd_pay _ _ x0 x1 j

/-- The three index maps over the grid: point t's block index is (t, 0) for every window. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- The aggregate's block at point t, entry x, is the array's entry k when k is x moved down by 2000·t rows. -/
theorem ablk8 (c : Dev nD) (t : Fin cfg8.N) (x : S2000x128.Idx) (k : S50000x128.Idx)
    (hk0 : (k 0).val = 2000 * t.val + (x 0).val) (hk1 : (k 1).val = (x 1).val) :
    (iblk8 V c 0 t : Vec Ideal S2000x128 .f32) x = (V c main_v55 : S50000x128.Idx → EReal) k := by
  obtain ⟨e0, e1, -⟩ := idx8 t
  unfold iblk8
  show V c main_v55 (((cfg8.win 0).blk t).view.emb x) = V c main_v55 k
  refine congrArg (V c main_v55) (funext fun a => Fin.ext ?_)
  match a with
  | ⟨0, _⟩ => show win8_0.index t (0 : Fin 2) * 2000 + 1 * (x 0).val = (k 0).val; rw [e0, hk0]; omega
  | ⟨1, _⟩ => show win8_0.index t (1 : Fin 2) * 128 + 1 * (x 1).val = (k 1).val; rw [e1, hk1]; omega

/-- The affine image's block likewise. -/
theorem lblk8 (c : Dev nD) (t : Fin cfg8.N) (x : S2000x128.Idx) (k : S50000x128.Idx)
    (hk0 : (k 0).val = 2000 * t.val + (x 0).val) (hk1 : (k 1).val = (x 1).val) :
    (iblk8 V c 1 t : Vec Ideal S2000x128 .f32) x = (V c main_v44 : S50000x128.Idx → EReal) k := by
  obtain ⟨-, -, e2, e3, -⟩ := idx8 t
  unfold iblk8
  show V c main_v44 (((cfg8.win 1).blk t).view.emb x) = V c main_v44 k
  refine congrArg (V c main_v44) (funext fun a => Fin.ext ?_)
  match a with
  | ⟨0, _⟩ => show win8_1.index t (0 : Fin 2) * 2000 + 1 * (x 0).val = (k 0).val; rw [e2, hk0]; omega
  | ⟨1, _⟩ => show win8_1.index t (1 : Fin 2) * 128 + 1 * (x 1).val = (k 1).val; rw [e3, hk1]; omega

/-- What point t writes back is block t of the rectified sum. -/
theorem flushed8 (c : Dev nD) (t : Fin cfg8.N) :
    (dat8 (F := Ideal) V c).flushed 2 t
      = ((cfg8.win 2).blk t).view.read (Elt Ideal) (Cert.Spec.combAdd (V c main_v55) (V c main_v44)) := by
  show (cfg8.win 2).cut (grid8.coords t) ((dat8 (F := Ideal) V c).after 2 t) = _
  rw [after8_2]
  unfold out8_2
  rw [View.canon_unit_zero zeroOff]
  simp only [View.ld_unit_zero (S := S2000x128) zeroOff]
  obtain ⟨-, -, -, -, e4, e5⟩ := idx8 t
  funext j
  show k8_pay1 (F := Ideal) (iblk8 V c 0 t) (iblk8 V c 1 t) j
      = Cert.Spec.combAdd (V c main_v55) (V c main_v44) (((cfg8.win 2).blk t).view.emb j)
  refine (pay8_apply (iblk8 V c 0 t) (iblk8 V c 1 t) j).trans ?_
  unfold Cert.Spec.combAdd
  refine congrArg Cert.Spec.leaky (congrArg₂ (· + ·) (ablk8 V c t _ _ ?_ ?_) (lblk8 V c t _ _ ?_ ?_))
  · show win8_2.index t (0 : Fin 2) * 2000 + 1 * (j 0).val = 2000 * t.val + (j 0).val; rw [e4]; omega
  · show win8_2.index t (1 : Fin 2) * 128 + 1 * (j 1).val = (j 1).val; rw [e5]; omega
  · show win8_2.index t (0 : Fin 2) * 2000 + 1 * (j 0).val = 2000 * t.val + (j 0).val; rw [e4]; omega
  · show win8_2.index t (1 : Fin 2) * 128 + 1 * (j 1).val = (j 1).val; rw [e5]; omega

/-- An index of the array is in point t's block iff each coordinate is in the block's range on its axis. -/
theorem mem_blk8 (t : Fin cfg8.N) (i : S50000x128.Idx) :
    i ∈ ((cfg8.win 2).blk t).view.set ↔ ∀ a : Fin 2, win8_2.index t a * S2000x128.size a ≤ (i a).val
      ∧ (i a).val < win8_2.index t a * S2000x128.size a + S2000x128.size a := by
  show i ∈ ((View.whole main_v56).slice (win8_2.rect t)).set ↔ _
  rw [View.set_slice_whole, Rect.mem_set_unit]
  exact Iff.rfl

/-- Every row is in the block of the point  row / 2000. -/
theorem cover8 (i : S50000x128.Idx) :
    ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 25 := N_8
  let t : Fin cfg8.N := ⟨(i 0).val / 2000, by rw [hN]; omega⟩
  have ht : t.val = (i 0).val / 2000 := rfl
  obtain ⟨-, -, -, -, e4, e5⟩ := idx8 t
  refine ⟨t, flush8_2 t, ?_⟩
  rw [mem_blk8]
  intro a
  match a with
  | ⟨0, _⟩ => show win8_2.index t (0 : Fin 2) * 2000 ≤ (i 0).val ∧ (i 0).val < win8_2.index t (0 : Fin 2) * 2000 + 2000; rw [e4, ht]; omega
  | ⟨1, _⟩ => show win8_2.index t (1 : Fin 2) * 128 ≤ (i 1).val ∧ (i 1).val < win8_2.index t (1 : Fin 2) * 128 + 128; rw [e5]; omega

/-- The output array after the region: the rectifier on the aggregate plus the self term, entry by entry. -/
theorem combAdd8 (c : Dev nD) :
    (dat8 (F := Ideal) V c).arrAt 2 cfg8.N = Cert.Spec.combAdd (V c main_v55) (V c main_v44) :=
  (dat8 (F := Ideal) V c).arrAt_eq_of_cover 2 (Cert.Spec.combAdd (V c main_v55) (V c main_v44))
    (fun t _ => flushed8 V c t) (cover8)

end Cert.KernelIdeal.Reg

end
-- ==== Proof.RegLin0.lean ====
/-
  Region 0: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin0_pay (x0 : Vec Ideal S2000x128 .f32) (x1 : Vec Ideal S128x128 .f32) (x2 : Vec Ideal S1x128 .f32)
    (r : Fin 2000) (q : Fin 128) :
    k0_pay1 x0 x1 x2 (ix2 r q) = (∑ k : Fin 128, x0 (ix2 r k) * x1 (ix2 k q)) + x2 (ix2 0 q) := by
  unfold k0_pay1
  exact Lin.body_apply Lin.plain_dot _ _ _ _ _ x0 x1 x2 r q

/-- The index maps over the grid: the row blocks of h and of the output move with the point, the weight and the bias
    row stay at block (0, 0). -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows t·2000 … of h. -/
theorem lin0_blk_h (c : Dev nD) (t : Fin cfg0.N) (z : S2000x128.Idx) (k : S50000x128.Idx)
    (hk0 : (k 0).val = t.val * 2000 + (z 0).val) (hk1 : (k 1).val = (z 1).val) :
    (iblk0 V c 0 t : Vec Ideal S2000x128 .f32) z = (V c main_v4 : S50000x128.Idx → EReal) k := by
  obtain ⟨e00, e01, -⟩ := lin0_idx t
  unfold iblk0
  show (V c main_v4 : S50000x128.Idx → EReal) (((cfg0.win 0).blk t).view.emb z) = _
  refine congrArg (V c main_v4 : S50000x128.Idx → EReal) (funext fun a => Fin.ext ?_)
  match a with
  | ⟨0, _⟩ => show win0_0.index t (0 : Fin 2) * 2000 + 1 * (z 0).val = (k 0).val; omega
  | ⟨1, _⟩ => show win0_0.index t (1 : Fin 2) * 128 + 1 * (z 1).val = (k 1).val; omega

/-- The weight block at every point is the whole weight. -/
theorem lin0_blk_W (c : Dev nD) (t : Fin cfg0.N) (z : S128x128.Idx) :
    (iblk0 V c 1 t : Vec Ideal S128x128 .f32) z = (V c main_v8 : S128x128.Idx → EReal) z := by
  obtain ⟨-, -, e10, e11, -⟩ := lin0_idx t
  unfold iblk0
  show (V c main_v8 : S128x128.Idx → EReal) (((cfg0.win 1).blk t).view.emb z) = _
  refine congrArg (V c main_v8 : S128x128.Idx → EReal) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The bias block at every point is the whole bias row. -/
theorem lin0_blk_b (c : Dev nD) (t : Fin cfg0.N) (z : S1x128.Idx) :
    (iblk0 V c 2 t : Vec Ideal S1x128 .f32) z = (V c main_v11 : S1x128.Idx → EReal) z := by
  obtain ⟨-, -, -, -, e20, e21, -⟩ := lin0_idx t
  unfold iblk0
  show (V c main_v11 : S1x128.Idx → EReal) (((cfg0.win 2).blk t).view.emb z) = _
  refine congrArg (V c main_v11 : S1x128.Idx → EReal) (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

/-- What point t writes back is block t of the affine image of the arrays as the region found them. -/
theorem lin0_flushed (c : Dev nD) (t : Fin cfg0.N) :
    (dat0 (F := Ideal) V c).flushed 3 t
      = ((cfg0.win 3).blk t).view.read (Elt Ideal) (Cert.Spec.lin (V c main_v4) (V c main_v8) (V c main_v11)) := by
  show (cfg0.win 3).cut (grid0.coords t) ((dat0 (F := Ideal) V c).after 3 t) = _
  rw [after0_3]
  unfold out0_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin0_idx t
  have hN : cfg0.N = 25 := N_0
  have ht : t.val < 25 := by have := t.isLt; omega
  funext j
  obtain ⟨r, q, rfl⟩ : ∃ (r : Fin 2000) (q : Fin 128), j = ix2 r q := ⟨j 0, j 1, eq_ix2 j⟩
  show k0_pay1 (iblk0 V c 0 t) (iblk0 V c 1 t) (iblk0 V c 2 t) (ix2 r q)
    = Cert.Spec.lin (V c main_v4) (V c main_v8) (V c main_v11) (((cfg0.win 3).blk t).view.emb (ix2 r q))
  refine (lin0_pay (iblk0 V c 0 t) (iblk0 V c 1 t) (iblk0 V c 2 t) r q).trans ?_
  have hn : t.val * 2000 + r.val < 50000 := Lin.block_row t.val r.val ht r.isLt
  refine (Lin.lin_entry (iblk0 V c 0 t) (iblk0 V c 1 t) (iblk0 V c 2 t) (V c main_v4) (V c main_v8) (V c main_v11) r q
    ⟨t.val * 2000 + r.val, hn⟩
    (fun k => lin0_blk_h V c t (ix2 r k) (ix2 ⟨t.val * 2000 + r.val, hn⟩ k) rfl rfl)
    (fun k => lin0_blk_W V c t (ix2 k q)) (lin0_blk_b V c t (ix2 0 q))).trans ?_
  refine congrArg (Cert.Spec.lin (V c main_v4) (V c main_v8) (V c main_v11)) (funext fun a => Fin.ext ?_)
  match a with
  | ⟨0, _⟩ => show t.val * 2000 + r.val = win0_3.index t (0 : Fin 2) * 2000 + 1 * r.val; omega
  | ⟨1, _⟩ => show q.val = win0_3.index t (1 : Fin 2) * 128 + 1 * q.val; omega

/-- An index of the output array is in point t's block iff each coordinate is in the block's range on its axis. -/
theorem lin0_mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v12).slice (win0_3.rect t)).set ↔ _
  rw [View.set_slice_whole, Rect.mem_set_unit]
  exact Iff.rfl

/-- Every index of the output array is in the block of the point its row's block names: row n lies in block n / 2000. -/
theorem lin0_cover (i : S50000x128.Idx) :
    ∃ t : Fin cfg0.N, (cfg0.win 3).flush t = true ∧ i ∈ ((cfg0.win 3).blk t).view.set := by
  have hN : cfg0.N = 25 := N_0
  have hi1 : (i 1).val < 128 := idx2_lt1 i
  obtain ⟨b0, b1, b2⟩ := Lin.row_block (i 0).val (idx2_lt0 i)
  have ht : (i 0).val / 2000 < cfg0.N := by rw [hN]; exact b0
  obtain ⟨-, -, -, -, -, -, e30, e31⟩ := lin0_idx ⟨(i 0).val / 2000, ht⟩
  have e30' : win0_3.index ⟨(i 0).val / 2000, ht⟩ (0 : Fin 2) = (i 0).val / 2000 := e30
  refine ⟨⟨(i 0).val / 2000, ht⟩, flush0_3 _, ?_⟩
  rw [lin0_mem_blk]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30']; exact ⟨b1, b2⟩
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e31]; omega

/-- After the region the output array holds the affine image h·W + b of the arrays as the region found them. -/
theorem lin0 (c : Dev nD) :
    (dat0 (F := Ideal) V c).arrAt 3 cfg0.N = Cert.Spec.lin (V c main_v4) (V c main_v8) (V c main_v11) :=
  (dat0 (F := Ideal) V c).arrAt_eq_of_cover 3 (Cert.Spec.lin (V c main_v4) (V c main_v8) (V c main_v11))
    (fun t _ => lin0_flushed V c t) lin0_cover

end Cert.KernelIdeal.Reg

end
-- ==== Proof.RegMul1.lean ====
/-
  Edge scaling, region 1: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay1_apply (x0 : Vec Ideal S8000x128 .f32) (x1 : Vec Ideal S8000x1 .f32) (p : Fin 8000) (q : Fin 128) :
    k1_pay1 (F := Ideal) x0 x1 (ix2 p q) = x0 (ix2 p q) * x1 (ix2 p 0) :=
  emul_pay _ _ _ x0 x1 p q

/-- The three index maps over the grid: point t's block index is (t, 0) for every window. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The gathered rows' block at point t, entry x, is the array's entry k when k is x moved down by 8000·t rows. -/
theorem gblk1 (c : Dev nD) (t : Fin cfg1.N) (x : S8000x128.Idx) (k : S800000x128.Idx)
    (hk0 : (k 0).val = 8000 * t.val + (x 0).val) (hk1 : (k 1).val = (x 1).val) :
    (iblk1 V c 0 t : Vec Ideal S8000x128 .f32) x = (V c main_v19 : S800000x128.Idx → EReal) k := by
  obtain ⟨e0, e1, -⟩ := idx1 t
  unfold iblk1
  show V c main_v19 (((cfg1.win 0).blk t).view.emb x) = V c main_v19 k
  refine congrArg (V c main_v19) (funext fun a => Fin.ext ?_)
  match a with
  | ⟨0, _⟩ => show win1_0.index t (0 : Fin 2) * 8000 + 1 * (x 0).val = (k 0).val; rw [e0, hk0]; omega
  | ⟨1, _⟩ => show win1_0.index t (1 : Fin 2) * 128 + 1 * (x 1).val = (k 1).val; rw [e1, hk1]; omega

/-- The weight column's block likewise. -/
theorem wblk1 (c : Dev nD) (t : Fin cfg1.N) (x : S8000x1.Idx) (k : S800000x1.Idx)
    (hk0 : (k 0).val = 8000 * t.val + (x 0).val) :
    (iblk1 V c 1 t : Vec Ideal S8000x1 .f32) x = (V c main_v6 : S800000x1.Idx → EReal) k := by
  obtain ⟨-, -, e2, e3, -⟩ := idx1 t
  have hx1 : (x 1).val < 1 := (x 1).isLt
  have hk1 : (k 1).val < 1 := (k 1).isLt
  unfold iblk1
  show V c main_v6 (((cfg1.win 1).blk t).view.emb x) = V c main_v6 k
  refine congrArg (V c main_v6) (funext fun a => Fin.ext ?_)
  match a with
  | ⟨0, _⟩ => show win1_1.index t (0 : Fin 2) * 8000 + 1 * (x 0).val = (k 0).val; rw [e2, hk0]; omega
  | ⟨1, _⟩ => show win1_1.index t (1 : Fin 2) * 1 + 1 * (x 1).val = (k 1).val; rw [e3]; omega

/-- What point t writes back is block t of the scaled rows. -/
theorem flushed1 (c : Dev nD) (t : Fin cfg1.N) :
    (dat1 (F := Ideal) V c).flushed 2 t
      = ((cfg1.win 2).blk t).view.read (Elt Ideal) (Cert.Spec.emul (V c main_v19) (V c main_v6)) := by
  show (cfg1.win 2).cut (grid1.coords t) ((dat1 (F := Ideal) V c).after 2 t) = _
  rw [after1_2]
  unfold out1_2
  rw [View.canon_unit_zero zeroOff]
  simp only [View.ld_unit_zero (S := S8000x128) zeroOff, View.ld_unit_zero (S := S8000x1) zeroOff]
  obtain ⟨-, -, -, -, e4, e5⟩ := idx1 t
  funext j
  have hj0 : (j 0).val < 8000 := (j 0).isLt
  have hj1 : (j 1).val < 128 := (j 1).isLt
  show k1_pay1 (F := Ideal) (iblk1 V c 0 t) (iblk1 V c 1 t) (ix2 (⟨(j 0).val, hj0⟩ : Fin 8000) (⟨(j 1).val, hj1⟩ : Fin 128))
      = Cert.Spec.emul (V c main_v19) (V c main_v6) (((cfg1.win 2).blk t).view.emb j)
  refine (pay1_apply (iblk1 V c 0 t) (iblk1 V c 1 t) ⟨(j 0).val, hj0⟩ ⟨(j 1).val, hj1⟩).trans ?_
  unfold Cert.Spec.emul
  refine congrArg₂ (· * ·) (gblk1 V c t _ _ ?_ ?_) (wblk1 V c t _ _ ?_)
  · show win1_2.index t (0 : Fin 2) * 8000 + 1 * (j 0).val = 8000 * t.val + (j 0).val; rw [e4]; omega
  · show win1_2.index t (1 : Fin 2) * 128 + 1 * (j 1).val = (j 1).val; rw [e5]; omega
  · show win1_2.index t (0 : Fin 2) * 8000 + 1 * (j 0).val = 8000 * t.val + (j 0).val; rw [e4]; omega

/-- An index of the array is in point t's block iff each coordinate is in the block's range on its axis. -/
theorem mem_blk1 (t : Fin cfg1.N) (i : S800000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v20).slice (win1_2.rect t)).set ↔ _
  rw [View.set_slice_whole, Rect.mem_set_unit]
  exact Iff.rfl

/-- Every row is in the block of the point  row / 8000. -/
theorem cover1 (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 100 := N_1
  let t : Fin cfg1.N := ⟨(i 0).val / 8000, by rw [hN]; omega⟩
  have ht : t.val = (i 0).val / 8000 := rfl
  obtain ⟨-, -, -, -, e4, e5⟩ := idx1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; rw [e4, ht]; omega
  | ⟨1, _⟩ => show win1_2.index t (1 : Fin 2) * 128 ≤ (i 1).val ∧ (i 1).val < win1_2.index t (1 : Fin 2) * 128 + 128; rw [e5]; omega

/-- The output array after the region: every gathered row scaled by its edge's weight. -/
theorem emul1 (c : Dev nD) :
    (dat1 (F := Ideal) V c).arrAt 2 cfg1.N = Cert.Spec.emul (V c main_v19) (V c main_v6) :=
  (dat1 (F := Ideal) V c).arrAt_eq_of_cover 2 (Cert.Spec.emul (V c main_v19) (V c main_v6))
    (fun t _ => flushed1 V c t) (cover1)

end Cert.KernelIdeal.Reg

end
-- ==== Proof.RegComb2.lean ====
/-
  The rectifier, region 2: after the region its output array holds, at node n and lane q, the leaky rectifier of the
  aggregate's entry (n, q).  The grid has 25 points; point t stages rows 2000·t … 2000·t + 1999 of the aggregate and of
  the output, so the entry (p, q) of its blocks is the entry (2000·t + p, q) of the arrays; the 25 blocks tile the 50000
  rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the aggregate block's entry j. -/
theorem pay2_apply (x0 : Vec Ideal S2000x128 .f32) (j : S2000x128.Idx) :
    k2_pay1 (F := Ideal) x0 j = Cert.Spec.leaky (x0 j) :=
  comb_pay _ x0 j

/-- The two index maps over the grid: point t's block index is (t, 0) for both windows. -/
theorem idx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The aggregate's block at point t, entry x, is the array's entry k when k is x moved down by 2000·t rows. -/
theorem ablk2 (c : Dev nD) (t : Fin cfg2.N) (x : S2000x128.Idx) (k : S50000x128.Idx)
    (hk0 : (k 0).val = 2000 * t.val + (x 0).val) (hk1 : (k 1).val = (x 1).val) :
    (iblk2 V c 0 t : Vec Ideal S2000x128 .f32) x = (V c main_v23 : S50000x128.Idx → EReal) k := by
  obtain ⟨e0, e1, -⟩ := idx2 t
  unfold iblk2
  show V c main_v23 (((cfg2.win 0).blk t).view.emb x) = V c main_v23 k
  refine congrArg (V c main_v23) (funext fun a => Fin.ext ?_)
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- What point t writes back is block t of the rectified aggregate. -/
theorem flushed2 (c : Dev nD) (t : Fin cfg2.N) :
    (dat2 (F := Ideal) V c).flushed 1 t
      = ((cfg2.win 1).blk t).view.read (Elt Ideal) (Cert.Spec.comb (V c main_v23)) := by
  show (cfg2.win 1).cut (grid2.coords t) ((dat2 (F := Ideal) V c).after 1 t) = _
  rw [after2_1]
  unfold out2_1
  rw [View.canon_unit_zero zeroOff]
  simp only [View.ld_unit_zero (S := S2000x128) zeroOff]
  obtain ⟨-, -, e2, e3⟩ := idx2 t
  funext j
  show k2_pay1 (F := Ideal) (iblk2 V c 0 t) j
      = Cert.Spec.comb (V c main_v23) (((cfg2.win 1).blk t).view.emb j)
  refine (pay2_apply (iblk2 V c 0 t) j).trans ?_
  unfold Cert.Spec.comb
  refine congrArg Cert.Spec.leaky (ablk2 V c t _ _ ?_ ?_)
  · show win2_1.index t (0 : Fin 2) * 2000 + 1 * (j 0).val = 2000 * t.val + (j 0).val; rw [e2]; omega
  · show win2_1.index t (1 : Fin 2) * 128 + 1 * (j 1).val = (j 1).val; rw [e3]; omega

/-- An index of the array is in point t's block iff each coordinate is in the block's range on its axis. -/
theorem mem_blk2 (t : Fin cfg2.N) (i : S50000x128.Idx) :
    i ∈ ((cfg2.win 1).blk t).view.set ↔ ∀ a : Fin 2, win2_1.index t a * S2000x128.size a ≤ (i a).val
      ∧ (i a).val < win2_1.index t a * S2000x128.size a + S2000x128.size a := by
  show i ∈ ((View.whole main_v24).slice (win2_1.rect t)).set ↔ _
  rw [View.set_slice_whole, Rect.mem_set_unit]
  exact Iff.rfl

/-- Every row is in the block of the point  row / 2000. -/
theorem cover2 (i : S50000x128.Idx) :
    ∃ t : Fin cfg2.N, (cfg2.win 1).flush t = true ∧ i ∈ ((cfg2.win 1).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have ht : t.val = (i 0).val / 2000 := rfl
  obtain ⟨-, -, e2, e3⟩ := idx2 t
  refine ⟨t, flush2_1 t, ?_⟩
  rw [mem_blk2]
  intro a
  match a with
  | ⟨0, _⟩ => show win2_1.index t (0 : Fin 2) * 2000 ≤ (i 0).val ∧ (i 0).val < win2_1.index t (0 : Fin 2) * 2000 + 2000; rw [e2, ht]; omega
  | ⟨1, _⟩ => show win2_1.index t (1 : Fin 2) * 128 ≤ (i 1).val ∧ (i 1).val < win2_1.index t (1 : Fin 2) * 128 + 128; rw [e3]; omega

/-- The output array after the region: the rectifier on every entry of the aggregate. -/
theorem comb2 (c : Dev nD) :
    (dat2 (F := Ideal) V c).arrAt 1 cfg2.N = Cert.Spec.comb (V c main_v23) :=
  (dat2 (F := Ideal) V c).arrAt_eq_of_cover 1 (Cert.Spec.comb (V c main_v23))
    (fun t _ => flushed2 V c t) (cover2)

end Cert.KernelIdeal.Reg

end
-- ==== Proof.KBlock0.lean ====
/-
  Layer 0 of branch 1 in the idealized kernel program: the affine kernel, the gather, the edge-scaling kernel,
  the segment sum and the rectifier kernel compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin0
import proofs.«161278_j35699768164381_1_alg».proof.Proof.RegMul1
import proofs.«161278_j35699768164381_1_alg».proof.Proof.RegComb2

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w2_v12 : W2 m ρ c (Proc.devRef .tc main_v12) = Cert.Spec.lin (W1 m ρ c (Proc.devRef .tc main_v4)) (W1 m ρ c (Proc.devRef .tc main_v8)) (W1 m ρ c (Proc.devRef .tc main_v11)) :=
  (W2_arr m ρ c 3).trans (Cert.KernelIdeal.Reg.lin0 (V1 m ρ) c)

/-- The edge-scaling kernel's output array: every gathered row times its edge's weight. -/
theorem w4_v20 : W4 m ρ c (Proc.devRef .tc main_v20) = Cert.Spec.emul (W3 m ρ c (Proc.devRef .tc main_v19)) (W3 m ρ c (Proc.devRef .tc main_v6)) :=
  (W4_arr m ρ c 2).trans (Cert.KernelIdeal.Reg.emul1 (V3 m ρ) c)

/-- The rectifier kernel's output array. -/
theorem w6_v24 : W6 m ρ c (Proc.devRef .tc main_v24) = Cert.Spec.comb (W5 m ρ c (Proc.devRef .tc main_v23)) :=
  (W6_arr m ρ c 1).trans (Cert.KernelIdeal.Reg.comb2 (V5 m ρ) c)

/-- The branch's features after the layer. -/
theorem state0 : W6 m ρ c (Proc.devRef .tc main_v24) = Cert.Spec.a1 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w6_v24 m ρ c,
    w5_v23 m ρ c,
    w4_v20 m ρ c,
    from4_v1 m ρ c,
    w3_v19 m ρ c,
    from3_v6 m ρ c,
    w2_v12 m ρ c,
    from2_v3 m ρ c,
    w1_v4 m ρ c,
    w1_v8 m ρ c,
    w1_v11 m ρ c,
    w1_v1 m ρ c,
    w1_v3 m ρ c,
    w1_v6 m ρ c]
  simp only [Cert.Spec.a1, Cert.Spec.layer, Bool.false_eq_true, if_false, if_true]

end Cert.KernelIdeal.Fold

end
-- ==== Proof.KBlock2.lean ====
/-
  Layer 1 of branch 1 in the idealized kernel program: the affine kernel, the gather, the edge-scaling kernel,
  the segment sum and the rectifier kernel (with the self term) compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin6
import proofs.«161278_j35699768164381_1_alg».proof.Proof.RegMul7
import proofs.«161278_j35699768164381_1_alg».proof.Proof.RegCombAdd8
import proofs.«161278_j35699768164381_1_alg».proof.Proof.KBlock0

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w14_v44 : W14 m ρ c (Proc.devRef .tc main_v44) = Cert.Spec.lin (W13 m ρ c (Proc.devRef .tc main_v24)) (W13 m ρ c (Proc.devRef .tc main_v40)) (W13 m ρ c (Proc.devRef .tc main_v43)) :=
  (W14_arr m ρ c 3).trans (Cert.KernelIdeal.Reg.lin6 (V13 m ρ) c)

/-- The edge-scaling kernel's output array: every gathered row times its edge's weight. -/
theorem w16_v52 : W16 m ρ c (Proc.devRef .tc main_v52) = Cert.Spec.emul (W15 m ρ c (Proc.devRef .tc main_v51)) (W15 m ρ c (Proc.devRef .tc main_v6)) :=
  (W16_arr m ρ c 2).trans (Cert.KernelIdeal.Reg.emul7 (V15 m ρ) c)

/-- The rectifier kernel's output array. -/
theorem w18_v56 : W18 m ρ c (Proc.devRef .tc main_v56) = Cert.Spec.combAdd (W17 m ρ c (Proc.devRef .tc main_v55)) (W17 m ρ c (Proc.devRef .tc main_v44)) :=
  (W18_arr m ρ c 2).trans (Cert.KernelIdeal.Reg.combAdd8 (V17 m ρ) c)

/-- The branch's features after the layer. -/
theorem state2 : W18 m ρ c (Proc.devRef .tc main_v56) = Cert.Spec.b1 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w18_v56 m ρ c,
    w17_v55 m ρ c,
    from17_v44 m ρ c,
    w16_v52 m ρ c,
    from16_v1 m ρ c,
    w15_v51 m ρ c,
    from15_v6 m ρ c,
    w14_v44 m ρ c,
    from14_v3 m ρ c,
    from13_v24 m ρ c,
    state0 m ρ c,
    w13_v40 m ρ c,
    w13_v43 m ρ c,
    w1_v1 m ρ c,
    w1_v3 m ρ c,
    w1_v6 m ρ c]
  simp only [Cert.Spec.b1, Cert.Spec.layer, Bool.false_eq_true, if_false, if_true]

end Cert.KernelIdeal.Fold

end
-- ==== Proof.KBlock4.lean ====
/-
  Layer 2 of branch 1 in the idealized kernel program: the affine kernel, the gather, the edge-scaling kernel,
  the segment sum and the rectifier kernel (with the self term) compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin12
import proofs.«161278_j35699768164381_1_alg».proof.Proof.RegMul13
import proofs.«161278_j35699768164381_1_alg».proof.Proof.RegCombAdd14
import proofs.«161278_j35699768164381_1_alg».proof.Proof.KBlock2

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w26_v76 : W26 m ρ c (Proc.devRef .tc main_v76) = Cert.Spec.lin (W25 m ρ c (Proc.devRef .tc main_v56)) (W25 m ρ c (Proc.devRef .tc main_v72)) (W25 m ρ c (Proc.devRef .tc main_v75)) :=
  (W26_arr m ρ c 3).trans (Cert.KernelIdeal.Reg.lin12 (V25 m ρ) c)

/-- The edge-scaling kernel's output array: every gathered row times its edge's weight. -/
theorem w28_v84 : W28 m ρ c (Proc.devRef .tc main_v84) = Cert.Spec.emul (W27 m ρ c (Proc.devRef .tc main_v83)) (W27 m ρ c (Proc.devRef .tc main_v6)) :=
  (W28_arr m ρ c 2).trans (Cert.KernelIdeal.Reg.emul13 (V27 m ρ) c)

/-- The rectifier kernel's output array. -/
theorem w30_v88 : W30 m ρ c (Proc.devRef .tc main_v88) = Cert.Spec.combAdd (W29 m ρ c (Proc.devRef .tc main_v87)) (W29 m ρ c (Proc.devRef .tc main_v76)) :=
  (W30_arr m ρ c 2).trans (Cert.KernelIdeal.Reg.combAdd14 (V29 m ρ) c)

/-- The branch's features after the layer. -/
theorem state4 : W30 m ρ c (Proc.devRef .tc main_v88) = Cert.Spec.c1 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w30_v88 m ρ c,
    w29_v87 m ρ c,
    from29_v76 m ρ c,
    w28_v84 m ρ c,
    from28_v1 m ρ c,
    w27_v83 m ρ c,
    from27_v6 m ρ c,
    w26_v76 m ρ c,
    from26_v3 m ρ c,
    from25_v56 m ρ c,
    state2 m ρ c,
    w25_v72 m ρ c,
    w25_v75 m ρ c,
    w1_v1 m ρ c,
    w1_v3 m ρ c,
    w1_v6 m ρ c]
  simp only [Cert.Spec.c1, Cert.Spec.layer, Bool.false_eq_true, if_false, if_true]

end Cert.KernelIdeal.Fold

end
-- ==== Proof.RegLin15.lean ====
/-
  Region 15: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin15_pay (x0 : Vec Ideal S2000x128 .f32) (x1 : Vec Ideal S128x128 .f32) (x2 : Vec Ideal S1x128 .f32)
    (r : Fin 2000) (q : Fin 128) :
    k15_pay1 x0 x1 x2 (ix2 r q) = (∑ k : Fin 128, x0 (ix2 r k) * x1 (ix2 k q)) + x2 (ix2 0 q) := by
  unfold k15_pay1
  exact Lin.body_apply Lin.plain_dot _ _ _ _ _ x0 x1 x2 r q

/-- The index maps over the grid: the row blocks of h and of the output move with the point, the weight and the bias
    row stay at block (0, 0). -/
theorem lin15_idx : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- The feature block at point t is rows t·2000 … of h. -/
theorem lin15_blk_h (c : Dev nD) (t : Fin cfg15.N) (z : S2000x128.Idx) (k : S50000x128.Idx)
    (hk0 : (k 0).val = t.val * 2000 + (z 0).val) (hk1 : (k 1).val = (z 1).val) :
    (iblk15 V c 0 t : Vec Ideal S2000x128 .f32) z = (V c main_v70 : S50000x128.Idx → EReal) k := by
  obtain ⟨e00, e01, -⟩ := lin15_idx t
  unfold iblk15
  show (V c main_v70 : S50000x128.Idx → EReal) (((cfg15.win 0).blk t).view.emb z) = _
  refine congrArg (V c main_v70 : S50000x128.Idx → EReal) (funext fun a => Fin.ext ?_)
  match a with
  | ⟨0, _⟩ => show win15_0.index t (0 : Fin 2) * 2000 + 1 * (z 0).val = (k 0).val; omega
  | ⟨1, _⟩ => show win15_0.index t (1 : Fin 2) * 128 + 1 * (z 1).val = (k 1).val; omega

/-- The weight block at every point is the whole weight. -/
theorem lin15_blk_W (c : Dev nD) (t : Fin cfg15.N) (z : S128x128.Idx) :
    (iblk15 V c 1 t : Vec Ideal S128x128 .f32) z = (V c main_v72 : S128x128.Idx → EReal) z := by
  obtain ⟨-, -, e10, e11, -⟩ := lin15_idx t
  unfold iblk15
  show (V c main_v72 : S128x128.Idx → EReal) (((cfg15.win 1).blk t).view.emb z) = _
  refine congrArg (V c main_v72 : S128x128.Idx → EReal) (funext fun a => Fin.ext ?_)
  match a with
  | ⟨0, _⟩ => show win15_1.index t (0 : Fin 2) * 128 + 1 * (z 0).val = (z 0).val; omega
  | ⟨1, _⟩ => show win15_1.index t (1 : Fin 2) * 128 + 1 * (z 1).val = (z 1).val; omega

/-- The bias block at every point is the whole bias row. -/
theorem lin15_blk_b (c : Dev nD) (t : Fin cfg15.N) (z : S1x128.Idx) :
    (iblk15 V c 2 t : Vec Ideal S1x128 .f32) z = (V c main_v89 : S1x128.Idx → EReal) z := by
  obtain ⟨-, -, -, -, e20, e21, -⟩ := lin15_idx t
  unfold iblk15
  show (V c main_v89 : S1x128.Idx → EReal) (((cfg15.win 2).blk t).view.emb z) = _
  refine congrArg (V c main_v89 : S1x128.Idx → EReal) (funext fun a => Fin.ext ?_)
  match a with
  | ⟨0, _⟩ => show win15_2.index t (0 : Fin 2) * 1 + 1 * (z 0).val = (z 0).val; omega
  | ⟨1, _⟩ => show win15_2.index t (1 : Fin 2) * 128 + 1 * (z 1).val = (z 1).val; omega

/-- What point t writes back is block t of the affine image of the arrays as the region found them. -/
theorem lin15_flushed (c : Dev nD) (t : Fin cfg15.N) :
    (dat15 (F := Ideal) V c).flushed 3 t
      = ((cfg15.win 3).blk t).view.read (Elt Ideal) (Cert.Spec.lin (V c main_v70) (V c main_v72) (V c main_v89)) := by
  show (cfg15.win 3).cut (grid15.coords t) ((dat15 (F := Ideal) V c).after 3 t) = _
  rw [after15_3]
  unfold out15_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin15_idx t
  have hN : cfg15.N = 25 := N_15
  have ht : t.val < 25 := by have := t.isLt; omega
  funext j
  obtain ⟨r, q, rfl⟩ : ∃ (r : Fin 2000) (q : Fin 128), j = ix2 r q := ⟨j 0, j 1, eq_ix2 j⟩
  show k15_pay1 (iblk15 V c 0 t) (iblk15 V c 1 t) (iblk15 V c 2 t) (ix2 r q)
    = Cert.Spec.lin (V c main_v70) (V c main_v72) (V c main_v89) (((cfg15.win 3).blk t).view.emb (ix2 r q))
  refine (lin15_pay (iblk15 V c 0 t) (iblk15 V c 1 t) (iblk15 V c 2 t) r q).trans ?_
  have hn : t.val * 2000 + r.val < 50000 := Lin.block_row t.val r.val ht r.isLt
  refine (Lin.lin_entry (iblk15 V c 0 t) (iblk15 V c 1 t) (iblk15 V c 2 t) (V c main_v70) (V c main_v72) (V c main_v89) r q
    ⟨t.val * 2000 + r.val, hn⟩
    (fun k => lin15_blk_h V c t (ix2 r k) (ix2 ⟨t.val * 2000 + r.val, hn⟩ k) rfl rfl)
    (fun k => lin15_blk_W V c t (ix2 k q)) (lin15_blk_b V c t (ix2 0 q))).trans ?_
  refine congrArg (Cert.Spec.lin (V c main_v70) (V c main_v72) (V c main_v89)) (funext fun a => Fin.ext ?_)
  match a with
  | ⟨0, _⟩ => show t.val * 2000 + r.val = win15_3.index t (0 : Fin 2) * 2000 + 1 * r.val; omega
  | ⟨1, _⟩ => show q.val = win15_3.index t (1 : Fin 2) * 128 + 1 * q.val; omega

/-- An index of the output array is in point t's block iff each coordinate is in the block's range on its axis. -/
theorem lin15_mem_blk (t : Fin cfg15.N) (i : S50000x128.Idx) :
    i ∈ ((cfg15.win 3).blk t).view.set ↔ ∀ a : Fin 2, win15_3.index t a * S2000x128.size a ≤ (i a).val
      ∧ (i a).val < win15_3.index t a * S2000x128.size a + S2000x128.size a := by
  show i ∈ ((View.whole main_v90).slice (win15_3.rect t)).set ↔ _
  rw [View.set_slice_whole, Rect.mem_set_unit]
  exact Iff.rfl

/-- Every index of the output array is in the block of the point its row's block names: row n lies in block n / 2000. -/
theorem lin15_cover (i : S50000x128.Idx) :
    ∃ t : Fin cfg15.N, (cfg15.win 3).flush t = true ∧ i ∈ ((cfg15.win 3).blk t).view.set := by
  have hN : cfg15.N = 25 := N_15
  have hi1 : (i 1).val < 128 := idx2_lt1 i
  obtain ⟨b0, b1, b2⟩ := Lin.row_block (i 0).val (idx2_lt0 i)
  have ht : (i 0).val / 2000 < cfg15.N := by rw [hN]; exact b0
  obtain ⟨-, -, -, -, -, -, e30, e31⟩ := lin15_idx ⟨(i 0).val / 2000, ht⟩
  have e30' : win15_3.index ⟨(i 0).val / 2000, ht⟩ (0 : Fin 2) = (i 0).val / 2000 := e30
  refine ⟨⟨(i 0).val / 2000, ht⟩, flush15_3 _, ?_⟩
  rw [lin15_mem_blk]
  intro a
  match a with
  | ⟨0, _⟩ =>
    show win15_3.index ⟨(i 0).val / 2000, ht⟩ (0 : Fin 2) * 2000 ≤ (i 0).val
      ∧ (i 0).val < win15_3.index ⟨(i 0).val / 2000, ht⟩ (0 : Fin 2) * 2000 + 2000
    rw [e30']; exact ⟨b1, b2⟩
  | ⟨1, _⟩ =>
    show win15_3.index ⟨(i 0).val / 2000, ht⟩ (1 : Fin 2) * 128 ≤ (i 1).val
      ∧ (i 1).val < win15_3.index ⟨(i 0).val / 2000, ht⟩ (1 : Fin 2) * 128 + 128
    rw [e31]; omega

/-- After the region the output array holds the affine image h·W + b of the arrays as the region found them. -/
theorem lin15 (c : Dev nD) :
    (dat15 (F := Ideal) V c).arrAt 3 cfg15.N = Cert.Spec.lin (V c main_v70) (V c main_v72) (V c main_v89) :=
  (dat15 (F := Ideal) V c).arrAt_eq_of_cover 3 (Cert.Spec.lin (V c main_v70) (V c main_v72) (V c main_v89))
    (fun t _ => lin15_flushed V c t) lin15_cover

end Cert.KernelIdeal.Reg

end
-- ==== Proof.RegMul16.lean ====
/-
  Edge scaling, region 16: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay16_apply (x0 : Vec Ideal S8000x128 .f32) (x1 : Vec Ideal S8000x1 .f32) (p : Fin 8000) (q : Fin 128) :
    k16_pay1 (F := Ideal) x0 x1 (ix2 p q) = x0 (ix2 p q) * x1 (ix2 p 0) :=
  emul_pay _ _ _ x0 x1 p q

/-- The three index maps over the grid: point t's block index is (t, 0) for every window. -/
theorem idx16 : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0 :=
  (by decide +kernel : ∀ t : Fin grid16.N, _)

/-- The gathered rows' block at point t, entry x, is the array's entry k when k is x moved down by 8000·t rows. -/
theorem gblk16 (c : Dev nD) (t : Fin cfg16.N) (x : S8000x128.Idx) (k : S800000x128.Idx)
    (hk0 : (k 0).val = 8000 * t.val + (x 0).val) (hk1 : (k 1).val = (x 1).val) :
    (iblk16 V c 0 t : Vec Ideal S8000x128 .f32) x = (V c main_v97 : S800000x128.Idx → EReal) k := by
  obtain ⟨e0, e1, -⟩ := idx16 t
  unfold iblk16
  show V c main_v97 (((cfg16.win 0).blk t).view.emb x) = V c main_v97 k
  refine congrArg (V c main_v97) (funext fun a => Fin.ext ?_)
  match a with
  | ⟨0, _⟩ => show win16_0.index t (0 : Fin 2) * 8000 + 1 * (x 0).val = (k 0).val; rw [e0, hk0]; omega
  | ⟨1, _⟩ => show win16_0.index t (1 : Fin 2) * 128 + 1 * (x 1).val = (k 1).val; rw [e1, hk1]; omega

/-- The weight column's block likewise. -/
theorem wblk16 (c : Dev nD) (t : Fin cfg16.N) (x : S8000x1.Idx) (k : S800000x1.Idx)
    (hk0 : (k 0).val = 8000 * t.val + (x 0).val) :
    (iblk16 V c 1 t : Vec Ideal S8000x1 .f32) x = (V c main_v6 : S800000x1.Idx → EReal) k := by
  obtain ⟨-, -, e2, e3, -⟩ := idx16 t
  have hx1 : (x 1).val < 1 := (x 1).isLt
  have hk1 : (k 1).val < 1 := (k 1).isLt
  unfold iblk16
  show V c main_v6 (((cfg16.win 1).blk t).view.emb x) = V c main_v6 k
  refine congrArg (V c main_v6) (funext fun a => Fin.ext ?_)
  match a with
  | ⟨0, _⟩ => show win16_1.index t (0 : Fin 2) * 8000 + 1 * (x 0).val = (k 0).val; rw [e2, hk0]; omega
  | ⟨1, _⟩ => show win16_1.index t (1 : Fin 2) * 1 + 1 * (x 1).val = (k 1).val; rw [e3]; omega

/-- What point t writes back is block t of the scaled rows. -/
theorem flushed16 (c : Dev nD) (t : Fin cfg16.N) :
    (dat16 (F := Ideal) V c).flushed 2 t
      = ((cfg16.win 2).blk t).view.read (Elt Ideal) (Cert.Spec.emul (V c main_v97) (V c main_v6)) := by
  show (cfg16.win 2).cut (grid16.coords t) ((dat16 (F := Ideal) V c).after 2 t) = _
  rw [after16_2]
  unfold out16_2
  rw [View.canon_unit_zero zeroOff]
  simp only [View.ld_unit_zero (S := S8000x128) zeroOff, View.ld_unit_zero (S := S8000x1) zeroOff]
  obtain ⟨-, -, -, -, e4, e5⟩ := idx16 t
  funext j
  have hj0 : (j 0).val < 8000 := (j 0).isLt
  have hj1 : (j 1).val < 128 := (j 1).isLt
  show k16_pay1 (F := Ideal) (iblk16 V c 0 t) (iblk16 V c 1 t) (ix2 (⟨(j 0).val, hj0⟩ : Fin 8000) (⟨(j 1).val, hj1⟩ : Fin 128))
      = Cert.Spec.emul (V c main_v97) (V c main_v6) (((cfg16.win 2).blk t).view.emb j)
  refine (pay16_apply (iblk16 V c 0 t) (iblk16 V c 1 t) ⟨(j 0).val, hj0⟩ ⟨(j 1).val, hj1⟩).trans ?_
  unfold Cert.Spec.emul
  refine congrArg₂ (· * ·) (gblk16 V c t _ _ ?_ ?_) (wblk16 V c t _ _ ?_)
  · show win16_2.index t (0 : Fin 2) * 8000 + 1 * (j 0).val = 8000 * t.val + (j 0).val; rw [e4]; omega
  · show win16_2.index t (1 : Fin 2) * 128 + 1 * (j 1).val = (j 1).val; rw [e5]; omega
  · show win16_2.index t (0 : Fin 2) * 8000 + 1 * (j 0).val = 8000 * t.val + (j 0).val; rw [e4]; omega

/-- An index of the array is in point t's block iff each coordinate is in the block's range on its axis. -/
theorem mem_blk16 (t : Fin cfg16.N) (i : S800000x128.Idx) :
    i ∈ ((cfg16.win 2).blk t).view.set ↔ ∀ a : Fin 2, win16_2.index t a * S8000x128.size a ≤ (i a).val
      ∧ (i a).val < win16_2.index t a * S8000x128.size a + S8000x128.size a := by
  show i ∈ ((View.whole main_v98).slice (win16_2.rect t)).set ↔ _
  rw [View.set_slice_whole, Rect.mem_set_unit]
  exact Iff.rfl

/-- Every row is in the block of the point  row / 8000. -/
theorem cover16 (i : S800000x128.Idx) :
    ∃ t : Fin cfg16.N, (cfg16.win 2).flush t = true ∧ i ∈ ((cfg16.win 2).blk t).view.set := by
  have hi0 : (i 0).val < 800000 := (i 0).isLt
  have hi1 : (i 1).val < 128 := (i 1).isLt
  have hN : cfg16.N = 100 := N_16
  let t : Fin cfg16.N := ⟨(i 0).val / 8000, by rw [hN]; omega⟩
  have ht : t.val = (i 0).val / 8000 := rfl
  obtain ⟨-, -, -, -, e4, e5⟩ := idx16 t
  refine ⟨t, flush16_2 t, ?_⟩
  rw [mem_blk16]
  intro a
  match a with
  | ⟨0, _⟩ => show win16_2.index t (0 : Fin 2) * 8000 ≤ (i 0).val ∧ (i 0).val < win16_2.index t (0 : Fin 2) * 8000 + 8000; rw [e4, ht]; omega
  | ⟨1, _⟩ => show win16_2.index t (1 : Fin 2) * 128 ≤ (i 1).val ∧ (i 1).val < win16_2.index t (1 : Fin 2) * 128 + 128; rw [e5]; omega

/-- The output array after the region: every gathered row scaled by its edge's weight. -/
theorem emul16 (c : Dev nD) :
    (dat16 (F := Ideal) V c).arrAt 2 cfg16.N = Cert.Spec.emul (V c main_v97) (V c main_v6) :=
  (dat16 (F := Ideal) V c).arrAt_eq_of_cover 2 (Cert.Spec.emul (V c main_v97) (V c main_v6))
    (fun t _ => flushed16 V c t) (cover16)

end Cert.KernelIdeal.Reg

end
-- ==== Proof.RegCombAdd17.lean ====
/-
  The rectifier after the self term, region 17: after the region its output array holds, at node n and lane q, the
  leaky rectifier of the aggregate's entry (n, q) plus the layer's affine image's entry (n, q).  The grid has 25 points;
  point t stages rows 2000·t … 2000·t + 1999 of the two inputs and of the output, so the entry (p, q) of its blocks is
  the entry (2000·t + p, q) of the arrays; the 25 blocks tile the 50000 rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the sum of the two input blocks' entries j. -/
theorem pay17_apply (x0 x1 : Vec Ideal S2000x128 .f32) (j : S2000x128.Idx) :
    k17_pay1 (F := Ideal) x0 x1 j = Cert.Spec.leaky (x0 j + x1 j) :=
  combAdd_pay _ _ x0 x1 j

/-- The three index maps over the grid: point t's block index is (t, 0) for every window. -/
theorem idx17 : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0 :=
  (by decide +kernel : ∀ t : Fin grid17.N, _)

/-- The aggregate's block at point t, entry x, is the array's entry k when k is x moved down by 2000·t rows. -/
theorem ablk17 (c : Dev nD) (t : Fin cfg17.N) (x : S2000x128.Idx) (k : S50000x128.Idx)
    (hk0 : (k 0).val = 2000 * t.val + (x 0).val) (hk1 : (k 1).val = (x 1).val) :
    (iblk17 V c 0 t : Vec Ideal S2000x128 .f32) x = (V c main_v101 : S50000x128.Idx → EReal) k := by
  obtain ⟨e0, e1, -⟩ := idx17 t
  unfold iblk17
  show V c main_v101 (((cfg17.win 0).blk t).view.emb x) = V c main_v101 k
  refine congrArg (V c main_v101) (funext fun a => Fin.ext ?_)
  match a with
  | ⟨0, _⟩ => show win17_0.index t (0 : Fin 2) * 2000 + 1 * (x 0).val = (k 0).val; rw [e0, hk0]; omega
  | ⟨1, _⟩ => show win17_0.index t (1 : Fin 2) * 128 + 1 * (x 1).val = (k 1).val; rw [e1, hk1]; omega

/-- The affine image's block likewise. -/
theorem lblk17 (c : Dev nD) (t : Fin cfg17.N) (x : S2000x128.Idx) (k : S50000x128.Idx)
    (hk0 : (k 0).val = 2000 * t.val + (x 0).val) (hk1 : (k 1).val = (x 1).val) :
    (iblk17 V c 1 t : Vec Ideal S2000x128 .f32) x = (V c main_v90 : S50000x128.Idx → EReal) k := by
  obtain ⟨-, -, e2, e3, -⟩ := idx17 t
  unfold iblk17
  show V c main_v90 (((cfg17.win 1).blk t).view.emb x) = V c main_v90 k
  refine congrArg (V c main_v90) (funext fun a => Fin.ext ?_)
  match a with
  | ⟨0, _⟩ => show win17_1.index t (0 : Fin 2) * 2000 + 1 * (x 0).val = (k 0).val; rw [e2, hk0]; omega
  | ⟨1, _⟩ => show win17_1.index t (1 : Fin 2) * 128 + 1 * (x 1).val = (k 1).val; rw [e3, hk1]; omega

/-- What point t writes back is block t of the rectified sum. -/
theorem flushed17 (c : Dev nD) (t : Fin cfg17.N) :
    (dat17 (F := Ideal) V c).flushed 2 t
      = ((cfg17.win 2).blk t).view.read (Elt Ideal) (Cert.Spec.combAdd (V c main_v101) (V c main_v90)) := by
  show (cfg17.win 2).cut (grid17.coords t) ((dat17 (F := Ideal) V c).after 2 t) = _
  rw [after17_2]
  unfold out17_2
  rw [View.canon_unit_zero zeroOff]
  simp only [View.ld_unit_zero (S := S2000x128) zeroOff]
  obtain ⟨-, -, -, -, e4, e5⟩ := idx17 t
  funext j
  show k17_pay1 (F := Ideal) (iblk17 V c 0 t) (iblk17 V c 1 t) j
      = Cert.Spec.combAdd (V c main_v101) (V c main_v90) (((cfg17.win 2).blk t).view.emb j)
  refine (pay17_apply (iblk17 V c 0 t) (iblk17 V c 1 t) j).trans ?_
  unfold Cert.Spec.combAdd
  refine congrArg Cert.Spec.leaky (congrArg₂ (· + ·) (ablk17 V c t _ _ ?_ ?_) (lblk17 V c t _ _ ?_ ?_))
  · show win17_2.index t (0 : Fin 2) * 2000 + 1 * (j 0).val = 2000 * t.val + (j 0).val; rw [e4]; omega
  · show win17_2.index t (1 : Fin 2) * 128 + 1 * (j 1).val = (j 1).val; rw [e5]; omega
  · show win17_2.index t (0 : Fin 2) * 2000 + 1 * (j 0).val = 2000 * t.val + (j 0).val; rw [e4]; omega
  · show win17_2.index t (1 : Fin 2) * 128 + 1 * (j 1).val = (j 1).val; rw [e5]; omega

/-- An index of the array is in point t's block iff each coordinate is in the block's range on its axis. -/
theorem mem_blk17 (t : Fin cfg17.N) (i : S50000x128.Idx) :
    i ∈ ((cfg17.win 2).blk t).view.set ↔ ∀ a : Fin 2, win17_2.index t a * S2000x128.size a ≤ (i a).val
      ∧ (i a).val < win17_2.index t a * S2000x128.size a + S2000x128.size a := by
  show i ∈ ((View.whole main_v102).slice (win17_2.rect t)).set ↔ _
  rw [View.set_slice_whole, Rect.mem_set_unit]
  exact Iff.rfl

/-- Every row is in the block of the point  row / 2000. -/
theorem cover17 (i : S50000x128.Idx) :
    ∃ t : Fin cfg17.N, (cfg17.win 2).flush t = true ∧ i ∈ ((cfg17.win 2).blk t).view.set := by
  have hi0 : (i 0).val < 50000 := (i 0).isLt
  have hi1 : (i 1).val < 128 := (i 1).isLt
  have hN : cfg17.N = 25 := N_17
  let t : Fin cfg17.N := ⟨(i 0).val / 2000, by rw [hN]; omega⟩
  have ht : t.val = (i 0).val / 2000 := rfl
  obtain ⟨-, -, -, -, e4, e5⟩ := idx17 t
  refine ⟨t, flush17_2 t, ?_⟩
  rw [mem_blk17]
  intro a
  match a with
  | ⟨0, _⟩ => show win17_2.index t (0 : Fin 2) * 2000 ≤ (i 0).val ∧ (i 0).val < win17_2.index t (0 : Fin 2) * 2000 + 2000; rw [e4, ht]; omega
  | ⟨1, _⟩ => show win17_2.index t (1 : Fin 2) * 128 ≤ (i 1).val ∧ (i 1).val < win17_2.index t (1 : Fin 2) * 128 + 128; rw [e5]; omega

/-- The output array after the region: the rectifier on the aggregate plus the self term, entry by entry. -/
theorem combAdd17 (c : Dev nD) :
    (dat17 (F := Ideal) V c).arrAt 2 cfg17.N = Cert.Spec.combAdd (V c main_v101) (V c main_v90) :=
  (dat17 (F := Ideal) V c).arrAt_eq_of_cover 2 (Cert.Spec.combAdd (V c main_v101) (V c main_v90))
    (fun t _ => flushed17 V c t) (cover17)

end Cert.KernelIdeal.Reg

end
-- ==== Proof.RegLin9.lean ====
/-
  Region 9: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin9_pay (x0 : Vec Ideal S2000x128 .f32) (x1 : Vec Ideal S128x128 .f32) (x2 : Vec Ideal S1x128 .f32)
    (r : Fin 2000) (q : Fin 128) :
    k9_pay1 x0 x1 x2 (ix2 r q) = (∑ k : Fin 128, x0 (ix2 r k) * x1 (ix2 k q)) + x2 (ix2 0 q) := by
  unfold k9_pay1
  exact Lin.body_apply Lin.plain_dot _ _ _ _ _ x0 x1 x2 r q

/-- The index maps over the grid: the row blocks of h and of the output move with the point, the weight and the bias
    row stay at block (0, 0). -/
theorem lin9_idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The feature block at point t is rows t·2000 … of h. -/
theorem lin9_blk_h (c : Dev nD) (t : Fin cfg9.N) (z : S2000x128.Idx) (k : S50000x128.Idx)
    (hk0 : (k 0).val = t.val * 2000 + (z 0).val) (hk1 : (k 1).val = (z 1).val) :
    (iblk9 V c 0 t : Vec Ideal S2000x128 .f32) z = (V c main_v38 : S50000x128.Idx → EReal) k := by
  obtain ⟨e00, e01, -⟩ := lin9_idx t
  unfold iblk9
  show (V c main_v38 : S50000x128.Idx → EReal) (((cfg9.win 0).blk t).view.emb z) = _
  refine congrArg (V c main_v38 : S50000x128.Idx → EReal) (funext fun a => Fin.ext ?_)
  match a with
  | ⟨0, _⟩ => show win9_0.index t (0 : Fin 2) * 2000 + 1 * (z 0).val = (k 0).val; omega
  | ⟨1, _⟩ => show win9_0.index t (1 : Fin 2) * 128 + 1 * (z 1).val = (k 1).val; omega

/-- The weight block at every point is the whole weight. -/
theorem lin9_blk_W (c : Dev nD) (t : Fin cfg9.N) (z : S128x128.Idx) :
    (iblk9 V c 1 t : Vec Ideal S128x128 .f32) z = (V c main_v40 : S128x128.Idx → EReal) z := by
  obtain ⟨-, -, e10, e11, -⟩ := lin9_idx t
  unfold iblk9
  show (V c main_v40 : S128x128.Idx → EReal) (((cfg9.win 1).blk t).view.emb z) = _
  refine congrArg (V c main_v40 : S128x128.Idx → EReal) (funext fun a => Fin.ext ?_)
  match a with
  | ⟨0, _⟩ => show win9_1.index t (0 : Fin 2) * 128 + 1 * (z 0).val = (z 0).val; omega
  | ⟨1, _⟩ => show win9_1.index t (1 : Fin 2) * 128 + 1 * (z 1).val = (z 1).val; omega

/-- The bias block at every point is the whole bias row. -/
theorem lin9_blk_b (c : Dev nD) (t : Fin cfg9.N) (z : S1x128.Idx) :
    (iblk9 V c 2 t : Vec Ideal S1x128 .f32) z = (V c main_v57 : S1x128.Idx → EReal) z := by
  obtain ⟨-, -, -, -, e20, e21, -⟩ := lin9_idx t
  unfold iblk9
  show (V c main_v57 : S1x128.Idx → EReal) (((cfg9.win 2).blk t).view.emb z) = _
  refine congrArg (V c main_v57 : S1x128.Idx → EReal) (funext fun a => Fin.ext ?_)
  match a with
  | ⟨0, _⟩ => show win9_2.index t (0 : Fin 2) * 1 + 1 * (z 0).val = (z 0).val; omega
  | ⟨1, _⟩ => show win9_2.index t (1 : Fin 2) * 128 + 1 * (z 1).val = (z 1).val; omega

/-- What point t writes back is block t of the affine image of the arrays as the region found them. -/
theorem lin9_flushed (c : Dev nD) (t : Fin cfg9.N) :
    (dat9 (F := Ideal) V c).flushed 3 t
      = ((cfg9.win 3).blk t).view.read (Elt Ideal) (Cert.Spec.lin (V c main_v38) (V c main_v40) (V c main_v57)) := by
  show (cfg9.win 3).cut (grid9.coords t) ((dat9 (F := Ideal) V c).after 3 t) = _
  rw [after9_3]
  unfold out9_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin9_idx t
  have hN : cfg9.N = 25 := N_9
  have ht : t.val < 25 := by have := t.isLt; omega
  funext j
  obtain ⟨r, q, rfl⟩ : ∃ (r : Fin 2000) (q : Fin 128), j = ix2 r q := ⟨j 0, j 1, eq_ix2 j⟩
  show k9_pay1 (iblk9 V c 0 t) (iblk9 V c 1 t) (iblk9 V c 2 t) (ix2 r q)
    = Cert.Spec.lin (V c main_v38) (V c main_v40) (V c main_v57) (((cfg9.win 3).blk t).view.emb (ix2 r q))
  refine (lin9_pay (iblk9 V c 0 t) (iblk9 V c 1 t) (iblk9 V c 2 t) r q).trans ?_
  have hn : t.val * 2000 + r.val < 50000 := Lin.block_row t.val r.val ht r.isLt
  refine (Lin.lin_entry (iblk9 V c 0 t) (iblk9 V c 1 t) (iblk9 V c 2 t) (V c main_v38) (V c main_v40) (V c main_v57) r q
    ⟨t.val * 2000 + r.val, hn⟩
    (fun k => lin9_blk_h V c t (ix2 r k) (ix2 ⟨t.val * 2000 + r.val, hn⟩ k) rfl rfl)
    (fun k => lin9_blk_W V c t (ix2 k q)) (lin9_blk_b V c t (ix2 0 q))).trans ?_
  refine congrArg (Cert.Spec.lin (V c main_v38) (V c main_v40) (V c main_v57)) (funext fun a => Fin.ext ?_)
  match a with
  | ⟨0, _⟩ => show t.val * 2000 + r.val = win9_3.index t (0 : Fin 2) * 2000 + 1 * r.val; omega
  | ⟨1, _⟩ => show q.val = win9_3.index t (1 : Fin 2) * 128 + 1 * q.val; omega

/-- An index of the output array is in point t's block iff each coordinate is in the block's range on its axis. -/
theorem lin9_mem_blk (t : Fin cfg9.N) (i : S50000x128.Idx) :
    i ∈ ((cfg9.win 3).blk t).view.set ↔ ∀ a : Fin 2, win9_3.index t a * S2000x128.size a ≤ (i a).val
      ∧ (i a).val < win9_3.index t a * S2000x128.size a + S2000x128.size a := by
  show i ∈ ((View.whole main_v58).slice (win9_3.rect t)).set ↔ _
  rw [View.set_slice_whole, Rect.mem_set_unit]
  exact Iff.rfl

/-- Every index of the output array is in the block of the point its row's block names: row n lies in block n / 2000. -/
theorem lin9_cover (i : S50000x128.Idx) :
    ∃ t : Fin cfg9.N, (cfg9.win 3).flush t = true ∧ i ∈ ((cfg9.win 3).blk t).view.set := by
  have hN : cfg9.N = 25 := N_9
  have hi1 : (i 1).val < 128 := idx2_lt1 i
  obtain ⟨b0, b1, b2⟩ := Lin.row_block (i 0).val (idx2_lt0 i)
  have ht : (i 0).val / 2000 < cfg9.N := by rw [hN]; exact b0
  obtain ⟨-, -, -, -, -, -, e30, e31⟩ := lin9_idx ⟨(i 0).val / 2000, ht⟩
  have e30' : win9_3.index ⟨(i 0).val / 2000, ht⟩ (0 : Fin 2) = (i 0).val / 2000 := e30
  refine ⟨⟨(i 0).val / 2000, ht⟩, flush9_3 _, ?_⟩
  rw [lin9_mem_blk]
  intro a
  match a with
  | ⟨0, _⟩ =>
    show win9_3.index ⟨(i 0).val / 2000, ht⟩ (0 : Fin 2) * 2000 ≤ (i 0).val
      ∧ (i 0).val < win9_3.index ⟨(i 0).val / 2000, ht⟩ (0 : Fin 2) * 2000 + 2000
    rw [e30']; exact ⟨b1, b2⟩
  | ⟨1, _⟩ =>
    show win9_3.index ⟨(i 0).val / 2000, ht⟩ (1 : Fin 2) * 128 ≤ (i 1).val
      ∧ (i 1).val < win9_3.index ⟨(i 0).val / 2000, ht⟩ (1 : Fin 2) * 128 + 128
    rw [e31]; omega

/-- After the region the output array holds the affine image h·W + b of the arrays as the region found them. -/
theorem lin9 (c : Dev nD) :
    (dat9 (F := Ideal) V c).arrAt 3 cfg9.N = Cert.Spec.lin (V c main_v38) (V c main_v40) (V c main_v57) :=
  (dat9 (F := Ideal) V c).arrAt_eq_of_cover 3 (Cert.Spec.lin (V c main_v38) (V c main_v40) (V c main_v57))
    (fun t _ => lin9_flushed V c t) lin9_cover

end Cert.KernelIdeal.Reg

end
-- ==== Proof.RegMul10.lean ====
/-
  Edge scaling, region 10: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay10_apply (x0 : Vec Ideal S8000x128 .f32) (x1 : Vec Ideal S8000x1 .f32) (p : Fin 8000) (q : Fin 128) :
    k10_pay1 (F := Ideal) x0 x1 (ix2 p q) = x0 (ix2 p q) * x1 (ix2 p 0) :=
  emul_pay _ _ _ x0 x1 p q

/-- The three index maps over the grid: point t's block index is (t, 0) for every window. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- The gathered rows' block at point t, entry x, is the array's entry k when k is x moved down by 8000·t rows. -/
theorem gblk10 (c : Dev nD) (t : Fin cfg10.N) (x : S8000x128.Idx) (k : S800000x128.Idx)
    (hk0 : (k 0).val = 8000 * t.val + (x 0).val) (hk1 : (k 1).val = (x 1).val) :
    (iblk10 V c 0 t : Vec Ideal S8000x128 .f32) x = (V c main_v65 : S800000x128.Idx → EReal) k := by
  obtain ⟨e0, e1, -⟩ := idx10 t
  unfold iblk10
  show V c main_v65 (((cfg10.win 0).blk t).view.emb x) = V c main_v65 k
  refine congrArg (V c main_v65) (funext fun a => Fin.ext ?_)
  match a with
  | ⟨0, _⟩ => show win10_0.index t (0 : Fin 2) * 8000 + 1 * (x 0).val = (k 0).val; rw [e0, hk0]; omega
  | ⟨1, _⟩ => show win10_0.index t (1 : Fin 2) * 128 + 1 * (x 1).val = (k 1).val; rw [e1, hk1]; omega

/-- The weight column's block likewise. -/
theorem wblk10 (c : Dev nD) (t : Fin cfg10.N) (x : S8000x1.Idx) (k : S800000x1.Idx)
    (hk0 : (k 0).val = 8000 * t.val + (x 0).val) :
    (iblk10 V c 1 t : Vec Ideal S8000x1 .f32) x = (V c main_v6 : S800000x1.Idx → EReal) k := by
  obtain ⟨-, -, e2, e3, -⟩ := idx10 t
  have hx1 : (x 1).val < 1 := (x 1).isLt
  have hk1 : (k 1).val < 1 := (k 1).isLt
  unfold iblk10
  show V c main_v6 (((cfg10.win 1).blk t).view.emb x) = V c main_v6 k
  refine congrArg (V c main_v6) (funext fun a => Fin.ext ?_)
  match a with
  | ⟨0, _⟩ => show win10_1.index t (0 : Fin 2) * 8000 + 1 * (x 0).val = (k 0).val; rw [e2, hk0]; omega
  | ⟨1, _⟩ => show win10_1.index t (1 : Fin 2) * 1 + 1 * (x 1).val = (k 1).val; rw [e3]; omega

/-- What point t writes back is block t of the scaled rows. -/
theorem flushed10 (c : Dev nD) (t : Fin cfg10.N) :
    (dat10 (F := Ideal) V c).flushed 2 t
      = ((cfg10.win 2).blk t).view.read (Elt Ideal) (Cert.Spec.emul (V c main_v65) (V c main_v6)) := by
  show (cfg10.win 2).cut (grid10.coords t) ((dat10 (F := Ideal) V c).after 2 t) = _
  rw [after10_2]
  unfold out10_2
  rw [View.canon_unit_zero zeroOff]
  simp only [View.ld_unit_zero (S := S8000x128) zeroOff, View.ld_unit_zero (S := S8000x1) zeroOff]
  obtain ⟨-, -, -, -, e4, e5⟩ := idx10 t
  funext j
  have hj0 : (j 0).val < 8000 := (j 0).isLt
  have hj1 : (j 1).val < 128 := (j 1).isLt
  show k10_pay1 (F := Ideal) (iblk10 V c 0 t) (iblk10 V c 1 t) (ix2 (⟨(j 0).val, hj0⟩ : Fin 8000) (⟨(j 1).val, hj1⟩ : Fin 128))
      = Cert.Spec.emul (V c main_v65) (V c main_v6) (((cfg10.win 2).blk t).view.emb j)
  refine (pay10_apply (iblk10 V c 0 t) (iblk10 V c 1 t) ⟨(j 0).val, hj0⟩ ⟨(j 1).val, hj1⟩).trans ?_
  unfold Cert.Spec.emul
  refine congrArg₂ (· * ·) (gblk10 V c t _ _ ?_ ?_) (wblk10 V c t _ _ ?_)
  · show win10_2.index t (0 : Fin 2) * 8000 + 1 * (j 0).val = 8000 * t.val + (j 0).val; rw [e4]; omega
  · show win10_2.index t (1 : Fin 2) * 128 + 1 * (j 1).val = (j 1).val; rw [e5]; omega
  · show win10_2.index t (0 : Fin 2) * 8000 + 1 * (j 0).val = 8000 * t.val + (j 0).val; rw [e4]; omega

/-- An index of the array is in point t's block iff each coordinate is in the block's range on its axis. -/
theorem mem_blk10 (t : Fin cfg10.N) (i : S800000x128.Idx) :
    i ∈ ((cfg10.win 2).blk t).view.set ↔ ∀ a : Fin 2, win10_2.index t a * S8000x128.size a ≤ (i a).val
      ∧ (i a).val < win10_2.index t a * S8000x128.size a + S8000x128.size a := by
  show i ∈ ((View.whole main_v66).slice (win10_2.rect t)).set ↔ _
  rw [View.set_slice_whole, Rect.mem_set_unit]
  exact Iff.rfl

/-- Every row is in the block of the point  row / 8000. -/
theorem cover10 (i : S800000x128.Idx) :
    ∃ t : Fin cfg10.N, (cfg10.win 2).flush t = true ∧ i ∈ ((cfg10.win 2).blk t).view.set := by
  have hi0 : (i 0).val < 800000 := (i 0).isLt
  have hi1 : (i 1).val < 128 := (i 1).isLt
  have hN : cfg10.N = 100 := N_10
  let t : Fin cfg10.N := ⟨(i 0).val / 8000, by rw [hN]; omega⟩
  have ht : t.val = (i 0).val / 8000 := rfl
  obtain ⟨-, -, -, -, e4, e5⟩ := idx10 t
  refine ⟨t, flush10_2 t, ?_⟩
  rw [mem_blk10]
  intro a
  match a with
  | ⟨0, _⟩ => show win10_2.index t (0 : Fin 2) * 8000 ≤ (i 0).val ∧ (i 0).val < win10_2.index t (0 : Fin 2) * 8000 + 8000; rw [e4, ht]; omega
  | ⟨1, _⟩ => show win10_2.index t (1 : Fin 2) * 128 ≤ (i 1).val ∧ (i 1).val < win10_2.index t (1 : Fin 2) * 128 + 128; rw [e5]; omega

/-- The output array after the region: every gathered row scaled by its edge's weight. -/
theorem emul10 (c : Dev nD) :
    (dat10 (F := Ideal) V c).arrAt 2 cfg10.N = Cert.Spec.emul (V c main_v65) (V c main_v6) :=
  (dat10 (F := Ideal) V c).arrAt_eq_of_cover 2 (Cert.Spec.emul (V c main_v65) (V c main_v6))
    (fun t _ => flushed10 V c t) (cover10)

end Cert.KernelIdeal.Reg

end
-- ==== Proof.RegCombAdd11.lean ====
/-
  The rectifier after the self term, region 11: after the region its output array holds, at node n and lane q, the
  leaky rectifier of the aggregate's entry (n, q) plus the layer's affine image's entry (n, q).  The grid has 25 points;
  point t stages rows 2000·t … 2000·t + 1999 of the two inputs and of the output, so the entry (p, q) of its blocks is
  the entry (2000·t + p, q) of the arrays; the 25 blocks tile the 50000 rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the sum of the two input blocks' entries j. -/
theorem pay11_apply (x0 x1 : Vec Ideal S2000x128 .f32) (j : S2000x128.Idx) :
    k11_pay1 (F := Ideal) x0 x1 j = Cert.Spec.leaky (x0 j + x1 j) :=
  combAdd_pay _ _ x0 x1 j

/-- The three index maps over the grid: point t's block index is (t, 0) for every window. -/
theorem idx11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0 :=
  (by decide +kernel : ∀ t : Fin grid11.N, _)

/-- The aggregate's block at point t, entry x, is the array's entry k when k is x moved down by 2000·t rows. -/
theorem ablk11 (c : Dev nD) (t : Fin cfg11.N) (x : S2000x128.Idx) (k : S50000x128.Idx)
    (hk0 : (k 0).val = 2000 * t.val + (x 0).val) (hk1 : (k 1).val = (x 1).val) :
    (iblk11 V c 0 t : Vec Ideal S2000x128 .f32) x = (V c main_v69 : S50000x128.Idx → EReal) k := by
  obtain ⟨e0, e1, -⟩ := idx11 t
  unfold iblk11
  show V c main_v69 (((cfg11.win 0).blk t).view.emb x) = V c main_v69 k
  refine congrArg (V c main_v69) (funext fun a => Fin.ext ?_)
  match a with
  | ⟨0, _⟩ => show win11_0.index t (0 : Fin 2) * 2000 + 1 * (x 0).val = (k 0).val; rw [e0, hk0]; omega
  | ⟨1, _⟩ => show win11_0.index t (1 : Fin 2) * 128 + 1 * (x 1).val = (k 1).val; rw [e1, hk1]; omega

/-- The affine image's block likewise. -/
theorem lblk11 (c : Dev nD) (t : Fin cfg11.N) (x : S2000x128.Idx) (k : S50000x128.Idx)
    (hk0 : (k 0).val = 2000 * t.val + (x 0).val) (hk1 : (k 1).val = (x 1).val) :
    (iblk11 V c 1 t : Vec Ideal S2000x128 .f32) x = (V c main_v58 : S50000x128.Idx → EReal) k := by
  obtain ⟨-, -, e2, e3, -⟩ := idx11 t
  unfold iblk11
  show V c main_v58 (((cfg11.win 1).blk t).view.emb x) = V c main_v58 k
  refine congrArg (V c main_v58) (funext fun a => Fin.ext ?_)
  match a with
  | ⟨0, _⟩ => show win11_1.index t (0 : Fin 2) * 2000 + 1 * (x 0).val = (k 0).val; rw [e2, hk0]; omega
  | ⟨1, _⟩ => show win11_1.index t (1 : Fin 2) * 128 + 1 * (x 1).val = (k 1).val; rw [e3, hk1]; omega

/-- What point t writes back is block t of the rectified sum. -/
theorem flushed11 (c : Dev nD) (t : Fin cfg11.N) :
    (dat11 (F := Ideal) V c).flushed 2 t
      = ((cfg11.win 2).blk t).view.read (Elt Ideal) (Cert.Spec.combAdd (V c main_v69) (V c main_v58)) := by
  show (cfg11.win 2).cut (grid11.coords t) ((dat11 (F := Ideal) V c).after 2 t) = _
  rw [after11_2]
  unfold out11_2
  rw [View.canon_unit_zero zeroOff]
  simp only [View.ld_unit_zero (S := S2000x128) zeroOff]
  obtain ⟨-, -, -, -, e4, e5⟩ := idx11 t
  funext j
  show k11_pay1 (F := Ideal) (iblk11 V c 0 t) (iblk11 V c 1 t) j
      = Cert.Spec.combAdd (V c main_v69) (V c main_v58) (((cfg11.win 2).blk t).view.emb j)
  refine (pay11_apply (iblk11 V c 0 t) (iblk11 V c 1 t) j).trans ?_
  unfold Cert.Spec.combAdd
  refine congrArg Cert.Spec.leaky (congrArg₂ (· + ·) (ablk11 V c t _ _ ?_ ?_) (lblk11 V c t _ _ ?_ ?_))
  · show win11_2.index t (0 : Fin 2) * 2000 + 1 * (j 0).val = 2000 * t.val + (j 0).val; rw [e4]; omega
  · show win11_2.index t (1 : Fin 2) * 128 + 1 * (j 1).val = (j 1).val; rw [e5]; omega
  · show win11_2.index t (0 : Fin 2) * 2000 + 1 * (j 0).val = 2000 * t.val + (j 0).val; rw [e4]; omega
  · show win11_2.index t (1 : Fin 2) * 128 + 1 * (j 1).val = (j 1).val; rw [e5]; omega

/-- An index of the array is in point t's block iff each coordinate is in the block's range on its axis. -/
theorem mem_blk11 (t : Fin cfg11.N) (i : S50000x128.Idx) :
    i ∈ ((cfg11.win 2).blk t).view.set ↔ ∀ a : Fin 2, win11_2.index t a * S2000x128.size a ≤ (i a).val
      ∧ (i a).val < win11_2.index t a * S2000x128.size a + S2000x128.size a := by
  show i ∈ ((View.whole main_v70).slice (win11_2.rect t)).set ↔ _
  rw [View.set_slice_whole, Rect.mem_set_unit]
  exact Iff.rfl

/-- Every row is in the block of the point  row / 2000. -/
theorem cover11 (i : S50000x128.Idx) :
    ∃ t : Fin cfg11.N, (cfg11.win 2).flush t = true ∧ i ∈ ((cfg11.win 2).blk t).view.set := by
  have hi0 : (i 0).val < 50000 := (i 0).isLt
  have hi1 : (i 1).val < 128 := (i 1).isLt
  have hN : cfg11.N = 25 := N_11
  let t : Fin cfg11.N := ⟨(i 0).val / 2000, by rw [hN]; omega⟩
  have ht : t.val = (i 0).val / 2000 := rfl
  obtain ⟨-, -, -, -, e4, e5⟩ := idx11 t
  refine ⟨t, flush11_2 t, ?_⟩
  rw [mem_blk11]
  intro a
  match a with
  | ⟨0, _⟩ => show win11_2.index t (0 : Fin 2) * 2000 ≤ (i 0).val ∧ (i 0).val < win11_2.index t (0 : Fin 2) * 2000 + 2000; rw [e4, ht]; omega
  | ⟨1, _⟩ => show win11_2.index t (1 : Fin 2) * 128 ≤ (i 1).val ∧ (i 1).val < win11_2.index t (1 : Fin 2) * 128 + 128; rw [e5]; omega

/-- The output array after the region: the rectifier on the aggregate plus the self term, entry by entry. -/
theorem combAdd11 (c : Dev nD) :
    (dat11 (F := Ideal) V c).arrAt 2 cfg11.N = Cert.Spec.combAdd (V c main_v69) (V c main_v58) :=
  (dat11 (F := Ideal) V c).arrAt_eq_of_cover 2 (Cert.Spec.combAdd (V c main_v69) (V c main_v58))
    (fun t _ => flushed11 V c t) (cover11)

end Cert.KernelIdeal.Reg

end
-- ==== Proof.RegLin3.lean ====
/-
  Region 3: an affine layer's image, block by block.

  The region cuts the node features h : [50000, 128] into 25 blocks of 2000 rows; at block t the body sees rows
  t·2000 … t·2000 + 1999 of h, the whole weight W : [128, 128] and the whole bias row b : [1, 128], and leaves in the
  output's block the product of the rows with W, accumulated from zero, plus the bias row on every row. Entry (r, q) of
  block t is therefore  Σ_k h(t·2000 + r, k) · W(k, q) + b(0, q),  the affine image at row t·2000 + r; the 25 blocks
  tile the output array, row n lying in block n / 2000, so the array ends holding the affine image h·W + b of the
  arrays as the region found them.
-/
import proofs.«161278_j35699768164381_1_alg».proof.Proof.Gen.KernelIdeal.Frame
import proofs.«161278_j35699768164381_1_alg».proof.Proof.RegLinDot
import Idealize.ShloMosaic.Lib.Pipeline.Value

set_option maxRecDepth 16384

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's value at entry (r, q) of its block: the sum over the 128 features of row r times column q, plus the
    bias of column q. -/
theorem lin3_pay (x0 : Vec Ideal S2000x128 .f32) (x1 : Vec Ideal S128x128 .f32) (x2 : Vec Ideal S1x128 .f32)
    (r : Fin 2000) (q : Fin 128) :
    k3_pay1 x0 x1 x2 (ix2 r q) = (∑ k : Fin 128, x0 (ix2 r k) * x1 (ix2 k q)) + x2 (ix2 0 q) := by
  unfold k3_pay1
  exact Lin.body_apply Lin.plain_dot _ _ _ _ _ x0 x1 x2 r q

/-- The index maps over the grid: the row blocks of h and of the output move with the point, the weight and the bias
    row stay at block (0, 0). -/
theorem lin3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point t is rows t·2000 … of h. -/
theorem lin3_blk_h (c : Dev nD) (t : Fin cfg3.N) (z : S2000x128.Idx) (k : S50000x128.Idx)
    (hk0 : (k 0).val = t.val * 2000 + (z 0).val) (hk1 : (k 1).val = (z 1).val) :
    (iblk3 V c 0 t : Vec Ideal S2000x128 .f32) z = (V c main_v5 : S50000x128.Idx → EReal) k := by
  obtain ⟨e00, e01, -⟩ := lin3_idx t
  unfold iblk3
  show (V c main_v5 : S50000x128.Idx → EReal) (((cfg3.win 0).blk t).view.emb z) = _
  refine congrArg (V c main_v5 : S50000x128.Idx → EReal) (funext fun a => Fin.ext ?_)
  match a with
  | ⟨0, _⟩ => show win3_0.index t (0 : Fin 2) * 2000 + 1 * (z 0).val = (k 0).val; omega
  | ⟨1, _⟩ => show win3_0.index t (1 : Fin 2) * 128 + 1 * (z 1).val = (k 1).val; omega

/-- The weight block at every point is the whole weight. -/
theorem lin3_blk_W (c : Dev nD) (t : Fin cfg3.N) (z : S128x128.Idx) :
    (iblk3 V c 1 t : Vec Ideal S128x128 .f32) z = (V c main_v8 : S128x128.Idx → EReal) z := by
  obtain ⟨-, -, e10, e11, -⟩ := lin3_idx t
  unfold iblk3
  show (V c main_v8 : S128x128.Idx → EReal) (((cfg3.win 1).blk t).view.emb z) = _
  refine congrArg (V c main_v8 : S128x128.Idx → EReal) (funext fun a => Fin.ext ?_)
  match a with
  | ⟨0, _⟩ => show win3_1.index t (0 : Fin 2) * 128 + 1 * (z 0).val = (z 0).val; omega
  | ⟨1, _⟩ => show win3_1.index t (1 : Fin 2) * 128 + 1 * (z 1).val = (z 1).val; omega

/-- The bias block at every point is the whole bias row. -/
theorem lin3_blk_b (c : Dev nD) (t : Fin cfg3.N) (z : S1x128.Idx) :
    (iblk3 V c 2 t : Vec Ideal S1x128 .f32) z = (V c main_v25 : S1x128.Idx → EReal) z := by
  obtain ⟨-, -, -, -, e20, e21, -⟩ := lin3_idx t
  unfold iblk3
  show (V c main_v25 : S1x128.Idx → EReal) (((cfg3.win 2).blk t).view.emb z) = _
  refine congrArg (V c main_v25 : S1x128.Idx → EReal) (funext fun a => Fin.ext ?_)
  match a with
  | ⟨0, _⟩ => show win3_2.index t (0 : Fin 2) * 1 + 1 * (z 0).val = (z 0).val; omega
  | ⟨1, _⟩ => show win3_2.index t (1 : Fin 2) * 128 + 1 * (z 1).val = (z 1).val; omega

/-- What point t writes back is block t of the affine image of the arrays as the region found them. -/
theorem lin3_flushed (c : Dev nD) (t : Fin cfg3.N) :
    (dat3 (F := Ideal) V c).flushed 3 t
      = ((cfg3.win 3).blk t).view.read (Elt Ideal) (Cert.Spec.lin (V c main_v5) (V c main_v8) (V c main_v25)) := by
  show (cfg3.win 3).cut (grid3.coords t) ((dat3 (F := Ideal) V c).after 3 t) = _
  rw [after3_3]
  unfold out3_3
  rw [View.canon_unit_zero Lin.hz]
  simp only [View.ld_unit_zero (S := S2000x128) Lin.hz, View.ld_unit_zero (S := S128x128) Lin.hz,
    View.ld_unit_zero (S := S1x128) Lin.hz]
  obtain ⟨-, -, -, -, -, -, e30, e31⟩ := lin3_idx t
  have hN : cfg3.N = 25 := N_3
  have ht : t.val < 25 := by have := t.isLt; omega
  funext j
  obtain ⟨r, q, rfl⟩ : ∃ (r : Fin 2000) (q : Fin 128), j = ix2 r q := ⟨j 0, j 1, eq_ix2 j⟩
  show k3_pay1 (iblk3 V c 0 t) (iblk3 V c 1 t) (iblk3 V c 2 t) (ix2 r q)
    = Cert.Spec.lin (V c main_v5) (V c main_v8) (V c main_v25) (((cfg3.win 3).blk t).view.emb (ix2 r q))
  refine (lin3_pay (iblk3 V c 0 t) (iblk3 V c 1 t) (iblk3 V c 2 t) r q).trans ?_
  have hn : t.val * 2000 + r.val < 50000 := Lin.block_row t.val r.val ht r.isLt
  refine (Lin.lin_entry (iblk3 V c 0 t) (iblk3 V c 1 t) (iblk3 V c 2 t) (V c main_v5) (V c main_v8) (V c main_v25) r q
    ⟨t.val * 2000 + r.val, hn⟩
    (fun k => lin3_blk_h V c t (ix2 r k) (ix2 ⟨t.val * 2000 + r.val, hn⟩ k) rfl rfl)
    (fun k => lin3_blk_W V c t (ix2 k q)) (lin3_blk_b V c t (ix2 0 q))).trans ?_
  refine congrArg (Cert.Spec.lin (V c main_v5) (V c main_v8) (V c main_v25)) (funext fun a => Fin.ext ?_)
  match a with
  | ⟨0, _⟩ => show t.val * 2000 + r.val = win3_3.index t (0 : Fin 2) * 2000 + 1 * r.val; omega
  | ⟨1, _⟩ => show q.val = win3_3.index t (1 : Fin 2) * 128 + 1 * q.val; omega

/-- An index of the output array is in point t's block iff each coordinate is in the block's range on its axis. -/
theorem lin3_mem_blk (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v26).slice (win3_3.rect t)).set ↔ _
  rw [View.set_slice_whole, Rect.mem_set_unit]
  exact Iff.rfl

/-- Every index of the output array is in the block of the point its row's block names: row n lies in block n / 2000. -/
theorem lin3_cover (i : S50000x128.Idx) :
    ∃ t : Fin cfg3.N, (cfg3.win 3).flush t = true ∧ i ∈ ((cfg3.win 3).blk t).view.set := by
  have hN : cfg3.N = 25 := N_3
  have hi1 : (i 1).val < 128 := idx2_lt1 i
  obtain ⟨b0, b1, b2⟩ := Lin.row_block (i 0).val (idx2_lt0 i)
  have ht : (i 0).val / 2000 < cfg3.N := by rw [hN]; exact b0
  obtain ⟨-, -, -, -, -, -, e30, e31⟩ := lin3_idx ⟨(i 0).val / 2000, ht⟩
  have e30' : win3_3.index ⟨(i 0).val / 2000, ht⟩ (0 : Fin 2) = (i 0).val / 2000 := e30
  refine ⟨⟨(i 0).val / 2000, ht⟩, flush3_3 _, ?_⟩
  rw [lin3_mem_blk]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30']; exact ⟨b1, b2⟩
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e31]; omega

/-- After the region the output array holds the affine image h·W + b of the arrays as the region found them. -/
theorem lin3 (c : Dev nD) :
    (dat3 (F := Ideal) V c).arrAt 3 cfg3.N = Cert.Spec.lin (V c main_v5) (V c main_v8) (V c main_v25) :=
  (dat3 (F := Ideal) V c).arrAt_eq_of_cover 3 (Cert.Spec.lin (V c main_v5) (V c main_v8) (V c main_v25))
    (fun t _ => lin3_flushed V c t) lin3_cover

end Cert.KernelIdeal.Reg

end
-- ==== Proof.RegMul4.lean ====
/-
  Edge scaling, region 4: after the region its output array holds, at edge e and lane q, the gathered row's entry
  (e, q) times edge e's weight.  The grid has 100 points; point t stages rows 8000·t … 8000·t + 7999 of the gathered rows,
  of the weight column and of the output, so the entry (p, q) of its blocks is the entry (8000·t + p, q) of the arrays
  (the weight's at (8000·t + p, 0)); the 100 blocks tile the 800000 rows, the point covering row r being r / 8000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry (p, q): the gathered block's entry times the weight block's entry (p, 0). -/
theorem pay4_apply (x0 : Vec Ideal S8000x128 .f32) (x1 : Vec Ideal S8000x1 .f32) (p : Fin 8000) (q : Fin 128) :
    k4_pay1 (F := Ideal) x0 x1 (ix2 p q) = x0 (ix2 p q) * x1 (ix2 p 0) :=
  emul_pay _ _ _ x0 x1 p q

/-- The three index maps over the grid: point t's block index is (t, 0) for every window. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The gathered rows' block at point t, entry x, is the array's entry k when k is x moved down by 8000·t rows. -/
theorem gblk4 (c : Dev nD) (t : Fin cfg4.N) (x : S8000x128.Idx) (k : S800000x128.Idx)
    (hk0 : (k 0).val = 8000 * t.val + (x 0).val) (hk1 : (k 1).val = (x 1).val) :
    (iblk4 V c 0 t : Vec Ideal S8000x128 .f32) x = (V c main_v33 : S800000x128.Idx → EReal) k := by
  obtain ⟨e0, e1, -⟩ := idx4 t
  unfold iblk4
  show V c main_v33 (((cfg4.win 0).blk t).view.emb x) = V c main_v33 k
  refine congrArg (V c main_v33) (funext fun a => Fin.ext ?_)
  match a with
  | ⟨0, _⟩ => show win4_0.index t (0 : Fin 2) * 8000 + 1 * (x 0).val = (k 0).val; rw [e0, hk0]; omega
  | ⟨1, _⟩ => show win4_0.index t (1 : Fin 2) * 128 + 1 * (x 1).val = (k 1).val; rw [e1, hk1]; omega

/-- The weight column's block likewise. -/
theorem wblk4 (c : Dev nD) (t : Fin cfg4.N) (x : S8000x1.Idx) (k : S800000x1.Idx)
    (hk0 : (k 0).val = 8000 * t.val + (x 0).val) :
    (iblk4 V c 1 t : Vec Ideal S8000x1 .f32) x = (V c main_v6 : S800000x1.Idx → EReal) k := by
  obtain ⟨-, -, e2, e3, -⟩ := idx4 t
  have hx1 : (x 1).val < 1 := (x 1).isLt
  have hk1 : (k 1).val < 1 := (k 1).isLt
  unfold iblk4
  show V c main_v6 (((cfg4.win 1).blk t).view.emb x) = V c main_v6 k
  refine congrArg (V c main_v6) (funext fun a => Fin.ext ?_)
  match a with
  | ⟨0, _⟩ => show win4_1.index t (0 : Fin 2) * 8000 + 1 * (x 0).val = (k 0).val; rw [e2, hk0]; omega
  | ⟨1, _⟩ => show win4_1.index t (1 : Fin 2) * 1 + 1 * (x 1).val = (k 1).val; rw [e3]; omega

/-- What point t writes back is block t of the scaled rows. -/
theorem flushed4 (c : Dev nD) (t : Fin cfg4.N) :
    (dat4 (F := Ideal) V c).flushed 2 t
      = ((cfg4.win 2).blk t).view.read (Elt Ideal) (Cert.Spec.emul (V c main_v33) (V c main_v6)) := by
  show (cfg4.win 2).cut (grid4.coords t) ((dat4 (F := Ideal) V c).after 2 t) = _
  rw [after4_2]
  unfold out4_2
  rw [View.canon_unit_zero zeroOff]
  simp only [View.ld_unit_zero (S := S8000x128) zeroOff, View.ld_unit_zero (S := S8000x1) zeroOff]
  obtain ⟨-, -, -, -, e4, e5⟩ := idx4 t
  funext j
  have hj0 : (j 0).val < 8000 := (j 0).isLt
  have hj1 : (j 1).val < 128 := (j 1).isLt
  show k4_pay1 (F := Ideal) (iblk4 V c 0 t) (iblk4 V c 1 t) (ix2 (⟨(j 0).val, hj0⟩ : Fin 8000) (⟨(j 1).val, hj1⟩ : Fin 128))
      = Cert.Spec.emul (V c main_v33) (V c main_v6) (((cfg4.win 2).blk t).view.emb j)
  refine (pay4_apply (iblk4 V c 0 t) (iblk4 V c 1 t) ⟨(j 0).val, hj0⟩ ⟨(j 1).val, hj1⟩).trans ?_
  unfold Cert.Spec.emul
  refine congrArg₂ (· * ·) (gblk4 V c t _ _ ?_ ?_) (wblk4 V c t _ _ ?_)
  · show win4_2.index t (0 : Fin 2) * 8000 + 1 * (j 0).val = 8000 * t.val + (j 0).val; rw [e4]; omega
  · show win4_2.index t (1 : Fin 2) * 128 + 1 * (j 1).val = (j 1).val; rw [e5]; omega
  · show win4_2.index t (0 : Fin 2) * 8000 + 1 * (j 0).val = 8000 * t.val + (j 0).val; rw [e4]; omega

/-- An index of the array is in point t's block iff each coordinate is in the block's range on its axis. -/
theorem mem_blk4 (t : Fin cfg4.N) (i : S800000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v34).slice (win4_2.rect t)).set ↔ _
  rw [View.set_slice_whole, Rect.mem_set_unit]
  exact Iff.rfl

/-- Every row is in the block of the point  row / 8000. -/
theorem cover4 (i : S800000x128.Idx) :
    ∃ t : Fin cfg4.N, (cfg4.win 2).flush t = true ∧ i ∈ ((cfg4.win 2).blk t).view.set := by
  have hi0 : (i 0).val < 800000 := (i 0).isLt
  have hi1 : (i 1).val < 128 := (i 1).isLt
  have hN : cfg4.N = 100 := N_4
  let t : Fin cfg4.N := ⟨(i 0).val / 8000, by rw [hN]; omega⟩
  have ht : t.val = (i 0).val / 8000 := rfl
  obtain ⟨-, -, -, -, e4, e5⟩ := idx4 t
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; rw [e4, ht]; omega
  | ⟨1, _⟩ => show win4_2.index t (1 : Fin 2) * 128 ≤ (i 1).val ∧ (i 1).val < win4_2.index t (1 : Fin 2) * 128 + 128; rw [e5]; omega

/-- The output array after the region: every gathered row scaled by its edge's weight. -/
theorem emul4 (c : Dev nD) :
    (dat4 (F := Ideal) V c).arrAt 2 cfg4.N = Cert.Spec.emul (V c main_v33) (V c main_v6) :=
  (dat4 (F := Ideal) V c).arrAt_eq_of_cover 2 (Cert.Spec.emul (V c main_v33) (V c main_v6))
    (fun t _ => flushed4 V c t) (cover4)

end Cert.KernelIdeal.Reg

end
-- ==== Proof.RegComb5.lean ====
/-
  The rectifier, region 5: after the region its output array holds, at node n and lane q, the leaky rectifier of the
  aggregate's entry (n, q).  The grid has 25 points; point t stages rows 2000·t … 2000·t + 1999 of the aggregate and of
  the output, so the entry (p, q) of its blocks is the entry (2000·t + p, q) of the arrays; the 25 blocks tile the 50000
  rows, the point covering row r being r / 2000.
-/
import proofs.«161278_j35699768164381_1_alg».proof.Proof.Gen.KernelIdeal.Frame
import proofs.«161278_j35699768164381_1_alg».proof.Proof.RegPointCore
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The stored block's entry j: the rectifier of the aggregate block's entry j. -/
theorem pay5_apply (x0 : Vec Ideal S2000x128 .f32) (j : S2000x128.Idx) :
    k5_pay1 (F := Ideal) x0 j = Cert.Spec.leaky (x0 j) :=
  comb_pay _ x0 j

/-- The two index maps over the grid: point t's block index is (t, 0) for both windows. -/
theorem idx5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- The aggregate's block at point t, entry x, is the array's entry k when k is x moved down by 2000·t rows. -/
theorem ablk5 (c : Dev nD) (t : Fin cfg5.N) (x : S2000x128.Idx) (k : S50000x128.Idx)
    (hk0 : (k 0).val = 2000 * t.val + (x 0).val) (hk1 : (k 1).val = (x 1).val) :
    (iblk5 V c 0 t : Vec Ideal S2000x128 .f32) x = (V c main_v37 : S50000x128.Idx → EReal) k := by
  obtain ⟨e0, e1, -⟩ := idx5 t
  unfold iblk5
  show V c main_v37 (((cfg5.win 0).blk t).view.emb x) = V c main_v37 k
  refine congrArg (V c main_v37) (funext fun a => Fin.ext ?_)
  match a with
  | ⟨0, _⟩ => show win5_0.index t (0 : Fin 2) * 2000 + 1 * (x 0).val = (k 0).val; rw [e0, hk0]; omega
  | ⟨1, _⟩ => show win5_0.index t (1 : Fin 2) * 128 + 1 * (x 1).val = (k 1).val; rw [e1, hk1]; omega

/-- What point t writes back is block t of the rectified aggregate. -/
theorem flushed5 (c : Dev nD) (t : Fin cfg5.N) :
    (dat5 (F := Ideal) V c).flushed 1 t
      = ((cfg5.win 1).blk t).view.read (Elt Ideal) (Cert.Spec.comb (V c main_v37)) := by
  show (cfg5.win 1).cut (grid5.coords t) ((dat5 (F := Ideal) V c).after 1 t) = _
  rw [after5_1]
  unfold out5_1
  rw [View.canon_unit_zero zeroOff]
  simp only [View.ld_unit_zero (S := S2000x128) zeroOff]
  obtain ⟨-, -, e2, e3⟩ := idx5 t
  funext j
  show k5_pay1 (F := Ideal) (iblk5 V c 0 t) j
      = Cert.Spec.comb (V c main_v37) (((cfg5.win 1).blk t).view.emb j)
  refine (pay5_apply (iblk5 V c 0 t) j).trans ?_
  unfold Cert.Spec.comb
  refine congrArg Cert.Spec.leaky (ablk5 V c t _ _ ?_ ?_)
  · show win5_1.index t (0 : Fin 2) * 2000 + 1 * (j 0).val = 2000 * t.val + (j 0).val; rw [e2]; omega
  · show win5_1.index t (1 : Fin 2) * 128 + 1 * (j 1).val = (j 1).val; rw [e3]; omega

/-- An index of the array is in point t's block iff each coordinate is in the block's range on its axis. -/
theorem mem_blk5 (t : Fin cfg5.N) (i : S50000x128.Idx) :
    i ∈ ((cfg5.win 1).blk t).view.set ↔ ∀ a : Fin 2, win5_1.index t a * S2000x128.size a ≤ (i a).val
      ∧ (i a).val < win5_1.index t a * S2000x128.size a + S2000x128.size a := by
  show i ∈ ((View.whole main_v38).slice (win5_1.rect t)).set ↔ _
  rw [View.set_slice_whole, Rect.mem_set_unit]
  exact Iff.rfl

/-- Every row is in the block of the point  row / 2000. -/
theorem cover5 (i : S50000x128.Idx) :
    ∃ t : Fin cfg5.N, (cfg5.win 1).flush t = true ∧ i ∈ ((cfg5.win 1).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  have ht : t.val = (i 0).val / 2000 := rfl
  obtain ⟨-, -, e2, e3⟩ := idx5 t
  refine ⟨t, flush5_1 t, ?_⟩
  rw [mem_blk5]
  intro a
  match a with
  | ⟨0, _⟩ => show win5_1.index t (0 : Fin 2) * 2000 ≤ (i 0).val ∧ (i 0).val < win5_1.index t (0 : Fin 2) * 2000 + 2000; rw [e2, ht]; omega
  | ⟨1, _⟩ => show win5_1.index t (1 : Fin 2) * 128 ≤ (i 1).val ∧ (i 1).val < win5_1.index t (1 : Fin 2) * 128 + 128; rw [e3]; omega

/-- The output array after the region: the rectifier on every entry of the aggregate. -/
theorem comb5 (c : Dev nD) :
    (dat5 (F := Ideal) V c).arrAt 1 cfg5.N = Cert.Spec.comb (V c main_v37) :=
  (dat5 (F := Ideal) V c).arrAt_eq_of_cover 1 (Cert.Spec.comb (V c main_v37))
    (fun t _ => flushed5 V c t) (cover5)

end Cert.KernelIdeal.Reg

end
-- ==== Proof.KBlock1.lean ====
/-
  Layer 0 of branch 2 in the idealized kernel program: the affine kernel, the gather, the edge-scaling kernel,
  the segment sum and the rectifier kernel compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin3
import proofs.«161278_j35699768164381_1_alg».proof.Proof.RegMul4
import proofs.«161278_j35699768164381_1_alg».proof.Proof.RegComb5

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w8_v26 : W8 m ρ c (Proc.devRef .tc main_v26) = Cert.Spec.lin (W7 m ρ c (Proc.devRef .tc main_v5)) (W7 m ρ c (Proc.devRef .tc main_v8)) (W7 m ρ c (Proc.devRef .tc main_v25)) :=
  (W8_arr m ρ c 3).trans (Cert.KernelIdeal.Reg.lin3 (V7 m ρ) c)

/-- The edge-scaling kernel's output array: every gathered row times its edge's weight. -/
theorem w10_v34 : W10 m ρ c (Proc.devRef .tc main_v34) = Cert.Spec.emul (W9 m ρ c (Proc.devRef .tc main_v33)) (W9 m ρ c (Proc.devRef .tc main_v6)) :=
  (W10_arr m ρ c 2).trans (Cert.KernelIdeal.Reg.emul4 (V9 m ρ) c)

/-- The rectifier kernel's output array. -/
theorem w12_v38 : W12 m ρ c (Proc.devRef .tc main_v38) = Cert.Spec.comb (W11 m ρ c (Proc.devRef .tc main_v37)) :=
  (W12_arr m ρ c 1).trans (Cert.KernelIdeal.Reg.comb5 (V11 m ρ) c)

/-- The branch's features after the layer. -/
theorem state1 : W12 m ρ c (Proc.devRef .tc main_v38) = Cert.Spec.a2 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w12_v38 m ρ c,
    w11_v37 m ρ c,
    w10_v34 m ρ c,
    from10_v3 m ρ c,
    w9_v33 m ρ c,
    from9_v6 m ρ c,
    w8_v26 m ρ c,
    from8_v1 m ρ c,
    from7_v5 m ρ c,
    w1_v5 m ρ c,
    from7_v8 m ρ c,
    w1_v8 m ρ c,
    w7_v25 m ρ c,
    w1_v1 m ρ c,
    w1_v3 m ρ c,
    w1_v6 m ρ c]
  simp only [Cert.Spec.a2, Cert.Spec.layer, Bool.false_eq_true, if_false, if_true]

end Cert.KernelIdeal.Fold

end
-- ==== Proof.KBlock3.lean ====
/-
  Layer 1 of branch 2 in the idealized kernel program: the affine kernel, the gather, the edge-scaling kernel,
  the segment sum and the rectifier kernel (with the self term) compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin9
import proofs.«161278_j35699768164381_1_alg».proof.Proof.RegMul10
import proofs.«161278_j35699768164381_1_alg».proof.Proof.RegCombAdd11
import proofs.«161278_j35699768164381_1_alg».proof.Proof.KBlock1

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w20_v58 : W20 m ρ c (Proc.devRef .tc main_v58) = Cert.Spec.lin (W19 m ρ c (Proc.devRef .tc main_v38)) (W19 m ρ c (Proc.devRef .tc main_v40)) (W19 m ρ c (Proc.devRef .tc main_v57)) :=
  (W20_arr m ρ c 3).trans (Cert.KernelIdeal.Reg.lin9 (V19 m ρ) c)

/-- The edge-scaling kernel's output array: every gathered row times its edge's weight. -/
theorem w22_v66 : W22 m ρ c (Proc.devRef .tc main_v66) = Cert.Spec.emul (W21 m ρ c (Proc.devRef .tc main_v65)) (W21 m ρ c (Proc.devRef .tc main_v6)) :=
  (W22_arr m ρ c 2).trans (Cert.KernelIdeal.Reg.emul10 (V21 m ρ) c)

/-- The rectifier kernel's output array. -/
theorem w24_v70 : W24 m ρ c (Proc.devRef .tc main_v70) = Cert.Spec.combAdd (W23 m ρ c (Proc.devRef .tc main_v69)) (W23 m ρ c (Proc.devRef .tc main_v58)) :=
  (W24_arr m ρ c 2).trans (Cert.KernelIdeal.Reg.combAdd11 (V23 m ρ) c)

/-- The branch's features after the layer. -/
theorem state3 : W24 m ρ c (Proc.devRef .tc main_v70) = Cert.Spec.b2 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w24_v70 m ρ c,
    w23_v69 m ρ c,
    from23_v58 m ρ c,
    w22_v66 m ρ c,
    from22_v3 m ρ c,
    w21_v65 m ρ c,
    from21_v6 m ρ c,
    w20_v58 m ρ c,
    from20_v1 m ρ c,
    from19_v38 m ρ c,
    state1 m ρ c,
    from19_v40 m ρ c,
    w13_v40 m ρ c,
    w19_v57 m ρ c,
    w1_v1 m ρ c,
    w1_v3 m ρ c,
    w1_v6 m ρ c]
  simp only [Cert.Spec.b2, Cert.Spec.layer, Bool.false_eq_true, if_false, if_true]

end Cert.KernelIdeal.Fold

end
-- ==== Proof.KBlock5.lean ====
/-
  Layer 2 of branch 2 in the idealized kernel program: the affine kernel, the gather, the edge-scaling kernel,
  the segment sum and the rectifier kernel (with the self term) compose to the specification's layer function of the branch's features
  before the layer.
-/
import proofs.«161278_j35699768164381_1_alg».proof.Proof.Gen.KernelIdeal.Frame
import proofs.«161278_j35699768164381_1_alg».proof.Proof.KKeep
import proofs.«161278_j35699768164381_1_alg».proof.Proof.KHost0
import proofs.«161278_j35699768164381_1_alg».proof.Proof.KHostB
import proofs.«161278_j35699768164381_1_alg».proof.Proof.KIrr
import proofs.«161278_j35699768164381_1_alg».proof.Proof.RegLin15
import proofs.«161278_j35699768164381_1_alg».proof.Proof.RegMul16
import proofs.«161278_j35699768164381_1_alg».proof.Proof.RegCombAdd17
import proofs.«161278_j35699768164381_1_alg».proof.Proof.KBlock3

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem

variable (m : (ℓ : Loc nD τ sig) → Buf (Elt Ideal) ℓ) (ρ : Dev nD → PrngReg) (c : Dev nD)

/-- The affine kernel's output array: the affine image of its three input arrays. -/
theorem w32_v90 : W32 m ρ c (Proc.devRef .tc main_v90) = Cert.Spec.lin (W31 m ρ c (Proc.devRef .tc main_v70)) (W31 m ρ c (Proc.devRef .tc main_v72)) (W31 m ρ c (Proc.devRef .tc main_v89)) :=
  (W32_arr m ρ c 3).trans (Cert.KernelIdeal.Reg.lin15 (V31 m ρ) c)

/-- The edge-scaling kernel's output array: every gathered row times its edge's weight. -/
theorem w34_v98 : W34 m ρ c (Proc.devRef .tc main_v98) = Cert.Spec.emul (W33 m ρ c (Proc.devRef .tc main_v97)) (W33 m ρ c (Proc.devRef .tc main_v6)) :=
  (W34_arr m ρ c 2).trans (Cert.KernelIdeal.Reg.emul16 (V33 m ρ) c)

/-- The rectifier kernel's output array. -/
theorem w36_v102 : W36 m ρ c (Proc.devRef .tc main_v102) = Cert.Spec.combAdd (W35 m ρ c (Proc.devRef .tc main_v101)) (W35 m ρ c (Proc.devRef .tc main_v90)) :=
  (W36_arr m ρ c 2).trans (Cert.KernelIdeal.Reg.combAdd17 (V35 m ρ) c)

/-- The branch's features after the layer. -/
theorem state5 : W36 m ρ c (Proc.devRef .tc main_v102) = Cert.Spec.c2 kIrr (m ((c : Thread nD τ).loc main_arg0)) (m ((c : Thread nD τ).loc main_arg1)) (m ((c : Thread nD τ).loc main_arg2)) (m ((c : Thread nD τ).loc main_arg3)) (m ((c : Thread nD τ).loc main_arg4)) := by
  rw [w36_v102 m ρ c,
    w35_v101 m ρ c,
    from35_v90 m ρ c,
    w34_v98 m ρ c,
    from34_v3 m ρ c,
    w33_v97 m ρ c,
    from33_v6 m ρ c,
    w32_v90 m ρ c,
    from32_v1 m ρ c,
    from31_v70 m ρ c,
    state3 m ρ c,
    from31_v72 m ρ c,
    w25_v72 m ρ c,
    w31_v89 m ρ c,
    w1_v1 m ρ c,
    w1_v3 m ρ c,
    w1_v6 m ρ c]
  simp only [Cert.Spec.c2, Cert.Spec.layer, Bool.false_eq_true, if_false, if_true]

end Cert.KernelIdeal.Fold

end
-- ==== Proof.RegFinalCore.lean ====
/-
  The last region's body at one entry, on the extended reals.

  The body takes a block of 2000 rows of each branch, x1 and x2 : [2000, 128], multiplies them by w1, w2 : [128, 128],
  multiplies the two products by the upper and the lower half of fc1_W : [128, 256], adds the two results and the bias
  row: that is its block of y : [2000, 256].  The y block times fc2_W (padded to [256, 128]) plus the padded bias row,
  through the leaky rectifier, is its block of the second output.  Every product accumulates from zero and a change
  of float format is the identity here, so entry (r, q) of the y block is

      Σ_k (Σ_k' x1(r,k')·w1(k',k))·top(k,q)  +  Σ_k (Σ_k' x2(r,k')·w2(k',k))·bot(k,q)  +  b(0,q)

  which reads only ROW r of the two branch blocks.  When that row is row n of the branch arrays, the entry is the
  network's  yOf (prodNF · w1) (prodNF · w2) top bot b  at (n, q), and the output entry is  opOf  of that at (n, q).
  No law of arithmetic is used: the two sides are the same sums in the same order.
-/
import Mathlib
import Idealize.ShloMosaic.Lib.ValueIdx
import Idealize.ShloMosaic.PureOps.Ideal.Laws
import Idealize.ShloMosaic.Lib.Pipeline.Value
import proofs.«161278_j35699768164381_1_alg».proof.Proof.Spec
import proofs.«161278_j35699768164381_1_alg».proof.Proof.LibDot

noncomputable section

namespace Cert.KernelIdeal.Reg

open Idealize.ShloMosaic Idealize.ShloMosaic.ValueIdx Cert.Spec Cert.LibDot

/-- A block of 2000 rows of a branch, and of y. -/
abbrev finBF : Shape := ⟨2, ![2000, 128]⟩
abbrev finBG : Shape := ⟨2, ![2000, 256]⟩

/-- The rectifier as the body spells it, on one extended real: the comparison with zero selects the value or
    slope times the value. -/
theorem fin_leaky (a : Ideal .f32) :
    Scalar.select (FloatOps.cmpf .ogt a (Scalar.ofBits (F := Ideal) .f32 0x00000000#32)) a
        (FloatOps.mulf (Scalar.ofBits (F := Ideal) .f32 0x3E4CCCCD#32) a) = leaky a := by
  show (if Ideal.cmp .ogt a (Ideal.ofBits .f32 0x00000000#32) = 1 then a else slope * a) = if 0 < a then a else slope * a
  rw [Ideal.ofBits_zero_f32]
  by_cases h : (0 : EReal) < a
  · rw [if_pos h, if_pos]; simp [Ideal.cmp, h]
  · rw [if_neg h, if_neg]; simp [Ideal.cmp, h]

/-- The y block the body stores, of the blocks it loads. -/
def finY (d1 : DotDims finBF sFF finBF) (d2 : DotDims finBF sFG finBG)
    (hcB : finBF.ShapeCasts finBF) (hcG : sFG.ShapeCasts sFG) (hc1 : s1G.ShapeCasts s1G) (hb : s1G.Broadcasts finBG)
    (hlt : FTy.bits .bf16 < FTy.bits .f32)
    (x0 x1 : FVec Ideal finBF .f32) (x2 x3 : FVec Ideal sFF .f32) (x4 x5 : FVec Ideal sFG .f32) (x6 : FVec Ideal s1G .f32) :
    FVec Ideal finBG .f32 :=
  addf
    (addf
      (matmul d2 none
        (truncf .bf16 (matmul d1 none (truncf .bf16 (shapeCast finBF x0 hcB) hlt) (truncf .bf16 x2 hlt)
          (constant (F := Ideal) finBF .f32 0x00000000#32)) hlt)
        (truncf .bf16 (shapeCast sFG x4 hcG) hlt) (constant (F := Ideal) finBG .f32 0x00000000#32))
      (matmul d2 none
        (truncf .bf16 (matmul d1 none (truncf .bf16 (shapeCast finBF x1 hcB) hlt) (truncf .bf16 x3 hlt)
          (constant (F := Ideal) finBF .f32 0x00000000#32)) hlt)
        (truncf .bf16 (shapeCast sFG x5 hcG) hlt) (constant (F := Ideal) finBG .f32 0x00000000#32)))
    (broadcastTo finBG (shapeCast s1G x6 hc1) hb)

/-- The block before the rectifier: the y block times the padded fc2_W, plus the padded bias row. -/
def finO (d3 : DotDims finBG sGF finBF) (hcW : sGF.ShapeCasts sGF) (hcb : s1F.ShapeCasts s1F) (hb : s1F.Broadcasts finBF)
    (hlt : FTy.bits .bf16 < FTy.bits .f32)
    (y : FVec Ideal finBG .f32) (x7 : FVec Ideal sGF .f32) (x8 : FVec Ideal s1F .f32) : FVec Ideal finBF .f32 :=
  addf
    (matmul d3 none (truncf .bf16 y hlt) (truncf .bf16 (shapeCast sGF x7 hcW) hlt) (constant (F := Ideal) finBF .f32 0x00000000#32))
    (broadcastTo finBF (shapeCast s1F x8 hcb) hb)

/-- The rectifier on a block. -/
def finR (v : FVec Ideal finBF .f32) : FVec Ideal finBF .f32 :=
  select (cmpf .ogt v (broadcast finBF (Scalar.ofBits (F := Ideal) .f32 0x00000000#32))) v
    (mulf (broadcast finBF (Scalar.ofBits (F := Ideal) .f32 0x3E4CCCCD#32)) v)

theorem finR_apply (v : FVec Ideal finBF .f32) (i : finBF.Idx) : finR v i = leaky (v i) := fin_leaky (v i)

section
variable {d1 : DotDims finBF sFF finBF} {d2 : DotDims finBF sFG finBG} {d3 : DotDims finBG sGF finBF}
  (hcB : finBF.ShapeCasts finBF) (hcG : sFG.ShapeCasts sFG) (hc1 : s1G.ShapeCasts s1G) (hb : s1G.Broadcasts finBG)
  (hcW : sGF.ShapeCasts sGF) (hcb : s1F.ShapeCasts s1F) (hb' : s1F.Broadcasts finBF)
  (hlt : FTy.bits .bf16 < FTy.bits .f32)

/-- Entry (r, q) of the y block: the two double sums and the bias. -/
theorem finY_apply (hd1 : Plain d1) (hd2 : Plain d2) (x0 x1 : FVec Ideal finBF .f32) (x2 x3 : FVec Ideal sFF .f32) (x4 x5 : FVec Ideal sFG .f32)
    (x6 : FVec Ideal s1G .f32) (r : Fin 2000) (q : Fin 256) :
    finY d1 d2 hcB hcG hc1 hb hlt x0 x1 x2 x3 x4 x5 x6 (ix2 r q)
      = ((∑ k : Fin 128, (∑ k' : Fin 128, x0 (ix2 r k') * x2 (ix2 k' k)) * x4 (ix2 k q))
          + (∑ k : Fin 128, (∑ k' : Fin 128, x1 (ix2 r k') * x3 (ix2 k' k)) * x5 (ix2 k q)))
        + x6 (ix2 0 q) := by
  unfold finY
  simp only [shapeCast_self]
  have bias : broadcastTo finBG x6 hb (ix2 r q) = x6 (ix2 0 q) :=
    broadcastTo_apply x6 hb (ix2 r q) (ix2 0 q) (fun a => by match a with | ⟨0, _⟩ => rfl | ⟨1, _⟩ => rfl)
  rw [addf_apply, addf_apply, matmul_ix2 hd2, matmul_ix2 hd2, bias]
  simp only [truncf_apply, matmul_ix2 hd1]

/-- Entry (r, q) of the block before the rectifier: row r of the y block against column q of fc2_W, plus the bias. -/
theorem finO_apply (hd3 : Plain d3) (y : FVec Ideal finBG .f32) (x7 : FVec Ideal sGF .f32) (x8 : FVec Ideal s1F .f32) (r : Fin 2000) (q : Fin 128) :
    finO d3 hcW hcb hb' hlt y x7 x8 (ix2 r q) = (∑ k : Fin 256, y (ix2 r k) * x7 (ix2 k q)) + x8 (ix2 0 q) := by
  unfold finO
  simp only [shapeCast_self]
  have bias : broadcastTo finBF x8 hb' (ix2 r q) = x8 (ix2 0 q) :=
    broadcastTo_apply x8 hb' (ix2 r q) (ix2 0 q) (fun a => by match a with | ⟨0, _⟩ => rfl | ⟨1, _⟩ => rfl)
  rw [addf_apply, matmul_ix2 hd3, bias]
  simp only [truncf_apply]

/-- When row r of the two branch blocks is row n of the branch arrays, entry (r, q) of the y block is the network's y at (n, q). -/
theorem finY_spec (hd1 : Plain d1) (hd2 : Plain d2) (x0 x1 : FVec Ideal finBF .f32) (W1 W2 : Arr sFF) (T B : Arr sFG) (b : Arr s1G) (A0 A1 : Arr sNF)
    (r : Fin 2000) (q : Fin 256) (n : Fin 50000)
    (e0 : ∀ k : Fin 128, x0 (ix2 r k) = A0 (ix2 n k)) (e1 : ∀ k : Fin 128, x1 (ix2 r k) = A1 (ix2 n k)) :
    finY d1 d2 hcB hcG hc1 hb hlt x0 x1 W1 W2 T B b (ix2 r q) = yOf (prodNF A0 W1) (prodNF A1 W2) T B b (ix2 n q) := by
  rw [finY_apply hcB hcG hc1 hb hlt hd1 hd2]
  simp only [e0, e1]
  rfl

/-- And entry (r, q) of the rectified block is the network's second output at (n, q). -/
theorem finOp_spec (hd1 : Plain d1) (hd2 : Plain d2) (hd3 : Plain d3) (x0 x1 : FVec Ideal finBF .f32) (W1 W2 : Arr sFF) (T B : Arr sFG) (b : Arr s1G) (A0 A1 : Arr sNF)
    (W : Arr sGF) (b2 : Arr s1F) (r : Fin 2000) (q : Fin 128) (n : Fin 50000)
    (e0 : ∀ k : Fin 128, x0 (ix2 r k) = A0 (ix2 n k)) (e1 : ∀ k : Fin 128, x1 (ix2 r k) = A1 (ix2 n k)) :
    finR (finO d3 hcW hcb hb' hlt (finY d1 d2 hcB hcG hc1 hb hlt x0 x1 W1 W2 T B b) W b2) (ix2 r q)
      = opOf (yOf (prodNF A0 W1) (prodNF A1 W2) T B b) W b2 (ix2 n q) := by
  have hy : ∀ k : Fin 256, finY d1 d2 hcB hcG hc1 hb hlt x0 x1 W1 W2 T B b (ix2 r k)
      = yOf (prodNF A0 W1) (prodNF A1 W2) T B b (ix2 n k) :=
    fun k => finY_spec hcB hcG hc1 hb hlt hd1 hd2 x0 x1 W1 W2 T B b A0 A1 r k n e0 e1
  rw [finR_apply, finO_apply hcW hcb hb' hlt hd3]
  simp only [hy]
  rfl

end

end Cert.KernelIdeal.Reg

end
-- ==== Proof.RegFinal.lean ====
/-
  What the last region leaves in its two output arrays, as functions of the arrays it finds.

  The region runs over 25 grid points.  At point t each of the two branch arrays [50000, 128] gives its block of rows
  2000·t … 2000·t + 1999; the weights w1, w2, the two halves of fc1_W, the bias rows and the padded fc2_W are single
  blocks, the whole arrays, at every point; and the two outputs, y : [50000, 256] and out : [50000, 128], take back
  their blocks of the same rows.  So row r of a branch block at point t is row 2000·t + r of the branch array, and the
  body's arithmetic, which reads the branch blocks one row at a time, makes entry (r, q) of the output blocks the network's
  y and second output at (2000·t + r, q).  The 25 blocks of 2000 rows tile the 50000 rows exactly (row n lies in the
  block of point n / 2000), so after the region each output array IS that function of the arrays found at entry.
-/
import proofs.«161278_j35699768164381_1_alg».proof.Proof.Gen.KernelIdeal.Frame
import Idealize.ShloMosaic.Lib.Pipeline.Value
import proofs.«161278_j35699768164381_1_alg».proof.Proof.RegFinalCore

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The three products' dimension numbers are plain rows-by-columns ones -/

theorem fin_plainFF : Cert.LibDot.Plain dot_S2000x128_S128x128_S2000x128_1_0_0_1_n_n :=
  ⟨rfl, rfl, fun _ _ => rfl, fun _ _ => rfl, fun _ _ => rfl, fun _ _ => rfl⟩
theorem fin_plainFG : Cert.LibDot.Plain dot_S2000x128_S128x256_S2000x256_1_0_0_1_n_n :=
  ⟨rfl, rfl, fun _ _ => rfl, fun _ _ => rfl, fun _ _ => rfl, fun _ _ => rfl⟩
theorem fin_plainGF : Cert.LibDot.Plain dot_S2000x256_S256x128_S2000x128_1_0_0_1_n_n :=
  ⟨rfl, rfl, fun _ _ => rfl, fun _ _ => rfl, fun _ _ => rfl, fun _ _ => rfl⟩

/-! ## The body's three values are the arithmetic of the core module -/

theorem fin_pay2_eq (x0 x1 : Vec Ideal S2000x128 .f32) (x2 x3 : Vec Ideal S128x128 .f32) (x4 x5 : Vec Ideal S128x256 .f32)
    (x6 : Vec Ideal S1x256 .f32) :
    k18_pay2 x0 x1 x2 x3 x4 x5 x6
      = finY dot_S2000x128_S128x128_S2000x128_1_0_0_1_n_n dot_S2000x128_S128x256_S2000x256_1_0_0_1_n_n
          shapeCasts_S2000x128_S2000x128 shapeCasts_S128x256_S128x256 shapeCasts_S1x256_S1x256 broadcasts_S1x256_S2000x256
          bitsLt_bf16_f32 x0 x1 x2 x3 x4 x5 x6 := rfl

theorem fin_pay3_eq (x0 x1 : Vec Ideal S2000x128 .f32) (x2 x3 : Vec Ideal S128x128 .f32) (x4 x5 : Vec Ideal S128x256 .f32)
    (x6 : Vec Ideal S1x256 .f32) (x7 : Vec Ideal S256x128 .f32) (x8 : Vec Ideal S1x128 .f32) :
    k18_pay3 x0 x1 x2 x3 x4 x5 x6 x7 x8
      = finO dot_S2000x256_S256x128_S2000x128_1_0_0_1_n_n shapeCasts_S256x128_S256x128 shapeCasts_S1x128_S1x128
          broadcasts_S1x128_S2000x128 bitsLt_bf16_f32 (k18_pay2 x0 x1 x2 x3 x4 x5 x6) x7 x8 := rfl

theorem fin_pay1_eq (v : FVec Ideal S2000x128 .f32) : k18_pay1 v = finR v := rfl

/-! ## Where each window's block sits: the index maps over the 25 points -/

theorem fin_hz : (![0, 0] : Fin 2 → Nat) = fun _ => 0 := funext fun a => by fin_cases a <;> rfl

theorem fin_idx0 : ∀ t : Fin cfg18.N, win18_0.index t (0 : Fin 2) = t.val ∧ win18_0.index t (1 : Fin 2) = 0 :=
  (by decide +kernel : ∀ t : Fin grid18.N, _)
theorem fin_idx1 : ∀ t : Fin cfg18.N, win18_1.index t (0 : Fin 2) = t.val ∧ win18_1.index t (1 : Fin 2) = 0 :=
  (by decide +kernel : ∀ t : Fin grid18.N, _)
theorem fin_idx2 : ∀ t : Fin cfg18.N, win18_2.index t (0 : Fin 2) = 0 ∧ win18_2.index t (1 : Fin 2) = 0 :=
  (by decide +kernel : ∀ t : Fin grid18.N, _)
theorem fin_idx3 : ∀ t : Fin cfg18.N, win18_3.index t (0 : Fin 2) = 0 ∧ win18_3.index t (1 : Fin 2) = 0 :=
  (by decide +kernel : ∀ t : Fin grid18.N, _)
theorem fin_idx4 : ∀ t : Fin cfg18.N, win18_4.index t (0 : Fin 2) = 0 ∧ win18_4.index t (1 : Fin 2) = 0 :=
  (by decide +kernel : ∀ t : Fin grid18.N, _)
theorem fin_idx5 : ∀ t : Fin cfg18.N, win18_5.index t (0 : Fin 2) = 0 ∧ win18_5.index t (1 : Fin 2) = 0 :=
  (by decide +kernel : ∀ t : Fin grid18.N, _)
theorem fin_idx6 : ∀ t : Fin cfg18.N, win18_6.index t (0 : Fin 2) = 0 ∧ win18_6.index t (1 : Fin 2) = 0 :=
  (by decide +kernel : ∀ t : Fin grid18.N, _)
theorem fin_idx7 : ∀ t : Fin cfg18.N, win18_7.index t (0 : Fin 2) = 0 ∧ win18_7.index t (1 : Fin 2) = 0 :=
  (by decide +kernel : ∀ t : Fin grid18.N, _)
theorem fin_idx8 : ∀ t : Fin cfg18.N, win18_8.index t (0 : Fin 2) = 0 ∧ win18_8.index t (1 : Fin 2) = 0 :=
  (by decide +kernel : ∀ t : Fin grid18.N, _)
theorem fin_idx9 : ∀ t : Fin cfg18.N, win18_9.index t (0 : Fin 2) = t.val ∧ win18_9.index t (1 : Fin 2) = 0 :=
  (by decide +kernel : ∀ t : Fin grid18.N, _)
theorem fin_idx10 : ∀ t : Fin cfg18.N, win18_10.index t (0 : Fin 2) = t.val ∧ win18_10.index t (1 : Fin 2) = 0 :=
  (by decide +kernel : ∀ t : Fin grid18.N, _)

theorem fin_lt (t : Fin cfg18.N) : t.val < 25 := lt_of_lt_of_eq t.isLt N_18

/-! ## The input blocks: rows of the branch arrays, and the whole of every other array -/

/-- Row r of a branch block at point t is row 2000·t + r of the branch array. -/
theorem fin_row0 (c : Dev nD) (t : Fin cfg18.N) (r : Fin 2000) (k : Fin 128) (n : Fin 50000) (hn : n.val = t.val * 2000 + r.val) :
    (iblk18 V c 0 t : Vec Ideal S2000x128 .f32) (ix2 r k) = (V c main_v88 : S50000x128.Idx → Elt Ideal .f32) (ix2 n k) := by
  obtain ⟨e0, e1⟩ := fin_idx0 t
  unfold iblk18
  rw [View.read_apply]
  show V c main_v88 _ = V c main_v88 _
  congr 1
  funext a
  apply Fin.ext
  match a with
  | ⟨0, _⟩ => show win18_0.index t (0 : Fin 2) * 2000 + 1 * r.val = n.val; rw [e0, hn]; omega
  | ⟨1, _⟩ => show win18_0.index t (1 : Fin 2) * 128 + 1 * k.val = k.val; rw [e1]; omega
theorem fin_row1 (c : Dev nD) (t : Fin cfg18.N) (r : Fin 2000) (k : Fin 128) (n : Fin 50000) (hn : n.val = t.val * 2000 + r.val) :
    (iblk18 V c 1 t : Vec Ideal S2000x128 .f32) (ix2 r k) = (V c main_v102 : S50000x128.Idx → Elt Ideal .f32) (ix2 n k) := by
  obtain ⟨e0, e1⟩ := fin_idx1 t
  unfold iblk18
  rw [View.read_apply]
  show V c main_v102 _ = V c main_v102 _
  congr 1
  funext a
  apply Fin.ext
  match a with
  | ⟨0, _⟩ => show win18_1.index t (0 : Fin 2) * 2000 + 1 * r.val = n.val; rw [e0, hn]; omega
  | ⟨1, _⟩ => show win18_1.index t (1 : Fin 2) * 128 + 1 * k.val = k.val; rw [e1]; omega

/-- A window whose one block is its whole array gives the array at every point. -/
theorem fin_whole2 (c : Dev nD) (t : Fin cfg18.N) :
    (iblk18 V c 2 t : Vec Ideal S128x128 .f32) = (V c main_arg5 : S128x128.Idx → Elt Ideal .f32) := by
  obtain ⟨e0, e1⟩ := fin_idx2 t
  funext y
  unfold iblk18
  rw [View.read_apply]
  show V c main_arg5 _ = V c main_arg5 y
  congr 1
  funext a
  apply Fin.ext
  match a with
  | ⟨0, _⟩ => show win18_2.index t (0 : Fin 2) * 128 + 1 * (y 0).val = (y 0).val; rw [e0]; omega
  | ⟨1, _⟩ => show win18_2.index t (1 : Fin 2) * 128 + 1 * (y 1).val = (y 1).val; rw [e1]; omega
theorem fin_whole3 (c : Dev nD) (t : Fin cfg18.N) :
    (iblk18 V c 3 t : Vec Ideal S128x128 .f32) = (V c main_arg6 : S128x128.Idx → Elt Ideal .f32) := by
  obtain ⟨e0, e1⟩ := fin_idx3 t
  funext y
  unfold iblk18
  rw [View.read_apply]
  show V c main_arg6 _ = V c main_arg6 y
  congr 1
  funext a
  apply Fin.ext
  match a with
  | ⟨0, _⟩ => show win18_3.index t (0 : Fin 2) * 128 + 1 * (y 0).val = (y 0).val; rw [e0]; omega
  | ⟨1, _⟩ => show win18_3.index t (1 : Fin 2) * 128 + 1 * (y 1).val = (y 1).val; rw [e1]; omega
theorem fin_whole4 (c : Dev nD) (t : Fin cfg18.N) :
    (iblk18 V c 4 t : Vec Ideal S128x256 .f32) = (V c main_v103 : S128x256.Idx → Elt Ideal .f32) := by
  obtain ⟨e0, e1⟩ := fin_idx4 t
  funext y
  unfold iblk18
  rw [View.read_apply]
  show V c main_v103 _ = V c main_v103 y
  congr 1
  funext a
  apply Fin.ext
  match a with
  | ⟨0, _⟩ => show win18_4.index t (0 : Fin 2) * 128 + 1 * (y 0).val = (y 0).val; rw [e0]; omega
  | ⟨1, _⟩ => show win18_4.index t (1 : Fin 2) * 256 + 1 * (y 1).val = (y 1).val; rw [e1]; omega
theorem fin_whole5 (c : Dev nD) (t : Fin cfg18.N) :
    (iblk18 V c 5 t : Vec Ideal S128x256 .f32) = (V c main_v104 : S128x256.Idx → Elt Ideal .f32) := by
  obtain ⟨e0, e1⟩ := fin_idx5 t
  funext y
  unfold iblk18
  rw [View.read_apply]
  show V c main_v104 _ = V c main_v104 y
  congr 1
  funext a
  apply Fin.ext
  match a with
  | ⟨0, _⟩ => show win18_5.index t (0 : Fin 2) * 128 + 1 * (y 0).val = (y 0).val; rw [e0]; omega
  | ⟨1, _⟩ => show win18_5.index t (1 : Fin 2) * 256 + 1 * (y 1).val = (y 1).val; rw [e1]; omega
theorem fin_whole6 (c : Dev nD) (t : Fin cfg18.N) :
    (iblk18 V c 6 t : Vec Ideal S1x256 .f32) = (V c main_v107 : S1x256.Idx → Elt Ideal .f32) := by
  obtain ⟨e0, e1⟩ := fin_idx6 t
  funext y
  unfold iblk18
  rw [View.read_apply]
  show V c main_v107 _ = V c main_v107 y
  congr 1
  funext a
  apply Fin.ext
  match a with
  | ⟨0, _⟩ => show win18_6.index t (0 : Fin 2) * 1 + 1 * (y 0).val = (y 0).val; rw [e0]; omega
  | ⟨1, _⟩ => show win18_6.index t (1 : Fin 2) * 256 + 1 * (y 1).val = (y 1).val; rw [e1]; omega
theorem fin_whole7 (c : Dev nD) (t : Fin cfg18.N) :
    (iblk18 V c 7 t : Vec Ideal S256x128 .f32) = (V c main_v105 : S256x128.Idx → Elt Ideal .f32) := by
  obtain ⟨e0, e1⟩ := fin_idx7 t
  funext y
  unfold iblk18
  rw [View.read_apply]
  show V c main_v105 _ = V c main_v105 y
  congr 1
  funext a
  apply Fin.ext
  match a with
  | ⟨0, _⟩ => show win18_7.index t (0 : Fin 2) * 256 + 1 * (y 0).val = (y 0).val; rw [e0]; omega
  | ⟨1, _⟩ => show win18_7.index t (1 : Fin 2) * 128 + 1 * (y 1).val = (y 1).val; rw [e1]; omega
theorem fin_whole8 (c : Dev nD) (t : Fin cfg18.N) :
    (iblk18 V c 8 t : Vec Ideal S1x128 .f32) = (V c main_v108 : S1x128.Idx → Elt Ideal .f32) := by
  obtain ⟨e0, e1⟩ := fin_idx8 t
  funext y
  unfold iblk18
  rw [View.read_apply]
  show V c main_v108 _ = V c main_v108 y
  congr 1
  funext a
  apply Fin.ext
  match a with
  | ⟨0, _⟩ => show win18_8.index t (0 : Fin 2) * 1 + 1 * (y 0).val = (y 0).val; rw [e0]; omega
  | ⟨1, _⟩ => show win18_8.index t (1 : Fin 2) * 128 + 1 * (y 1).val = (y 1).val; rw [e1]; omega

/-! ## The two results, as functions of the arrays found at entry -/

/-- The network's y of the arrays the region finds. -/
abbrev finYArr (c : Dev nD) : Cert.Spec.Arr Cert.Spec.sNG :=
  Cert.Spec.yOf (Cert.Spec.prodNF (V c main_v88) (V c main_arg5)) (Cert.Spec.prodNF (V c main_v102) (V c main_arg6))
    (V c main_v103) (V c main_v104) (V c main_v107)

/-- And its second output, all 128 padded columns. -/
abbrev finOArr (c : Dev nD) : Cert.Spec.Arr Cert.Spec.sNF :=
  Cert.Spec.opOf (finYArr V c) (V c main_v105) (V c main_v108)

/-- An element of an output block at point t sits at row 2000·t + r of the output array. -/
theorem fin_emb9 (t : Fin cfg18.N) (r : Fin 2000) (q : Fin 256) (n : Fin 50000) (hn : n.val = t.val * 2000 + r.val) :
    ((cfg18.win 9).blk t).view.emb (ix2 r q) = (ix2 n q : S50000x256.Idx) := by
  obtain ⟨e0, e1⟩ := fin_idx9 t
  funext a
  apply Fin.ext
  match a with
  | ⟨0, _⟩ => show win18_9.index t (0 : Fin 2) * 2000 + 1 * r.val = n.val; rw [e0, hn]; omega
  | ⟨1, _⟩ => show win18_9.index t (1 : Fin 2) * 256 + 1 * q.val = q.val; rw [e1]; omega

theorem fin_emb10 (t : Fin cfg18.N) (r : Fin 2000) (q : Fin 128) (n : Fin 50000) (hn : n.val = t.val * 2000 + r.val) :
    ((cfg18.win 10).blk t).view.emb (ix2 r q) = (ix2 n q : S50000x128.Idx) := by
  obtain ⟨e0, e1⟩ := fin_idx10 t
  funext a
  apply Fin.ext
  match a with
  | ⟨0, _⟩ => show win18_10.index t (0 : Fin 2) * 2000 + 1 * r.val = n.val; rw [e0, hn]; omega
  | ⟨1, _⟩ => show win18_10.index t (1 : Fin 2) * 128 + 1 * q.val = q.val; rw [e1]; omega

/-- What point t writes back to y is block t of the network's y. -/
theorem fin_flushed_y (c : Dev nD) (t : Fin cfg18.N) :
    (dat18 V c).flushed 9 t = ((cfg18.win 9).blk t).view.read (Elt Ideal) (finYArr V c) := by
  show (cfg18.win 9).cut (grid18.coords t) ((dat18 V c).after 9 t) = _
  rw [after18_9]
  unfold out18_9
  rw [View.canon_unit_zero fin_hz]
  simp only [View.ld_unit_zero (S := S2000x128) fin_hz, View.ld_unit_zero (S := S128x128) fin_hz,
    View.ld_unit_zero (S := S128x256) fin_hz, View.ld_unit_zero (S := S1x256) fin_hz]
  rw [fin_whole2 V c t, fin_whole3 V c t, fin_whole4 V c t, fin_whole5 V c t, fin_whole6 V c t, fin_pay2_eq]
  funext j
  obtain ⟨r, q, rfl⟩ : ∃ (r : Fin 2000) (q : Fin 256), j = ix2 r q := ⟨j 0, j 1, eq_ix2 j⟩
  have ht : t.val < 25 := fin_lt t
  have hr : r.val < 2000 := r.isLt
  rw [View.read_apply, fin_emb9 t r q ⟨t.val * 2000 + r.val, by omega⟩ rfl]
  exact finY_spec shapeCasts_S2000x128_S2000x128 shapeCasts_S128x256_S128x256 shapeCasts_S1x256_S1x256 broadcasts_S1x256_S2000x256
    bitsLt_bf16_f32 fin_plainFF fin_plainFG (iblk18 V c 0 t) (iblk18 V c 1 t) (V c main_arg5) (V c main_arg6)
    (V c main_v103) (V c main_v104) (V c main_v107) (V c main_v88) (V c main_v102) r q ⟨t.val * 2000 + r.val, by omega⟩
    (fun k => fin_row0 V c t r k ⟨t.val * 2000 + r.val, by omega⟩ rfl)
    (fun k => fin_row1 V c t r k ⟨t.val * 2000 + r.val, by omega⟩ rfl)

/-- What point t writes back to the second output is block t of the network's second output. -/
theorem fin_flushed_op (c : Dev nD) (t : Fin cfg18.N) :
    (dat18 V c).flushed 10 t = ((cfg18.win 10).blk t).view.read (Elt Ideal) (finOArr V c) := by
  show (cfg18.win 10).cut (grid18.coords t) ((dat18 V c).after 10 t) = _
  rw [after18_10]
  unfold out18_10
  rw [View.canon_unit_zero fin_hz]
  simp only [View.ld_unit_zero (S := S2000x128) fin_hz, View.ld_unit_zero (S := S128x128) fin_hz,
    View.ld_unit_zero (S := S128x256) fin_hz, View.ld_unit_zero (S := S1x256) fin_hz,
    View.ld_unit_zero (S := S256x128) fin_hz, View.ld_unit_zero (S := S1x128) fin_hz]
  rw [fin_whole2 V c t, fin_whole3 V c t, fin_whole4 V c t, fin_whole5 V c t, fin_whole6 V c t, fin_whole7 V c t,
    fin_whole8 V c t, fin_pay1_eq, fin_pay3_eq, fin_pay2_eq]
  funext j
  obtain ⟨r, q, rfl⟩ : ∃ (r : Fin 2000) (q : Fin 128), j = ix2 r q := ⟨j 0, j 1, eq_ix2 j⟩
  have ht : t.val < 25 := fin_lt t
  have hr : r.val < 2000 := r.isLt
  rw [View.read_apply, fin_emb10 t r q ⟨t.val * 2000 + r.val, by omega⟩ rfl]
  exact finOp_spec shapeCasts_S2000x128_S2000x128 shapeCasts_S128x256_S128x256 shapeCasts_S1x256_S1x256 broadcasts_S1x256_S2000x256
    shapeCasts_S256x128_S256x128 shapeCasts_S1x128_S1x128 broadcasts_S1x128_S2000x128
    bitsLt_bf16_f32 fin_plainFF fin_plainFG fin_plainGF (iblk18 V c 0 t) (iblk18 V c 1 t) (V c main_arg5) (V c main_arg6)
    (V c main_v103) (V c main_v104) (V c main_v107) (V c main_v88) (V c main_v102) (V c main_v105) (V c main_v108)
    r q ⟨t.val * 2000 + r.val, by omega⟩
    (fun k => fin_row0 V c t r k ⟨t.val * 2000 + r.val, by omega⟩ rfl)
    (fun k => fin_row1 V c t r k ⟨t.val * 2000 + r.val, by omega⟩ rfl)

/-! ## The blocks tile the arrays -/

/-- An index of y is in point t's block iff each coordinate is in the block's range on its axis. -/
theorem fin_mem9 (t : Fin cfg18.N) (i : S50000x256.Idx) :
    i ∈ ((cfg18.win 9).blk t).view.set ↔ ∀ a : Fin 2, win18_9.index t a * S2000x256.size a ≤ (i a).val
      ∧ (i a).val < win18_9.index t a * S2000x256.size a + S2000x256.size a := by
  show i ∈ ((View.whole main_v109_0).slice (win18_9.rect t)).set ↔ _
  rw [View.set_slice_whole, Rect.mem_set_unit]
  exact Iff.rfl

theorem fin_mem10 (t : Fin cfg18.N) (i : S50000x128.Idx) :
    i ∈ ((cfg18.win 10).blk t).view.set ↔ ∀ a : Fin 2, win18_10.index t a * S2000x128.size a ≤ (i a).val
      ∧ (i a).val < win18_10.index t a * S2000x128.size a + S2000x128.size a := by
  show i ∈ ((View.whole main_v109_1).slice (win18_10.rect t)).set ↔ _
  rw [View.set_slice_whole, Rect.mem_set_unit]
  exact Iff.rfl

/-- Row n of y lies in the block of point n / 2000. -/
theorem fin_cover9 (i : S50000x256.Idx) : ∃ t : Fin cfg18.N, (cfg18.win 9).flush t = true ∧ i ∈ ((cfg18.win 9).blk t).view.set := by
  have hi0 : (i 0).val < 50000 := (i 0).isLt
  have hi1 : (i 1).val < 256 := (i 1).isLt
  have hN : cfg18.N = 25 := N_18
  refine ⟨⟨(i 0).val / 2000, by rw [hN]; omega⟩, flush18_9 _, ?_⟩
  rw [fin_mem9]
  obtain ⟨e0, e1⟩ := fin_idx9 ⟨(i 0).val / 2000, by rw [hN]; omega⟩
  intro a
  match a with
  | ⟨0, _⟩ =>
    show win18_9.index ⟨(i 0).val / 2000, _⟩ (0 : Fin 2) * 2000 ≤ (i 0).val
      ∧ (i 0).val < win18_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win18_9.index ⟨(i 0).val / 2000, _⟩ (1 : Fin 2) * 256 ≤ (i 1).val
      ∧ (i 1).val < win18_9.index ⟨(i 0).val / 2000, _⟩ (1 : Fin 2) * 256 + 256
    rw [e1]; omega

theorem fin_cover10 (i : S50000x128.Idx) : ∃ t : Fin cfg18.N, (cfg18.win 10).flush t = true ∧ i ∈ ((cfg18.win 10).blk t).view.set := by
  have hi0 : (i 0).val < 50000 := (i 0).isLt
  have hi1 : (i 1).val < 128 := (i 1).isLt
  have hN : cfg18.N = 25 := N_18
  refine ⟨⟨(i 0).val / 2000, by rw [hN]; omega⟩, flush18_10 _, ?_⟩
  rw [fin_mem10]
  obtain ⟨e0, e1⟩ := fin_idx10 ⟨(i 0).val / 2000, by rw [hN]; omega⟩
  intro a
  match a with
  | ⟨0, _⟩ =>
    show win18_10.index ⟨(i 0).val / 2000, _⟩ (0 : Fin 2) * 2000 ≤ (i 0).val
      ∧ (i 0).val < win18_10.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win18_10.index ⟨(i 0).val / 2000, _⟩ (1 : Fin 2) * 128 ≤ (i 1).val
      ∧ (i 1).val < win18_10.index ⟨(i 0).val / 2000, _⟩ (1 : Fin 2) * 128 + 128
    rw [e1]; omega

/-! ## The two output arrays after the region -/

/-- After the region the y array is the network's y of the arrays found at entry. -/
theorem fin_y (c : Dev nD) : (dat18 (F := Ideal) V c).arrAt 9 cfg18.N
    = Cert.Spec.yOf (Cert.Spec.prodNF (V c main_v88) (V c main_arg5)) (Cert.Spec.prodNF (V c main_v102) (V c main_arg6))
        (V c main_v103) (V c main_v104) (V c main_v107) :=
  (dat18 V c).arrAt_eq_of_cover 9 (finYArr V c) (fun t _ => fin_flushed_y V c t) fin_cover9

/-- After the region the second output array is the network's second output of them. -/
theorem fin_op (c : Dev nD) : (dat18 (F := Ideal) V c).arrAt 10 cfg18.N
    = Cert.Spec.opOf (Cert.Spec.yOf (Cert.Spec.prodNF (V c main_v88) (V c main_arg5)) (Cert.Spec.prodNF (V c main_v102) (V c main_arg6))
        (V c main_v103) (V c main_v104) (V c main_v107)) (V c main_v105) (V c main_v108) :=
  (dat18 V c).arrAt_eq_of_cover 10 (finOArr V c) (fun t _ => fin_flushed_op V c t) fin_cover10

end Cert.KernelIdeal.Reg

end
-- ==== Proof.KFinal.lean ====
/-
  The end of the idealized kernel program. After the third layer the program takes the upper and lower 128 rows of
  fc1_W, pads fc2_W and fc2_b with zero columns up to 128, and lays fc1_b and the padded fc2_b as rows; the last kernel
  computes  y = (x1·w1)·top + (x2·w2)·bot + fc1_b  and  leaky (y·pad(fc2_W) + pad(fc2_b)); the first result is column 0 of
  that, where the padding contributes nothing: column 0 of the padded matrix is fc2_W's only column and entry 0 of the
  padded bias is fc2_b's only entry. Together with the six layer blocks this makes the program's two results the
  specification's, and its run the run below.
-/
import proofs.«161278_j35699768164381_1_alg».proof.Proof.Gen.KernelIdeal.Frame
import proofs.«161278_j35699768164381_1_alg».proof.Proof.Layout
import proofs.«161278_j35699768164381_1_alg».proof.Proof.KIrr
import proofs.«161278_j35699768164381_1_alg».proof.Proof.KKeep
import proofs.«161278_j35699768164381_1_alg».proof.Proof.KRun
import proofs.«161278_j35699768164381_1_alg».proof.Proof.KBlock4
import proofs.«161278_j35699768164381_1_alg».proof.Proof.KBlock5
import proofs.«161278_j35699768164381_1_alg».proof.Proof.RegFinal

set_option maxRecDepth 16384

noncomputable section

namespace Cert.KernelIdeal.Fold

open Cert.KernelIdeal Cert.KernelIdeal.Gen Cert.KernelIdeal.Irr
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The arguments the last stretches and the last kernel read are still the launch values -/

theorem w41_arg5 : W41 m ρ c (Proc.devRef .tc main_arg5) = m ((c : Thread nD τ).loc main_arg5) :=
  (from43_arg5 m ρ c).symm.trans (W43_main_arg5 m ρ c)
theorem w41_arg6 : W41 m ρ c (Proc.devRef .tc main_arg6) = m ((c : Thread nD τ).loc main_arg6) :=
  (from43_arg6 m ρ c).symm.trans (W43_main_arg6 m ρ c)
theorem w36_arg7 : W36 m ρ c (Proc.devRef .tc main_arg7) = m ((c : Thread nD τ).loc main_arg7) :=
  (from43_arg7 m ρ c).symm.trans (W43_main_arg7 m ρ c)
theorem w40_arg8 : W40 m ρ c (Proc.devRef .tc main_arg8) = m ((c : Thread nD τ).loc main_arg8) :=
  (from43_arg8 m ρ c).symm.trans (W43_main_arg8 m ρ c)
theorem w37_arg9 : W37 m ρ c (Proc.devRef .tc main_arg9) = m ((c : Thread nD τ).loc main_arg9) :=
  (from43_arg9 m ρ c).symm.trans (W43_main_arg9 m ρ c)
theorem w39_arg10 : W39 m ρ c (Proc.devRef .tc main_arg10) = m ((c : Thread nD τ).loc main_arg10) :=
  (from43_arg10 m ρ c).symm.trans (W43_main_arg10 m ρ c)

/-- The stretches between boundary 36 and boundary 40 do not write this argument. -/
theorem w36_arg8 : W36 m ρ c (Proc.devRef .tc main_arg8) = m ((c : Thread nD τ).loc main_arg8) := by
  have e : W40 m ρ c (Proc.devRef .tc main_arg8) = W36 m ρ c (Proc.devRef .tc main_arg8) := by
    show StableHlo.after hostOps18_3 (W39 m ρ c) (Proc.devRef .tc main_arg8) = _
    after_results
  exact e.symm.trans (w40_arg8 m ρ c)

/-- The stretches between boundary 36 and boundary 37 do not write this argument. -/
theorem w36_arg9 : W36 m ρ c (Proc.devRef .tc main_arg9) = m ((c : Thread nD τ).loc main_arg9) := by
  have e : W37 m ρ c (Proc.devRef .tc main_arg9) = W36 m ρ c (Proc.devRef .tc main_arg9) := by
    show StableHlo.after hostOps18 (W36 m ρ c) (Proc.devRef .tc main_arg9) = _
    after_results
  exact e.symm.trans (w37_arg9 m ρ c)

/-- The stretches between boundary 36 and boundary 39 do not write this argument. -/
theorem w36_arg10 : W36 m ρ c (Proc.devRef .tc main_arg10) = m ((c : Thread nD τ).loc main_arg10) := by
  have e : W39 m ρ c (Proc.devRef .tc main_arg10) = W36 m ρ c (Proc.devRef .tc main_arg10) := by
    show StableHlo.after hostOps18_2 (W38 m ρ c) (Proc.devRef .tc main_arg10) = _
    after_results
  exact e.symm.trans (w39_arg10 m ρ c)

/-! ## The stretches before the last kernel -/

/-- The upper 128 rows of fc1_W. -/
theorem w41_v103 : W41 m ρ c (Proc.devRef .tc main_v103) = Cert.Spec.fTop (m ((c : Thread nD τ).loc main_arg7)) := by
  rw [from41_v103 m ρ c]
  show StableHlo.after hostOps18 (W36 m ρ c) (Proc.devRef .tc main_v103) = _
  after_results
  rw [w36_arg7 m ρ c]
  exact Cert.Layout.fTop_eq _ _

/-- The lower 128 rows of fc1_W. -/
theorem w41_v104 : W41 m ρ c (Proc.devRef .tc main_v104) = Cert.Spec.fBot (m ((c : Thread nD τ).loc main_arg7)) := by
  rw [from41_v104 m ρ c]
  show StableHlo.after hostOps18 (W36 m ρ c) (Proc.devRef .tc main_v104) = _
  after_results
  rw [w36_arg7 m ρ c]
  exact Cert.Layout.fBot_eq _ _

/-- fc1_b as a row. -/
theorem w41_v107 : W41 m ρ c (Proc.devRef .tc main_v107) = Cert.Spec.f1bRow (m ((c : Thread nD τ).loc main_arg8)) := by
  show StableHlo.after hostOps18_4 (W40 m ρ c) (Proc.devRef .tc main_v107) = _
  after_results
  show shapeCast S1x256 (W36 m ρ c (Proc.devRef .tc main_arg8)) _ = _
  rw [w36_arg8 m ρ c]
  exact Cert.Layout.f1bRow_reshape_eq _ _

/-- Column 0 of the padded fc2_W is fc2_W's column. -/
theorem w41_v105_col0 (k : Fin 256) : W41 m ρ c (Proc.devRef .tc main_v105) (ix2 k (0 : Fin 128)) = (m ((c : Thread nD τ).loc main_arg9)) (ix2 k (0 : Fin 1)) := by
  rw [from41_v105 m ρ c]
  show StableHlo.after hostOps18_1 (StableHlo.after hostOps18 (W36 m ρ c)) (Proc.devRef .tc main_v105) (ix2 k (0 : Fin 128)) = _
  have h9 := w36_arg9 m ρ c
  generalize W36 m ρ c = V at h9 ⊢
  after_results
  show pad S256x128 ![0, 0] ![0, 127] ![0, 0] (V (Proc.devRef .tc main_arg9)) (sitofp (F := Ideal) .f32 (constantI S_ 32 0#32)) Gen.pads_S256x1_S256x128_000_01270 Gen.h_S_ (ix2 k (0 : Fin 128)) = _
  rw [h9]
  exact Cert.Layout.padW_col0 _ _ _ _ k

/-- Entry 0 of the padded fc2_b, laid as a row, is fc2_b's entry. -/
theorem w41_v108_0 : W41 m ρ c (Proc.devRef .tc main_v108) (ix2 (0 : Fin 1) (0 : Fin 128)) = (m ((c : Thread nD τ).loc main_arg10)) (ix1 (0 : Fin 1)) := by
  show StableHlo.after hostOps18_4 (StableHlo.after hostOps18_3 (StableHlo.after hostOps18_2 (StableHlo.after hostOps18_1
    (StableHlo.after hostOps18 (W36 m ρ c))))) (Proc.devRef .tc main_v108) (ix2 (0 : Fin 1) (0 : Fin 128)) = _
  have h10 := w36_arg10 m ρ c
  generalize W36 m ρ c = V at h10 ⊢
  after_results
  show shapeCast S1x128 (pad S128 ![0] ![127] ![0] (V (Proc.devRef .tc main_arg10)) (sitofp (F := Ideal) .f32 (constantI S_ 32 0#32)) Gen.pads_S1_S128_01270 Gen.h_S_) Gen.shapeCasts_S128_S1x128 (ix2 (0 : Fin 1) (0 : Fin 128)) = _
  rw [h10]
  exact Cert.Layout.padb_0 _ _ _ _ _

/-! ## The last kernel and the last stretch -/

/-- The second result: y. -/
theorem w43_y : W43 m ρ c (Proc.devRef .tc main_v109_0) = Cert.Spec.yRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [from43_v109_0 m ρ c, (W42_arr m ρ c 9).trans (Cert.KernelIdeal.Reg.fin_y (V41 m ρ) c)]
  show Cert.Spec.yOf (Cert.Spec.prodNF (W41 m ρ c (Proc.devRef .tc main_v88)) (W41 m ρ c (Proc.devRef .tc main_arg5)))
      (Cert.Spec.prodNF (W41 m ρ c (Proc.devRef .tc main_v102)) (W41 m ρ c (Proc.devRef .tc main_arg6)))
      (W41 m ρ c (Proc.devRef .tc main_v103)) (W41 m ρ c (Proc.devRef .tc main_v104)) (W41 m ρ c (Proc.devRef .tc main_v107)) = _
  rw [from41_v88 m ρ c, state4 m ρ c, from41_v102 m ρ c, state5 m ρ c, w41_arg5 m ρ c, w41_arg6 m ρ c,
    w41_v103 m ρ c, w41_v104 m ρ c, w41_v107 m ρ c]
  rfl

/-- The first result: column 0 of the last kernel's second output. -/
theorem w43_out : W43 m ρ c (Proc.devRef .tc main_v111) = Cert.Spec.outRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps19 (W42 m ρ c) (Proc.devRef .tc main_v111) = _
  after_results
  show shapeCast S50000 (extractStridedSlice S50000x1 ![0, 0] (W42 m ρ c (Proc.devRef .tc main_v109_1)) _) _ = _
  rw [Cert.Layout.col0_eq, (W42_arr m ρ c 10).trans (Cert.KernelIdeal.Reg.fin_op (V41 m ρ) c)]
  funext i
  have hy : W42 m ρ c (Proc.devRef .tc main_v109_0) = Cert.Spec.yRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
    (from43_v109_0 m ρ c).symm.trans (w43_y m ρ c)
  rw [(W42_arr m ρ c 9).trans (Cert.KernelIdeal.Reg.fin_y (V41 m ρ) c)] at hy
  show Cert.Spec.opOf _ (W41 m ρ c (Proc.devRef .tc main_v105)) (W41 m ρ c (Proc.devRef .tc main_v108)) (ix2 (i 0) (0 : Fin 128)) = _
  unfold Cert.Spec.opOf Cert.Spec.outRes
  rw [hy]
  show Cert.Spec.leaky ((∑ k : Fin 256, Cert.Spec.yRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (i 0) k) * W41 m ρ c (Proc.devRef .tc main_v105) (ix2 k (0 : Fin 128)))
      + W41 m ρ c (Proc.devRef .tc main_v108) (ix2 (0 : Fin 1) (0 : Fin 128))) = _
  rw [w41_v108_0 m ρ c]
  simp only [w41_v105_col0 m ρ c]

/-! ## The run -/

/-- Every weakly fair execution of the idealized kernel program ends, nothing faulting, with its two results the
    specification's functions of the argument arrays and the arguments as launched. -/
theorem run_model : θ_run (defs (F := Ideal)) (onTc (τ := τ) (main (F := Ideal))) ⟨m, fun _ => 0, ρ⟩ (fun r => ∀ c : Dev nD,
      r.2.mem ((c.tc : Thread nD τ).loc main_v111) = Cert.Spec.outRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v109_0) = Cert.Spec.yRes kIrr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c =>
    ⟨(h c main_v111 (by decide)).trans (w43_out m ρ c),
     (h c main_v109_0 (by decide)).trans (w43_y m ρ c),
     (h c main_arg0 (by decide)).trans (W43_main_arg0 m ρ c),
     (h c main_arg1 (by decide)).trans (W43_main_arg1 m ρ c),
     (h c main_arg2 (by decide)).trans (W43_main_arg2 m ρ c),
     (h c main_arg3 (by decide)).trans (W43_main_arg3 m ρ c),
     (h c main_arg4 (by decide)).trans (W43_main_arg4 m ρ c),
     (h c main_arg5 (by decide)).trans (W43_main_arg5 m ρ c),
     (h c main_arg6 (by decide)).trans (W43_main_arg6 m ρ c),
     (h c main_arg7 (by decide)).trans (W43_main_arg7 m ρ c),
     (h c main_arg8 (by decide)).trans (W43_main_arg8 m ρ c),
     (h c main_arg9 (by decide)).trans (W43_main_arg9 m ρ c),
     (h c main_arg10 (by decide)).trans (W43_main_arg10 m ρ c)⟩)
    (run_fold m ρ)

end Cert.KernelIdeal.Fold

end
-- ==== Proof.RefOps.lean ====
/-
  The reference program's 210 operations, in order, as lists: its 161 own statements and, at each of the seven calls of the
  leaky rectifier, the callee's six operations and the select of the function it calls in turn, over that call's buffers.
  The list is cut where the network's stages begin, so that what a stage leaves in its result buffer can be read off that
  stage's stretch alone: the edge list and the feature halves; then per layer and branch the affine image, the gather,
  the scaling by the edge weights, the segment sum, (the self term,) and the rectifier; then the two dense layers of the head.
  Beside each stretch: every operation touches TensorCore buffers only.
-/
import proofs.«161278_j35699768164381_1_alg».proof.ReferenceIdeal
import proofs.«161278_j35699768164381_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edge list's two rows as vectors (src, dst), the upper and lower halves of the features, layer 0's weight and bias. -/
abbrev opsPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg0 main_v4 ((extractStridedSlice S50000x128 ![0, 128] · slices_S50000x256_S50000x128_0_128) : (⟨S50000x256, .f32⟩ : BufTy).Contents (Elt F) → (⟨S50000x128, .f32⟩ : BufTy).Contents (Elt F)),
    StableHlo.unary main_arg0 main_v5 ((extractStridedSlice S50000x128 ![0, 0] · slices_S50000x256_S50000x128_0_0) : (⟨S50000x256, .f32⟩ : BufTy).Contents (Elt F) → (⟨S50000x128, .f32⟩ : BufTy).Contents (Elt F)),
    StableHlo.unary main_arg3 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v6 main_v7 rfl shapeCasts_S1x128x128_S128x128,
    StableHlo.unary main_arg4 main_v8 ((extractStridedSlice S1x128 ![0, 0] · slices_S3x128_S1x128_0_0) : (⟨S3x128, .f32⟩ : BufTy).Contents (Elt F) → (⟨S1x128, .f32⟩ : BufTy).Contents (Elt F)),
    StableHlo.reshape main_v8 main_v9 rfl shapeCasts_S1x128_S128 ]

set_option maxRecDepth 8192 in
theorem opsPre_sub : (opsPre : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., reshape_bufs_sub .., unary_bufs_sub .., reshape_bufs_sub ..⟩

/-- The buffers the stretch writes, in order. -/
abbrev opsPre_W : List (Ref sig .tc) := [main_v0, main_v1, main_v2, main_v3, main_v4, main_v5, main_v6, main_v7, main_v8, main_v9]
set_option maxRecDepth 8192 in
theorem opsPre_writes : (opsPre : List (HloOp τ sig (Elt F))).Forall fun op => op.writes ⊆ (opsPre_W.map (Proc.devRef (τ := τ) .tc)).toFinset := by
  simp only [List.Forall]
  exact ⟨by simp only [unary_writes, Finset.singleton_subset_iff, List.mem_toFinset]; exact List.mem_map_of_mem (by decide),
    by simp only [reshape_writes, Finset.singleton_subset_iff, List.mem_toFinset]; exact List.mem_map_of_mem (by decide),
    by simp only [unary_writes, Finset.singleton_subset_iff, List.mem_toFinset]; exact List.mem_map_of_mem (by decide),
    by simp only [reshape_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [reshape_writes, Finset.singleton_subset_iff, List.mem_toFinset]; exact List.mem_map_of_mem (by decide),
    by simp only [unary_writes, Finset.singleton_subset_iff, List.mem_toFinset]; exact List.mem_map_of_mem (by decide),
    by simp only [reshape_writes, Finset.singleton_subset_iff, List.mem_toFinset]; exact List.mem_map_of_mem (by decide)⟩
/-- A buffer the stretch does not write keeps its contents through it. -/
theorem opsPre_keep (V : Valuation τ sig (Elt F)) (r : Ref sig .tc) (h : r ∉ opsPre_W) :
    after opsPre V (Proc.devRef .tc r) = V (Proc.devRef .tc r) :=
  after_of_writes_sub opsPre V opsPre_writes h

/-- Layer 0 on the upper half, edges reversed: affine image, rows gathered at dst, scaled by the edge weights, summed into src from zero, rectified. -/
abbrev opsA1 : List (HloOp τ sig (Elt F)) :=
  [ StableHlo.binary main_v4 main_v7 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v9 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.unary main_arg2 main_v14 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v15 (broadcastInDim S800000 ![] bcast_S_S800000 : (⟨S_, .i32⟩ : BufTy).Contents (Elt F) → (⟨S800000, .i32⟩ : BufTy).Contents (Elt F)),
    StableHlo.binary main_v3 main_v15 main_v16 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v17 (broadcastInDim S800000 ![] bcast_S_S800000 : (⟨S_, .i32⟩ : BufTy).Contents (Elt F) → (⟨S800000, .i32⟩ : BufTy).Contents (Elt F)),
    StableHlo.binary main_v3 main_v17 main_v18 (addi : (⟨S800000, .i32⟩ : BufTy).Contents (Elt F) → (⟨S800000, .i32⟩ : BufTy).Contents (Elt F) → (⟨S800000, .i32⟩ : BufTy).Contents (Elt F)),
    StableHlo.ternary main_v16 main_v18 main_v3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v19 main_v20 (broadcastInDim S800000x1 ![0] bcast_S800000_S800000x1_0 : (⟨S800000, .i32⟩ : BufTy).Contents (Elt F) → (⟨S800000x1, .i32⟩ : BufTy).Contents (Elt F)),
    StableHlo.binary main_v13 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v14 main_v22 (broadcastInDim S800000x128 ![0, 1] bcast_S800000x1_S800000x128_0_1 : (⟨S800000x1, .f32⟩ : BufTy).Contents (Elt F) → (⟨S800000x128, .f32⟩ : BufTy).Contents (Elt F)),
    StableHlo.binary main_v22 main_v21 main_v23 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v24 (broadcastInDim S50000x128 ![] bcast_S_S50000x128 : (⟨S_, .f32⟩ : BufTy).Contents (Elt F) → (⟨S50000x128, .f32⟩ : BufTy).Contents (Elt F)),
    StableHlo.unary main_v1 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S50000x128 ![] bcast_S_S50000x128),
    StableHlo.TRef.binary (.of main_v26 : StableHlo.TRef sig ⟨S50000x128, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S50000x128 ![] bcast_S_S50000x128),
    StableHlo.TRef.binary main_call0.v3 (.of main_v26 : StableHlo.TRef sig ⟨S50000x128, .f32⟩) main_call0.v4 mulf,
    StableHlo.TRef.ternary main_call0.v1 (.of main_v26 : StableHlo.TRef sig ⟨S50000x128, .f32⟩) main_call0.v4 main_call0.call0.v0 select ]

set_option maxRecDepth 8192 in
theorem opsA1_sub : (opsA1 : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsA1_W : List (Ref sig .tc) := [main_v10, main_v11, main_v12, main_v13, main_v14, main_c, main_v15, main_v16, main_c_0, main_v17, main_v18, main_v19, main_v20, main_v21, main_v22, main_v23, main_cst, main_v24, main_v25, main_v26, main_cst_1, main_call0_cst, main_call0_v0, main_call0_v1, main_call0_v2, main_call0_v3, main_call0_v4, main_v27]
set_option maxRecDepth 8192 in
theorem opsA1_writes : (opsA1 : List (HloOp τ sig (Elt F))).Forall fun op => op.writes ⊆ (opsA1_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

/-- Layer 0 on the lower half: affine image, rows gathered at src, scaled, summed into dst from zero, rectified. -/
abbrev opsA2 : List (HloOp τ sig (Elt F)) :=
  [ StableHlo.binary main_v5 main_v7 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v9 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v30 main_v31 (addf : (⟨S50000x128, .f32⟩ : BufTy).Contents (Elt F) → (⟨S50000x128, .f32⟩ : BufTy).Contents (Elt F) → (⟨S50000x128, .f32⟩ : BufTy).Contents (Elt F)),
    StableHlo.unary main_arg2 main_v32 (broadcastInDim S800000x1 ![0] bcast_S800000_S800000x1_0 : (⟨S800000, .f32⟩ : BufTy).Contents (Elt F) → (⟨S800000x1, .f32⟩ : BufTy).Contents (Elt F)),
    StableHlo.nullary main_c_2 (constantI S_ 32 0#32),
    StableHlo.unary main_c_2 main_v33 (broadcastInDim S800000 ![] bcast_S_S800000 : (⟨S_, .i32⟩ : BufTy).Contents (Elt F) → (⟨S800000, .i32⟩ : BufTy).Contents (Elt F)),
    StableHlo.binary main_v1 main_v33 main_v34 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v35 (broadcastInDim S800000 ![] bcast_S_S800000 : (⟨S_, .i32⟩ : BufTy).Contents (Elt F) → (⟨S800000, .i32⟩ : BufTy).Contents (Elt F)),
    StableHlo.binary main_v1 main_v35 main_v36 (addi : (⟨S800000, .i32⟩ : BufTy).Contents (Elt F) → (⟨S800000, .i32⟩ : BufTy).Contents (Elt F) → (⟨S800000, .i32⟩ : BufTy).Contents (Elt F)),
    StableHlo.ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v37 main_v38 (broadcastInDim S800000x1 ![0] bcast_S800000_S800000x1_0 : (⟨S800000, .i32⟩ : BufTy).Contents (Elt F) → (⟨S800000x1, .i32⟩ : BufTy).Contents (Elt F)),
    StableHlo.binary main_v31 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v32 main_v40 (broadcastInDim S800000x128 ![0, 1] bcast_S800000x1_S800000x128_0_1 : (⟨S800000x1, .f32⟩ : BufTy).Contents (Elt F) → (⟨S800000x128, .f32⟩ : BufTy).Contents (Elt F)),
    StableHlo.binary main_v40 main_v39 main_v41 (mulf : (⟨S800000x128, .f32⟩ : BufTy).Contents (Elt F) → (⟨S800000x128, .f32⟩ : BufTy).Contents (Elt F) → (⟨S800000x128, .f32⟩ : BufTy).Contents (Elt F)),
    StableHlo.nullary main_cst_4 (constant S_ .f32 0x00000000#32),
    StableHlo.unary main_cst_4 main_v42 (broadcastInDim S50000x128 ![] bcast_S_S50000x128 : (⟨S_, .f32⟩ : BufTy).Contents (Elt F) → (⟨S50000x128, .f32⟩ : BufTy).Contents (Elt F)),
    StableHlo.unary main_v3 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x3E4CCCCD#32),
    StableHlo.TRef.nullary main_call1.cst (constant S_ .f32 0x00000000#32),
    StableHlo.TRef.unary main_call1.cst main_call1.v0 (broadcastInDim S50000x128 ![] bcast_S_S50000x128),
    StableHlo.TRef.binary (.of main_v44 : StableHlo.TRef sig ⟨S50000x128, .f32⟩) main_call1.v0 main_call1.v1 (cmpf .oge),
    StableHlo.TRef.unary (.of main_cst_5 : StableHlo.TRef sig ⟨S_, .f32⟩) main_call1.v2 id,
    StableHlo.TRef.unary main_call1.v2 main_call1.v3 (broadcastInDim S50000x128 ![] bcast_S_S50000x128),
    StableHlo.TRef.binary main_call1.v3 (.of main_v44 : StableHlo.TRef sig ⟨S50000x128, .f32⟩) main_call1.v4 mulf,
    StableHlo.TRef.ternary main_call1.v1 (.of main_v44 : StableHlo.TRef sig ⟨S50000x128, .f32⟩) main_call1.v4 main_call1.call0.v0 select ]

set_option maxRecDepth 8192 in
theorem opsA2_sub : (opsA2 : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsA2_W : List (Ref sig .tc) := [main_v28, main_v29, main_v30, main_v31, main_v32, main_c_2, main_v33, main_v34, main_c_3, main_v35, main_v36, main_v37, main_v38, main_v39, main_v40, main_v41, main_cst_4, main_v42, main_v43, main_v44, main_cst_5, main_call1_cst, main_call1_v0, main_call1_v1, main_call1_v2, main_call1_v3, main_call1_v4, main_v45]
set_option maxRecDepth 8192 in
theorem opsA2_writes : (opsA2 : List (HloOp τ sig (Elt F))).Forall fun op => op.writes ⊆ (opsA2_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 V opsA2_writes h

/-- Layer 1's weight and bias. -/
abbrev opsW1 : List (HloOp τ sig (Elt F)) :=
  [ StableHlo.unary main_arg3 main_v46 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v46 main_v47 rfl shapeCasts_S1x128x128_S128x128,
    StableHlo.unary main_arg4 main_v48 ((extractStridedSlice S1x128 ![1, 0] · slices_S3x128_S1x128_1_0) : (⟨S3x128, .f32⟩ : BufTy).Contents (Elt F) → (⟨S1x128, .f32⟩ : BufTy).Contents (Elt F)),
    StableHlo.reshape main_v48 main_v49 rfl shapeCasts_S1x128_S128 ]

set_option maxRecDepth 8192 in
theorem opsW1_sub : (opsW1 : List (HloOp τ sig (Elt F))).Forall fun op => op.bufs ⊆ tcRefs τ sig :=
  ⟨unary_bufs_sub .., reshape_bufs_sub .., unary_bufs_sub .., reshape_bufs_sub ..⟩

/-- The buffers the stretch writes, in order. -/
abbrev opsW1_W : List (Ref sig .tc) := [main_v46, main_v47, main_v48, main_v49]
set_option maxRecDepth 8192 in
theorem opsW1_writes : (opsW1 : List (HloOp τ sig (Elt F))).Forall fun op => op.writes ⊆ (opsW1_W.map (Proc.devRef (τ := τ) .tc)).toFinset := by
  simp only [List.Forall]
  exact ⟨by simp only [unary_writes, Finset.singleton_subset_iff, List.mem_toFinset]; exact List.mem_map_of_mem (by decide),
    by simp only [reshape_writes, Finset.singleton_subset_iff, List.mem_toFinset]; exact List.mem_map_of_mem (by decide),
    by simp only [unary_writes, Finset.singleton_subset_iff, List.mem_toFinset]; exact List.mem_map_of_mem (by decide),
    by simp only [reshape_writes, Finset.singleton_subset_iff, List.mem_toFinset]; exact List.mem_map_of_mem (by decide)⟩
/-- A buffer the stretch does not write keeps its contents through it. -/
theorem opsW1_keep (V : Valuation τ sig (Elt F)) (r : Ref sig .tc) (h : r ∉ opsW1_W) :
    after opsW1 V (Proc.devRef .tc r) = V (Proc.devRef .tc r) :=
  after_of_writes_sub opsW1 V opsW1_writes h

/-- Layer 1 on branch 1, its first two operations: the product with the weight, and the bias as a row. -/
abbrev opsB1a : List (HloOp τ sig (Elt F)) :=
  [ StableHlo.binary main_v27 main_v47 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v49 main_v51 (broadcastInDim S1x128 ![1] bcast_S128_S1x128_1 : (⟨S128, .f32⟩ : BufTy).Contents (Elt F) → (⟨S1x128, .f32⟩ : BufTy).Contents (Elt F)) ]

set_option maxRecDepth 8192 in
theorem opsB1a_sub : (opsB1a : List (HloOp τ sig (Elt F))).Forall fun op => op.bufs ⊆ tcRefs τ sig :=
  ⟨binary_bufs_sub .., unary_bufs_sub ..⟩

/-- The buffers the stretch writes, in order. -/
abbrev opsB1a_W : List (Ref sig .tc) := [main_v50, main_v51]
set_option maxRecDepth 8192 in
theorem opsB1a_writes : (opsB1a : List (HloOp τ sig (Elt F))).Forall fun op => op.writes ⊆ (opsB1a_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide)⟩
/-- A buffer the stretch does not write keeps its contents through it. -/
theorem opsB1a_keep (V : Valuation τ sig (Elt F)) (r : Ref sig .tc) (h : r ∉ opsB1a_W) :
    after opsB1a V (Proc.devRef .tc r) = V (Proc.devRef .tc r) :=
  after_of_writes_sub opsB1a V opsB1a_writes h

/-- Layer 1 on branch 1, the rest: the affine image, gather at dst, scale, sum into src, the self term added, rectified. -/
abbrev opsB1b : List (HloOp τ sig (Elt F)) :=
  [ StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)),
    StableHlo.unary main_arg2 main_v54 (broadcastInDim S800000x1 ![0] bcast_S800000_S800000x1_0 : (⟨S800000, .f32⟩ : BufTy).Contents (Elt F) → (⟨S800000x1, .f32⟩ : BufTy).Contents (Elt F)),
    StableHlo.nullary main_c_6 (constantI S_ 32 0#32),
    StableHlo.unary main_c_6 main_v55 (broadcastInDim S800000 ![] bcast_S_S800000 : (⟨S_, .i32⟩ : BufTy).Contents (Elt F) → (⟨S800000, .i32⟩ : BufTy).Contents (Elt F)),
    StableHlo.binary main_v3 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v57 (broadcastInDim S800000 ![] bcast_S_S800000 : (⟨S_, .i32⟩ : BufTy).Contents (Elt F) → (⟨S800000, .i32⟩ : BufTy).Contents (Elt F)),
    StableHlo.binary main_v3 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v3 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v53 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v54 main_v62 (broadcastInDim S800000x128 ![0, 1] bcast_S800000x1_S800000x128_0_1 : (⟨S800000x1, .f32⟩ : BufTy).Contents (Elt F) → (⟨S800000x128, .f32⟩ : BufTy).Contents (Elt F)),
    StableHlo.binary main_v62 main_v61 main_v63 (mulf : (⟨S800000x128, .f32⟩ : BufTy).Contents (Elt F) → (⟨S800000x128, .f32⟩ : BufTy).Contents (Elt F) → (⟨S800000x128, .f32⟩ : BufTy).Contents (Elt F)),
    StableHlo.nullary main_cst_8 (constant S_ .f32 0x00000000#32),
    StableHlo.unary main_cst_8 main_v64 (broadcastInDim S50000x128 ![] bcast_S_S50000x128 : (⟨S_, .f32⟩ : BufTy).Contents (Elt F) → (⟨S50000x128, .f32⟩ : BufTy).Contents (Elt F)),
    StableHlo.unary main_v1 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v66 main_v53 main_v67 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3E4CCCCD#32),
    StableHlo.TRef.nullary main_call2.cst (constant S_ .f32 0x00000000#32),
    StableHlo.TRef.unary main_call2.cst main_call2.v0 (broadcastInDim S50000x128 ![] bcast_S_S50000x128),
    StableHlo.TRef.binary (.of main_v67 : StableHlo.TRef sig ⟨S50000x128, .f32⟩) main_call2.v0 main_call2.v1 (cmpf .oge),
    StableHlo.TRef.unary (.of main_cst_9 : StableHlo.TRef sig ⟨S_, .f32⟩) main_call2.v2 id,
    StableHlo.TRef.unary main_call2.v2 main_call2.v3 (broadcastInDim S50000x128 ![] bcast_S_S50000x128),
    StableHlo.TRef.binary main_call2.v3 (.of main_v67 : StableHlo.TRef sig ⟨S50000x128, .f32⟩) main_call2.v4 mulf,
    StableHlo.TRef.ternary main_call2.v1 (.of main_v67 : StableHlo.TRef sig ⟨S50000x128, .f32⟩) main_call2.v4 main_call2.call0.v0 select ]

set_option maxRecDepth 8192 in
theorem opsB1b_sub : (opsB1b : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsB1b_W : List (Ref sig .tc) := [main_v52, main_v53, main_v54, main_c_6, main_v55, main_v56, main_c_7, main_v57, main_v58, main_v59, main_v60, main_v61, main_v62, main_v63, main_cst_8, main_v64, main_v65, main_v66, main_v67, main_cst_9, main_call2_cst, main_call2_v0, main_call2_v1, main_call2_v2, main_call2_v3, main_call2_v4, main_v68]
set_option maxRecDepth 8192 in
theorem opsB1b_writes : (opsB1b : List (HloOp τ sig (Elt F))).Forall fun op => op.writes ⊆ (opsB1b_W.map (Proc.devRef (τ := τ) .tc)).toFinset := by
  simp only [List.Forall]
  exact ⟨by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsB1b_keep (V : Valuation τ sig (Elt F)) (r : Ref sig .tc) (h : r ∉ opsB1b_W) :
    after opsB1b V (Proc.devRef .tc r) = V (Proc.devRef .tc r) :=
  after_of_writes_sub opsB1b V opsB1b_writes h

/-- Layer 1 on branch 2: affine image, gather at src, scale, sum into dst, the self term added, rectified. -/
abbrev opsB2 : List (HloOp τ sig (Elt F)) :=
  [ StableHlo.binary main_v45 main_v47 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v49 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.unary main_arg2 main_v73 (broadcastInDim S800000x1 ![0] bcast_S800000_S800000x1_0 : (⟨S800000, .f32⟩ : BufTy).Contents (Elt F) → (⟨S800000x1, .f32⟩ : BufTy).Contents (Elt F)),
    StableHlo.nullary main_c_10 (constantI S_ 32 0#32),
    StableHlo.unary main_c_10 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v72 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v73 main_v81 (broadcastInDim S800000x128 ![0, 1] bcast_S800000x1_S800000x128_0_1 : (⟨S800000x1, .f32⟩ : BufTy).Contents (Elt F) → (⟨S800000x128, .f32⟩ : BufTy).Contents (Elt F)),
    StableHlo.binary main_v81 main_v80 main_v82 (mulf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S800000x1 ![0] bcast_S800000_S800000x1_0 : (⟨S800000, .i32⟩ : BufTy).Contents (Elt F) → (⟨S800000x1, .i32⟩ : BufTy).Contents (Elt F)),
    StableHlo.ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v85 main_v72 main_v86 (addf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3E4CCCCD#32),
    StableHlo.TRef.nullary main_call3.cst (constant S_ .f32 0x00000000#32),
    StableHlo.TRef.unary main_call3.cst main_call3.v0 (broadcastInDim S50000x128 ![] bcast_S_S50000x128),
    StableHlo.TRef.binary (.of main_v86 : StableHlo.TRef sig ⟨S50000x128, .f32⟩) main_call3.v0 main_call3.v1 (cmpf .oge),
    StableHlo.TRef.unary (.of main_cst_13 : StableHlo.TRef sig ⟨S_, .f32⟩) main_call3.v2 id,
    StableHlo.TRef.unary main_call3.v2 main_call3.v3 (broadcastInDim S50000x128 ![] bcast_S_S50000x128),
    StableHlo.TRef.binary main_call3.v3 (.of main_v86 : StableHlo.TRef sig ⟨S50000x128, .f32⟩) main_call3.v4 mulf,
    StableHlo.TRef.ternary main_call3.v1 (.of main_v86 : StableHlo.TRef sig ⟨S50000x128, .f32⟩) main_call3.v4 main_call3.call0.v0 select ]

set_option maxRecDepth 8192 in
theorem opsB2_sub : (opsB2 : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsB2_W : List (Ref sig .tc) := [main_v69, main_v70, main_v71, main_v72, main_v73, main_c_10, main_v74, main_v75, main_c_11, main_v76, main_v77, main_v78, main_v79, main_v80, main_v81, main_v82, main_cst_12, main_v83, main_v84, main_v85, main_v86, main_cst_13, main_call3_cst, main_call3_v0, main_call3_v1, main_call3_v2, main_call3_v3, main_call3_v4, main_v87]
set_option maxRecDepth 8192 in
theorem opsB2_writes : (opsB2 : List (HloOp τ sig (Elt F))).Forall fun op => op.writes ⊆ (opsB2_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsB2_keep (V : Valuation τ sig (Elt F)) (r : Ref sig .tc) (h : r ∉ opsB2_W) :
    after opsB2 V (Proc.devRef .tc r) = V (Proc.devRef .tc r) :=
  after_of_writes_sub opsB2 V opsB2_writes h

/-- Layer 2's weight and bias. -/
abbrev opsW2 : List (HloOp τ sig (Elt F)) :=
  [ StableHlo.unary main_arg3 main_v88 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v88 main_v89 rfl shapeCasts_S1x128x128_S128x128,
    StableHlo.unary main_arg4 main_v90 ((extractStridedSlice S1x128 ![2, 0] · slices_S3x128_S1x128_2_0) : (⟨S3x128, .f32⟩ : BufTy).Contents (Elt F) → (⟨S1x128, .f32⟩ : BufTy).Contents (Elt F)),
    StableHlo.reshape main_v90 main_v91 rfl shapeCasts_S1x128_S128 ]

set_option maxRecDepth 8192 in
theorem opsW2_sub : (opsW2 : List (HloOp τ sig (Elt F))).Forall fun op => op.bufs ⊆ tcRefs τ sig :=
  ⟨unary_bufs_sub .., reshape_bufs_sub .., unary_bufs_sub .., reshape_bufs_sub ..⟩

/-- The buffers the stretch writes, in order. -/
abbrev opsW2_W : List (Ref sig .tc) := [main_v88, main_v89, main_v90, main_v91]
set_option maxRecDepth 8192 in
theorem opsW2_writes : (opsW2 : List (HloOp τ sig (Elt F))).Forall fun op => op.writes ⊆ (opsW2_W.map (Proc.devRef (τ := τ) .tc)).toFinset := by
  simp only [List.Forall]
  exact ⟨by simp only [unary_writes, Finset.singleton_subset_iff, List.mem_toFinset]; exact List.mem_map_of_mem (by decide),
    by simp only [reshape_writes, Finset.singleton_subset_iff, List.mem_toFinset]; exact List.mem_map_of_mem (by decide),
    by simp only [unary_writes, Finset.singleton_subset_iff, List.mem_toFinset]; exact List.mem_map_of_mem (by decide),
    by simp only [reshape_writes, Finset.singleton_subset_iff, List.mem_toFinset]; exact List.mem_map_of_mem (by decide)⟩
/-- A buffer the stretch does not write keeps its contents through it. -/
theorem opsW2_keep (V : Valuation τ sig (Elt F)) (r : Ref sig .tc) (h : r ∉ opsW2_W) :
    after opsW2 V (Proc.devRef .tc r) = V (Proc.devRef .tc r) :=
  after_of_writes_sub opsW2 V opsW2_writes h

/-- Layer 2 on branch 1, up to the wrapped gather indices. -/
abbrev opsC1a : List (HloOp τ sig (Elt F)) :=
  [ StableHlo.binary main_v68 main_v89 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.unary main_arg2 main_v96 (broadcastInDim S800000x1 ![0] bcast_S800000_S800000x1_0 : (⟨S800000, .f32⟩ : BufTy).Contents (Elt F) → (⟨S800000x1, .f32⟩ : BufTy).Contents (Elt F)),
    StableHlo.nullary main_c_14 (constantI S_ 32 0#32),
    StableHlo.unary main_c_14 main_v97 (broadcastInDim S800000 ![] bcast_S_S800000 : (⟨S_, .i32⟩ : BufTy).Contents (Elt F) → (⟨S800000, .i32⟩ : BufTy).Contents (Elt F)),
    StableHlo.binary main_v3 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v99 (broadcastInDim S800000 ![] bcast_S_S800000 : (⟨S_, .i32⟩ : BufTy).Contents (Elt F) → (⟨S800000, .i32⟩ : BufTy).Contents (Elt F)),
    StableHlo.binary main_v3 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v3 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

set_option maxRecDepth 8192 in
theorem opsC1a_sub : (opsC1a : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

/-- The buffers the stretch writes, in order. -/
abbrev opsC1a_W : List (Ref sig .tc) := [main_v92, main_v93, main_v94, main_v95, main_v96, main_c_14, main_v97, main_v98, main_c_15, main_v99, main_v100, main_v101]
set_option maxRecDepth 8192 in
theorem opsC1a_writes : (opsC1a : List (HloOp τ sig (Elt F))).Forall fun op => op.writes ⊆ (opsC1a_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsC1a_keep (V : Valuation τ sig (Elt F)) (r : Ref sig .tc) (h : r ∉ opsC1a_W) :
    after opsC1a V (Proc.devRef .tc r) = V (Proc.devRef .tc r) :=
  after_of_writes_sub opsC1a V opsC1a_writes h

/-- Layer 2 on branch 1, the rest: gather at dst, scale, sum into src, the self term added, rectified. -/
abbrev opsC1b : List (HloOp τ sig (Elt F)) :=
  [ StableHlo.unary main_v101 main_v102 (broadcastInDim S800000x1 ![0] bcast_S800000_S800000x1_0 : (⟨S800000, .i32⟩ : BufTy).Contents (Elt F) → (⟨S800000x1, .i32⟩ : BufTy).Contents (Elt F)),
    StableHlo.binary main_v95 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v96 main_v104 (broadcastInDim S800000x128 ![0, 1] bcast_S800000x1_S800000x128_0_1 : (⟨S800000x1, .f32⟩ : BufTy).Contents (Elt F) → (⟨S800000x128, .f32⟩ : BufTy).Contents (Elt F)),
    StableHlo.binary main_v104 main_v103 main_v105 (mulf : (⟨S800000x128, .f32⟩ : BufTy).Contents (Elt F) → (⟨S800000x128, .f32⟩ : BufTy).Contents (Elt F) → (⟨S800000x128, .f32⟩ : BufTy).Contents (Elt F)),
    StableHlo.nullary main_cst_16 (constant S_ .f32 0x00000000#32),
    StableHlo.unary main_cst_16 main_v106 (broadcastInDim S50000x128 ![] bcast_S_S50000x128 : (⟨S_, .f32⟩ : BufTy).Contents (Elt F) → (⟨S50000x128, .f32⟩ : BufTy).Contents (Elt F)),
    StableHlo.unary main_v1 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v108 main_v95 main_v109 (addf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3E4CCCCD#32),
    StableHlo.TRef.nullary main_call4.cst (constant S_ .f32 0x00000000#32),
    StableHlo.TRef.unary main_call4.cst main_call4.v0 (broadcastInDim S50000x128 ![] bcast_S_S50000x128),
    StableHlo.TRef.binary (.of main_v109 : StableHlo.TRef sig ⟨S50000x128, .f32⟩) main_call4.v0 main_call4.v1 (cmpf .oge),
    StableHlo.TRef.unary (.of main_cst_17 : StableHlo.TRef sig ⟨S_, .f32⟩) main_call4.v2 id,
    StableHlo.TRef.unary main_call4.v2 main_call4.v3 (broadcastInDim S50000x128 ![] bcast_S_S50000x128),
    StableHlo.TRef.binary main_call4.v3 (.of main_v109 : StableHlo.TRef sig ⟨S50000x128, .f32⟩) main_call4.v4 mulf,
    StableHlo.TRef.ternary main_call4.v1 (.of main_v109 : StableHlo.TRef sig ⟨S50000x128, .f32⟩) main_call4.v4 main_call4.call0.v0 select ]

set_option maxRecDepth 8192 in
theorem opsC1b_sub : (opsC1b : List (HloOp τ sig (Elt F))).Forall fun op => op.bufs ⊆ tcRefs τ sig :=
  ⟨unary_bufs_sub .., binary_bufs_sub .., unary_bufs_sub .., binary_bufs_sub .., nullary_bufs_sub .., unary_bufs_sub .., unary_bufs_sub .., ternary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsC1b_W : List (Ref sig .tc) := [main_v102, main_v103, main_v104, main_v105, main_cst_16, main_v106, main_v107, main_v108, main_v109, main_cst_17, main_call4_cst, main_call4_v0, main_call4_v1, main_call4_v2, main_call4_v3, main_call4_v4, main_v110]
set_option maxRecDepth 8192 in
theorem opsC1b_writes : (opsC1b : List (HloOp τ sig (Elt F))).Forall fun op => op.writes ⊆ (opsC1b_W.map (Proc.devRef (τ := τ) .tc)).toFinset := by
  simp only [List.Forall]
  exact ⟨by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsC1b_keep (V : Valuation τ sig (Elt F)) (r : Ref sig .tc) (h : r ∉ opsC1b_W) :
    after opsC1b V (Proc.devRef .tc r) = V (Proc.devRef .tc r) :=
  after_of_writes_sub opsC1b V opsC1b_writes h

/-- Layer 2 on branch 2: affine image, gather at src, scale, sum into dst, the self term added, rectified. -/
abbrev opsC2 : List (HloOp τ sig (Elt F)) :=
  [ StableHlo.binary main_v87 main_v89 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v91 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.unary main_arg2 main_v115 (broadcastInDim S800000x1 ![0] bcast_S800000_S800000x1_0 : (⟨S800000, .f32⟩ : BufTy).Contents (Elt F) → (⟨S800000x1, .f32⟩ : BufTy).Contents (Elt F)),
    StableHlo.nullary main_c_18 (constantI S_ 32 0#32),
    StableHlo.unary main_c_18 main_v116 (broadcastInDim S800000 ![] bcast_S_S800000 : (⟨S_, .i32⟩ : BufTy).Contents (Elt F) → (⟨S800000, .i32⟩ : BufTy).Contents (Elt F)),
    StableHlo.binary main_v1 main_v116 main_v117 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v118 (broadcastInDim S800000 ![] bcast_S_S800000 : (⟨S_, .i32⟩ : BufTy).Contents (Elt F) → (⟨S800000, .i32⟩ : BufTy).Contents (Elt F)),
    StableHlo.binary main_v1 main_v118 main_v119 (addi : (⟨S800000, .i32⟩ : BufTy).Contents (Elt F) → (⟨S800000, .i32⟩ : BufTy).Contents (Elt F) → (⟨S800000, .i32⟩ : BufTy).Contents (Elt F)),
    StableHlo.ternary main_v117 main_v119 main_v1 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v120 main_v121 (broadcastInDim S800000x1 ![0] bcast_S800000_S800000x1_0 : (⟨S800000, .i32⟩ : BufTy).Contents (Elt F) → (⟨S800000x1, .i32⟩ : BufTy).Contents (Elt F)),
    StableHlo.binary main_v114 main_v121 main_v122 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v115 main_v123 (broadcastInDim S800000x128 ![0, 1] bcast_S800000x1_S800000x128_0_1 : (⟨S800000x1, .f32⟩ : BufTy).Contents (Elt F) → (⟨S800000x128, .f32⟩ : BufTy).Contents (Elt F)),
    StableHlo.binary main_v123 main_v122 main_v124 (mulf : (⟨S800000x128, .f32⟩ : BufTy).Contents (Elt F) → (⟨S800000x128, .f32⟩ : BufTy).Contents (Elt F) → (⟨S800000x128, .f32⟩ : BufTy).Contents (Elt F)),
    StableHlo.nullary main_cst_20 (constant S_ .f32 0x00000000#32),
    StableHlo.unary main_cst_20 main_v125 (broadcastInDim S50000x128 ![] bcast_S_S50000x128 : (⟨S_, .f32⟩ : BufTy).Contents (Elt F) → (⟨S50000x128, .f32⟩ : BufTy).Contents (Elt F)),
    StableHlo.unary main_v3 main_v126 (broadcastInDim S800000x1 ![0] bcast_S800000_S800000x1_0 : (⟨S800000, .i32⟩ : BufTy).Contents (Elt F) → (⟨S800000x1, .i32⟩ : BufTy).Contents (Elt F)),
    StableHlo.ternary main_v125 main_v126 main_v124 main_v127 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v127 main_v114 main_v128 (addf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3E4CCCCD#32),
    StableHlo.TRef.nullary main_call5.cst (constant S_ .f32 0x00000000#32),
    StableHlo.TRef.unary main_call5.cst main_call5.v0 (broadcastInDim S50000x128 ![] bcast_S_S50000x128),
    StableHlo.TRef.binary (.of main_v128 : StableHlo.TRef sig ⟨S50000x128, .f32⟩) main_call5.v0 main_call5.v1 (cmpf .oge),
    StableHlo.TRef.unary (.of main_cst_21 : StableHlo.TRef sig ⟨S_, .f32⟩) main_call5.v2 id,
    StableHlo.TRef.unary main_call5.v2 main_call5.v3 (broadcastInDim S50000x128 ![] bcast_S_S50000x128),
    StableHlo.TRef.binary main_call5.v3 (.of main_v128 : StableHlo.TRef sig ⟨S50000x128, .f32⟩) main_call5.v4 mulf,
    StableHlo.TRef.ternary main_call5.v1 (.of main_v128 : StableHlo.TRef sig ⟨S50000x128, .f32⟩) main_call5.v4 main_call5.call0.v0 select ]

set_option maxRecDepth 8192 in
theorem opsC2_sub : (opsC2 : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., nullary_bufs_sub .., unary_bufs_sub .., binary_bufs_sub .., unary_bufs_sub .., unary_bufs_sub .., binary_bufs_sub .., ternary_bufs_sub ..⟩

/-- The buffers the stretch writes, in order. -/
abbrev opsC2_W : List (Ref sig .tc) := [main_v111, main_v112, main_v113, main_v114, main_v115, main_c_18, main_v116, main_v117, main_c_19, main_v118, main_v119, main_v120, main_v121, main_v122, main_v123, main_v124, main_cst_20, main_v125, main_v126, main_v127, main_v128, main_cst_21, main_call5_cst, main_call5_v0, main_call5_v1, main_call5_v2, main_call5_v3, main_call5_v4, main_v129]
set_option maxRecDepth 8192 in
theorem opsC2_writes : (opsC2 : List (HloOp τ sig (Elt F))).Forall fun op => op.writes ⊆ (opsC2_W.map (Proc.devRef (τ := τ) .tc)).toFinset := by
  simp only [List.Forall]
  exact ⟨by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [ternary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide)⟩
/-- A buffer the stretch does not write keeps its contents through it. -/
theorem opsC2_keep (V : Valuation τ sig (Elt F)) (r : Ref sig .tc) (h : r ∉ opsC2_W) :
    after opsC2 V (Proc.devRef .tc r) = V (Proc.devRef .tc r) :=
  after_of_writes_sub opsC2 V opsC2_writes h

/-- The head: the two branches times w1 and w2, side by side, times fc1_W plus fc1_b (the result y); y times fc2_W plus fc2_b, rectified, as a vector (the result out). -/
abbrev opsT : List (HloOp τ sig (Elt F)) :=
  [ StableHlo.binary main_v110 main_arg5 main_v130 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v129 main_arg6 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v130 main_v131 main_v132 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v132 main_arg7 main_v133 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v134 (broadcastInDim S1x256 ![1] bcast_S256_S1x256_1 : (⟨S256, .f32⟩ : BufTy).Contents (Elt F) → (⟨S1x256, .f32⟩ : BufTy).Contents (Elt F)),
    StableHlo.unary main_v134 main_v135 (broadcastInDim S50000x256 ![0, 1] bcast_S1x256_S50000x256_0_1 : (⟨S1x256, .f32⟩ : BufTy).Contents (Elt F) → (⟨S50000x256, .f32⟩ : BufTy).Contents (Elt F)),
    StableHlo.binary main_v133 main_v135 main_v136 (addf : (⟨S50000x256, .f32⟩ : BufTy).Contents (Elt F) → (⟨S50000x256, .f32⟩ : BufTy).Contents (Elt F) → (⟨S50000x256, .f32⟩ : BufTy).Contents (Elt F)),
    StableHlo.binary main_v136 main_arg9 main_v137 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg10 main_v138 (broadcastInDim S1x1 ![1] bcast_S1_S1x1_1 : (⟨S1, .f32⟩ : BufTy).Contents (Elt F) → (⟨S1x1, .f32⟩ : BufTy).Contents (Elt F)),
    StableHlo.unary main_v138 main_v139 (broadcastInDim S50000x1 ![0, 1] bcast_S1x1_S50000x1_0_1 : (⟨S1x1, .f32⟩ : BufTy).Contents (Elt F) → (⟨S50000x1, .f32⟩ : BufTy).Contents (Elt F)),
    StableHlo.binary main_v137 main_v139 main_v140 (addf : (⟨S50000x1, .f32⟩ : BufTy).Contents (Elt F) → (⟨S50000x1, .f32⟩ : BufTy).Contents (Elt F) → (⟨S50000x1, .f32⟩ : BufTy).Contents (Elt F)),
    StableHlo.nullary main_cst_22 (constant S_ .f32 0x3E4CCCCD#32),
    StableHlo.TRef.nullary main_call6.cst (constant S_ .f32 0x00000000#32),
    StableHlo.TRef.unary main_call6.cst main_call6.v0 (broadcastInDim S50000x1 ![] bcast_S_S50000x1),
    StableHlo.TRef.binary (.of main_v140 : StableHlo.TRef sig ⟨S50000x1, .f32⟩) main_call6.v0 main_call6.v1 (cmpf .oge),
    StableHlo.TRef.unary (.of main_cst_22 : StableHlo.TRef sig ⟨S_, .f32⟩) main_call6.v2 id,
    StableHlo.TRef.unary main_call6.v2 main_call6.v3 (broadcastInDim S50000x1 ![] bcast_S_S50000x1),
    StableHlo.TRef.binary main_call6.v3 (.of main_v140 : StableHlo.TRef sig ⟨S50000x1, .f32⟩) main_call6.v4 mulf,
    StableHlo.TRef.ternary main_call6.v1 (.of main_v140 : StableHlo.TRef sig ⟨S50000x1, .f32⟩) main_call6.v4 main_call6.call0.v0 select,
    StableHlo.reshape main_v141 main_v142 rfl shapeCasts_S50000x1_S50000 ]

set_option maxRecDepth 8192 in
theorem opsT_sub : (opsT : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., reshape_bufs_sub ..⟩

/-- The buffers the stretch writes, in order. -/
abbrev opsT_W : List (Ref sig .tc) := [main_v130, main_v131, main_v132, main_v133, main_v134, main_v135, main_v136, main_v137, main_v138, main_v139, main_v140, main_cst_22, main_call6_cst, main_call6_v0, main_call6_v1, main_call6_v2, main_call6_v3, main_call6_v4, main_v141, main_v142]
set_option maxRecDepth 8192 in
theorem opsT_writes : (opsT : List (HloOp τ sig (Elt F))).Forall fun op => op.writes ⊆ (opsT_W.map (Proc.devRef (τ := τ) .tc)).toFinset := by
  simp only [List.Forall]
  exact ⟨by simp only [binary_writes, Finset.singleton_subset_iff, List.mem_toFinset]; exact List.mem_map_of_mem (by decide),
    by simp only [binary_writes, Finset.singleton_subset_iff, List.mem_toFinset]; exact List.mem_map_of_mem (by decide),
    by simp only [binary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [nullary_writes, Finset.singleton_subset_iff, List.mem_toFinset]; exact List.mem_map_of_mem (by decide),
    by simp only [nullary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [unary_writes, Finset.singleton_subset_iff, List.mem_toFinset]; exact List.mem_map_of_mem (by decide),
    by simp only [unary_writes, Finset.singleton_subset_iff, List.mem_toFinset]; exact List.mem_map_of_mem (by decide),
    by simp only [binary_writes, Finset.singleton_subset_iff, List.mem_toFinset]; exact List.mem_map_of_mem (by decide),
    by simp only [ternary_writes, Finset.singleton_subset_iff, List.mem_toFinset]; exact List.mem_map_of_mem (by decide),
    by simp only [reshape_writes, Finset.singleton_subset_iff, List.mem_toFinset]; exact List.mem_map_of_mem (by decide)⟩
/-- A buffer the stretch does not write keeps its contents through it. -/
theorem opsT_keep (V : Valuation τ sig (Elt F)) (r : Ref sig .tc) (h : r ∉ opsT_W) :
    after opsT V (Proc.devRef .tc r) = V (Proc.devRef .tc r) :=
  after_of_writes_sub opsT V opsT_writes h

/-- Layer 1 and layer 2 on branch 1, whole. -/
abbrev opsB1 : List (HloOp τ sig (Elt F)) := opsB1a ++ opsB1b
abbrev opsC1 : List (HloOp τ sig (Elt F)) := opsC1a ++ opsC1b

/-- The program's operations, in order. -/
abbrev ops : List (HloOp τ sig (Elt F)) :=
  opsPre ++ (opsA1 ++ (opsA2 ++ (opsW1 ++ (opsB1 ++ (opsB2 ++ (opsW2 ++ (opsC1 ++ (opsC2 ++ opsT))))))))

end Cert.ReferenceIdeal.RefValue

end
-- ==== Proof.RefRun.lean ====
/-
  The reference program's run.

  @main is printed in three windows of sixty statements. A call of the leaky rectifier is the callee's body over the
  call's buffers, and the callee's own call of the select likewise, so each window is a straight line of operations:
  the stretches of RefOps in order, a stretch that straddles a window boundary in its two pieces. Sequencing is
  associative, so @main is the straight line of all 210 operations. A straight line of operations on buffers that are
  never scoped terminates on every weakly fair execution, and leaves every buffer at the fold of the operations'
  results over the contents at launch: that is the statement below, for every buffer at once. What a given buffer
  then holds is read off the fold stretch by stretch (a buffer a stretch does not write passes through it unchanged).
-/
import proofs.«161278_j35699768164381_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line -/

set_option maxRecDepth 100000 in
/-- The first window: the rows of the edge list, the feature halves, layer 0 on both branches (two calls of the
    rectifier), layer 1's weight and bias, and the first two operations of layer 1 on branch 1. -/
theorem main_part0_eq (c : Dev nD) :
    main_part0 (F := F) c = seq (opsPre ++ (opsA1 ++ (opsA2 ++ (opsW1 ++ opsB1a)))) := by
  simp only [main_part0, fn_leaky_relu.body, fn_where.body, opsPre, opsA1, opsA2, opsW1, opsB1a,
    List.cons_append, List.nil_append, seq, bind_assoc, pure_bind] <;> rfl

set_option maxRecDepth 100000 in
/-- The second window: the rest of layer 1 on branch 1, layer 1 on branch 2, layer 2's weight and bias, and layer 2 on
    branch 1 up to its gather indices. -/
theorem main_part1_eq (c : Dev nD) :
    main_part1 (F := F) c = seq (opsB1b ++ (opsB2 ++ (opsW2 ++ opsC1a))) := by
  simp only [main_part1, fn_leaky_relu.body, fn_where.body, opsB1b, opsB2, opsW2, opsC1a,
    List.cons_append, List.nil_append, seq, bind_assoc, pure_bind] <;> rfl

set_option maxRecDepth 100000 in
/-- The third window: the rest of layer 2 on branch 1, layer 2 on branch 2, and the head. -/
theorem main_part2_eq (c : Dev nD) :
    main_part2 (F := F) c = seq (opsC1b ++ (opsC2 ++ opsT)) := by
  simp only [main_part2, fn_leaky_relu.body, fn_where.body, fn_leaky_relu_0.body, fn_where_1.body, opsC1b, opsC2, opsT,
    List.cons_append, List.nil_append, seq, bind_assoc, pure_bind] <;> rfl

/-- @main runs its windows in order; lines run one after the other are their concatenation run as one, whatever the
    grouping. -/
theorem main_eq (c : Dev nD) : main (F := F) c = seq ops := by
  simp only [main, main_part0_eq, main_part1_eq, main_part2_eq, ops, opsB1, opsC1, seq_append, bind_assoc]

/-! ## The side conditions of a straight line's run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

/-- Every operation touches TensorCore buffers only. -/
theorem ops_sub : (ops : List (HloOp τ sig (Elt F))).Forall fun op => op.bufs ⊆ tcRefs τ sig :=
  forall_append opsPre_sub <| forall_append opsA1_sub <| forall_append opsA2_sub <| forall_append opsW1_sub <|
    forall_append (forall_append opsB1a_sub opsB1b_sub) <| forall_append opsB2_sub <| forall_append opsW2_sub <|
    forall_append (forall_append opsC1a_sub opsC1b_sub) <| forall_append opsC2_sub opsT_sub

/-- Every operation determines its results: each stretch is a literal list of the plain builders, none of which
    leaves a result open. -/
theorem ops_fresh : (ops : List (HloOp τ sig (Elt F))).Forall fun op => op.fresh = ∅ :=
  forall_append (by simp only [opsPre, List.Forall]; trivial) <|
    forall_append (by simp only [opsA1, List.Forall]; trivial) <|
    forall_append (by simp only [opsA2, List.Forall]; trivial) <|
    forall_append (by simp only [opsW1, List.Forall]; trivial) <|
    forall_append (forall_append (by simp only [opsB1a, List.Forall]; trivial) (by simp only [opsB1b, List.Forall]; trivial)) <|
    forall_append (by simp only [opsB2, List.Forall]; trivial) <|
    forall_append (by simp only [opsW2, List.Forall]; trivial) <|
    forall_append (forall_append (by simp only [opsC1a, List.Forall]; trivial) (by simp only [opsC1b, List.Forall]; trivial)) <|
    forall_append (by simp only [opsC2, List.Forall]; trivial) (by simp only [opsT, List.Forall]; trivial)

/-! ## The run -/

/-- On every device, for any float values, from any memory with zero counters: every weakly fair execution of @main
    terminates, and every final state has every buffer at the operations' fold over the contents at launch. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefValue

end
-- ==== Proof.RefL0.lean ====
/-
  The reference's set-up stretches read in the specification's vocabulary: what the first ten operations leave in
  their result buffers — the two rows of the edge list, the two halves of the features, the first layer's weight
  matrix and bias vector — and what the two later four-operation stretches leave: the second and third layers'
  weight matrices and bias vectors. Each is a slice of an argument array followed, where an axis of extent one is
  dropped, by a reshape; the contents of the argument arrays are whatever the valuation holds.
-/
import proofs.«161278_j35699768164381_1_alg».proof.Proof.RefOps
import proofs.«161278_j35699768164381_1_alg».proof.Proof.Layout

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

variable (V : Valuation τ sig (Elt Ideal))

/-! ## The first stretch -/

/-- Row 0 of the edge list. -/
theorem opsPre_v1 : after opsPre V (Proc.devRef .tc main_v1) = src (V (Proc.devRef .tc main_arg1)) := by
  simp only [opsPre]; after_results_simp
  exact Cert.Layout.src_eq _ _ _

/-- Row 1 of the edge list. -/
theorem opsPre_v3 : after opsPre V (Proc.devRef .tc main_v3) = dst (V (Proc.devRef .tc main_arg1)) := by
  simp only [opsPre]; after_results_simp
  exact Cert.Layout.dst_eq _ _ _

/-- The upper half of the features. -/
theorem opsPre_v4 : after opsPre V (Proc.devRef .tc main_v4) = xHi (V (Proc.devRef .tc main_arg0)) := by
  simp only [opsPre]; after_results_simp
  exact Cert.Layout.xHi_eq _ _

/-- The lower half of the features. -/
theorem opsPre_v5 : after opsPre V (Proc.devRef .tc main_v5) = xLo (V (Proc.devRef .tc main_arg0)) := by
  simp only [opsPre]; after_results_simp
  exact Cert.Layout.xLo_eq _ _

/-- The first layer's weight matrix. -/
theorem opsPre_v7 : after opsPre V (Proc.devRef .tc main_v7) = wOf (V (Proc.devRef .tc main_arg3)) 0 := by
  simp only [opsPre]; after_results_simp
  exact Cert.Layout.wOf0_eq _ _ _

/-- The first layer's bias, as a vector of 128 entries. -/
theorem opsPre_v9 : after opsPre V (Proc.devRef .tc main_v9)
    = shapeCast S128 (extractStridedSlice S1x128 ![0, 0] (V (Proc.devRef .tc main_arg4)) slices_S3x128_S1x128_0_0)
        shapeCasts_S1x128_S128 := by
  simp only [opsPre]; after_results_simp
  rfl

/-! ## The second and third layers' parameters -/

/-- The second layer's weight matrix. -/
theorem opsW1_v47 : after opsW1 V (Proc.devRef .tc main_v47) = wOf (V (Proc.devRef .tc main_arg3)) 1 := by
  simp only [opsW1]; after_results_simp
  exact Cert.Layout.wOf1_eq _ _ _

/-- The second layer's bias, as a vector. -/
theorem opsW1_v49 : after opsW1 V (Proc.devRef .tc main_v49)
    = shapeCast S128 (extractStridedSlice S1x128 ![1, 0] (V (Proc.devRef .tc main_arg4)) slices_S3x128_S1x128_1_0)
        shapeCasts_S1x128_S128 := by
  simp only [opsW1]; after_results_simp
  rfl

/-- The third layer's weight matrix. -/
theorem opsW2_v89 : after opsW2 V (Proc.devRef .tc main_v89) = wOf (V (Proc.devRef .tc main_arg3)) 2 := by
  simp only [opsW2]; after_results_simp
  exact Cert.Layout.wOf2_eq _ _ _

/-- The third layer's bias, as a vector. -/
theorem opsW2_v91 : after opsW2 V (Proc.devRef .tc main_v91)
    = shapeCast S128 (extractStridedSlice S1x128 ![2, 0] (V (Proc.devRef .tc main_arg4)) slices_S3x128_S1x128_2_0)
        shapeCasts_S1x128_S128 := by
  simp only [opsW2]; after_results_simp
  rfl

end Cert.ReferenceIdeal.RefValue

end
-- ==== Proof.RIrr.lean ====
/-
  The two irregular host operations as this program prints them: the row gather of a [50000, 128] table at an index
  vector whose negative entries are first moved up by 50000 and which is then laid as a column [800000, 1], and the
  sum of [800000, 128] update rows into the rows an index column names, starting from the zero array.
-/
import proofs.«161278_j35699768164381_1_alg».proof.ReferenceIdeal
import proofs.«161278_j35699768164381_1_alg».proof.Proof.Gen.ReferenceIdeal
import proofs.«161278_j35699768164381_1_alg».proof.Proof.Spec

noncomputable section

namespace Cert.ReferenceIdeal.Irr

open Idealize.ShloMosaic Cert.ReferenceIdeal Cert.ReferenceIdeal.Facts₀

/-- The program's gather-after-wrap and segment-sum-from-zero, as the specification's two parameters. -/
def rIrr : Cert.Spec.Irregular where
  gath x i := Host.gather gather_S50000x128_S800000x1_S800000x128_1_0_n_n_0_1_1128 x
    (broadcastInDim S800000x1 ![0] bcast_S800000_S800000x1_0
      (select (cmpi .slt i (broadcastInDim S800000 ![] bcast_S_S800000 (constantI S_ 32 0#32)))
        (addi i (broadcastInDim S800000 ![] bcast_S_S800000 (constantI S_ 32 50000#32))) i))
  scat i u := Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 i) u

end Cert.ReferenceIdeal.Irr

end
-- ==== Proof.HostStages.lean ====
/-
  The reference's arithmetic stages read as whole-array equations on the extended reals, in the vocabulary of
  the specification. Every array is a variable; nothing here depends on either program.

  * A product of an [N, K] array with a [K, M] array is, entry by entry, the sum over k of a row entry times a
    column entry; adding a bias laid out along the rows gives the affine image.
  * The edge weights, laid out along the rows of the gathered table, multiply it entry by entry. The reference
    writes weight times entry and the specification entry times weight: multiplication of extended reals commutes.
  * The rectifier is spelt  a ≥ 0 ? a : slope·a  by the reference and  0 < a ? a : slope·a  by the specification.
    The two differ only at a = 0, where the first gives a itself, which is 0, and the second slope·0, which is 0.
  * A product with a 256-row matrix whose left operand is two 128-column arrays side by side is the sum of the two
    half products: the sum over 256 indices splits into the sums over the first and the last 128, which needs
    nothing of + but that it is a commutative monoid, so infinities do no harm.
-/
import Mathlib
import Idealize.ShloMosaic.Lib.ValueIdx
import Idealize.ShloMosaic.PureOps.Ideal
import Idealize.ShloMosaic.PureOps.Ideal.Laws
import proofs.«161278_j35699768164381_1_alg».proof.Proof.Spec
import proofs.«161278_j35699768164381_1_alg».proof.Proof.LibDot

noncomputable section

namespace Cert.HostStages

open Idealize.ShloMosaic Idealize.ShloMosaic.ValueIdx Cert.Spec

/-- The scalar shape, and the shape of a single column of N entries. -/
abbrev s0 : Shape := ⟨0, ![]⟩
abbrev sN1 : Shape := ⟨2, ![50000, 1]⟩

/-! ## The rectifier -/

/-- On one entry: the reference's  x ≥ 0 ? x : slope·x  is the specification's rectifier. For x > 0 both give x,
    for x < 0 both give slope·x, and at x = 0 the one gives x = 0 and the other slope·0 = 0. -/
theorem leaky_scalar (x : EReal) :
    Scalar.select (FloatOps.cmpf (F := Ideal) (φ := .f32) .oge x (Ideal.ofBits .f32 0x00000000#32)) x
      (FloatOps.mulf (F := Ideal) (φ := .f32) (Ideal.ofBits .f32 0x3E4CCCCD#32) x) = leaky x := by
  rw [Ideal.cmpf_def, Ideal.mulf_def, Ideal.ofBits_zero_f32]
  unfold leaky Spec.slope
  by_cases h : (0 : EReal) ≤ x
  · have hc : Ideal.cmp .oge x 0 = 1#1 := by
      first
        | simp [Ideal.cmp, h]
        | (simp only [Ideal.cmp]; rw [decide_eq_true h]; rfl)
    rw [hc, select_one]
    rcases h.lt_or_eq with hlt | heq
    · rw [if_pos hlt]
    · rw [← heq, if_neg (lt_irrefl _), mul_zero]
  · have hc : Ideal.cmp .oge x 0 = 0#1 := by
      first
        | simp [Ideal.cmp, h]
        | (simp only [Ideal.cmp]; rw [decide_eq_false h]; rfl)
    rw [hc, select_zero, if_neg (fun hl => h hl.le)]

/-- The seven operations the reference's rectifier is made of — the zero constant broadcast to the array's shape,
    the comparison  a ≥ 0, the slope constant (through a change of format that changes nothing) broadcast to the
    array's shape, the product slope·a, and the choice between a and slope·a — are the rectifier on every entry,
    at any shape. -/
theorem leakyChain {s : Shape} (h0 h1 : s0.BroadcastsInDim s ![]) (a : Arr s) :
    select (cmpf (F := Ideal) (φ := .f32) .oge a
        (broadcastInDim (s := s0) s ![] h0 (constant (F := Ideal) s0 .f32 0x00000000#32)))
      a
      (mulf (F := Ideal) (φ := .f32)
        (broadcastInDim (s := s0) s ![] h1 (id (constant (F := Ideal) s0 .f32 0x3E4CCCCD#32))) a)
      = fun i => leaky (a i) :=
  funext fun i => leaky_scalar (a i)

/-- The rectifier stage of a layer without self term. -/
theorem leaky_host (h0 h1 : s0.BroadcastsInDim sNF ![]) (a : Arr sNF) :
    select (cmpf (F := Ideal) (φ := .f32) .oge a
        (broadcastInDim (s := s0) sNF ![] h0 (constant (F := Ideal) s0 .f32 0x00000000#32)))
      a
      (mulf (F := Ideal) (φ := .f32)
        (broadcastInDim (s := s0) sNF ![] h1 (id (constant (F := Ideal) s0 .f32 0x3E4CCCCD#32))) a)
      = comb a :=
  leakyChain h0 h1 a

/-- The rectifier stage of a layer with self term: the same chain on the aggregate plus the affine image. -/
theorem leakyAdd_host (h0 h1 : s0.BroadcastsInDim sNF ![]) (a l : Arr sNF) :
    select (cmpf (F := Ideal) (φ := .f32) .oge (addf (F := Ideal) (φ := .f32) a l)
        (broadcastInDim (s := s0) sNF ![] h0 (constant (F := Ideal) s0 .f32 0x00000000#32)))
      (addf (F := Ideal) (φ := .f32) a l)
      (mulf (F := Ideal) (φ := .f32)
        (broadcastInDim (s := s0) sNF ![] h1 (id (constant (F := Ideal) s0 .f32 0x3E4CCCCD#32)))
        (addf (F := Ideal) (φ := .f32) a l))
      = combAdd a l :=
  leakyChain h0 h1 (addf (F := Ideal) (φ := .f32) a l)

/-! ## Products, the affine image, the scaling by the edge weights -/

/-- A product [N, 128]·[128, 128], entry (r, c) the sum over k of x(r, k)·w(k, c). -/
theorem prod_host {d : DotDims sNF sFF sNF} (hd : LibDot.Plain d) (x : Arr sNF) (w : Arr sFF) :
    Host.dotGeneral (F := Ideal) (φ₁ := .f32) (φ₂ := .f32) d none x w = prodNF x w := by
  funext i
  obtain ⟨r, c, rfl⟩ : ∃ (r : Fin 50000) (c : Fin 128), i = ix2 r c := ⟨i 0, i 1, eq_ix2 i⟩
  rw [LibDot.dotGeneral_ix2 hd]
  rfl

/-- The affine image: the product plus the bias, the bias given as an array whose every row is the bias row. -/
theorem lin_host {d : DotDims sNF sFF sNF} (hd : LibDot.Plain d) (h : Arr sNF) (W : Arr sFF) (brow : Arr sNF)
    (b : Arr s1F) (hb : brow = fun i => b (ix2 0 (i 1))) :
    addf (F := Ideal) (φ := .f32) (Host.dotGeneral (F := Ideal) (φ₁ := .f32) (φ₂ := .f32) d none h W) brow
      = lin h W b := by
  subst hb
  funext i
  obtain ⟨r, c, rfl⟩ : ∃ (r : Fin 50000) (c : Fin 128), i = ix2 r c := ⟨i 0, i 1, eq_ix2 i⟩
  rw [addf_apply, LibDot.dotGeneral_ix2 hd]
  rfl

/-- The gathered rows scaled by the edge weights, the weights given as an array whose every column is the weight
    column. The reference multiplies weight by entry; the product commutes. -/
theorem emul_host (g : Arr sEF) (c : Arr sE1) (full : Arr sEF) (hf : full = fun i => c (ix2 (i 0) 0)) :
    mulf (F := Ideal) (φ := .f32) full g = emul g c := by
  subst hf
  funext i
  rw [mulf_apply]
  exact mul_comm _ _

/-! ## The two results -/

/-- y: the product of the two branch outputs laid side by side with fc1_W, plus the bias. The sum over the 256
    columns of the left operand splits into the sum over its first 128 columns, which are z1's and meet the upper
    128 rows of fc1_W, and the sum over its last 128 columns, which are z2's and meet the lower 128 rows. -/
theorem y_host {d : DotDims sNG sGG sNG} (hd : LibDot.Plain d) (z1 z2 : Arr sNF) (cat : Arr sNG)
    (hcat : ∀ (r : Fin 50000) (k : Fin 128),
      cat (ix2 r (Fin.castAdd 128 k)) = z1 (ix2 r k) ∧ cat (ix2 r (Fin.natAdd 128 k)) = z2 (ix2 r k))
    (f1W : Arr sGG) (brow : Arr sNG) (b : Arr s1G) (hb : brow = fun i => b (ix2 0 (i 1))) :
    addf (F := Ideal) (φ := .f32) (Host.dotGeneral (F := Ideal) (φ₁ := .f32) (φ₂ := .f32) d none cat f1W) brow
      = yOf z1 z2 (fTop f1W) (fBot f1W) b := by
  subst hb
  funext i
  obtain ⟨r, c, rfl⟩ : ∃ (r : Fin 50000) (c : Fin 256), i = ix2 r c := ⟨i 0, i 1, eq_ix2 i⟩
  rw [addf_apply, LibDot.dotGeneral_ix2 hd]
  have e1 : ∀ k : Fin 128, cat (ix2 r (Fin.castAdd 128 k)) * f1W (ix2 (Fin.castAdd 128 k) c)
      = z1 (ix2 r k) * fTop f1W (ix2 k c) := fun k => by rw [(hcat r k).1]; rfl
  have e2 : ∀ k : Fin 128, cat (ix2 r (Fin.natAdd 128 k)) * f1W (ix2 (Fin.natAdd 128 k) c)
      = z2 (ix2 r k) * fBot f1W (ix2 k c) := fun k => by rw [(hcat r k).2]; rfl
  have hsplit : (∑ k : Fin 256, cat (ix2 r k) * f1W (ix2 k c))
      = (∑ k : Fin 128, z1 (ix2 r k) * fTop f1W (ix2 k c)) + ∑ k : Fin 128, z2 (ix2 r k) * fBot f1W (ix2 k c) :=
    (Fin.sum_univ_add (a := 128) (b := 128) fun k : Fin (128 + 128) => cat (ix2 r k) * f1W (ix2 k c)).trans
      (congrArg₂ (fun u v : EReal => u + v) (Finset.sum_congr rfl fun k _ => e1 k) (Finset.sum_congr rfl fun k _ => e2 k))
  rw [hsplit]
  rfl

/-- out, still as a column [N, 1]: the product of y with fc2_W's one column, plus the bias (the same number on
    every row), through the rectifier's seven operations at the column's shape. -/
theorem out_host {d : DotDims sNG sG1 sN1} (hd : LibDot.Plain d) (h0 h1 : s0.BroadcastsInDim sN1 ![])
    (y : Arr sNG) (f2W : Arr sG1) (bfull : Arr sN1) (b0 : EReal) (hb : bfull = fun _ => b0) :
    select (cmpf (F := Ideal) (φ := .f32) .oge
        (addf (F := Ideal) (φ := .f32) (Host.dotGeneral (F := Ideal) (φ₁ := .f32) (φ₂ := .f32) d none y f2W) bfull)
        (broadcastInDim (s := s0) sN1 ![] h0 (constant (F := Ideal) s0 .f32 0x00000000#32)))
      (addf (F := Ideal) (φ := .f32) (Host.dotGeneral (F := Ideal) (φ₁ := .f32) (φ₂ := .f32) d none y f2W) bfull)
      (mulf (F := Ideal) (φ := .f32)
        (broadcastInDim (s := s0) sN1 ![] h1 (id (constant (F := Ideal) s0 .f32 0x3E4CCCCD#32)))
        (addf (F := Ideal) (φ := .f32) (Host.dotGeneral (F := Ideal) (φ₁ := .f32) (φ₂ := .f32) d none y f2W) bfull))
      = fun i => leaky ((∑ k : Fin 256, y (ix2 (i 0) k) * f2W (ix2 k 0)) + b0) := by
  subst hb
  rw [leakyChain h0 h1]
  funext i
  obtain ⟨r, c, rfl⟩ : ∃ (r : Fin 50000) (c : Fin 1), i = ix2 r c := ⟨i 0, i 1, eq_ix2 i⟩
  obtain rfl : c = 0 := Subsingleton.elim _ _
  refine congrArg leaky ?_
  rw [addf_apply, LibDot.dotGeneral_ix2 hd]

end Cert.HostStages

end
-- ==== Proof.RefStage.lean ====
/-
  One layer of the reference as three groups of operations, each identified with the specification's stage.

  A layer is, in the reference: the product of the features with the weight matrix plus the bias vector spread over
  the rows (the affine image); the gather index wrapped and laid as a column, the affine image's rows gathered at
  it, the edge weights laid as a column, spread over the 128 columns and multiplied in, the products summed into the
  rows the scatter index names, from zero (the aggregate); with a self term the affine image added to the aggregate;
  and the rectifier's seven operations. The three groups are named here as functions of their inputs, over variable
  arrays, and each is identified with the specification's stage: the affine image with lin, the aggregate with the
  segment sum of the scaled gathered rows, the seven operations with the rectifier.
-/
import proofs.«161278_j35699768164381_1_alg».proof.Proof.RIrr
import proofs.«161278_j35699768164381_1_alg».proof.Proof.HostStages
import proofs.«161278_j35699768164381_1_alg».proof.Proof.Layout

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

/-! ## The three groups of operations of a layer, as functions of their inputs -/

/-- The affine image as the reference composes it: the product, plus the bias vector laid as a row and spread over
    the rows. -/
def refLin (h : Arr sNF) (W : Arr sFF) (bv : Arr S128) : Arr sNF :=
  addf (F := Ideal) (φ := .f32)
    (Host.dotGeneral (F := Ideal) (φ₁ := .f32) (φ₂ := .f32) dot_S50000x128_S128x128_S50000x128_1_0_0_1_n_n none h W)
    (broadcastInDim S50000x128 ![0, 1] bcast_S1x128_S50000x128_0_1 (broadcastInDim S1x128 ![1] bcast_S128_S1x128_1 bv))

/-- The aggregate as the reference composes it: the rows of L gathered at gi, each multiplied by its edge's weight
    (the weights laid as a column and spread over the columns), summed into the rows si names. -/
def refAggr (L : Arr sNF) (gi si : IArr sE) (ew : Arr sE) : Arr sNF :=
  rIrr.scat si (mulf (F := Ideal) (φ := .f32)
    (broadcastInDim S800000x128 ![0, 1] bcast_S800000x1_S800000x128_0_1
      (broadcastInDim S800000x1 ![0] bcast_S800000_S800000x1_0 ew))
    (rIrr.gath L gi))

/-- The rectifier as the reference composes it: a ≥ 0 ? a : slope·a, entry by entry. -/
def refRect (X : Arr sNF) : Arr sNF :=
  select (cmpf (F := Ideal) (φ := .f32) .oge X
      (broadcastInDim S50000x128 ![] bcast_S_S50000x128 (constant (F := Ideal) S_ .f32 0x00000000#32)))
    X
    (mulf (F := Ideal) (φ := .f32)
      (broadcastInDim S50000x128 ![] bcast_S_S50000x128 (id (constant (F := Ideal) S_ .f32 0x3E4CCCCD#32))) X)

/-! ## Each group is the specification's stage -/

/-- The dimension numbers of the [N, 128]·[128, 128] product contract axis 1 with axis 0. -/
theorem plain_NF : Cert.LibDot.Plain dot_S50000x128_S128x128_S50000x128_1_0_0_1_n_n :=
  ⟨rfl, rfl, fun _ _ => rfl, fun _ _ => rfl, fun _ _ => rfl, fun _ _ => rfl⟩

/-- The affine image with layer l's bias vector (row o = l of the stacked biases) is lin with layer l's bias row. -/
theorem refLin_eq (h : Arr sNF) (W : Arr sFF) (cb : Arr s3F) (o : ℕ) (l : Fin 3) (hl : l.val = o)
    {hs : S3x128.Slices ![o, 0] S1x128} {hc : S1x128.ShapeCasts S128} :
    refLin h W (shapeCast S128 (extractStridedSlice S1x128 ![o, 0] cb hs) hc) = lin h W (bOf cb l) :=
  Cert.HostStages.lin_host plain_NF h W _ (bOf cb l)
    (Cert.Layout.bRow_bcast_eq cb o l hl hs hc bcast_S1x128_S50000x128_0_1 bcast_S128_S1x128_1)

/-- The aggregate is the segment sum of the gathered rows scaled by the edge weights' column. -/
theorem refAggr_eq (L : Arr sNF) (gi si : IArr sE) (ew : Arr sE) :
    refAggr L gi si ew = rIrr.scat si (emul (rIrr.gath L gi) (ewCol ew)) := by
  have hF : broadcastInDim S800000x128 ![0, 1] bcast_S800000x1_S800000x128_0_1
      (broadcastInDim S800000x1 ![0] bcast_S800000_S800000x1_0 ew) = fun i => ewCol ew (ix2 (i 0) 0) := by
    rw [Cert.Layout.ewCol_bcast_eq, Cert.Layout.ewFull_eq]
  unfold refAggr
  rw [Cert.HostStages.emul_host (rIrr.gath L gi) (ewCol ew) _ hF]

/-- The seven operations are the rectifier on every entry. -/
theorem refRect_eq (X : Arr sNF) : refRect X = comb X :=
  Cert.HostStages.leaky_host bcast_S_S50000x128 bcast_S_S50000x128 X

/-- A layer without self term, as the reference composes it, is the specification's layer. -/
theorem refLayer0_eq (h : Arr sNF) (W : Arr sFF) (cb : Arr s3F) (o : ℕ) (l : Fin 3) (hl : l.val = o)
    {hs : S3x128.Slices ![o, 0] S1x128} {hc : S1x128.ShapeCasts S128} (gi si : IArr sE) (ew : Arr sE) :
    refRect (refAggr (refLin h W (shapeCast S128 (extractStridedSlice S1x128 ![o, 0] cb hs) hc)) gi si ew)
      = layer rIrr false h W (bOf cb l) gi si (ewCol ew) := by
  rw [refRect_eq]
  rw [refAggr_eq]
  rw [refLin_eq h W cb o l hl]
  unfold layer
  rw [if_neg (by decide)]

/-- A layer with self term, as the reference composes it (the affine image added to the aggregate before the
    rectifier), is the specification's layer. -/
theorem refLayer1_eq (h : Arr sNF) (W : Arr sFF) (cb : Arr s3F) (o : ℕ) (l : Fin 3) (hl : l.val = o)
    {hs : S3x128.Slices ![o, 0] S1x128} {hc : S1x128.ShapeCasts S128} (gi si : IArr sE) (ew : Arr sE) :
    refRect (addf (F := Ideal) (φ := .f32)
        (refAggr (refLin h W (shapeCast S128 (extractStridedSlice S1x128 ![o, 0] cb hs) hc)) gi si ew)
        (refLin h W (shapeCast S128 (extractStridedSlice S1x128 ![o, 0] cb hs) hc)))
      = layer rIrr true h W (bOf cb l) gi si (ewCol ew) := by
  unfold refRect
  rw [Cert.HostStages.leakyAdd_host bcast_S_S50000x128 bcast_S_S50000x128]
  rw [refAggr_eq]
  rw [refLin_eq h W cb o l hl]
  unfold layer
  rw [if_pos rfl]

end Cert.ReferenceIdeal.RefValue

end
-- ==== Proof.RefA.lean ====
/-
  The first layer of the reference, on both branches, read in the specification's vocabulary.

  Each branch's stretch is twenty-eight operations: the affine image, the aggregate and the rectifier of a layer
  without self term. The rectifier is a called function, whose operations read and write their buffers through the
  types the function declares; for the buffers at hand those are the buffers' own types, so the change of type is
  the identity. The stretch's result buffer therefore holds the composition of the three groups, which is the
  specification's layer.
-/
import proofs.«161278_j35699768164381_1_alg».proof.Proof.RefOps
import proofs.«161278_j35699768164381_1_alg».proof.Proof.RefStage

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

/-! ## A called function's view of a buffer is the buffer -/

/-- Written at the declared type and read back at it: nothing changes. -/
theorem ofBuf_toBuf {Val : EltTy → Type} {T : BufTy} (x : TRef sig T) (v : T.Contents Val) : x.ofBuf (x.toBuf v) = v := by
  simp only [TRef.ofBuf, TRef.toBuf, cast_cast, cast_eq]

section Views
variable {Val : EltTy → Type}

/-- The aggregates' buffers, read at the type [N, 128] of 32-bit floats they have. -/
theorem ofBuf_v26 (h1 : main_v26.ty = ⟨S50000x128, .f32⟩) (h2 : main_v26.space ≠ .host) (h3 : main_v26.isScoped = false)
    (u : (⟨S50000x128, .f32⟩ : BufTy).Contents Val) :
    (TRef.of main_v26 h1 h2 h3 : TRef sig ⟨S50000x128, .f32⟩).ofBuf u = u := rfl
theorem ofBuf_v44 (h1 : main_v44.ty = ⟨S50000x128, .f32⟩) (h2 : main_v44.space ≠ .host) (h3 : main_v44.isScoped = false)
    (u : (⟨S50000x128, .f32⟩ : BufTy).Contents Val) :
    (TRef.of main_v44 h1 h2 h3 : TRef sig ⟨S50000x128, .f32⟩).ofBuf u = u := rfl
/-- The slope constants' buffers, read at the scalar type they have. -/
theorem ofBuf_cst_1 (h1 : main_cst_1.ty = ⟨S_, .f32⟩) (h2 : main_cst_1.space ≠ .host) (h3 : main_cst_1.isScoped = false)
    (u : (⟨S_, .f32⟩ : BufTy).Contents Val) :
    (TRef.of main_cst_1 h1 h2 h3 : TRef sig ⟨S_, .f32⟩).ofBuf u = u := rfl
theorem ofBuf_cst_5 (h1 : main_cst_5.ty = ⟨S_, .f32⟩) (h2 : main_cst_5.space ≠ .host) (h3 : main_cst_5.isScoped = false)
    (u : (⟨S_, .f32⟩ : BufTy).Contents Val) :
    (TRef.of main_cst_5 h1 h2 h3 : TRef sig ⟨S_, .f32⟩).ofBuf u = u := rfl
/-- The layers' result buffers, written at the type [N, 128] of 32-bit floats they have. -/
theorem toBuf_v27 (h1 : main_v27.ty = ⟨S50000x128, .f32⟩) (h2 : main_v27.space ≠ .host) (h3 : main_v27.isScoped = false)
    (u : (⟨S50000x128, .f32⟩ : BufTy).Contents Val) :
    (TRef.of main_v27 h1 h2 h3 : TRef sig ⟨S50000x128, .f32⟩).toBuf u = u := rfl
theorem toBuf_v45 (h1 : main_v45.ty = ⟨S50000x128, .f32⟩) (h2 : main_v45.space ≠ .host) (h3 : main_v45.isScoped = false)
    (u : (⟨S50000x128, .f32⟩ : BufTy).Contents Val) :
    (TRef.of main_v45 h1 h2 h3 : TRef sig ⟨S50000x128, .f32⟩).toBuf u = u := rfl

end Views

/-! ## The two stretches -/

section Stretches
variable (V : Valuation τ sig (Elt Ideal))

/-- Branch 1's stretch leaves the composition of the three groups: features main_v4, weight main_v7, bias vector
    main_v9, gathered at main_v3, summed into main_v1. -/
theorem opsA1_fold : after opsA1 V (Proc.devRef .tc main_v27)
    = refRect (refAggr (refLin (V (Proc.devRef .tc main_v4)) (V (Proc.devRef .tc main_v7)) (V (Proc.devRef .tc main_v9)))
        (V (Proc.devRef .tc main_v3)) (V (Proc.devRef .tc main_v1)) (V (Proc.devRef .tc main_arg2))) := by
  simp only [opsA1]; after_results_simp
  simp only [ofBuf_toBuf, ofBuf_v26, ofBuf_cst_1, toBuf_v27]
  unfold refRect refAggr refLin rIrr
  rfl

/-- Branch 2's stretch: features main_v5, gathered at main_v1, summed into main_v3. -/
theorem opsA2_fold : after opsA2 V (Proc.devRef .tc main_v45)
    = refRect (refAggr (refLin (V (Proc.devRef .tc main_v5)) (V (Proc.devRef .tc main_v7)) (V (Proc.devRef .tc main_v9)))
        (V (Proc.devRef .tc main_v1)) (V (Proc.devRef .tc main_v3)) (V (Proc.devRef .tc main_arg2))) := by
  simp only [opsA2]; after_results_simp
  simp only [ofBuf_toBuf, ofBuf_v44, ofBuf_cst_5, toBuf_v45]
  unfold refRect refAggr refLin rIrr
  rfl

end Stretches

/-- Layer 0 on branch 1 (upper half, edges reversed: gather at dst, sum into src). -/
theorem opsA1_read (V : Valuation τ sig (Elt Ideal)) (cb : Arr s3F) {hs : S3x128.Slices ![0, 0] S1x128}
    {hc : S1x128.ShapeCasts S128}
    (hb : V (Proc.devRef .tc main_v9) = shapeCast S128 (extractStridedSlice S1x128 ![0, 0] cb hs) hc) :
    after opsA1 V (Proc.devRef .tc main_v27)
      = layer rIrr false (V (Proc.devRef .tc main_v4)) (V (Proc.devRef .tc main_v7)) (bOf cb 0)
          (V (Proc.devRef .tc main_v3)) (V (Proc.devRef .tc main_v1)) (ewCol (V (Proc.devRef .tc main_arg2))) := by
  rw [opsA1_fold, hb]
  exact refLayer0_eq _ _ cb 0 0 rfl _ _ _

/-- Layer 0 on branch 2 (lower half: gather at src, sum into dst). -/
theorem opsA2_read (V : Valuation τ sig (Elt Ideal)) (cb : Arr s3F) {hs : S3x128.Slices ![0, 0] S1x128}
    {hc : S1x128.ShapeCasts S128}
    (hb : V (Proc.devRef .tc main_v9) = shapeCast S128 (extractStridedSlice S1x128 ![0, 0] cb hs) hc) :
    after opsA2 V (Proc.devRef .tc main_v45)
      = layer rIrr false (V (Proc.devRef .tc main_v5)) (V (Proc.devRef .tc main_v7)) (bOf cb 0)
          (V (Proc.devRef .tc main_v1)) (V (Proc.devRef .tc main_v3)) (ewCol (V (Proc.devRef .tc main_arg2))) := by
  rw [opsA2_fold, hb]
  exact refLayer0_eq _ _ cb 0 0 rfl _ _ _

end Cert.ReferenceIdeal.RefValue

end
-- ==== Proof.RefB.lean ====
/-
  Layer 1 of the reference, on both branches, read in the specification's vocabulary.

  Each branch's stretch is the affine image, the aggregate of the gathered and scaled rows, the aggregate plus the affine
  image (the self term), and the rectifier. The rectifier is a called function: its operations read and write their
  buffers through the types the function declares, which for the buffers at hand are the buffers' own types, so the change
  of type is the identity. The stretch's result buffer therefore holds the composition of the three groups of RefStage with
  the self term, which — the bias vector being layer 1's row of the stacked biases — is the specification's layer.
-/
import proofs.«161278_j35699768164381_1_alg».proof.Proof.RefOps
import proofs.«161278_j35699768164381_1_alg».proof.Proof.RefStage

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

/-! ## A called function's view of a buffer is the buffer -/

/-- Written at the declared type and read back at it: nothing changes. -/
theorem viewB_round {Val : EltTy → Type} {T : BufTy} (x : TRef sig T) (v : T.Contents Val) : x.ofBuf (x.toBuf v) = v := by
  simp only [TRef.ofBuf, TRef.toBuf, cast_cast, cast_eq]

section Views
variable {Val : EltTy → Type}

/-- The sums' buffers (aggregate plus affine image), read at the type [N, 128] of 32-bit floats they have. -/
theorem viewB_ofBuf_v67 (h1 : main_v67.ty = ⟨S50000x128, .f32⟩) (h2 : main_v67.space ≠ .host) (h3 : main_v67.isScoped = false)
    (u : (⟨S50000x128, .f32⟩ : BufTy).Contents Val) :
    (TRef.of main_v67 h1 h2 h3 : TRef sig ⟨S50000x128, .f32⟩).ofBuf u = u := rfl
theorem viewB_ofBuf_v86 (h1 : main_v86.ty = ⟨S50000x128, .f32⟩) (h2 : main_v86.space ≠ .host) (h3 : main_v86.isScoped = false)
    (u : (⟨S50000x128, .f32⟩ : BufTy).Contents Val) :
    (TRef.of main_v86 h1 h2 h3 : TRef sig ⟨S50000x128, .f32⟩).ofBuf u = u := rfl
/-- The slope constants' buffers, read at the scalar type they have. -/
theorem viewB_ofBuf_cst_9 (h1 : main_cst_9.ty = ⟨S_, .f32⟩) (h2 : main_cst_9.space ≠ .host) (h3 : main_cst_9.isScoped = false)
    (u : (⟨S_, .f32⟩ : BufTy).Contents Val) :
    (TRef.of main_cst_9 h1 h2 h3 : TRef sig ⟨S_, .f32⟩).ofBuf u = u := rfl
theorem viewB_ofBuf_cst_13 (h1 : main_cst_13.ty = ⟨S_, .f32⟩) (h2 : main_cst_13.space ≠ .host) (h3 : main_cst_13.isScoped = false)
    (u : (⟨S_, .f32⟩ : BufTy).Contents Val) :
    (TRef.of main_cst_13 h1 h2 h3 : TRef sig ⟨S_, .f32⟩).ofBuf u = u := rfl
/-- The layers' result buffers, written at the type [N, 128] of 32-bit floats they have. -/
theorem viewB_toBuf_v68 (h1 : main_v68.ty = ⟨S50000x128, .f32⟩) (h2 : main_v68.space ≠ .host) (h3 : main_v68.isScoped = false)
    (u : (⟨S50000x128, .f32⟩ : BufTy).Contents Val) :
    (TRef.of main_v68 h1 h2 h3 : TRef sig ⟨S50000x128, .f32⟩).toBuf u = u := rfl
theorem viewB_toBuf_v87 (h1 : main_v87.ty = ⟨S50000x128, .f32⟩) (h2 : main_v87.space ≠ .host) (h3 : main_v87.isScoped = false)
    (u : (⟨S50000x128, .f32⟩ : BufTy).Contents Val) :
    (TRef.of main_v87 h1 h2 h3 : TRef sig ⟨S50000x128, .f32⟩).toBuf u = u := rfl

end Views

/-! ## The two stretches -/

section Stretches
variable (V : Valuation τ sig (Elt Ideal))

/-- Branch 1's stretch (its two pieces in a row) leaves the composition with the self term: features main_v27, weight main_v47, bias vector main_v49, gathered at main_v3, summed into main_v1. -/
theorem opsB1_fold : after opsB1 V (Proc.devRef .tc main_v68)
    = refRect (addf (F := Ideal) (φ := .f32)
        (refAggr (refLin (V (Proc.devRef .tc main_v27)) (V (Proc.devRef .tc main_v47)) (V (Proc.devRef .tc main_v49)))
          (V (Proc.devRef .tc main_v3)) (V (Proc.devRef .tc main_v1)) (V (Proc.devRef .tc main_arg2)))
        (refLin (V (Proc.devRef .tc main_v27)) (V (Proc.devRef .tc main_v47)) (V (Proc.devRef .tc main_v49)))) := by
  simp only [opsB1, opsB1a, opsB1b, List.cons_append, List.nil_append]; after_results_simp
  simp only [viewB_round, viewB_ofBuf_v67, viewB_ofBuf_cst_9, viewB_toBuf_v68]
  unfold refRect refAggr refLin rIrr
  rfl

/-- Branch 2's stretch: features main_v45, gathered at main_v1, summed into main_v3. -/
theorem opsB2_fold : after opsB2 V (Proc.devRef .tc main_v87)
    = refRect (addf (F := Ideal) (φ := .f32)
        (refAggr (refLin (V (Proc.devRef .tc main_v45)) (V (Proc.devRef .tc main_v47)) (V (Proc.devRef .tc main_v49)))
          (V (Proc.devRef .tc main_v1)) (V (Proc.devRef .tc main_v3)) (V (Proc.devRef .tc main_arg2)))
        (refLin (V (Proc.devRef .tc main_v45)) (V (Proc.devRef .tc main_v47)) (V (Proc.devRef .tc main_v49)))) := by
  simp only [opsB2]; after_results_simp
  simp only [viewB_round, viewB_ofBuf_v86, viewB_ofBuf_cst_13, viewB_toBuf_v87]
  unfold refRect refAggr refLin rIrr
  rfl

end Stretches

/-- Layer 1 on branch 1 (edges reversed: gather at dst, sum into src). -/
theorem opsB1_read (V : Valuation τ sig (Elt Ideal)) (cb : Arr s3F) {hs : S3x128.Slices ![1, 0] S1x128}
    {hc : S1x128.ShapeCasts S128}
    (hb : V (Proc.devRef .tc main_v49) = shapeCast S128 (extractStridedSlice S1x128 ![1, 0] cb hs) hc) :
    after opsB1 V (Proc.devRef .tc main_v68)
      = layer rIrr true (V (Proc.devRef .tc main_v27)) (V (Proc.devRef .tc main_v47)) (bOf cb 1)
          (V (Proc.devRef .tc main_v3)) (V (Proc.devRef .tc main_v1)) (ewCol (V (Proc.devRef .tc main_arg2))) := by
  rw [opsB1_fold, hb]
  exact refLayer1_eq _ _ cb 1 1 rfl _ _ _

/-- Layer 1 on branch 2 (gather at src, sum into dst). -/
theorem opsB2_read (V : Valuation τ sig (Elt Ideal)) (cb : Arr s3F) {hs : S3x128.Slices ![1, 0] S1x128}
    {hc : S1x128.ShapeCasts S128}
    (hb : V (Proc.devRef .tc main_v49) = shapeCast S128 (extractStridedSlice S1x128 ![1, 0] cb hs) hc) :
    after opsB2 V (Proc.devRef .tc main_v87)
      = layer rIrr true (V (Proc.devRef .tc main_v45)) (V (Proc.devRef .tc main_v47)) (bOf cb 1)
          (V (Proc.devRef .tc main_v1)) (V (Proc.devRef .tc main_v3)) (ewCol (V (Proc.devRef .tc main_arg2))) := by
  rw [opsB2_fold, hb]
  exact refLayer1_eq _ _ cb 1 1 rfl _ _ _

end Cert.ReferenceIdeal.RefValue

end
-- ==== Proof.RefC1.lean ====
/-
  The third layer of the reference (layer 2, with self term) on branch 1 (the edges reversed: rows gathered at dst, summed into src), read in the
  specification's vocabulary.

  The layer's stretch of operations computes, from the node features, the layer's weight matrix and bias vector, the two
  index vectors and the edge weights: the affine image; the aggregate of its gathered rows scaled by the edge weights and
  summed into the scatter rows; and the rectifier on the aggregate plus the affine image. The result buffer is read off
  the list of operations as their composed term over the contents the stretch starts from. The rectifier is an outlined
  function, so its operations move their values between a buffer's declared type and the type of the value held there;
  the two types are the same and each such move is the identity: a move there and back cancels for any buffer, and the
  three moves that stand alone (the pre-activation and the slope read by the function, its result written back) are
  the identity at their particular buffers. What is left is, symbol by symbol, the composition of the three groups of
  operations, which is the specification's layer once the bias vector is known to be the layer's row of the stacked
  biases.
-/
import proofs.«161278_j35699768164381_1_alg».proof.Proof.RefOps
import proofs.«161278_j35699768164381_1_alg».proof.Proof.RefStage

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

/-! ## A called function's view of a buffer is the buffer -/

/-- Written at the declared type and read back at it: nothing changes. -/
theorem opsC1_ofBuf_toBuf {Val : EltTy → Type} {T : BufTy} (x : TRef sig T) (v : T.Contents Val) :
    x.ofBuf (x.toBuf v) = v := by
  simp only [TRef.ofBuf, TRef.toBuf, cast_cast, cast_eq]

section Views
variable {Val : EltTy → Type}

/-- The pre-activation's buffer, read at the type [N, 128] of 32-bit floats it has. -/
theorem opsC1_ofBuf_sum (h1 : main_v109.ty = ⟨S50000x128, .f32⟩) (h2 : main_v109.space ≠ .host)
    (h3 : main_v109.isScoped = false) (u : (⟨S50000x128, .f32⟩ : BufTy).Contents Val) :
    (TRef.of main_v109 h1 h2 h3 : TRef sig ⟨S50000x128, .f32⟩).ofBuf u = u := rfl
/-- The slope constant's buffer, read at the scalar type it has. -/
theorem opsC1_ofBuf_slope (h1 : main_cst_17.ty = ⟨S_, .f32⟩) (h2 : main_cst_17.space ≠ .host)
    (h3 : main_cst_17.isScoped = false) (u : (⟨S_, .f32⟩ : BufTy).Contents Val) :
    (TRef.of main_cst_17 h1 h2 h3 : TRef sig ⟨S_, .f32⟩).ofBuf u = u := rfl
/-- The layer's result buffer, written at the type [N, 128] of 32-bit floats it has. -/
theorem opsC1_toBuf_res (h1 : main_v110.ty = ⟨S50000x128, .f32⟩) (h2 : main_v110.space ≠ .host)
    (h3 : main_v110.isScoped = false) (u : (⟨S50000x128, .f32⟩ : BufTy).Contents Val) :
    (TRef.of main_v110 h1 h2 h3 : TRef sig ⟨S50000x128, .f32⟩).toBuf u = u := rfl

end Views

/-! ## The stretch -/

/-- The stretch leaves the composition of the three groups: features main_v68, weight main_v89, bias vector main_v91,
    gathered at main_v3, summed into main_v1; the affine image added to the aggregate before the rectifier. -/
theorem opsC1_raw (V : Valuation τ sig (Elt Ideal)) :
    after opsC1 V (Proc.devRef .tc main_v110)
      = refRect (addf (F := Ideal) (φ := .f32)
          (refAggr (refLin (V (Proc.devRef .tc main_v68)) (V (Proc.devRef .tc main_v89)) (V (Proc.devRef .tc main_v91)))
            (V (Proc.devRef .tc main_v3)) (V (Proc.devRef .tc main_v1)) (V (Proc.devRef .tc main_arg2)))
          (refLin (V (Proc.devRef .tc main_v68)) (V (Proc.devRef .tc main_v89)) (V (Proc.devRef .tc main_v91)))) := by
  simp only [opsC1, opsC1a, opsC1b, List.cons_append, List.nil_append]
  after_results_simp
  simp only [opsC1_ofBuf_toBuf, opsC1_ofBuf_sum, opsC1_ofBuf_slope, opsC1_toBuf_res]
  unfold refRect refAggr refLin rIrr
  rfl

/-- Layer 2 on branch 1: with the bias vector the third row of the stacked biases, the stretch's result is the
    specification's layer. -/
theorem opsC1_read (V : Valuation τ sig (Elt Ideal)) (cb : Arr s3F) {hs : S3x128.Slices ![2, 0] S1x128}
    {hc : S1x128.ShapeCasts S128}
    (hb : V (Proc.devRef .tc main_v91) = shapeCast S128 (extractStridedSlice S1x128 ![2, 0] cb hs) hc) :
    after opsC1 V (Proc.devRef .tc main_v110)
      = layer rIrr true (V (Proc.devRef .tc main_v68)) (V (Proc.devRef .tc main_v89)) (bOf cb 2)
          (V (Proc.devRef .tc main_v3)) (V (Proc.devRef .tc main_v1)) (ewCol (V (Proc.devRef .tc main_arg2))) := by
  rw [opsC1_raw, hb]
  exact refLayer1_eq _ _ cb 2 2 rfl _ _ _

end Cert.ReferenceIdeal.RefValue

end
-- ==== Proof.RefC2.lean ====
/-
  The third layer of the reference (layer 2, with self term) on branch 2 (rows gathered at src, summed into dst), read in the
  specification's vocabulary.

  The layer's stretch of operations computes, from the node features, the layer's weight matrix and bias vector, the two
  index vectors and the edge weights: the affine image; the aggregate of its gathered rows scaled by the edge weights and
  summed into the scatter rows; and the rectifier on the aggregate plus the affine image. The result buffer is read off
  the list of operations as their composed term over the contents the stretch starts from. The rectifier is an outlined
  function, so its operations move their values between a buffer's declared type and the type of the value held there;
  the two types are the same and each such move is the identity: a move there and back cancels for any buffer, and the
  three moves that stand alone (the pre-activation and the slope read by the function, its result written back) are
  the identity at their particular buffers. What is left is, symbol by symbol, the composition of the three groups of
  operations, which is the specification's layer once the bias vector is known to be the layer's row of the stacked
  biases.
-/
import proofs.«161278_j35699768164381_1_alg».proof.Proof.RefOps
import proofs.«161278_j35699768164381_1_alg».proof.Proof.RefStage

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

/-! ## A called function's view of a buffer is the buffer -/

/-- Written at the declared type and read back at it: nothing changes. -/
theorem opsC2_ofBuf_toBuf {Val : EltTy → Type} {T : BufTy} (x : TRef sig T) (v : T.Contents Val) :
    x.ofBuf (x.toBuf v) = v := by
  simp only [TRef.ofBuf, TRef.toBuf, cast_cast, cast_eq]

section Views
variable {Val : EltTy → Type}

/-- The pre-activation's buffer, read at the type [N, 128] of 32-bit floats it has. -/
theorem opsC2_ofBuf_sum (h1 : main_v128.ty = ⟨S50000x128, .f32⟩) (h2 : main_v128.space ≠ .host)
    (h3 : main_v128.isScoped = false) (u : (⟨S50000x128, .f32⟩ : BufTy).Contents Val) :
    (TRef.of main_v128 h1 h2 h3 : TRef sig ⟨S50000x128, .f32⟩).ofBuf u = u := rfl
/-- The slope constant's buffer, read at the scalar type it has. -/
theorem opsC2_ofBuf_slope (h1 : main_cst_21.ty = ⟨S_, .f32⟩) (h2 : main_cst_21.space ≠ .host)
    (h3 : main_cst_21.isScoped = false) (u : (⟨S_, .f32⟩ : BufTy).Contents Val) :
    (TRef.of main_cst_21 h1 h2 h3 : TRef sig ⟨S_, .f32⟩).ofBuf u = u := rfl
/-- The layer's result buffer, written at the type [N, 128] of 32-bit floats it has. -/
theorem opsC2_toBuf_res (h1 : main_v129.ty = ⟨S50000x128, .f32⟩) (h2 : main_v129.space ≠ .host)
    (h3 : main_v129.isScoped = false) (u : (⟨S50000x128, .f32⟩ : BufTy).Contents Val) :
    (TRef.of main_v129 h1 h2 h3 : TRef sig ⟨S50000x128, .f32⟩).toBuf u = u := rfl

end Views

/-! ## The stretch -/

/-- The stretch leaves the composition of the three groups: features main_v87, weight main_v89, bias vector main_v91,
    gathered at main_v1, summed into main_v3; the affine image added to the aggregate before the rectifier. -/
theorem opsC2_raw (V : Valuation τ sig (Elt Ideal)) :
    after opsC2 V (Proc.devRef .tc main_v129)
      = refRect (addf (F := Ideal) (φ := .f32)
          (refAggr (refLin (V (Proc.devRef .tc main_v87)) (V (Proc.devRef .tc main_v89)) (V (Proc.devRef .tc main_v91)))
            (V (Proc.devRef .tc main_v1)) (V (Proc.devRef .tc main_v3)) (V (Proc.devRef .tc main_arg2)))
          (refLin (V (Proc.devRef .tc main_v87)) (V (Proc.devRef .tc main_v89)) (V (Proc.devRef .tc main_v91)))) := by
  simp only [opsC2]
  after_results_simp
  simp only [opsC2_ofBuf_toBuf, opsC2_ofBuf_sum, opsC2_ofBuf_slope, opsC2_toBuf_res]
  unfold refRect refAggr refLin rIrr
  rfl

/-- Layer 2 on branch 2: with the bias vector the third row of the stacked biases, the stretch's result is the
    specification's layer. -/
theorem opsC2_read (V : Valuation τ sig (Elt Ideal)) (cb : Arr s3F) {hs : S3x128.Slices ![2, 0] S1x128}
    {hc : S1x128.ShapeCasts S128}
    (hb : V (Proc.devRef .tc main_v91) = shapeCast S128 (extractStridedSlice S1x128 ![2, 0] cb hs) hc) :
    after opsC2 V (Proc.devRef .tc main_v129)
      = layer rIrr true (V (Proc.devRef .tc main_v87)) (V (Proc.devRef .tc main_v89)) (bOf cb 2)
          (V (Proc.devRef .tc main_v1)) (V (Proc.devRef .tc main_v3)) (ewCol (V (Proc.devRef .tc main_arg2))) := by
  rw [opsC2_raw, hb]
  exact refLayer1_eq _ _ cb 2 2 rfl _ _ _

end Cert.ReferenceIdeal.RefValue

end
-- ==== Proof.RefT.lean ====
/-
  The head of the reference — its last twenty operations — read in the specification's vocabulary.

  The two branch outputs c1, c2 (whatever the earlier operations left in their buffers) are multiplied by w1 and w2,
  laid side by side as a [N, 256] array, multiplied by fc1_W and shifted by fc1_b laid along the rows: that is the
  second result y. Entry (n, j) of it is  Σ_k (c1·w1)(n,k)·fc1_W(k,j) + Σ_k (c2·w2)(n,k)·fc1_W(128+k,j) + fc1_b(j):
  the sum over the 256 columns of the side-by-side array splits into its two halves. Then y is multiplied by fc2_W's
  one column, shifted by fc2_b's one entry, passed through the rectifier as a column [N, 1], and the column is read as a
  vector: that is the first result, out(n) = leaky (Σ_k y(n,k)·fc2_W(k,0) + fc2_b(0)).

  Each result buffer is first read off the list of operations as the operations' composed term over the contents the
  stretch starts from (the rectifier's operations carry changes of buffer type that are the identity); that term is
  then rewritten with the stage equations.
-/
import proofs.«161278_j35699768164381_1_alg».proof.Proof.RefOps
import proofs.«161278_j35699768164381_1_alg».proof.Proof.HostStages
import proofs.«161278_j35699768164381_1_alg».proof.Proof.Layout

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

/-! ## The three products' dimension numbers are plain rows-by-columns ones -/

theorem opsT_plainFF : LibDot.Plain dot_S50000x128_S128x128_S50000x128_1_0_0_1_n_n :=
  ⟨rfl, rfl, fun _ _ => rfl, fun _ _ => rfl, fun _ _ => rfl, fun _ _ => rfl⟩
theorem opsT_plainGG : LibDot.Plain dot_S50000x256_S256x256_S50000x256_1_0_0_1_n_n :=
  ⟨rfl, rfl, fun _ _ => rfl, fun _ _ => rfl, fun _ _ => rfl, fun _ _ => rfl⟩
theorem opsT_plainG1 : LibDot.Plain dot_S50000x256_S256x1_S50000x1_1_0_0_1_n_n :=
  ⟨rfl, rfl, fun _ _ => rfl, fun _ _ => rfl, fun _ _ => rfl, fun _ _ => rfl⟩

/-! ## The second result, y -/

/-- y as the reference's operations compose it from the contents the head starts from: the two products, side by
    side, times fc1_W, plus fc1_b laid as a row and spread over the rows. -/
def opsT_yChain (V : Valuation τ sig (Elt Ideal)) : Arr sNG :=
  addf (F := Ideal) (φ := .f32)
    (Host.dotGeneral (F := Ideal) (φ₁ := .f32) (φ₂ := .f32) dot_S50000x256_S256x256_S50000x256_1_0_0_1_n_n none
      (concatenate S50000x256 1
        [⟨S50000x128, Host.dotGeneral (F := Ideal) (φ₁ := .f32) (φ₂ := .f32)
            dot_S50000x128_S128x128_S50000x128_1_0_0_1_n_n none
            (V (Proc.devRef .tc main_v110)) (V (Proc.devRef .tc main_arg5))⟩,
         ⟨S50000x128, Host.dotGeneral (F := Ideal) (φ₁ := .f32) (φ₂ := .f32)
            dot_S50000x128_S128x128_S50000x128_1_0_0_1_n_n none
            (V (Proc.devRef .tc main_v129)) (V (Proc.devRef .tc main_arg6))⟩]
        concatenates_S50000x128_S50000x128_S50000x256_d1)
      (V (Proc.devRef .tc main_arg7)))
    (broadcastInDim (s := S1x256) S50000x256 (![0, 1] : Fin 2 → Fin S50000x256.rank) bcast_S1x256_S50000x256_0_1
      (broadcastInDim (s := S256) S1x256 (![1] : Fin 1 → Fin S1x256.rank) bcast_S256_S1x256_1
        (V (Proc.devRef .tc main_arg8))))

/-- What the head leaves in y's buffer is that term. -/
theorem opsT_y_chain (V : Valuation τ sig (Elt Ideal)) :
    after opsT V (Proc.devRef .tc main_v136) = opsT_yChain V := by
  simp only [opsT]
  after_results
  rfl

/-- The term is the specification's y of the two products: the left half of the side-by-side array is the first
    product and meets the upper 128 rows of fc1_W, the right half is the second and meets the lower 128 rows. -/
theorem opsT_yChain_eq (V : Valuation τ sig (Elt Ideal)) :
    opsT_yChain V
      = yOf (prodNF (V (Proc.devRef .tc main_v110)) (V (Proc.devRef .tc main_arg5)))
          (prodNF (V (Proc.devRef .tc main_v129)) (V (Proc.devRef .tc main_arg6)))
          (fTop (V (Proc.devRef .tc main_arg7))) (fBot (V (Proc.devRef .tc main_arg7)))
          (f1bRow (V (Proc.devRef .tc main_arg8))) := by
  unfold opsT_yChain
  refine HostStages.y_host opsT_plainGG _ _ _ ?_ _ _ _
    (Layout.f1bRow_bcast_eq _ bcast_S1x256_S50000x256_0_1 bcast_S256_S1x256_1)
  intro r k
  exact ⟨(Layout.concat_left _ _ concatenates_S50000x128_S50000x128_S50000x256_d1 r k).trans
      (congrFun (HostStages.prod_host opsT_plainFF _ _) (ix2 r k)),
    (Layout.concat_right _ _ concatenates_S50000x128_S50000x128_S50000x256_d1 r k).trans
      (congrFun (HostStages.prod_host opsT_plainFF _ _) (ix2 r k))⟩

/-- The second result. -/
theorem opsT_y (V : Valuation τ sig (Elt Ideal)) :
    after opsT V (Proc.devRef .tc main_v136)
      = yOf (prodNF (V (Proc.devRef .tc main_v110)) (V (Proc.devRef .tc main_arg5)))
          (prodNF (V (Proc.devRef .tc main_v129)) (V (Proc.devRef .tc main_arg6)))
          (fTop (V (Proc.devRef .tc main_arg7))) (fBot (V (Proc.devRef .tc main_arg7)))
          (f1bRow (V (Proc.devRef .tc main_arg8))) :=
  (opsT_y_chain V).trans (opsT_yChain_eq V)

/-! ## The first result, out -/

/-- y·fc2_W + fc2_b as a column [N, 1]: the product with the one column, plus the one entry laid as [1, 1] and
    spread over the rows. -/
abbrev opsT_pre (y : Arr sNG) (w : Arr sG1) (b : Arr s1) : Arr HostStages.sN1 :=
  addf (F := Ideal) (φ := .f32)
    (Host.dotGeneral (F := Ideal) (φ₁ := .f32) (φ₂ := .f32) dot_S50000x256_S256x1_S50000x1_1_0_0_1_n_n none y w)
    (broadcastInDim (s := S1x1) S50000x1 (![0, 1] : Fin 2 → Fin S50000x1.rank) bcast_S1x1_S50000x1_0_1
      (broadcastInDim (s := S1) S1x1 (![1] : Fin 1 → Fin S1x1.rank) bcast_S1_S1x1_1 b))

/-- out as the reference's operations compose it from y, fc2_W and fc2_b: the column above through the rectifier's
    seven operations, read as a vector. -/
def opsT_outOf (y : Arr sNG) (w : Arr sG1) (b : Arr s1) : Arr sN :=
  shapeCast S50000
    (select
      (cmpf (F := Ideal) (φ := .f32) .oge (opsT_pre y w b)
        (broadcastInDim (s := S_) S50000x1 (![] : Fin 0 → Fin S50000x1.rank) bcast_S_S50000x1
          (constant (F := Ideal) S_ .f32 0x00000000#32)))
      (opsT_pre y w b)
      (mulf (F := Ideal) (φ := .f32)
        (broadcastInDim (s := S_) S50000x1 (![] : Fin 0 → Fin S50000x1.rank) bcast_S_S50000x1
          (id (constant (F := Ideal) S_ .f32 0x3E4CCCCD#32)))
        (opsT_pre y w b)))
    shapeCasts_S50000x1_S50000

/-- What the head leaves in out's buffer is that term over the y term. -/
theorem opsT_out_chain (V : Valuation τ sig (Elt Ideal)) :
    after opsT V (Proc.devRef .tc main_v142)
      = opsT_outOf (opsT_yChain V) (V (Proc.devRef .tc main_arg9)) (V (Proc.devRef .tc main_arg10)) := by
  simp only [opsT]
  after_results_simp
  repeat (first | rw [binary_result] | (rw [binary_result_ne]; rotate_left; decide))
  rfl

/-- The term, for any y: entry n is the rectifier of  Σ_k y(n,k)·fc2_W(k,0) + fc2_b(0). -/
theorem opsT_outOf_eq (y : Arr sNG) (w : Arr sG1) (b : Arr s1) :
    opsT_outOf y w b = fun i => leaky ((∑ k : Fin 256, y (ix2 (i 0) k) * w (ix2 k 0)) + b (ix1 0)) := by
  unfold opsT_outOf
  refine (Layout.col_reshape_eq _ shapeCasts_S50000x1_S50000).trans ?_
  have h := HostStages.out_host opsT_plainG1 bcast_S_S50000x1 bcast_S_S50000x1 y w
    (broadcastInDim (s := S1x1) S50000x1 (![0, 1] : Fin 2 → Fin S50000x1.rank) bcast_S1x1_S50000x1_0_1
      (broadcastInDim (s := S1) S1x1 (![1] : Fin 1 → Fin S1x1.rank) bcast_S1_S1x1_1 b))
    (b (ix1 0)) (Layout.f2bFull_eq b bcast_S1x1_S50000x1_0_1 bcast_S1_S1x1_1)
  funext i
  exact congrFun h (ix2 (i 0) 0)

/-- The first result. -/
theorem opsT_out (V : Valuation τ sig (Elt Ideal)) :
    after opsT V (Proc.devRef .tc main_v142)
      = fun i => leaky ((∑ k : Fin 256,
          (yOf (prodNF (V (Proc.devRef .tc main_v110)) (V (Proc.devRef .tc main_arg5)))
            (prodNF (V (Proc.devRef .tc main_v129)) (V (Proc.devRef .tc main_arg6)))
            (fTop (V (Proc.devRef .tc main_arg7))) (fBot (V (Proc.devRef .tc main_arg7)))
            (f1bRow (V (Proc.devRef .tc main_arg8)))) (ix2 (i 0) k)
          * V (Proc.devRef .tc main_arg9) (ix2 k 0)) + V (Proc.devRef .tc main_arg10) (ix1 0)) := by
  rw [opsT_out_chain, opsT_yChain_eq]
  exact opsT_outOf_eq _ _ _

end Cert.ReferenceIdeal.RefValue

end
-- ==== Proof.RefVals.lean ====
/-
  The reference's two results in the specification's vocabulary.

  The operations run stretch after stretch, so the contents after all of them are the contents after the last stretch
  run on the contents after the one before, down to the contents at launch. Going forward from the launch, each stretch
  finds its inputs where earlier stretches left them — a buffer a stretch does not write passes through it unchanged, and
  the arguments pass through every stretch — and leaves in its result buffer the specification's value of that stage: the
  edge list's rows and the feature halves; layer 0 on both branches; layer 1; layer 2; then y and out. The names below
  are: V1 … V9 for the contents after each stretch, sK_b for what buffer b holds in VK.
-/
import proofs.«161278_j35699768164381_1_alg».proof.Proof.RefL0
import proofs.«161278_j35699768164381_1_alg».proof.Proof.RefA
import proofs.«161278_j35699768164381_1_alg».proof.Proof.RefB
import proofs.«161278_j35699768164381_1_alg».proof.Proof.RefC1
import proofs.«161278_j35699768164381_1_alg».proof.Proof.RefC2
import proofs.«161278_j35699768164381_1_alg».proof.Proof.RefT
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec
open Cert.ReferenceIdeal.Irr (rIrr)

local notation "⟪" b "⟫" => Proc.devRef Proc.tc b

/-! ## What passes through a stretch -/

/-- The two-piece stretches: a buffer neither piece writes passes through both. -/
theorem opsB1_keep (V : Valuation τ sig (Elt Ideal)) (r : Ref sig .tc) (ha : r ∉ opsB1a_W) (hb : r ∉ opsB1b_W) :
    after opsB1 V ⟪r⟫ = V ⟪r⟫ :=
  (congrFun (StableHlo.after_append opsB1a opsB1b V) _).trans ((opsB1b_keep _ r hb).trans (opsB1a_keep V r ha))
theorem opsC1_keep (V : Valuation τ sig (Elt Ideal)) (r : Ref sig .tc) (ha : r ∉ opsC1a_W) (hb : r ∉ opsC1b_W) :
    after opsC1 V ⟪r⟫ = V ⟪r⟫ :=
  (congrFun (StableHlo.after_append opsC1a opsC1b V) _).trans ((opsC1b_keep _ r hb).trans (opsC1a_keep V r ha))

/-- The arguments read after the first stretch: the edge weights, the stacked weights and biases, and the head's
    parameters. -/
abbrev argL : List (Ref sig .tc) :=
  [main_arg2, main_arg3, main_arg4, main_arg5, main_arg6, main_arg7, main_arg8, main_arg9, main_arg10]

/-- Two contents agree on those arguments. -/
def Agree (V V' : Valuation τ sig (Elt Ideal)) : Prop := ∀ r ∈ argL, V ⟪r⟫ = V' ⟪r⟫

theorem Agree.trans {V V' V'' : Valuation τ sig (Elt Ideal)} (h : Agree V V') (h' : Agree V' V'') : Agree V V'' :=
  fun r hr => (h r hr).trans (h' r hr)

section Pass
variable (V : Valuation τ sig (Elt Ideal))

/-- No stretch writes an argument. -/
theorem opsPre_agree : Agree (after opsPre V) V := fun r hr => opsPre_keep V r ((by decide : ∀ r ∈ argL, r ∉ opsPre_W) r hr)
theorem opsA1_agree : Agree (after opsA1 V) V := fun r hr => opsA1_keep V r ((by decide : ∀ r ∈ argL, r ∉ opsA1_W) r hr)
theorem opsA2_agree : Agree (after opsA2 V) V := fun r hr => opsA2_keep V r ((by decide : ∀ r ∈ argL, r ∉ opsA2_W) r hr)
theorem opsW1_agree : Agree (after opsW1 V) V := fun r hr => opsW1_keep V r ((by decide : ∀ r ∈ argL, r ∉ opsW1_W) r hr)
theorem opsB1_agree : Agree (after opsB1 V) V := fun r hr =>
  opsB1_keep V r ((by decide : ∀ r ∈ argL, r ∉ opsB1a_W) r hr) ((by decide : ∀ r ∈ argL, r ∉ opsB1b_W) r hr)
theorem opsB2_agree : Agree (after opsB2 V) V := fun r hr => opsB2_keep V r ((by decide : ∀ r ∈ argL, r ∉ opsB2_W) r hr)
theorem opsW2_agree : Agree (after opsW2 V) V := fun r hr => opsW2_keep V r ((by decide : ∀ r ∈ argL, r ∉ opsW2_W) r hr)
theorem opsC1_agree : Agree (after opsC1 V) V := fun r hr =>
  opsC1_keep V r ((by decide : ∀ r ∈ argL, r ∉ opsC1a_W) r hr) ((by decide : ∀ r ∈ argL, r ∉ opsC1b_W) r hr)
theorem opsC2_agree : Agree (after opsC2 V) V := fun r hr => opsC2_keep V r ((by decide : ∀ r ∈ argL, r ∉ opsC2_W) r hr)

end Pass

/-! ## The contents after all operations -/

section Values
variable (V0 : Valuation τ sig (Elt Ideal))

/-- Stretch after stretch. -/
theorem ops_split :
    after ops V0 = after opsT (after opsC2 (after opsC1 (after opsW2 (after opsB2 (after opsB1 (after opsW1
      (after opsA2 (after opsA1 (after opsPre V0))))))))) :=
  (StableHlo.after_append opsPre _ V0).trans <| (StableHlo.after_append opsA1 _ _).trans <|
  (StableHlo.after_append opsA2 _ _).trans <| (StableHlo.after_append opsW1 _ _).trans <|
  (StableHlo.after_append opsB1 _ _).trans <| (StableHlo.after_append opsB2 _ _).trans <|
  (StableHlo.after_append opsW2 _ _).trans <| (StableHlo.after_append opsC1 _ _).trans <|
  StableHlo.after_append opsC2 _ _

/-- The two results: out at main_v142, y at main_v136, as the specification's functions of the arguments at launch. -/
theorem ops_vals :
    after ops V0 ⟪main_v142⟫
        = outRes rIrr (V0 ⟪main_arg0⟫) (V0 ⟪main_arg1⟫) (V0 ⟪main_arg2⟫) (V0 ⟪main_arg3⟫) (V0 ⟪main_arg4⟫) (V0 ⟪main_arg5⟫)
            (V0 ⟪main_arg6⟫) (V0 ⟪main_arg7⟫) (V0 ⟪main_arg8⟫) (V0 ⟪main_arg9⟫) (V0 ⟪main_arg10⟫)
    ∧ after ops V0 ⟪main_v136⟫
        = yRes rIrr (V0 ⟪main_arg0⟫) (V0 ⟪main_arg1⟫) (V0 ⟪main_arg2⟫) (V0 ⟪main_arg3⟫) (V0 ⟪main_arg4⟫) (V0 ⟪main_arg5⟫)
            (V0 ⟪main_arg6⟫) (V0 ⟪main_arg7⟫) (V0 ⟪main_arg8⟫) := by
  rw [ops_split V0]
  generalize h1 : after opsPre V0 = V1
  generalize h2 : after opsA1 V1 = V2
  generalize h3 : after opsA2 V2 = V3
  generalize h4 : after opsW1 V3 = V4
  generalize h5 : after opsB1 V4 = V5
  generalize h6 : after opsB2 V5 = V6
  generalize h7 : after opsW2 V6 = V7
  generalize h8 : after opsC1 V7 = V8
  generalize h9 : after opsC2 V8 = V9
  -- the arguments pass through every stretch
  have ag1 : Agree V1 V0 := h1 ▸ opsPre_agree V0
  have ag2 : Agree V2 V0 := (h2 ▸ opsA1_agree V1 : Agree V2 V1).trans ag1
  have ag3 : Agree V3 V0 := (h3 ▸ opsA2_agree V2 : Agree V3 V2).trans ag2
  have ag4 : Agree V4 V0 := (h4 ▸ opsW1_agree V3 : Agree V4 V3).trans ag3
  have ag5 : Agree V5 V0 := (h5 ▸ opsB1_agree V4 : Agree V5 V4).trans ag4
  have ag6 : Agree V6 V0 := (h6 ▸ opsB2_agree V5 : Agree V6 V5).trans ag5
  have ag7 : Agree V7 V0 := (h7 ▸ opsW2_agree V6 : Agree V7 V6).trans ag6
  have ag8 : Agree V8 V0 := (h8 ▸ opsC1_agree V7 : Agree V8 V7).trans ag7
  have ag9 : Agree V9 V0 := (h9 ▸ opsC2_agree V8 : Agree V9 V8).trans ag8
  -- after the first stretch: the edge list's rows, the feature halves, layer 0's weight and bias vector
  have s1_v1 : V1 ⟪main_v1⟫ = src (V0 ⟪main_arg1⟫) := by rw [← h1]; exact opsPre_v1 V0
  have s1_v3 : V1 ⟪main_v3⟫ = dst (V0 ⟪main_arg1⟫) := by rw [← h1]; exact opsPre_v3 V0
  have s1_v4 : V1 ⟪main_v4⟫ = xHi (V0 ⟪main_arg0⟫) := by rw [← h1]; exact opsPre_v4 V0
  have s1_v5 : V1 ⟪main_v5⟫ = xLo (V0 ⟪main_arg0⟫) := by rw [← h1]; exact opsPre_v5 V0
  have s1_v7 : V1 ⟪main_v7⟫ = wOf (V0 ⟪main_arg3⟫) 0 := by rw [← h1]; exact opsPre_v7 V0
  have s1_v9 : V1 ⟪main_v9⟫ = shapeCast S128 (extractStridedSlice S1x128 ![0, 0] (V0 ⟪main_arg4⟫)
      slices_S3x128_S1x128_0_0) shapeCasts_S1x128_S128 := by rw [← h1]; exact opsPre_v9 V0
  -- layer 0 on branch 1
  have s2_v27 : V2 ⟪main_v27⟫ = a1 rIrr (V0 ⟪main_arg0⟫) (V0 ⟪main_arg1⟫) (V0 ⟪main_arg2⟫) (V0 ⟪main_arg3⟫) (V0 ⟪main_arg4⟫) := by
    rw [← h2, opsA1_read V1 (V0 ⟪main_arg4⟫) s1_v9, s1_v4, s1_v7, s1_v3, s1_v1, ag1 main_arg2 (by decide)]; rfl
  have s2_v1 : V2 ⟪main_v1⟫ = src (V0 ⟪main_arg1⟫) := by rw [← h2, opsA1_keep V1 main_v1 (by decide)]; exact s1_v1
  have s2_v3 : V2 ⟪main_v3⟫ = dst (V0 ⟪main_arg1⟫) := by rw [← h2, opsA1_keep V1 main_v3 (by decide)]; exact s1_v3
  have s2_v5 : V2 ⟪main_v5⟫ = xLo (V0 ⟪main_arg0⟫) := by rw [← h2, opsA1_keep V1 main_v5 (by decide)]; exact s1_v5
  have s2_v7 : V2 ⟪main_v7⟫ = wOf (V0 ⟪main_arg3⟫) 0 := by rw [← h2, opsA1_keep V1 main_v7 (by decide)]; exact s1_v7
  have s2_v9 : V2 ⟪main_v9⟫ = shapeCast S128 (extractStridedSlice S1x128 ![0, 0] (V0 ⟪main_arg4⟫)
      slices_S3x128_S1x128_0_0) shapeCasts_S1x128_S128 := by rw [← h2, opsA1_keep V1 main_v9 (by decide)]; exact s1_v9
  -- layer 0 on branch 2
  have s3_v45 : V3 ⟪main_v45⟫ = a2 rIrr (V0 ⟪main_arg0⟫) (V0 ⟪main_arg1⟫) (V0 ⟪main_arg2⟫) (V0 ⟪main_arg3⟫) (V0 ⟪main_arg4⟫) := by
    rw [← h3, opsA2_read V2 (V0 ⟪main_arg4⟫) s2_v9, s2_v5, s2_v7, s2_v1, s2_v3, ag2 main_arg2 (by decide)]; rfl
  have s3_v27 : V3 ⟪main_v27⟫ = a1 rIrr (V0 ⟪main_arg0⟫) (V0 ⟪main_arg1⟫) (V0 ⟪main_arg2⟫) (V0 ⟪main_arg3⟫) (V0 ⟪main_arg4⟫) := by rw [← h3, opsA2_keep V2 main_v27 (by decide)]; exact s2_v27
  have s3_v1 : V3 ⟪main_v1⟫ = src (V0 ⟪main_arg1⟫) := by rw [← h3, opsA2_keep V2 main_v1 (by decide)]; exact s2_v1
  have s3_v3 : V3 ⟪main_v3⟫ = dst (V0 ⟪main_arg1⟫) := by rw [← h3, opsA2_keep V2 main_v3 (by decide)]; exact s2_v3
  -- layer 1's weight and bias vector
  have s4_v47 : V4 ⟪main_v47⟫ = wOf (V0 ⟪main_arg3⟫) 1 := by rw [← h4, opsW1_v47 V3, ag3 main_arg3 (by decide)]
  have s4_v49 : V4 ⟪main_v49⟫ = shapeCast S128 (extractStridedSlice S1x128 ![1, 0] (V0 ⟪main_arg4⟫)
      slices_S3x128_S1x128_1_0) shapeCasts_S1x128_S128 := by rw [← h4, opsW1_v49 V3, ag3 main_arg4 (by decide)]
  have s4_v27 : V4 ⟪main_v27⟫ = a1 rIrr (V0 ⟪main_arg0⟫) (V0 ⟪main_arg1⟫) (V0 ⟪main_arg2⟫) (V0 ⟪main_arg3⟫) (V0 ⟪main_arg4⟫) := by rw [← h4, opsW1_keep V3 main_v27 (by decide)]; exact s3_v27
  have s4_v45 : V4 ⟪main_v45⟫ = a2 rIrr (V0 ⟪main_arg0⟫) (V0 ⟪main_arg1⟫) (V0 ⟪main_arg2⟫) (V0 ⟪main_arg3⟫) (V0 ⟪main_arg4⟫) := by rw [← h4, opsW1_keep V3 main_v45 (by decide)]; exact s3_v45
  have s4_v1 : V4 ⟪main_v1⟫ = src (V0 ⟪main_arg1⟫) := by rw [← h4, opsW1_keep V3 main_v1 (by decide)]; exact s3_v1
  have s4_v3 : V4 ⟪main_v3⟫ = dst (V0 ⟪main_arg1⟫) := by rw [← h4, opsW1_keep V3 main_v3 (by decide)]; exact s3_v3
  -- layer 1 on branch 1
  have s5_v68 : V5 ⟪main_v68⟫ = b1 rIrr (V0 ⟪main_arg0⟫) (V0 ⟪main_arg1⟫) (V0 ⟪main_arg2⟫) (V0 ⟪main_arg3⟫) (V0 ⟪main_arg4⟫) := by
    rw [← h5, opsB1_read V4 (V0 ⟪main_arg4⟫) s4_v49, s4_v27, s4_v47, s4_v3, s4_v1, ag4 main_arg2 (by decide)]; rfl
  have s5_v45 : V5 ⟪main_v45⟫ = a2 rIrr (V0 ⟪main_arg0⟫) (V0 ⟪main_arg1⟫) (V0 ⟪main_arg2⟫) (V0 ⟪main_arg3⟫) (V0 ⟪main_arg4⟫) := by rw [← h5, opsB1_keep V4 main_v45 (by decide) (by decide)]; exact s4_v45
  have s5_v47 : V5 ⟪main_v47⟫ = wOf (V0 ⟪main_arg3⟫) 1 := by rw [← h5, opsB1_keep V4 main_v47 (by decide) (by decide)]; exact s4_v47
  have s5_v49 : V5 ⟪main_v49⟫ = shapeCast S128 (extractStridedSlice S1x128 ![1, 0] (V0 ⟪main_arg4⟫)
      slices_S3x128_S1x128_1_0) shapeCasts_S1x128_S128 := by rw [← h5, opsB1_keep V4 main_v49 (by decide) (by decide)]; exact s4_v49
  have s5_v1 : V5 ⟪main_v1⟫ = src (V0 ⟪main_arg1⟫) := by rw [← h5, opsB1_keep V4 main_v1 (by decide) (by decide)]; exact s4_v1
  have s5_v3 : V5 ⟪main_v3⟫ = dst (V0 ⟪main_arg1⟫) := by rw [← h5, opsB1_keep V4 main_v3 (by decide) (by decide)]; exact s4_v3
  -- layer 1 on branch 2
  have s6_v87 : V6 ⟪main_v87⟫ = b2 rIrr (V0 ⟪main_arg0⟫) (V0 ⟪main_arg1⟫) (V0 ⟪main_arg2⟫) (V0 ⟪main_arg3⟫) (V0 ⟪main_arg4⟫) := by
    rw [← h6, opsB2_read V5 (V0 ⟪main_arg4⟫) s5_v49, s5_v45, s5_v47, s5_v1, s5_v3, ag5 main_arg2 (by decide)]; rfl
  have s6_v68 : V6 ⟪main_v68⟫ = b1 rIrr (V0 ⟪main_arg0⟫) (V0 ⟪main_arg1⟫) (V0 ⟪main_arg2⟫) (V0 ⟪main_arg3⟫) (V0 ⟪main_arg4⟫) := by rw [← h6, opsB2_keep V5 main_v68 (by decide)]; exact s5_v68
  have s6_v1 : V6 ⟪main_v1⟫ = src (V0 ⟪main_arg1⟫) := by rw [← h6, opsB2_keep V5 main_v1 (by decide)]; exact s5_v1
  have s6_v3 : V6 ⟪main_v3⟫ = dst (V0 ⟪main_arg1⟫) := by rw [← h6, opsB2_keep V5 main_v3 (by decide)]; exact s5_v3
  -- layer 2's weight and bias vector
  have s7_v89 : V7 ⟪main_v89⟫ = wOf (V0 ⟪main_arg3⟫) 2 := by rw [← h7, opsW2_v89 V6, ag6 main_arg3 (by decide)]
  have s7_v91 : V7 ⟪main_v91⟫ = shapeCast S128 (extractStridedSlice S1x128 ![2, 0] (V0 ⟪main_arg4⟫)
      slices_S3x128_S1x128_2_0) shapeCasts_S1x128_S128 := by rw [← h7, opsW2_v91 V6, ag6 main_arg4 (by decide)]
  have s7_v68 : V7 ⟪main_v68⟫ = b1 rIrr (V0 ⟪main_arg0⟫) (V0 ⟪main_arg1⟫) (V0 ⟪main_arg2⟫) (V0 ⟪main_arg3⟫) (V0 ⟪main_arg4⟫) := by rw [← h7, opsW2_keep V6 main_v68 (by decide)]; exact s6_v68
  have s7_v87 : V7 ⟪main_v87⟫ = b2 rIrr (V0 ⟪main_arg0⟫) (V0 ⟪main_arg1⟫) (V0 ⟪main_arg2⟫) (V0 ⟪main_arg3⟫) (V0 ⟪main_arg4⟫) := by rw [← h7, opsW2_keep V6 main_v87 (by decide)]; exact s6_v87
  have s7_v1 : V7 ⟪main_v1⟫ = src (V0 ⟪main_arg1⟫) := by rw [← h7, opsW2_keep V6 main_v1 (by decide)]; exact s6_v1
  have s7_v3 : V7 ⟪main_v3⟫ = dst (V0 ⟪main_arg1⟫) := by rw [← h7, opsW2_keep V6 main_v3 (by decide)]; exact s6_v3
  -- layer 2 on branch 1
  have s8_v110 : V8 ⟪main_v110⟫ = c1 rIrr (V0 ⟪main_arg0⟫) (V0 ⟪main_arg1⟫) (V0 ⟪main_arg2⟫) (V0 ⟪main_arg3⟫) (V0 ⟪main_arg4⟫) := by
    rw [← h8, opsC1_read V7 (V0 ⟪main_arg4⟫) s7_v91, s7_v68, s7_v89, s7_v3, s7_v1, ag7 main_arg2 (by decide)]; rfl
  have s8_v87 : V8 ⟪main_v87⟫ = b2 rIrr (V0 ⟪main_arg0⟫) (V0 ⟪main_arg1⟫) (V0 ⟪main_arg2⟫) (V0 ⟪main_arg3⟫) (V0 ⟪main_arg4⟫) := by rw [← h8, opsC1_keep V7 main_v87 (by decide) (by decide)]; exact s7_v87
  have s8_v89 : V8 ⟪main_v89⟫ = wOf (V0 ⟪main_arg3⟫) 2 := by rw [← h8, opsC1_keep V7 main_v89 (by decide) (by decide)]; exact s7_v89
  have s8_v91 : V8 ⟪main_v91⟫ = shapeCast S128 (extractStridedSlice S1x128 ![2, 0] (V0 ⟪main_arg4⟫)
      slices_S3x128_S1x128_2_0) shapeCasts_S1x128_S128 := by rw [← h8, opsC1_keep V7 main_v91 (by decide) (by decide)]; exact s7_v91
  have s8_v1 : V8 ⟪main_v1⟫ = src (V0 ⟪main_arg1⟫) := by rw [← h8, opsC1_keep V7 main_v1 (by decide) (by decide)]; exact s7_v1
  have s8_v3 : V8 ⟪main_v3⟫ = dst (V0 ⟪main_arg1⟫) := by rw [← h8, opsC1_keep V7 main_v3 (by decide) (by decide)]; exact s7_v3
  -- layer 2 on branch 2
  have s9_v129 : V9 ⟪main_v129⟫ = c2 rIrr (V0 ⟪main_arg0⟫) (V0 ⟪main_arg1⟫) (V0 ⟪main_arg2⟫) (V0 ⟪main_arg3⟫) (V0 ⟪main_arg4⟫) := by
    rw [← h9, opsC2_read V8 (V0 ⟪main_arg4⟫) s8_v91, s8_v87, s8_v89, s8_v1, s8_v3, ag8 main_arg2 (by decide)]; rfl
  have s9_v110 : V9 ⟪main_v110⟫ = c1 rIrr (V0 ⟪main_arg0⟫) (V0 ⟪main_arg1⟫) (V0 ⟪main_arg2⟫) (V0 ⟪main_arg3⟫) (V0 ⟪main_arg4⟫) := by rw [← h9, opsC2_keep V8 main_v110 (by decide)]; exact s8_v110
  -- the head
  refine ⟨?_, ?_⟩
  · rw [opsT_out V9, s9_v110, s9_v129, ag9 main_arg5 (by decide), ag9 main_arg6 (by decide), ag9 main_arg7 (by decide),
      ag9 main_arg8 (by decide), ag9 main_arg9 (by decide), ag9 main_arg10 (by decide)]
    rfl
  · rw [opsT_y V9, s9_v110, s9_v129, ag9 main_arg5 (by decide), ag9 main_arg6 (by decide), ag9 main_arg7 (by decide),
      ag9 main_arg8 (by decide)]
    rfl

end Values

end Cert.ReferenceIdeal.RefValue

end
-- ==== Proof.RefArgs.lean ====
/-
  What the reference's run leaves in a buffer none of its operations writes — in particular in its eleven argument
  buffers: what was there at launch.

  The program's operations are the twelve stretches in order. Running one list after another is running the second
  from where the first ends, so the run of all of them is the twelve runs chained; a buffer that is in no stretch's
  list of written buffers passes through each of them unchanged, one after the other.
-/
import proofs.«161278_j35699768164381_1_alg».proof.Proof.RefOps
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The whole run as the twelve stretches' runs, chained. -/
theorem after_ops (V : Valuation τ sig (Elt F)) :
    after ops V = after opsT (after opsC2 (after opsC1b (after opsC1a (after opsW2 (after opsB2 (after opsB1b
      (after opsB1a (after opsW1 (after opsA2 (after opsA1 (after opsPre V))))))))))) := by
  show after (opsPre ++ (opsA1 ++ (opsA2 ++ (opsW1 ++ ((opsB1a ++ opsB1b) ++ (opsB2 ++ (opsW2 ++ ((opsC1a ++ opsC1b) ++
    (opsC2 ++ opsT))))))))) V = _
  simp only [after_append]

/-- A buffer no stretch writes holds after the run what it held before. -/
theorem ops_keep (V : Valuation τ sig (Elt F)) (r : Ref sig .tc)
    (h : r ∉ opsPre_W ++ (opsA1_W ++ (opsA2_W ++ (opsW1_W ++ (opsB1a_W ++ (opsB1b_W ++ (opsB2_W ++ (opsW2_W ++ (opsC1a_W ++ (opsC1b_W ++ (opsC2_W ++ (opsT_W)))))))))))) :
    after ops V (Proc.devRef .tc r) = V (Proc.devRef .tc r) := by
  simp only [List.mem_append, not_or] at h
  obtain ⟨hPre, hA1, hA2, hW1, hB1a, hB1b, hB2, hW2, hC1a, hC1b, hC2, hT⟩ := h
  rw [after_ops]
  exact (opsT_keep _ r hT).trans ((opsC2_keep _ r hC2).trans ((opsC1b_keep _ r hC1b).trans ((opsC1a_keep _ r hC1a).trans ((opsW2_keep _ r hW2).trans ((opsB2_keep _ r hB2).trans ((opsB1b_keep _ r hB1b).trans ((opsB1a_keep _ r hB1a).trans ((opsW1_keep _ r hW1).trans ((opsA2_keep _ r hA2).trans ((opsA1_keep _ r hA1).trans ((opsPre_keep _ r hPre))))))))))))

/-! ## The eleven arguments -/

theorem ops_arg0 (V : Valuation τ sig (Elt F)) : after ops V (Proc.devRef .tc main_arg0) = V (Proc.devRef .tc main_arg0) :=
  ops_keep V main_arg0 (by decide)
theorem ops_arg1 (V : Valuation τ sig (Elt F)) : after ops V (Proc.devRef .tc main_arg1) = V (Proc.devRef .tc main_arg1) :=
  ops_keep V main_arg1 (by decide)
theorem ops_arg2 (V : Valuation τ sig (Elt F)) : after ops V (Proc.devRef .tc main_arg2) = V (Proc.devRef .tc main_arg2) :=
  ops_keep V main_arg2 (by decide)
theorem ops_arg3 (V : Valuation τ sig (Elt F)) : after ops V (Proc.devRef .tc main_arg3) = V (Proc.devRef .tc main_arg3) :=
  ops_keep V main_arg3 (by decide)
theorem ops_arg4 (V : Valuation τ sig (Elt F)) : after ops V (Proc.devRef .tc main_arg4) = V (Proc.devRef .tc main_arg4) :=
  ops_keep V main_arg4 (by decide)
theorem ops_arg5 (V : Valuation τ sig (Elt F)) : after ops V (Proc.devRef .tc main_arg5) = V (Proc.devRef .tc main_arg5) :=
  ops_keep V main_arg5 (by decide)
theorem ops_arg6 (V : Valuation τ sig (Elt F)) : after ops V (Proc.devRef .tc main_arg6) = V (Proc.devRef .tc main_arg6) :=
  ops_keep V main_arg6 (by decide)
theorem ops_arg7 (V : Valuation τ sig (Elt F)) : after ops V (Proc.devRef .tc main_arg7) = V (Proc.devRef .tc main_arg7) :=
  ops_keep V main_arg7 (by decide)
theorem ops_arg8 (V : Valuation τ sig (Elt F)) : after ops V (Proc.devRef .tc main_arg8) = V (Proc.devRef .tc main_arg8) :=
  ops_keep V main_arg8 (by decide)
theorem ops_arg9 (V : Valuation τ sig (Elt F)) : after ops V (Proc.devRef .tc main_arg9) = V (Proc.devRef .tc main_arg9) :=
  ops_keep V main_arg9 (by decide)
theorem ops_arg10 (V : Valuation τ sig (Elt F)) : after ops V (Proc.devRef .tc main_arg10) = V (Proc.devRef .tc main_arg10) :=
  ops_keep V main_arg10 (by decide)

end Cert.ReferenceIdeal.RefValue

end
-- ==== Proof.RefModel.lean ====
/-
  The reference's run in the specification's vocabulary: every weakly fair execution of the reference terminates, its
  first result is the specification's out, its second the specification's y — both as functions of the arguments' contents
  at launch, with the gather and the segment sum as this program prints them —, and every argument ends as it began.
  The run leaves every buffer at the fold of the 210 operations over the contents at launch; the two result buffers of
  that fold are read stretch by stretch, and no stretch writes an argument.
-/
import proofs.«161278_j35699768164381_1_alg».proof.Proof.RefRun
import proofs.«161278_j35699768164381_1_alg».proof.Proof.RefVals
import proofs.«161278_j35699768164381_1_alg».proof.Proof.RefArgs

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.Spec
open Cert.ReferenceIdeal.Irr (rIrr)

/-- On every device, at the ideal instance, from any memory with zero counters: the reference terminates with out and y
    the specification's, and the arguments unchanged. -/
theorem run_model (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v142) = outRes rIrr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v136) = yRes rIrr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono
    (fun r h c =>
      ⟨(h c main_v142).trans (ops_vals (launchContents m c)).1,
        (h c main_v136).trans (ops_vals (launchContents m c)).2,
        (h c main_arg0).trans (ops_arg0 (launchContents m c)),
        (h c main_arg1).trans (ops_arg1 (launchContents m c)),
        (h c main_arg2).trans (ops_arg2 (launchContents m c)),
        (h c main_arg3).trans (ops_arg3 (launchContents m c)),
        (h c main_arg4).trans (ops_arg4 (launchContents m c)),
        (h c main_arg5).trans (ops_arg5 (launchContents m c)),
        (h c main_arg6).trans (ops_arg6 (launchContents m c)),
        (h c main_arg7).trans (ops_arg7 (launchContents m c)),
        (h c main_arg8).trans (ops_arg8 (launchContents m c)),
        (h c main_arg9).trans (ops_arg9 (launchContents m c)),
        (h c main_arg10).trans (ops_arg10 (launchContents m c))⟩)
    (run_ops (F := Ideal) m ρ)

end Cert.ReferenceIdeal.RefValue

end
-- ==== Proof.IrrEq.lean ====
/-
  The row gather (after the wrap of negative indices) and the segment sum from zero are printed with the same
  operations and the same dimension numbers in the two programs: the two instances of the specification's
  parameter are one.
-/
import proofs.«161278_j35699768164381_1_alg».proof.Proof.KIrr
import proofs.«161278_j35699768164381_1_alg».proof.Proof.RIrr

noncomputable section

namespace Cert.Irr

open Idealize.ShloMosaic

/-- The gather's dimension numbers are the same record in the two programs. -/
theorem gather_rec_eq : Cert.KernelIdeal.gather_S50000x128_S800000x1_S800000x128_1_0_n_n_0_1_1128
    = Cert.ReferenceIdeal.gather_S50000x128_S800000x1_S800000x128_1_0_n_n_0_1_1128 := rfl

/-- The scatter's dimension numbers are the same record in the two programs. -/
theorem scatter_rec_eq : Cert.KernelIdeal.scatter_S50000x128_S800000x1_S800000x128_1_0_0_1
    = Cert.ReferenceIdeal.scatter_S50000x128_S800000x1_S800000x128_1_0_0_1 := rfl

/-- Both programs gather and sum the same way. -/
theorem irr_eq : Cert.KernelIdeal.Irr.kIrr = Cert.ReferenceIdeal.Irr.rIrr := by
  unfold Cert.KernelIdeal.Irr.kIrr Cert.ReferenceIdeal.Irr.rIrr
  rw [gather_rec_eq, scatter_rec_eq]

end Cert.Irr

end
-- ==== Proof.lean ====
/-
  The two programs compute the same network.

  The kernel program runs, per layer and branch, an affine kernel (a matrix product into a zero accumulator plus a bias
  row), the host's row gather at the wrapped edge indices, an edge-scaling kernel, the host's segment sum from zero and a
  rectifier kernel (with the self term from the second layer on); the reference runs the same stages as host operations.
  Read on the extended reals, a change of float format is the identity and a kernel's matrix product is the host's, so
  each stage is the same function of its inputs on both sides; the stages that differ in form agree for three small
  reasons: multiplication commutes (edge weight × row against row × edge weight), the rectifier 'a > 0 ? a : s·a' and
  'a ≥ 0 ? a : s·a' differ only at a = 0, where both are 0, and the product of a concatenation [z1 | z2] with fc1_W is the
  sum of z1 times the upper rows and z2 times the lower rows — a sum over 256 terms split in two, which needs only
  that addition is associative and commutative, as it is on the extended reals with the infinities. Column 0 of the
  product with the zero-padded fc2_W is the product with fc2_W. No step needs the inputs to be finite.

  Both runs are stated with the same specification (Proof/Spec.lean); the gather and the segment sum are the same host
  operations in the two programs (Proof/IrrEq.lean) and are never opened.
-/
import proofs.«161278_j35699768164381_1_alg».proof.Defs
import proofs.«161278_j35699768164381_1_alg».proof.Proof.Gen.Kernel
import proofs.«161278_j35699768164381_1_alg».proof.Proof.Gen.Kernel.Skeleton
import proofs.«161278_j35699768164381_1_alg».proof.Proof.Gen.Kernel.Launch
import proofs.«161278_j35699768164381_1_alg».proof.Proof.Gen.Kernel.Points
import proofs.«161278_j35699768164381_1_alg».proof.Proof.Gen.Kernel.Frame
import proofs.«161278_j35699768164381_1_alg».proof.Proof.Gen.KernelIdeal
import proofs.«161278_j35699768164381_1_alg».proof.Proof.Gen.KernelIdeal.Skeleton
import proofs.«161278_j35699768164381_1_alg».proof.Proof.Gen.KernelIdeal.Launch
import proofs.«161278_j35699768164381_1_alg».proof.Proof.Gen.KernelIdeal.Points
import proofs.«161278_j35699768164381_1_alg».proof.Proof.Gen.KernelIdeal.Frame
import proofs.«161278_j35699768164381_1_alg».proof.Proof.Gen.ReferenceIdeal
import proofs.«161278_j35699768164381_1_alg».proof.Proof.Gen.Pre_finite_inputs
import proofs.«161278_j35699768164381_1_alg».proof.Proof.KFinal
import proofs.«161278_j35699768164381_1_alg».proof.Proof.RefModel
import proofs.«161278_j35699768164381_1_alg».proof.Proof.IrrEq
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run with the two results dropped. -/
theorem frame_ri : Cert.frame_ReferenceIdeal := fun m ρ _ =>
  (θ_run Cert.ReferenceIdeal.defs _ _).mono (fun _ h c => (h c).2.2) (Cert.ReferenceIdeal.RefValue.run_model m ρ)

/-- From memories that agree on the arguments both programs end with the specification's two results. -/
theorem algebraic : Cert.algebraic_KernelIdeal_ReferenceIdeal := by
  intro m ρ m' ρ' _ hagree
  refine ⟨_, _, Cert.KernelIdeal.Fold.run_model m ρ, ?_⟩
  refine (θ_run Cert.ReferenceIdeal.defs _ _).mono (fun _ h c => ?_) (Cert.ReferenceIdeal.RefValue.run_model m' ρ')
  obtain ⟨h1, h2, hargs⟩ := h c
  obtain ⟨a0, a1, a2, a3, a4, a5, a6, a7, a8, a9, a10⟩ := hagree c
  refine ⟨h1.trans ?_, h2.trans ?_, hargs⟩
  · rw [a0, a1, a2, a3, a4, a5, a6, a7, a8, a9, a10, ← Cert.Irr.irr_eq]
  · rw [a0, a1, a2, a3, a4, a5, a6, a7, a8, ← Cert.Irr.irr_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
